-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32896 : Shape := ⟨2, ![4096, 32896]⟩
abbrev S_ : Shape := ⟨0, ![]⟩

class Facts : Prop where
  bcast_S_S4096x32896 : S_.BroadcastsInDim S4096x32896 (![] : Fin 0 → Fin S4096x32896.rank)
  reducesTo_S4096x32896_S_d0_1 : S4096x32896.ReducesTo [0, 1] S_
  h_S_ : 0 < S_.numel

variable [Facts]

def fn {F : FTy → Type} [FloatOps F] (main_arg0 : FVec F S4096x32896 .f32) : IVec S_ 1 :=
  let main_v0 : FVec F S4096x32896 .f32 := Host.absf main_arg0
  let main_cst : FVec F S_ .f32 := constant S_ .f32 0x7F800000#32
  let main_v1 : FVec F S4096x32896 .f32 := broadcastInDim S4096x32896 ![] bcast_S_S4096x32896 main_cst
  let main_v2 : IVec S4096x32896 1 := cmpf .olt main_v0 main_v1
  let main_c : IVec S_ 1 := constantI S_ 1 1#1
  let main_v3 : IVec S_ 1 := (fun x v => Host.reduce IntOp.andi x v reducesTo_S4096x32896_S_d0_1 h_S_) main_v2 main_c
  main_v3
-- ==== Kernel.lean ====
abbrev S4096x32896 : Shape := ⟨2, ![4096, 32896]⟩
abbrev S4096x256x256 : Shape := ⟨3, ![4096, 256, 256]⟩
abbrev S16x32896 : Shape := ⟨2, ![16, 32896]⟩
abbrev S16x256x256 : Shape := ⟨3, ![16, 256, 256]⟩
abbrev S16x256 : Shape := ⟨2, ![16, 256]⟩
abbrev S16x1x256 : Shape := ⟨3, ![16, 1, 256]⟩
abbrev S16x255 : Shape := ⟨2, ![16, 255]⟩
abbrev S16x1x255 : Shape := ⟨3, ![16, 1, 255]⟩
abbrev S16x254 : Shape := ⟨2, ![16, 254]⟩
abbrev S16x1x254 : Shape := ⟨3, ![16, 1, 254]⟩
abbrev S16x253 : Shape := ⟨2, ![16, 253]⟩
abbrev S16x1x253 : Shape := ⟨3, ![16, 1, 253]⟩
abbrev S16x252 : Shape := ⟨2, ![16, 252]⟩
abbrev S16x1x252 : Shape := ⟨3, ![16, 1, 252]⟩
abbrev S16x251 : Shape := ⟨2, ![16, 251]⟩
abbrev S16x1x251 : Shape := ⟨3, ![16, 1, 251]⟩
abbrev S16x250 : Shape := ⟨2, ![16, 250]⟩
abbrev S16x1x250 : Shape := ⟨3, ![16, 1, 250]⟩
abbrev S16x249 : Shape := ⟨2, ![16, 249]⟩
abbrev S16x1x249 : Shape := ⟨3, ![16, 1, 249]⟩
abbrev S16x248 : Shape := ⟨2, ![16, 248]⟩
abbrev S16x1x248 : Shape := ⟨3, ![16, 1, 248]⟩
abbrev S16x247 : Shape := ⟨2, ![16, 247]⟩
abbrev S16x1x247 : Shape := ⟨3, ![16, 1, 247]⟩
abbrev S16x246 : Shape := ⟨2, ![16, 246]⟩
abbrev S16x1x246 : Shape := ⟨3, ![16, 1, 246]⟩
abbrev S16x245 : Shape := ⟨2, ![16, 245]⟩
abbrev S16x1x245 : Shape := ⟨3, ![16, 1, 245]⟩
abbrev S16x244 : Shape := ⟨2, ![16, 244]⟩
abbrev S16x1x244 : Shape := ⟨3, ![16, 1, 244]⟩
abbrev S16x243 : Shape := ⟨2, ![16, 243]⟩
abbrev S16x1x243 : Shape := ⟨3, ![16, 1, 243]⟩
abbrev S16x242 : Shape := ⟨2, ![16, 242]⟩
abbrev S16x1x242 : Shape := ⟨3, ![16, 1, 242]⟩
abbrev S16x241 : Shape := ⟨2, ![16, 241]⟩
abbrev S16x1x241 : Shape := ⟨3, ![16, 1, 241]⟩
abbrev S16x240 : Shape := ⟨2, ![16, 240]⟩
abbrev S16x1x240 : Shape := ⟨3, ![16, 1, 240]⟩
abbrev S16x239 : Shape := ⟨2, ![16, 239]⟩
abbrev S16x1x239 : Shape := ⟨3, ![16, 1, 239]⟩
abbrev S16x238 : Shape := ⟨2, ![16, 238]⟩
abbrev S16x1x238 : Shape := ⟨3, ![16, 1, 238]⟩
abbrev S16x237 : Shape := ⟨2, ![16, 237]⟩
abbrev S16x1x237 : Shape := ⟨3, ![16, 1, 237]⟩
abbrev S16x236 : Shape := ⟨2, ![16, 236]⟩
abbrev S16x1x236 : Shape := ⟨3, ![16, 1, 236]⟩
abbrev S16x235 : Shape := ⟨2, ![16, 235]⟩
abbrev S16x1x235 : Shape := ⟨3, ![16, 1, 235]⟩
abbrev S16x234 : Shape := ⟨2, ![16, 234]⟩
abbrev S16x1x234 : Shape := ⟨3, ![16, 1, 234]⟩
abbrev S16x233 : Shape := ⟨2, ![16, 233]⟩
abbrev S16x1x233 : Shape := ⟨3, ![16, 1, 233]⟩
abbrev S16x232 : Shape := ⟨2, ![16, 232]⟩
abbrev S16x1x232 : Shape := ⟨3, ![16, 1, 232]⟩
abbrev S16x231 : Shape := ⟨2, ![16, 231]⟩
abbrev S16x1x231 : Shape := ⟨3, ![16, 1, 231]⟩
abbrev S16x230 : Shape := ⟨2, ![16, 230]⟩
abbrev S16x1x230 : Shape := ⟨3, ![16, 1, 230]⟩
abbrev S16x229 : Shape := ⟨2, ![16, 229]⟩
abbrev S16x1x229 : Shape := ⟨3, ![16, 1, 229]⟩
abbrev S16x228 : Shape := ⟨2, ![16, 228]⟩
abbrev S16x1x228 : Shape := ⟨3, ![16, 1, 228]⟩
abbrev S16x227 : Shape := ⟨2, ![16, 227]⟩
abbrev S16x1x227 : Shape := ⟨3, ![16, 1, 227]⟩
abbrev S16x226 : Shape := ⟨2, ![16, 226]⟩
abbrev S16x1x226 : Shape := ⟨3, ![16, 1, 226]⟩
abbrev S16x225 : Shape := ⟨2, ![16, 225]⟩
abbrev S16x1x225 : Shape := ⟨3, ![16, 1, 225]⟩
abbrev S16x224 : Shape := ⟨2, ![16, 224]⟩
abbrev S16x1x224 : Shape := ⟨3, ![16, 1, 224]⟩
abbrev S16x223 : Shape := ⟨2, ![16, 223]⟩
abbrev S16x1x223 : Shape := ⟨3, ![16, 1, 223]⟩
abbrev S16x222 : Shape := ⟨2, ![16, 222]⟩
abbrev S16x1x222 : Shape := ⟨3, ![16, 1, 222]⟩
abbrev S16x221 : Shape := ⟨2, ![16, 221]⟩
abbrev S16x1x221 : Shape := ⟨3, ![16, 1, 221]⟩
abbrev S16x220 : Shape := ⟨2, ![16, 220]⟩
abbrev S16x1x220 : Shape := ⟨3, ![16, 1, 220]⟩
abbrev S16x219 : Shape := ⟨2, ![16, 219]⟩
abbrev S16x1x219 : Shape := ⟨3, ![16, 1, 219]⟩
abbrev S16x218 : Shape := ⟨2, ![16, 218]⟩
abbrev S16x1x218 : Shape := ⟨3, ![16, 1, 218]⟩
abbrev S16x217 : Shape := ⟨2, ![16, 217]⟩
abbrev S16x1x217 : Shape := ⟨3, ![16, 1, 217]⟩
abbrev S16x216 : Shape := ⟨2, ![16, 216]⟩
abbrev S16x1x216 : Shape := ⟨3, ![16, 1, 216]⟩
abbrev S16x215 : Shape := ⟨2, ![16, 215]⟩
abbrev S16x1x215 : Shape := ⟨3, ![16, 1, 215]⟩
abbrev S16x214 : Shape := ⟨2, ![16, 214]⟩
abbrev S16x1x214 : Shape := ⟨3, ![16, 1, 214]⟩
abbrev S16x213 : Shape := ⟨2, ![16, 213]⟩
abbrev S16x1x213 : Shape := ⟨3, ![16, 1, 213]⟩
abbrev S16x212 : Shape := ⟨2, ![16, 212]⟩
abbrev S16x1x212 : Shape := ⟨3, ![16, 1, 212]⟩
abbrev S16x211 : Shape := ⟨2, ![16, 211]⟩
abbrev S16x1x211 : Shape := ⟨3, ![16, 1, 211]⟩
abbrev S16x210 : Shape := ⟨2, ![16, 210]⟩
abbrev S16x1x210 : Shape := ⟨3, ![16, 1, 210]⟩
abbrev S16x209 : Shape := ⟨2, ![16, 209]⟩
abbrev S16x1x209 : Shape := ⟨3, ![16, 1, 209]⟩
abbrev S16x208 : Shape := ⟨2, ![16, 208]⟩
abbrev S16x1x208 : Shape := ⟨3, ![16, 1, 208]⟩
abbrev S16x207 : Shape := ⟨2, ![16, 207]⟩
abbrev S16x1x207 : Shape := ⟨3, ![16, 1, 207]⟩
abbrev S16x206 : Shape := ⟨2, ![16, 206]⟩
abbrev S16x1x206 : Shape := ⟨3, ![16, 1, 206]⟩
abbrev S16x205 : Shape := ⟨2, ![16, 205]⟩
abbrev S16x1x205 : Shape := ⟨3, ![16, 1, 205]⟩
abbrev S16x204 : Shape := ⟨2, ![16, 204]⟩
abbrev S16x1x204 : Shape := ⟨3, ![16, 1, 204]⟩
abbrev S16x203 : Shape := ⟨2, ![16, 203]⟩
abbrev S16x1x203 : Shape := ⟨3, ![16, 1, 203]⟩
abbrev S16x202 : Shape := ⟨2, ![16, 202]⟩
abbrev S16x1x202 : Shape := ⟨3, ![16, 1, 202]⟩
abbrev S16x201 : Shape := ⟨2, ![16, 201]⟩
abbrev S16x1x201 : Shape := ⟨3, ![16, 1, 201]⟩
abbrev S16x200 : Shape := ⟨2, ![16, 200]⟩
abbrev S16x1x200 : Shape := ⟨3, ![16, 1, 200]⟩
abbrev S16x199 : Shape := ⟨2, ![16, 199]⟩
abbrev S16x1x199 : Shape := ⟨3, ![16, 1, 199]⟩
abbrev S16x198 : Shape := ⟨2, ![16, 198]⟩
abbrev S16x1x198 : Shape := ⟨3, ![16, 1, 198]⟩
abbrev S16x197 : Shape := ⟨2, ![16, 197]⟩
abbrev S16x1x197 : Shape := ⟨3, ![16, 1, 197]⟩
abbrev S16x196 : Shape := ⟨2, ![16, 196]⟩
abbrev S16x1x196 : Shape := ⟨3, ![16, 1, 196]⟩
abbrev S16x195 : Shape := ⟨2, ![16, 195]⟩
abbrev S16x1x195 : Shape := ⟨3, ![16, 1, 195]⟩
abbrev S16x194 : Shape := ⟨2, ![16, 194]⟩
abbrev S16x1x194 : Shape := ⟨3, ![16, 1, 194]⟩
abbrev S16x193 : Shape := ⟨2, ![16, 193]⟩
abbrev S16x1x193 : Shape := ⟨3, ![16, 1, 193]⟩
abbrev S16x192 : Shape := ⟨2, ![16, 192]⟩
abbrev S16x1x192 : Shape := ⟨3, ![16, 1, 192]⟩
abbrev S16x191 : Shape := ⟨2, ![16, 191]⟩
abbrev S16x1x191 : Shape := ⟨3, ![16, 1, 191]⟩
abbrev S16x190 : Shape := ⟨2, ![16, 190]⟩
abbrev S16x1x190 : Shape := ⟨3, ![16, 1, 190]⟩
abbrev S16x189 : Shape := ⟨2, ![16, 189]⟩
abbrev S16x1x189 : Shape := ⟨3, ![16, 1, 189]⟩
abbrev S16x188 : Shape := ⟨2, ![16, 188]⟩
abbrev S16x1x188 : Shape := ⟨3, ![16, 1, 188]⟩
abbrev S16x187 : Shape := ⟨2, ![16, 187]⟩
abbrev S16x1x187 : Shape := ⟨3, ![16, 1, 187]⟩
abbrev S16x186 : Shape := ⟨2, ![16, 186]⟩
abbrev S16x1x186 : Shape := ⟨3, ![16, 1, 186]⟩
abbrev S16x185 : Shape := ⟨2, ![16, 185]⟩
abbrev S16x1x185 : Shape := ⟨3, ![16, 1, 185]⟩
abbrev S16x184 : Shape := ⟨2, ![16, 184]⟩
abbrev S16x1x184 : Shape := ⟨3, ![16, 1, 184]⟩
abbrev S16x183 : Shape := ⟨2, ![16, 183]⟩
abbrev S16x1x183 : Shape := ⟨3, ![16, 1, 183]⟩
abbrev S16x182 : Shape := ⟨2, ![16, 182]⟩
abbrev S16x1x182 : Shape := ⟨3, ![16, 1, 182]⟩
abbrev S16x181 : Shape := ⟨2, ![16, 181]⟩
abbrev S16x1x181 : Shape := ⟨3, ![16, 1, 181]⟩
abbrev S16x180 : Shape := ⟨2, ![16, 180]⟩
abbrev S16x1x180 : Shape := ⟨3, ![16, 1, 180]⟩
abbrev S16x179 : Shape := ⟨2, ![16, 179]⟩
abbrev S16x1x179 : Shape := ⟨3, ![16, 1, 179]⟩
abbrev S16x178 : Shape := ⟨2, ![16, 178]⟩
abbrev S16x1x178 : Shape := ⟨3, ![16, 1, 178]⟩
abbrev S16x177 : Shape := ⟨2, ![16, 177]⟩
abbrev S16x1x177 : Shape := ⟨3, ![16, 1, 177]⟩
abbrev S16x176 : Shape := ⟨2, ![16, 176]⟩
abbrev S16x1x176 : Shape := ⟨3, ![16, 1, 176]⟩
abbrev S16x175 : Shape := ⟨2, ![16, 175]⟩
abbrev S16x1x175 : Shape := ⟨3, ![16, 1, 175]⟩
abbrev S16x174 : Shape := ⟨2, ![16, 174]⟩
abbrev S16x1x174 : Shape := ⟨3, ![16, 1, 174]⟩
abbrev S16x173 : Shape := ⟨2, ![16, 173]⟩
abbrev S16x1x173 : Shape := ⟨3, ![16, 1, 173]⟩
abbrev S16x172 : Shape := ⟨2, ![16, 172]⟩
abbrev S16x1x172 : Shape := ⟨3, ![16, 1, 172]⟩
abbrev S16x171 : Shape := ⟨2, ![16, 171]⟩
abbrev S16x1x171 : Shape := ⟨3, ![16, 1, 171]⟩
abbrev S16x170 : Shape := ⟨2, ![16, 170]⟩
abbrev S16x1x170 : Shape := ⟨3, ![16, 1, 170]⟩
abbrev S16x169 : Shape := ⟨2, ![16, 169]⟩
abbrev S16x1x169 : Shape := ⟨3, ![16, 1, 169]⟩
abbrev S16x168 : Shape := ⟨2, ![16, 168]⟩
abbrev S16x1x168 : Shape := ⟨3, ![16, 1, 168]⟩
abbrev S16x167 : Shape := ⟨2, ![16, 167]⟩
abbrev S16x1x167 : Shape := ⟨3, ![16, 1, 167]⟩
abbrev S16x166 : Shape := ⟨2, ![16, 166]⟩
abbrev S16x1x166 : Shape := ⟨3, ![16, 1, 166]⟩
abbrev S16x165 : Shape := ⟨2, ![16, 165]⟩
abbrev S16x1x165 : Shape := ⟨3, ![16, 1, 165]⟩
abbrev S16x164 : Shape := ⟨2, ![16, 164]⟩
abbrev S16x1x164 : Shape := ⟨3, ![16, 1, 164]⟩
abbrev S16x163 : Shape := ⟨2, ![16, 163]⟩
abbrev S16x1x163 : Shape := ⟨3, ![16, 1, 163]⟩
abbrev S16x162 : Shape := ⟨2, ![16, 162]⟩
abbrev S16x1x162 : Shape := ⟨3, ![16, 1, 162]⟩
abbrev S16x161 : Shape := ⟨2, ![16, 161]⟩
abbrev S16x1x161 : Shape := ⟨3, ![16, 1, 161]⟩
abbrev S16x160 : Shape := ⟨2, ![16, 160]⟩
abbrev S16x1x160 : Shape := ⟨3, ![16, 1, 160]⟩
abbrev S16x159 : Shape := ⟨2, ![16, 159]⟩
abbrev S16x1x159 : Shape := ⟨3, ![16, 1, 159]⟩
abbrev S16x158 : Shape := ⟨2, ![16, 158]⟩
abbrev S16x1x158 : Shape := ⟨3, ![16, 1, 158]⟩
abbrev S16x157 : Shape := ⟨2, ![16, 157]⟩
abbrev S16x1x157 : Shape := ⟨3, ![16, 1, 157]⟩
abbrev S16x156 : Shape := ⟨2, ![16, 156]⟩
abbrev S16x1x156 : Shape := ⟨3, ![16, 1, 156]⟩
abbrev S16x155 : Shape := ⟨2, ![16, 155]⟩
abbrev S16x1x155 : Shape := ⟨3, ![16, 1, 155]⟩
abbrev S16x154 : Shape := ⟨2, ![16, 154]⟩
abbrev S16x1x154 : Shape := ⟨3, ![16, 1, 154]⟩
abbrev S16x153 : Shape := ⟨2, ![16, 153]⟩
abbrev S16x1x153 : Shape := ⟨3, ![16, 1, 153]⟩
abbrev S16x152 : Shape := ⟨2, ![16, 152]⟩
abbrev S16x1x152 : Shape := ⟨3, ![16, 1, 152]⟩
abbrev S16x151 : Shape := ⟨2, ![16, 151]⟩
abbrev S16x1x151 : Shape := ⟨3, ![16, 1, 151]⟩
abbrev S16x150 : Shape := ⟨2, ![16, 150]⟩
abbrev S16x1x150 : Shape := ⟨3, ![16, 1, 150]⟩
abbrev S16x149 : Shape := ⟨2, ![16, 149]⟩
abbrev S16x1x149 : Shape := ⟨3, ![16, 1, 149]⟩
abbrev S16x148 : Shape := ⟨2, ![16, 148]⟩
abbrev S16x1x148 : Shape := ⟨3, ![16, 1, 148]⟩
abbrev S16x147 : Shape := ⟨2, ![16, 147]⟩
abbrev S16x1x147 : Shape := ⟨3, ![16, 1, 147]⟩
abbrev S16x146 : Shape := ⟨2, ![16, 146]⟩
abbrev S16x1x146 : Shape := ⟨3, ![16, 1, 146]⟩
abbrev S16x145 : Shape := ⟨2, ![16, 145]⟩
abbrev S16x1x145 : Shape := ⟨3, ![16, 1, 145]⟩
abbrev S16x144 : Shape := ⟨2, ![16, 144]⟩
abbrev S16x1x144 : Shape := ⟨3, ![16, 1, 144]⟩
abbrev S16x143 : Shape := ⟨2, ![16, 143]⟩
abbrev S16x1x143 : Shape := ⟨3, ![16, 1, 143]⟩
abbrev S16x142 : Shape := ⟨2, ![16, 142]⟩
abbrev S16x1x142 : Shape := ⟨3, ![16, 1, 142]⟩
abbrev S16x141 : Shape := ⟨2, ![16, 141]⟩
abbrev S16x1x141 : Shape := ⟨3, ![16, 1, 141]⟩
abbrev S16x140 : Shape := ⟨2, ![16, 140]⟩
abbrev S16x1x140 : Shape := ⟨3, ![16, 1, 140]⟩
abbrev S16x139 : Shape := ⟨2, ![16, 139]⟩
abbrev S16x1x139 : Shape := ⟨3, ![16, 1, 139]⟩
abbrev S16x138 : Shape := ⟨2, ![16, 138]⟩
abbrev S16x1x138 : Shape := ⟨3, ![16, 1, 138]⟩
abbrev S16x137 : Shape := ⟨2, ![16, 137]⟩
abbrev S16x1x137 : Shape := ⟨3, ![16, 1, 137]⟩
abbrev S16x136 : Shape := ⟨2, ![16, 136]⟩
abbrev S16x1x136 : Shape := ⟨3, ![16, 1, 136]⟩
abbrev S16x135 : Shape := ⟨2, ![16, 135]⟩
abbrev S16x1x135 : Shape := ⟨3, ![16, 1, 135]⟩
abbrev S16x134 : Shape := ⟨2, ![16, 134]⟩
abbrev S16x1x134 : Shape := ⟨3, ![16, 1, 134]⟩
abbrev S16x133 : Shape := ⟨2, ![16, 133]⟩
abbrev S16x1x133 : Shape := ⟨3, ![16, 1, 133]⟩
abbrev S16x132 : Shape := ⟨2, ![16, 132]⟩
abbrev S16x1x132 : Shape := ⟨3, ![16, 1, 132]⟩
abbrev S16x131 : Shape := ⟨2, ![16, 131]⟩
abbrev S16x1x131 : Shape := ⟨3, ![16, 1, 131]⟩
abbrev S16x130 : Shape := ⟨2, ![16, 130]⟩
abbrev S16x1x130 : Shape := ⟨3, ![16, 1, 130]⟩
abbrev S16x129 : Shape := ⟨2, ![16, 129]⟩
abbrev S16x1x129 : Shape := ⟨3, ![16, 1, 129]⟩
abbrev S16x128 : Shape := ⟨2, ![16, 128]⟩
abbrev S16x1x128 : Shape := ⟨3, ![16, 1, 128]⟩
abbrev S16x127 : Shape := ⟨2, ![16, 127]⟩
abbrev S16x1x127 : Shape := ⟨3, ![16, 1, 127]⟩
abbrev S16x126 : Shape := ⟨2, ![16, 126]⟩
abbrev S16x1x126 : Shape := ⟨3, ![16, 1, 126]⟩
abbrev S16x125 : Shape := ⟨2, ![16, 125]⟩
abbrev S16x1x125 : Shape := ⟨3, ![16, 1, 125]⟩
abbrev S16x124 : Shape := ⟨2, ![16, 124]⟩
abbrev S16x1x124 : Shape := ⟨3, ![16, 1, 124]⟩
abbrev S16x123 : Shape := ⟨2, ![16, 123]⟩
abbrev S16x1x123 : Shape := ⟨3, ![16, 1, 123]⟩
abbrev S16x122 : Shape := ⟨2, ![16, 122]⟩
abbrev S16x1x122 : Shape := ⟨3, ![16, 1, 122]⟩
abbrev S16x121 : Shape := ⟨2, ![16, 121]⟩
abbrev S16x1x121 : Shape := ⟨3, ![16, 1, 121]⟩
abbrev S16x120 : Shape := ⟨2, ![16, 120]⟩
abbrev S16x1x120 : Shape := ⟨3, ![16, 1, 120]⟩
abbrev S16x119 : Shape := ⟨2, ![16, 119]⟩
abbrev S16x1x119 : Shape := ⟨3, ![16, 1, 119]⟩
abbrev S16x118 : Shape := ⟨2, ![16, 118]⟩
abbrev S16x1x118 : Shape := ⟨3, ![16, 1, 118]⟩
abbrev S16x117 : Shape := ⟨2, ![16, 117]⟩
abbrev S16x1x117 : Shape := ⟨3, ![16, 1, 117]⟩
abbrev S16x116 : Shape := ⟨2, ![16, 116]⟩
abbrev S16x1x116 : Shape := ⟨3, ![16, 1, 116]⟩
abbrev S16x115 : Shape := ⟨2, ![16, 115]⟩
abbrev S16x1x115 : Shape := ⟨3, ![16, 1, 115]⟩
abbrev S16x114 : Shape := ⟨2, ![16, 114]⟩
abbrev S16x1x114 : Shape := ⟨3, ![16, 1, 114]⟩
abbrev S16x113 : Shape := ⟨2, ![16, 113]⟩
abbrev S16x1x113 : Shape := ⟨3, ![16, 1, 113]⟩
abbrev S16x112 : Shape := ⟨2, ![16, 112]⟩
abbrev S16x1x112 : Shape := ⟨3, ![16, 1, 112]⟩
abbrev S16x111 : Shape := ⟨2, ![16, 111]⟩
abbrev S16x1x111 : Shape := ⟨3, ![16, 1, 111]⟩
abbrev S16x110 : Shape := ⟨2, ![16, 110]⟩
abbrev S16x1x110 : Shape := ⟨3, ![16, 1, 110]⟩
abbrev S16x109 : Shape := ⟨2, ![16, 109]⟩
abbrev S16x1x109 : Shape := ⟨3, ![16, 1, 109]⟩
abbrev S16x108 : Shape := ⟨2, ![16, 108]⟩
abbrev S16x1x108 : Shape := ⟨3, ![16, 1, 108]⟩
abbrev S16x107 : Shape := ⟨2, ![16, 107]⟩
abbrev S16x1x107 : Shape := ⟨3, ![16, 1, 107]⟩
abbrev S16x106 : Shape := ⟨2, ![16, 106]⟩
abbrev S16x1x106 : Shape := ⟨3, ![16, 1, 106]⟩
abbrev S16x105 : Shape := ⟨2, ![16, 105]⟩
abbrev S16x1x105 : Shape := ⟨3, ![16, 1, 105]⟩
abbrev S16x104 : Shape := ⟨2, ![16, 104]⟩
abbrev S16x1x104 : Shape := ⟨3, ![16, 1, 104]⟩
abbrev S16x103 : Shape := ⟨2, ![16, 103]⟩
abbrev S16x1x103 : Shape := ⟨3, ![16, 1, 103]⟩
abbrev S16x102 : Shape := ⟨2, ![16, 102]⟩
abbrev S16x1x102 : Shape := ⟨3, ![16, 1, 102]⟩
abbrev S16x101 : Shape := ⟨2, ![16, 101]⟩
abbrev S16x1x101 : Shape := ⟨3, ![16, 1, 101]⟩
abbrev S16x100 : Shape := ⟨2, ![16, 100]⟩
abbrev S16x1x100 : Shape := ⟨3, ![16, 1, 100]⟩
abbrev S16x99 : Shape := ⟨2, ![16, 99]⟩
abbrev S16x1x99 : Shape := ⟨3, ![16, 1, 99]⟩
abbrev S16x98 : Shape := ⟨2, ![16, 98]⟩
abbrev S16x1x98 : Shape := ⟨3, ![16, 1, 98]⟩
abbrev S16x97 : Shape := ⟨2, ![16, 97]⟩
abbrev S16x1x97 : Shape := ⟨3, ![16, 1, 97]⟩
abbrev S16x96 : Shape := ⟨2, ![16, 96]⟩
abbrev S16x1x96 : Shape := ⟨3, ![16, 1, 96]⟩
abbrev S16x95 : Shape := ⟨2, ![16, 95]⟩
abbrev S16x1x95 : Shape := ⟨3, ![16, 1, 95]⟩
abbrev S16x94 : Shape := ⟨2, ![16, 94]⟩
abbrev S16x1x94 : Shape := ⟨3, ![16, 1, 94]⟩
abbrev S16x93 : Shape := ⟨2, ![16, 93]⟩
abbrev S16x1x93 : Shape := ⟨3, ![16, 1, 93]⟩
abbrev S16x92 : Shape := ⟨2, ![16, 92]⟩
abbrev S16x1x92 : Shape := ⟨3, ![16, 1, 92]⟩
abbrev S16x91 : Shape := ⟨2, ![16, 91]⟩
abbrev S16x1x91 : Shape := ⟨3, ![16, 1, 91]⟩
abbrev S16x90 : Shape := ⟨2, ![16, 90]⟩
abbrev S16x1x90 : Shape := ⟨3, ![16, 1, 90]⟩
abbrev S16x89 : Shape := ⟨2, ![16, 89]⟩
abbrev S16x1x89 : Shape := ⟨3, ![16, 1, 89]⟩
abbrev S16x88 : Shape := ⟨2, ![16, 88]⟩
abbrev S16x1x88 : Shape := ⟨3, ![16, 1, 88]⟩
abbrev S16x87 : Shape := ⟨2, ![16, 87]⟩
abbrev S16x1x87 : Shape := ⟨3, ![16, 1, 87]⟩
abbrev S16x86 : Shape := ⟨2, ![16, 86]⟩
abbrev S16x1x86 : Shape := ⟨3, ![16, 1, 86]⟩
abbrev S16x85 : Shape := ⟨2, ![16, 85]⟩
abbrev S16x1x85 : Shape := ⟨3, ![16, 1, 85]⟩
abbrev S16x84 : Shape := ⟨2, ![16, 84]⟩
abbrev S16x1x84 : Shape := ⟨3, ![16, 1, 84]⟩
abbrev S16x83 : Shape := ⟨2, ![16, 83]⟩
abbrev S16x1x83 : Shape := ⟨3, ![16, 1, 83]⟩
abbrev S16x82 : Shape := ⟨2, ![16, 82]⟩
abbrev S16x1x82 : Shape := ⟨3, ![16, 1, 82]⟩
abbrev S16x81 : Shape := ⟨2, ![16, 81]⟩
abbrev S16x1x81 : Shape := ⟨3, ![16, 1, 81]⟩
abbrev S16x80 : Shape := ⟨2, ![16, 80]⟩
abbrev S16x1x80 : Shape := ⟨3, ![16, 1, 80]⟩
abbrev S16x79 : Shape := ⟨2, ![16, 79]⟩
abbrev S16x1x79 : Shape := ⟨3, ![16, 1, 79]⟩
abbrev S16x78 : Shape := ⟨2, ![16, 78]⟩
abbrev S16x1x78 : Shape := ⟨3, ![16, 1, 78]⟩
abbrev S16x77 : Shape := ⟨2, ![16, 77]⟩
abbrev S16x1x77 : Shape := ⟨3, ![16, 1, 77]⟩
abbrev S16x76 : Shape := ⟨2, ![16, 76]⟩
abbrev S16x1x76 : Shape := ⟨3, ![16, 1, 76]⟩
abbrev S16x75 : Shape := ⟨2, ![16, 75]⟩
abbrev S16x1x75 : Shape := ⟨3, ![16, 1, 75]⟩
abbrev S16x74 : Shape := ⟨2, ![16, 74]⟩
abbrev S16x1x74 : Shape := ⟨3, ![16, 1, 74]⟩
abbrev S16x73 : Shape := ⟨2, ![16, 73]⟩
abbrev S16x1x73 : Shape := ⟨3, ![16, 1, 73]⟩
abbrev S16x72 : Shape := ⟨2, ![16, 72]⟩
abbrev S16x1x72 : Shape := ⟨3, ![16, 1, 72]⟩
abbrev S16x71 : Shape := ⟨2, ![16, 71]⟩
abbrev S16x1x71 : Shape := ⟨3, ![16, 1, 71]⟩
abbrev S16x70 : Shape := ⟨2, ![16, 70]⟩
abbrev S16x1x70 : Shape := ⟨3, ![16, 1, 70]⟩
abbrev S16x69 : Shape := ⟨2, ![16, 69]⟩
abbrev S16x1x69 : Shape := ⟨3, ![16, 1, 69]⟩
abbrev S16x68 : Shape := ⟨2, ![16, 68]⟩
abbrev S16x1x68 : Shape := ⟨3, ![16, 1, 68]⟩
abbrev S16x67 : Shape := ⟨2, ![16, 67]⟩
abbrev S16x1x67 : Shape := ⟨3, ![16, 1, 67]⟩
abbrev S16x66 : Shape := ⟨2, ![16, 66]⟩
abbrev S16x1x66 : Shape := ⟨3, ![16, 1, 66]⟩
abbrev S16x65 : Shape := ⟨2, ![16, 65]⟩
abbrev S16x1x65 : Shape := ⟨3, ![16, 1, 65]⟩
abbrev S16x64 : Shape := ⟨2, ![16, 64]⟩
abbrev S16x1x64 : Shape := ⟨3, ![16, 1, 64]⟩
abbrev S16x63 : Shape := ⟨2, ![16, 63]⟩
abbrev S16x1x63 : Shape := ⟨3, ![16, 1, 63]⟩
abbrev S16x62 : Shape := ⟨2, ![16, 62]⟩
abbrev S16x1x62 : Shape := ⟨3, ![16, 1, 62]⟩
abbrev S16x61 : Shape := ⟨2, ![16, 61]⟩
abbrev S16x1x61 : Shape := ⟨3, ![16, 1, 61]⟩
abbrev S16x60 : Shape := ⟨2, ![16, 60]⟩
abbrev S16x1x60 : Shape := ⟨3, ![16, 1, 60]⟩
abbrev S16x59 : Shape := ⟨2, ![16, 59]⟩
abbrev S16x1x59 : Shape := ⟨3, ![16, 1, 59]⟩
abbrev S16x58 : Shape := ⟨2, ![16, 58]⟩
abbrev S16x1x58 : Shape := ⟨3, ![16, 1, 58]⟩
abbrev S16x57 : Shape := ⟨2, ![16, 57]⟩
abbrev S16x1x57 : Shape := ⟨3, ![16, 1, 57]⟩
abbrev S16x56 : Shape := ⟨2, ![16, 56]⟩
abbrev S16x1x56 : Shape := ⟨3, ![16, 1, 56]⟩
abbrev S16x55 : Shape := ⟨2, ![16, 55]⟩
abbrev S16x1x55 : Shape := ⟨3, ![16, 1, 55]⟩
abbrev S16x54 : Shape := ⟨2, ![16, 54]⟩
abbrev S16x1x54 : Shape := ⟨3, ![16, 1, 54]⟩
abbrev S16x53 : Shape := ⟨2, ![16, 53]⟩
abbrev S16x1x53 : Shape := ⟨3, ![16, 1, 53]⟩
abbrev S16x52 : Shape := ⟨2, ![16, 52]⟩
abbrev S16x1x52 : Shape := ⟨3, ![16, 1, 52]⟩
abbrev S16x51 : Shape := ⟨2, ![16, 51]⟩
abbrev S16x1x51 : Shape := ⟨3, ![16, 1, 51]⟩
abbrev S16x50 : Shape := ⟨2, ![16, 50]⟩
abbrev S16x1x50 : Shape := ⟨3, ![16, 1, 50]⟩
abbrev S16x49 : Shape := ⟨2, ![16, 49]⟩
abbrev S16x1x49 : Shape := ⟨3, ![16, 1, 49]⟩
abbrev S16x48 : Shape := ⟨2, ![16, 48]⟩
abbrev S16x1x48 : Shape := ⟨3, ![16, 1, 48]⟩
abbrev S16x47 : Shape := ⟨2, ![16, 47]⟩
abbrev S16x1x47 : Shape := ⟨3, ![16, 1, 47]⟩
abbrev S16x46 : Shape := ⟨2, ![16, 46]⟩
abbrev S16x1x46 : Shape := ⟨3, ![16, 1, 46]⟩
abbrev S16x45 : Shape := ⟨2, ![16, 45]⟩
abbrev S16x1x45 : Shape := ⟨3, ![16, 1, 45]⟩
abbrev S16x44 : Shape := ⟨2, ![16, 44]⟩
abbrev S16x1x44 : Shape := ⟨3, ![16, 1, 44]⟩
abbrev S16x43 : Shape := ⟨2, ![16, 43]⟩
abbrev S16x1x43 : Shape := ⟨3, ![16, 1, 43]⟩
abbrev S16x42 : Shape := ⟨2, ![16, 42]⟩
abbrev S16x1x42 : Shape := ⟨3, ![16, 1, 42]⟩
abbrev S16x41 : Shape := ⟨2, ![16, 41]⟩
abbrev S16x1x41 : Shape := ⟨3, ![16, 1, 41]⟩
abbrev S16x40 : Shape := ⟨2, ![16, 40]⟩
abbrev S16x1x40 : Shape := ⟨3, ![16, 1, 40]⟩
abbrev S16x39 : Shape := ⟨2, ![16, 39]⟩
abbrev S16x1x39 : Shape := ⟨3, ![16, 1, 39]⟩
abbrev S16x38 : Shape := ⟨2, ![16, 38]⟩
abbrev S16x1x38 : Shape := ⟨3, ![16, 1, 38]⟩
abbrev S16x37 : Shape := ⟨2, ![16, 37]⟩
abbrev S16x1x37 : Shape := ⟨3, ![16, 1, 37]⟩
abbrev S16x36 : Shape := ⟨2, ![16, 36]⟩
abbrev S16x1x36 : Shape := ⟨3, ![16, 1, 36]⟩
abbrev S16x35 : Shape := ⟨2, ![16, 35]⟩
abbrev S16x1x35 : Shape := ⟨3, ![16, 1, 35]⟩
abbrev S16x34 : Shape := ⟨2, ![16, 34]⟩
abbrev S16x1x34 : Shape := ⟨3, ![16, 1, 34]⟩
abbrev S16x33 : Shape := ⟨2, ![16, 33]⟩
abbrev S16x1x33 : Shape := ⟨3, ![16, 1, 33]⟩
abbrev S16x32 : Shape := ⟨2, ![16, 32]⟩
abbrev S16x1x32 : Shape := ⟨3, ![16, 1, 32]⟩
abbrev S16x31 : Shape := ⟨2, ![16, 31]⟩
abbrev S16x1x31 : Shape := ⟨3, ![16, 1, 31]⟩
abbrev S16x30 : Shape := ⟨2, ![16, 30]⟩
abbrev S16x1x30 : Shape := ⟨3, ![16, 1, 30]⟩
abbrev S16x29 : Shape := ⟨2, ![16, 29]⟩
abbrev S16x1x29 : Shape := ⟨3, ![16, 1, 29]⟩
abbrev S16x28 : Shape := ⟨2, ![16, 28]⟩
abbrev S16x1x28 : Shape := ⟨3, ![16, 1, 28]⟩
abbrev S16x27 : Shape := ⟨2, ![16, 27]⟩
abbrev S16x1x27 : Shape := ⟨3, ![16, 1, 27]⟩
abbrev S16x26 : Shape := ⟨2, ![16, 26]⟩
abbrev S16x1x26 : Shape := ⟨3, ![16, 1, 26]⟩
abbrev S16x25 : Shape := ⟨2, ![16, 25]⟩
abbrev S16x1x25 : Shape := ⟨3, ![16, 1, 25]⟩
abbrev S16x24 : Shape := ⟨2, ![16, 24]⟩
abbrev S16x1x24 : Shape := ⟨3, ![16, 1, 24]⟩
abbrev S16x23 : Shape := ⟨2, ![16, 23]⟩
abbrev S16x1x23 : Shape := ⟨3, ![16, 1, 23]⟩
abbrev S16x22 : Shape := ⟨2, ![16, 22]⟩
abbrev S16x1x22 : Shape := ⟨3, ![16, 1, 22]⟩
abbrev S16x21 : Shape := ⟨2, ![16, 21]⟩
abbrev S16x1x21 : Shape := ⟨3, ![16, 1, 21]⟩
abbrev S16x20 : Shape := ⟨2, ![16, 20]⟩
abbrev S16x1x20 : Shape := ⟨3, ![16, 1, 20]⟩
abbrev S16x19 : Shape := ⟨2, ![16, 19]⟩
abbrev S16x1x19 : Shape := ⟨3, ![16, 1, 19]⟩
abbrev S16x18 : Shape := ⟨2, ![16, 18]⟩
abbrev S16x1x18 : Shape := ⟨3, ![16, 1, 18]⟩
abbrev S16x17 : Shape := ⟨2, ![16, 17]⟩
abbrev S16x1x17 : Shape := ⟨3, ![16, 1, 17]⟩
abbrev S16x16 : Shape := ⟨2, ![16, 16]⟩
abbrev S16x1x16 : Shape := ⟨3, ![16, 1, 16]⟩
abbrev S16x15 : Shape := ⟨2, ![16, 15]⟩
abbrev S16x1x15 : Shape := ⟨3, ![16, 1, 15]⟩
abbrev S16x14 : Shape := ⟨2, ![16, 14]⟩
abbrev S16x1x14 : Shape := ⟨3, ![16, 1, 14]⟩
abbrev S16x13 : Shape := ⟨2, ![16, 13]⟩
abbrev S16x1x13 : Shape := ⟨3, ![16, 1, 13]⟩
abbrev S16x12 : Shape := ⟨2, ![16, 12]⟩
abbrev S16x1x12 : Shape := ⟨3, ![16, 1, 12]⟩
abbrev S16x11 : Shape := ⟨2, ![16, 11]⟩
abbrev S16x1x11 : Shape := ⟨3, ![16, 1, 11]⟩
abbrev S16x10 : Shape := ⟨2, ![16, 10]⟩
abbrev S16x1x10 : Shape := ⟨3, ![16, 1, 10]⟩
abbrev S16x9 : Shape := ⟨2, ![16, 9]⟩
abbrev S16x1x9 : Shape := ⟨3, ![16, 1, 9]⟩
abbrev S16x8 : Shape := ⟨2, ![16, 8]⟩
abbrev S16x1x8 : Shape := ⟨3, ![16, 1, 8]⟩
abbrev S16x7 : Shape := ⟨2, ![16, 7]⟩
abbrev S16x1x7 : Shape := ⟨3, ![16, 1, 7]⟩
abbrev S16x6 : Shape := ⟨2, ![16, 6]⟩
abbrev S16x1x6 : Shape := ⟨3, ![16, 1, 6]⟩
abbrev S16x5 : Shape := ⟨2, ![16, 5]⟩
abbrev S16x1x5 : Shape := ⟨3, ![16, 1, 5]⟩
abbrev S16x4 : Shape := ⟨2, ![16, 4]⟩
abbrev S16x1x4 : Shape := ⟨3, ![16, 1, 4]⟩
abbrev S16x3 : Shape := ⟨2, ![16, 3]⟩
abbrev S16x1x3 : Shape := ⟨3, ![16, 1, 3]⟩
abbrev S16x2 : Shape := ⟨2, ![16, 2]⟩
abbrev S16x1x2 : Shape := ⟨3, ![16, 1, 2]⟩
abbrev S16x1 : Shape := ⟨2, ![16, 1]⟩
abbrev S16x1x1 : Shape := ⟨3, ![16, 1, 1]⟩
abbrev S256x256 : Shape := ⟨2, ![256, 256]⟩
abbrev S1x256x256 : Shape := ⟨3, ![1, 256, 256]⟩

abbrev nBuf : Space → Nat
  | .hbm => 2
  | .vmem => 5
  | .smem => 0
  | _ => 0

abbrev bufTy : (tb : Table) → Fin (tcTables nBuf tb) → BufTy
  | .hbm, ⟨0, _⟩ => ⟨S4096x32896, .f32⟩
  | .hbm, ⟨1, _⟩ => ⟨S4096x256x256, .f32⟩
  | .local _ .vmem, ⟨0, _⟩ => ⟨S16x32896, .f32⟩
  | .local _ .vmem, ⟨1, _⟩ => ⟨S16x32896, .f32⟩
  | .local _ .vmem, ⟨2, _⟩ => ⟨S16x256x256, .f32⟩
  | .local _ .vmem, ⟨3, _⟩ => ⟨S16x256x256, .f32⟩
  | .local _ .vmem, ⟨4, _⟩ => ⟨S16x256x256, .f32⟩
  | _, _ => ⟨S4096x32896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x32896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32896.size a ≤ S4096x32896.size a
  hwx0_0 : ∀ i : grid0.Coords, EltTy.bits .f32 = 32 ∨ (Rect.block (s := S4096x32896) S16x32896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S4096x256x256.size a
  hwx0_1 : ∀ i : grid0.Coords, EltTy.bits .f32 = 32 ∨ (Rect.block (s := S4096x256x256) S16x256x256.size (cc0_transform_1 i) (hinb0_1 i)).WholeWords (EltTy.packing .f32)

class Shapes1.Facts₀ : Prop where
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  inb_S16x32896_S16x256_0_0 : ∀ a, (![0, 0] : Fin 2 → Nat) a + S16x256.size a ≤ S16x32896.size a
  h_S16x256 : 0 < S16x256.numel
  inb_S16x256x256_S16x1x256_0_0_0 : ∀ a, (![0, 0, 0] : Fin 3 → Nat) a + S16x1x256.size a ≤ S16x256x256.size a
  h_S16x1x256 : 0 < S16x1x256.numel
  shapeCasts_S16x1x256_S16x256 : S16x1x256.ShapeCasts S16x256
  shapeCasts_S16x256_S16x1x256 : S16x256.ShapeCasts S16x1x256
  inb_S16x32896_S16x255_0_256 : ∀ a, (![0, 256] : Fin 2 → Nat) a + S16x255.size a ≤ S16x32896.size a
  h_S16x255 : 0 < S16x255.numel
  inb_S16x256x256_S16x1x255_0_1_1 : ∀ a, (![0, 1, 1] : Fin 3 → Nat) a + S16x1x255.size a ≤ S16x256x256.size a
  h_S16x1x255 : 0 < S16x1x255.numel
  shapeCasts_S16x1x255_S16x255 : S16x1x255.ShapeCasts S16x255
  shapeCasts_S16x255_S16x1x255 : S16x255.ShapeCasts S16x1x255
  inb_S16x32896_S16x254_0_511 : ∀ a, (![0, 511] : Fin 2 → Nat) a + S16x254.size a ≤ S16x32896.size a
  h_S16x254 : 0 < S16x254.numel
  inb_S16x256x256_S16x1x254_0_2_2 : ∀ a, (![0, 2, 2] : Fin 3 → Nat) a + S16x1x254.size a ≤ S16x256x256.size a
  h_S16x1x254 : 0 < S16x1x254.numel
  shapeCasts_S16x1x254_S16x254 : S16x1x254.ShapeCasts S16x254
  shapeCasts_S16x254_S16x1x254 : S16x254.ShapeCasts S16x1x254
  inb_S16x32896_S16x253_0_765 : ∀ a, (![0, 765] : Fin 2 → Nat) a + S16x253.size a ≤ S16x32896.size a
  h_S16x253 : 0 < S16x253.numel
  inb_S16x256x256_S16x1x253_0_3_3 : ∀ a, (![0, 3, 3] : Fin 3 → Nat) a + S16x1x253.size a ≤ S16x256x256.size a
  h_S16x1x253 : 0 < S16x1x253.numel
  shapeCasts_S16x1x253_S16x253 : S16x1x253.ShapeCasts S16x253
  shapeCasts_S16x253_S16x1x253 : S16x253.ShapeCasts S16x1x253
  inb_S16x32896_S16x252_0_1018 : ∀ a, (![0, 1018] : Fin 2 → Nat) a + S16x252.size a ≤ S16x32896.size a
  h_S16x252 : 0 < S16x252.numel
  inb_S16x256x256_S16x1x252_0_4_4 : ∀ a, (![0, 4, 4] : Fin 3 → Nat) a + S16x1x252.size a ≤ S16x256x256.size a
  h_S16x1x252 : 0 < S16x1x252.numel
  shapeCasts_S16x1x252_S16x252 : S16x1x252.ShapeCasts S16x252
  shapeCasts_S16x252_S16x1x252 : S16x252.ShapeCasts S16x1x252
  inb_S16x32896_S16x251_0_1270 : ∀ a, (![0, 1270] : Fin 2 → Nat) a + S16x251.size a ≤ S16x32896.size a
  h_S16x251 : 0 < S16x251.numel
  inb_S16x256x256_S16x1x251_0_5_5 : ∀ a, (![0, 5, 5] : Fin 3 → Nat) a + S16x1x251.size a ≤ S16x256x256.size a
  h_S16x1x251 : 0 < S16x1x251.numel
  shapeCasts_S16x1x251_S16x251 : S16x1x251.ShapeCasts S16x251
  shapeCasts_S16x251_S16x1x251 : S16x251.ShapeCasts S16x1x251
  inb_S16x32896_S16x250_0_1521 : ∀ a, (![0, 1521] : Fin 2 → Nat) a + S16x250.size a ≤ S16x32896.size a
  h_S16x250 : 0 < S16x250.numel
  inb_S16x256x256_S16x1x250_0_6_6 : ∀ a, (![0, 6, 6] : Fin 3 → Nat) a + S16x1x250.size a ≤ S16x256x256.size a
  h_S16x1x250 : 0 < S16x1x250.numel
  shapeCasts_S16x1x250_S16x250 : S16x1x250.ShapeCasts S16x250
  shapeCasts_S16x250_S16x1x250 : S16x250.ShapeCasts S16x1x250
  inb_S16x32896_S16x249_0_1771 : ∀ a, (![0, 1771] : Fin 2 → Nat) a + S16x249.size a ≤ S16x32896.size a
  h_S16x249 : 0 < S16x249.numel
  inb_S16x256x256_S16x1x249_0_7_7 : ∀ a, (![0, 7, 7] : Fin 3 → Nat) a + S16x1x249.size a ≤ S16x256x256.size a
  h_S16x1x249 : 0 < S16x1x249.numel
  shapeCasts_S16x1x249_S16x249 : S16x1x249.ShapeCasts S16x249
  shapeCasts_S16x249_S16x1x249 : S16x249.ShapeCasts S16x1x249
  inb_S16x32896_S16x248_0_2020 : ∀ a, (![0, 2020] : Fin 2 → Nat) a + S16x248.size a ≤ S16x32896.size a
  h_S16x248 : 0 < S16x248.numel
  inb_S16x256x256_S16x1x248_0_8_8 : ∀ a, (![0, 8, 8] : Fin 3 → Nat) a + S16x1x248.size a ≤ S16x256x256.size a
  h_S16x1x248 : 0 < S16x1x248.numel
  shapeCasts_S16x1x248_S16x248 : S16x1x248.ShapeCasts S16x248
  shapeCasts_S16x248_S16x1x248 : S16x248.ShapeCasts S16x1x248
  inb_S16x32896_S16x247_0_2268 : ∀ a, (![0, 2268] : Fin 2 → Nat) a + S16x247.size a ≤ S16x32896.size a
  h_S16x247 : 0 < S16x247.numel
  inb_S16x256x256_S16x1x247_0_9_9 : ∀ a, (![0, 9, 9] : Fin 3 → Nat) a + S16x1x247.size a ≤ S16x256x256.size a
  h_S16x1x247 : 0 < S16x1x247.numel
  shapeCasts_S16x1x247_S16x247 : S16x1x247.ShapeCasts S16x247
  shapeCasts_S16x247_S16x1x247 : S16x247.ShapeCasts S16x1x247
  inb_S16x32896_S16x246_0_2515 : ∀ a, (![0, 2515] : Fin 2 → Nat) a + S16x246.size a ≤ S16x32896.size a
  h_S16x246 : 0 < S16x246.numel
  inb_S16x256x256_S16x1x246_0_10_10 : ∀ a, (![0, 10, 10] : Fin 3 → Nat) a + S16x1x246.size a ≤ S16x256x256.size a
  h_S16x1x246 : 0 < S16x1x246.numel
  shapeCasts_S16x1x246_S16x246 : S16x1x246.ShapeCasts S16x246
  shapeCasts_S16x246_S16x1x246 : S16x246.ShapeCasts S16x1x246
  inb_S16x32896_S16x245_0_2761 : ∀ a, (![0, 2761] : Fin 2 → Nat) a + S16x245.size a ≤ S16x32896.size a
  h_S16x245 : 0 < S16x245.numel
  inb_S16x256x256_S16x1x245_0_11_11 : ∀ a, (![0, 11, 11] : Fin 3 → Nat) a + S16x1x245.size a ≤ S16x256x256.size a
  h_S16x1x245 : 0 < S16x1x245.numel
  shapeCasts_S16x1x245_S16x245 : S16x1x245.ShapeCasts S16x245
  shapeCasts_S16x245_S16x1x245 : S16x245.ShapeCasts S16x1x245
  inb_S16x32896_S16x244_0_3006 : ∀ a, (![0, 3006] : Fin 2 → Nat) a + S16x244.size a ≤ S16x32896.size a
  h_S16x244 : 0 < S16x244.numel
  inb_S16x256x256_S16x1x244_0_12_12 : ∀ a, (![0, 12, 12] : Fin 3 → Nat) a + S16x1x244.size a ≤ S16x256x256.size a
  h_S16x1x244 : 0 < S16x1x244.numel
  shapeCasts_S16x1x244_S16x244 : S16x1x244.ShapeCasts S16x244
  shapeCasts_S16x244_S16x1x244 : S16x244.ShapeCasts S16x1x244
  inb_S16x32896_S16x243_0_3250 : ∀ a, (![0, 3250] : Fin 2 → Nat) a + S16x243.size a ≤ S16x32896.size a
  h_S16x243 : 0 < S16x243.numel
  inb_S16x256x256_S16x1x243_0_13_13 : ∀ a, (![0, 13, 13] : Fin 3 → Nat) a + S16x1x243.size a ≤ S16x256x256.size a
  h_S16x1x243 : 0 < S16x1x243.numel
  shapeCasts_S16x1x243_S16x243 : S16x1x243.ShapeCasts S16x243
  shapeCasts_S16x243_S16x1x243 : S16x243.ShapeCasts S16x1x243
  inb_S16x32896_S16x242_0_3493 : ∀ a, (![0, 3493] : Fin 2 → Nat) a + S16x242.size a ≤ S16x32896.size a
  h_S16x242 : 0 < S16x242.numel
  inb_S16x256x256_S16x1x242_0_14_14 : ∀ a, (![0, 14, 14] : Fin 3 → Nat) a + S16x1x242.size a ≤ S16x256x256.size a
  h_S16x1x242 : 0 < S16x1x242.numel
  shapeCasts_S16x1x242_S16x242 : S16x1x242.ShapeCasts S16x242
  shapeCasts_S16x242_S16x1x242 : S16x242.ShapeCasts S16x1x242
  inb_S16x32896_S16x241_0_3735 : ∀ a, (![0, 3735] : Fin 2 → Nat) a + S16x241.size a ≤ S16x32896.size a
  h_S16x241 : 0 < S16x241.numel
  inb_S16x256x256_S16x1x241_0_15_15 : ∀ a, (![0, 15, 15] : Fin 3 → Nat) a + S16x1x241.size a ≤ S16x256x256.size a
  h_S16x1x241 : 0 < S16x1x241.numel
  shapeCasts_S16x1x241_S16x241 : S16x1x241.ShapeCasts S16x241
  shapeCasts_S16x241_S16x1x241 : S16x241.ShapeCasts S16x1x241
  inb_S16x32896_S16x240_0_3976 : ∀ a, (![0, 3976] : Fin 2 → Nat) a + S16x240.size a ≤ S16x32896.size a
  h_S16x240 : 0 < S16x240.numel
  inb_S16x256x256_S16x1x240_0_16_16 : ∀ a, (![0, 16, 16] : Fin 3 → Nat) a + S16x1x240.size a ≤ S16x256x256.size a
  h_S16x1x240 : 0 < S16x1x240.numel
  shapeCasts_S16x1x240_S16x240 : S16x1x240.ShapeCasts S16x240
  shapeCasts_S16x240_S16x1x240 : S16x240.ShapeCasts S16x1x240
  inb_S16x32896_S16x239_0_4216 : ∀ a, (![0, 4216] : Fin 2 → Nat) a + S16x239.size a ≤ S16x32896.size a
  h_S16x239 : 0 < S16x239.numel
  inb_S16x256x256_S16x1x239_0_17_17 : ∀ a, (![0, 17, 17] : Fin 3 → Nat) a + S16x1x239.size a ≤ S16x256x256.size a
  h_S16x1x239 : 0 < S16x1x239.numel
  shapeCasts_S16x1x239_S16x239 : S16x1x239.ShapeCasts S16x239
  shapeCasts_S16x239_S16x1x239 : S16x239.ShapeCasts S16x1x239
  inb_S16x32896_S16x238_0_4455 : ∀ a, (![0, 4455] : Fin 2 → Nat) a + S16x238.size a ≤ S16x32896.size a
  h_S16x238 : 0 < S16x238.numel
  inb_S16x256x256_S16x1x238_0_18_18 : ∀ a, (![0, 18, 18] : Fin 3 → Nat) a + S16x1x238.size a ≤ S16x256x256.size a
  h_S16x1x238 : 0 < S16x1x238.numel
  shapeCasts_S16x1x238_S16x238 : S16x1x238.ShapeCasts S16x238
  shapeCasts_S16x238_S16x1x238 : S16x238.ShapeCasts S16x1x238
  inb_S16x32896_S16x237_0_4693 : ∀ a, (![0, 4693] : Fin 2 → Nat) a + S16x237.size a ≤ S16x32896.size a
  h_S16x237 : 0 < S16x237.numel
  inb_S16x256x256_S16x1x237_0_19_19 : ∀ a, (![0, 19, 19] : Fin 3 → Nat) a + S16x1x237.size a ≤ S16x256x256.size a
  h_S16x1x237 : 0 < S16x1x237.numel
  shapeCasts_S16x1x237_S16x237 : S16x1x237.ShapeCasts S16x237
  shapeCasts_S16x237_S16x1x237 : S16x237.ShapeCasts S16x1x237
  inb_S16x32896_S16x236_0_4930 : ∀ a, (![0, 4930] : Fin 2 → Nat) a + S16x236.size a ≤ S16x32896.size a
  h_S16x236 : 0 < S16x236.numel
  inb_S16x256x256_S16x1x236_0_20_20 : ∀ a, (![0, 20, 20] : Fin 3 → Nat) a + S16x1x236.size a ≤ S16x256x256.size a
  h_S16x1x236 : 0 < S16x1x236.numel
  shapeCasts_S16x1x236_S16x236 : S16x1x236.ShapeCasts S16x236
  shapeCasts_S16x236_S16x1x236 : S16x236.ShapeCasts S16x1x236
  inb_S16x32896_S16x235_0_5166 : ∀ a, (![0, 5166] : Fin 2 → Nat) a + S16x235.size a ≤ S16x32896.size a
  h_S16x235 : 0 < S16x235.numel
  inb_S16x256x256_S16x1x235_0_21_21 : ∀ a, (![0, 21, 21] : Fin 3 → Nat) a + S16x1x235.size a ≤ S16x256x256.size a
  h_S16x1x235 : 0 < S16x1x235.numel
  shapeCasts_S16x1x235_S16x235 : S16x1x235.ShapeCasts S16x235
  shapeCasts_S16x235_S16x1x235 : S16x235.ShapeCasts S16x1x235
  inb_S16x32896_S16x234_0_5401 : ∀ a, (![0, 5401] : Fin 2 → Nat) a + S16x234.size a ≤ S16x32896.size a
  h_S16x234 : 0 < S16x234.numel
  inb_S16x256x256_S16x1x234_0_22_22 : ∀ a, (![0, 22, 22] : Fin 3 → Nat) a + S16x1x234.size a ≤ S16x256x256.size a
  h_S16x1x234 : 0 < S16x1x234.numel
  shapeCasts_S16x1x234_S16x234 : S16x1x234.ShapeCasts S16x234
  shapeCasts_S16x234_S16x1x234 : S16x234.ShapeCasts S16x1x234
  inb_S16x32896_S16x233_0_5635 : ∀ a, (![0, 5635] : Fin 2 → Nat) a + S16x233.size a ≤ S16x32896.size a
  h_S16x233 : 0 < S16x233.numel
  inb_S16x256x256_S16x1x233_0_23_23 : ∀ a, (![0, 23, 23] : Fin 3 → Nat) a + S16x1x233.size a ≤ S16x256x256.size a
  h_S16x1x233 : 0 < S16x1x233.numel
  shapeCasts_S16x1x233_S16x233 : S16x1x233.ShapeCasts S16x233
  shapeCasts_S16x233_S16x1x233 : S16x233.ShapeCasts S16x1x233
  inb_S16x32896_S16x232_0_5868 : ∀ a, (![0, 5868] : Fin 2 → Nat) a + S16x232.size a ≤ S16x32896.size a
  h_S16x232 : 0 < S16x232.numel
  inb_S16x256x256_S16x1x232_0_24_24 : ∀ a, (![0, 24, 24] : Fin 3 → Nat) a + S16x1x232.size a ≤ S16x256x256.size a
  h_S16x1x232 : 0 < S16x1x232.numel
  shapeCasts_S16x1x232_S16x232 : S16x1x232.ShapeCasts S16x232
  shapeCasts_S16x232_S16x1x232 : S16x232.ShapeCasts S16x1x232
  inb_S16x32896_S16x231_0_6100 : ∀ a, (![0, 6100] : Fin 2 → Nat) a + S16x231.size a ≤ S16x32896.size a
  h_S16x231 : 0 < S16x231.numel
  inb_S16x256x256_S16x1x231_0_25_25 : ∀ a, (![0, 25, 25] : Fin 3 → Nat) a + S16x1x231.size a ≤ S16x256x256.size a
  h_S16x1x231 : 0 < S16x1x231.numel
  shapeCasts_S16x1x231_S16x231 : S16x1x231.ShapeCasts S16x231
  shapeCasts_S16x231_S16x1x231 : S16x231.ShapeCasts S16x1x231
  inb_S16x32896_S16x230_0_6331 : ∀ a, (![0, 6331] : Fin 2 → Nat) a + S16x230.size a ≤ S16x32896.size a
  h_S16x230 : 0 < S16x230.numel
  inb_S16x256x256_S16x1x230_0_26_26 : ∀ a, (![0, 26, 26] : Fin 3 → Nat) a + S16x1x230.size a ≤ S16x256x256.size a
  h_S16x1x230 : 0 < S16x1x230.numel
  shapeCasts_S16x1x230_S16x230 : S16x1x230.ShapeCasts S16x230
  shapeCasts_S16x230_S16x1x230 : S16x230.ShapeCasts S16x1x230
  inb_S16x32896_S16x229_0_6561 : ∀ a, (![0, 6561] : Fin 2 → Nat) a + S16x229.size a ≤ S16x32896.size a
  h_S16x229 : 0 < S16x229.numel
  inb_S16x256x256_S16x1x229_0_27_27 : ∀ a, (![0, 27, 27] : Fin 3 → Nat) a + S16x1x229.size a ≤ S16x256x256.size a
  h_S16x1x229 : 0 < S16x1x229.numel
  shapeCasts_S16x1x229_S16x229 : S16x1x229.ShapeCasts S16x229
  shapeCasts_S16x229_S16x1x229 : S16x229.ShapeCasts S16x1x229
  inb_S16x32896_S16x228_0_6790 : ∀ a, (![0, 6790] : Fin 2 → Nat) a + S16x228.size a ≤ S16x32896.size a
  h_S16x228 : 0 < S16x228.numel
  inb_S16x256x256_S16x1x228_0_28_28 : ∀ a, (![0, 28, 28] : Fin 3 → Nat) a + S16x1x228.size a ≤ S16x256x256.size a
  h_S16x1x228 : 0 < S16x1x228.numel
  shapeCasts_S16x1x228_S16x228 : S16x1x228.ShapeCasts S16x228
  shapeCasts_S16x228_S16x1x228 : S16x228.ShapeCasts S16x1x228
  inb_S16x32896_S16x227_0_7018 : ∀ a, (![0, 7018] : Fin 2 → Nat) a + S16x227.size a ≤ S16x32896.size a
  h_S16x227 : 0 < S16x227.numel
  inb_S16x256x256_S16x1x227_0_29_29 : ∀ a, (![0, 29, 29] : Fin 3 → Nat) a + S16x1x227.size a ≤ S16x256x256.size a
  h_S16x1x227 : 0 < S16x1x227.numel
  shapeCasts_S16x1x227_S16x227 : S16x1x227.ShapeCasts S16x227
  shapeCasts_S16x227_S16x1x227 : S16x227.ShapeCasts S16x1x227
  inb_S16x32896_S16x226_0_7245 : ∀ a, (![0, 7245] : Fin 2 → Nat) a + S16x226.size a ≤ S16x32896.size a
  h_S16x226 : 0 < S16x226.numel
  inb_S16x256x256_S16x1x226_0_30_30 : ∀ a, (![0, 30, 30] : Fin 3 → Nat) a + S16x1x226.size a ≤ S16x256x256.size a
  h_S16x1x226 : 0 < S16x1x226.numel
  shapeCasts_S16x1x226_S16x226 : S16x1x226.ShapeCasts S16x226
  shapeCasts_S16x226_S16x1x226 : S16x226.ShapeCasts S16x1x226
  inb_S16x32896_S16x225_0_7471 : ∀ a, (![0, 7471] : Fin 2 → Nat) a + S16x225.size a ≤ S16x32896.size a
  h_S16x225 : 0 < S16x225.numel
  inb_S16x256x256_S16x1x225_0_31_31 : ∀ a, (![0, 31, 31] : Fin 3 → Nat) a + S16x1x225.size a ≤ S16x256x256.size a
  h_S16x1x225 : 0 < S16x1x225.numel
  shapeCasts_S16x1x225_S16x225 : S16x1x225.ShapeCasts S16x225
  shapeCasts_S16x225_S16x1x225 : S16x225.ShapeCasts S16x1x225
  inb_S16x32896_S16x224_0_7696 : ∀ a, (![0, 7696] : Fin 2 → Nat) a + S16x224.size a ≤ S16x32896.size a
  h_S16x224 : 0 < S16x224.numel
  inb_S16x256x256_S16x1x224_0_32_32 : ∀ a, (![0, 32, 32] : Fin 3 → Nat) a + S16x1x224.size a ≤ S16x256x256.size a
  h_S16x1x224 : 0 < S16x1x224.numel
  shapeCasts_S16x1x224_S16x224 : S16x1x224.ShapeCasts S16x224
  shapeCasts_S16x224_S16x1x224 : S16x224.ShapeCasts S16x1x224
  inb_S16x32896_S16x223_0_7920 : ∀ a, (![0, 7920] : Fin 2 → Nat) a + S16x223.size a ≤ S16x32896.size a
  h_S16x223 : 0 < S16x223.numel
  inb_S16x256x256_S16x1x223_0_33_33 : ∀ a, (![0, 33, 33] : Fin 3 → Nat) a + S16x1x223.size a ≤ S16x256x256.size a
  h_S16x1x223 : 0 < S16x1x223.numel
  shapeCasts_S16x1x223_S16x223 : S16x1x223.ShapeCasts S16x223
  shapeCasts_S16x223_S16x1x223 : S16x223.ShapeCasts S16x1x223
  inb_S16x32896_S16x222_0_8143 : ∀ a, (![0, 8143] : Fin 2 → Nat) a + S16x222.size a ≤ S16x32896.size a
  h_S16x222 : 0 < S16x222.numel
  inb_S16x256x256_S16x1x222_0_34_34 : ∀ a, (![0, 34, 34] : Fin 3 → Nat) a + S16x1x222.size a ≤ S16x256x256.size a
  h_S16x1x222 : 0 < S16x1x222.numel
  shapeCasts_S16x1x222_S16x222 : S16x1x222.ShapeCasts S16x222
  shapeCasts_S16x222_S16x1x222 : S16x222.ShapeCasts S16x1x222
  inb_S16x32896_S16x221_0_8365 : ∀ a, (![0, 8365] : Fin 2 → Nat) a + S16x221.size a ≤ S16x32896.size a
  h_S16x221 : 0 < S16x221.numel
  inb_S16x256x256_S16x1x221_0_35_35 : ∀ a, (![0, 35, 35] : Fin 3 → Nat) a + S16x1x221.size a ≤ S16x256x256.size a
  h_S16x1x221 : 0 < S16x1x221.numel
  shapeCasts_S16x1x221_S16x221 : S16x1x221.ShapeCasts S16x221
  shapeCasts_S16x221_S16x1x221 : S16x221.ShapeCasts S16x1x221
  inb_S16x32896_S16x220_0_8586 : ∀ a, (![0, 8586] : Fin 2 → Nat) a + S16x220.size a ≤ S16x32896.size a
  h_S16x220 : 0 < S16x220.numel
  inb_S16x256x256_S16x1x220_0_36_36 : ∀ a, (![0, 36, 36] : Fin 3 → Nat) a + S16x1x220.size a ≤ S16x256x256.size a
  h_S16x1x220 : 0 < S16x1x220.numel
  shapeCasts_S16x1x220_S16x220 : S16x1x220.ShapeCasts S16x220
  shapeCasts_S16x220_S16x1x220 : S16x220.ShapeCasts S16x1x220
  inb_S16x32896_S16x219_0_8806 : ∀ a, (![0, 8806] : Fin 2 → Nat) a + S16x219.size a ≤ S16x32896.size a
  h_S16x219 : 0 < S16x219.numel
  inb_S16x256x256_S16x1x219_0_37_37 : ∀ a, (![0, 37, 37] : Fin 3 → Nat) a + S16x1x219.size a ≤ S16x256x256.size a
  h_S16x1x219 : 0 < S16x1x219.numel
  shapeCasts_S16x1x219_S16x219 : S16x1x219.ShapeCasts S16x219
  shapeCasts_S16x219_S16x1x219 : S16x219.ShapeCasts S16x1x219
  inb_S16x32896_S16x218_0_9025 : ∀ a, (![0, 9025] : Fin 2 → Nat) a + S16x218.size a ≤ S16x32896.size a
  h_S16x218 : 0 < S16x218.numel
  inb_S16x256x256_S16x1x218_0_38_38 : ∀ a, (![0, 38, 38] : Fin 3 → Nat) a + S16x1x218.size a ≤ S16x256x256.size a
  h_S16x1x218 : 0 < S16x1x218.numel
  shapeCasts_S16x1x218_S16x218 : S16x1x218.ShapeCasts S16x218
  shapeCasts_S16x218_S16x1x218 : S16x218.ShapeCasts S16x1x218
  inb_S16x32896_S16x217_0_9243 : ∀ a, (![0, 9243] : Fin 2 → Nat) a + S16x217.size a ≤ S16x32896.size a
  h_S16x217 : 0 < S16x217.numel
  inb_S16x256x256_S16x1x217_0_39_39 : ∀ a, (![0, 39, 39] : Fin 3 → Nat) a + S16x1x217.size a ≤ S16x256x256.size a
  h_S16x1x217 : 0 < S16x1x217.numel
  shapeCasts_S16x1x217_S16x217 : S16x1x217.ShapeCasts S16x217
  shapeCasts_S16x217_S16x1x217 : S16x217.ShapeCasts S16x1x217
  inb_S16x32896_S16x216_0_9460 : ∀ a, (![0, 9460] : Fin 2 → Nat) a + S16x216.size a ≤ S16x32896.size a
  h_S16x216 : 0 < S16x216.numel
  inb_S16x256x256_S16x1x216_0_40_40 : ∀ a, (![0, 40, 40] : Fin 3 → Nat) a + S16x1x216.size a ≤ S16x256x256.size a
  h_S16x1x216 : 0 < S16x1x216.numel
  shapeCasts_S16x1x216_S16x216 : S16x1x216.ShapeCasts S16x216
  shapeCasts_S16x216_S16x1x216 : S16x216.ShapeCasts S16x1x216
  inb_S16x32896_S16x215_0_9676 : ∀ a, (![0, 9676] : Fin 2 → Nat) a + S16x215.size a ≤ S16x32896.size a
  h_S16x215 : 0 < S16x215.numel
  inb_S16x256x256_S16x1x215_0_41_41 : ∀ a, (![0, 41, 41] : Fin 3 → Nat) a + S16x1x215.size a ≤ S16x256x256.size a
  h_S16x1x215 : 0 < S16x1x215.numel
  shapeCasts_S16x1x215_S16x215 : S16x1x215.ShapeCasts S16x215
  shapeCasts_S16x215_S16x1x215 : S16x215.ShapeCasts S16x1x215
  inb_S16x32896_S16x214_0_9891 : ∀ a, (![0, 9891] : Fin 2 → Nat) a + S16x214.size a ≤ S16x32896.size a
  h_S16x214 : 0 < S16x214.numel
  inb_S16x256x256_S16x1x214_0_42_42 : ∀ a, (![0, 42, 42] : Fin 3 → Nat) a + S16x1x214.size a ≤ S16x256x256.size a
  h_S16x1x214 : 0 < S16x1x214.numel
  shapeCasts_S16x1x214_S16x214 : S16x1x214.ShapeCasts S16x214
  shapeCasts_S16x214_S16x1x214 : S16x214.ShapeCasts S16x1x214
  inb_S16x32896_S16x213_0_10105 : ∀ a, (![0, 10105] : Fin 2 → Nat) a + S16x213.size a ≤ S16x32896.size a
  h_S16x213 : 0 < S16x213.numel
  inb_S16x256x256_S16x1x213_0_43_43 : ∀ a, (![0, 43, 43] : Fin 3 → Nat) a + S16x1x213.size a ≤ S16x256x256.size a
  h_S16x1x213 : 0 < S16x1x213.numel
  shapeCasts_S16x1x213_S16x213 : S16x1x213.ShapeCasts S16x213
  shapeCasts_S16x213_S16x1x213 : S16x213.ShapeCasts S16x1x213
  inb_S16x32896_S16x212_0_10318 : ∀ a, (![0, 10318] : Fin 2 → Nat) a + S16x212.size a ≤ S16x32896.size a
  h_S16x212 : 0 < S16x212.numel
  inb_S16x256x256_S16x1x212_0_44_44 : ∀ a, (![0, 44, 44] : Fin 3 → Nat) a + S16x1x212.size a ≤ S16x256x256.size a
  h_S16x1x212 : 0 < S16x1x212.numel
  shapeCasts_S16x1x212_S16x212 : S16x1x212.ShapeCasts S16x212
  shapeCasts_S16x212_S16x1x212 : S16x212.ShapeCasts S16x1x212
  inb_S16x32896_S16x211_0_10530 : ∀ a, (![0, 10530] : Fin 2 → Nat) a + S16x211.size a ≤ S16x32896.size a
  h_S16x211 : 0 < S16x211.numel
  inb_S16x256x256_S16x1x211_0_45_45 : ∀ a, (![0, 45, 45] : Fin 3 → Nat) a + S16x1x211.size a ≤ S16x256x256.size a
  h_S16x1x211 : 0 < S16x1x211.numel
  shapeCasts_S16x1x211_S16x211 : S16x1x211.ShapeCasts S16x211
  shapeCasts_S16x211_S16x1x211 : S16x211.ShapeCasts S16x1x211
  inb_S16x32896_S16x210_0_10741 : ∀ a, (![0, 10741] : Fin 2 → Nat) a + S16x210.size a ≤ S16x32896.size a
  h_S16x210 : 0 < S16x210.numel
  inb_S16x256x256_S16x1x210_0_46_46 : ∀ a, (![0, 46, 46] : Fin 3 → Nat) a + S16x1x210.size a ≤ S16x256x256.size a
  h_S16x1x210 : 0 < S16x1x210.numel
  shapeCasts_S16x1x210_S16x210 : S16x1x210.ShapeCasts S16x210
  shapeCasts_S16x210_S16x1x210 : S16x210.ShapeCasts S16x1x210
  inb_S16x32896_S16x209_0_10951 : ∀ a, (![0, 10951] : Fin 2 → Nat) a + S16x209.size a ≤ S16x32896.size a
  h_S16x209 : 0 < S16x209.numel
  inb_S16x256x256_S16x1x209_0_47_47 : ∀ a, (![0, 47, 47] : Fin 3 → Nat) a + S16x1x209.size a ≤ S16x256x256.size a
  h_S16x1x209 : 0 < S16x1x209.numel
  shapeCasts_S16x1x209_S16x209 : S16x1x209.ShapeCasts S16x209
  shapeCasts_S16x209_S16x1x209 : S16x209.ShapeCasts S16x1x209
  inb_S16x32896_S16x208_0_11160 : ∀ a, (![0, 11160] : Fin 2 → Nat) a + S16x208.size a ≤ S16x32896.size a
  h_S16x208 : 0 < S16x208.numel
  inb_S16x256x256_S16x1x208_0_48_48 : ∀ a, (![0, 48, 48] : Fin 3 → Nat) a + S16x1x208.size a ≤ S16x256x256.size a
  h_S16x1x208 : 0 < S16x1x208.numel
  shapeCasts_S16x1x208_S16x208 : S16x1x208.ShapeCasts S16x208
  shapeCasts_S16x208_S16x1x208 : S16x208.ShapeCasts S16x1x208
  inb_S16x32896_S16x207_0_11368 : ∀ a, (![0, 11368] : Fin 2 → Nat) a + S16x207.size a ≤ S16x32896.size a
  h_S16x207 : 0 < S16x207.numel
  inb_S16x256x256_S16x1x207_0_49_49 : ∀ a, (![0, 49, 49] : Fin 3 → Nat) a + S16x1x207.size a ≤ S16x256x256.size a
  h_S16x1x207 : 0 < S16x1x207.numel
  shapeCasts_S16x1x207_S16x207 : S16x1x207.ShapeCasts S16x207
  shapeCasts_S16x207_S16x1x207 : S16x207.ShapeCasts S16x1x207
  inb_S16x32896_S16x206_0_11575 : ∀ a, (![0, 11575] : Fin 2 → Nat) a + S16x206.size a ≤ S16x32896.size a
  h_S16x206 : 0 < S16x206.numel
  inb_S16x256x256_S16x1x206_0_50_50 : ∀ a, (![0, 50, 50] : Fin 3 → Nat) a + S16x1x206.size a ≤ S16x256x256.size a
  h_S16x1x206 : 0 < S16x1x206.numel
  shapeCasts_S16x1x206_S16x206 : S16x1x206.ShapeCasts S16x206
  shapeCasts_S16x206_S16x1x206 : S16x206.ShapeCasts S16x1x206
  inb_S16x32896_S16x205_0_11781 : ∀ a, (![0, 11781] : Fin 2 → Nat) a + S16x205.size a ≤ S16x32896.size a
  h_S16x205 : 0 < S16x205.numel
  inb_S16x256x256_S16x1x205_0_51_51 : ∀ a, (![0, 51, 51] : Fin 3 → Nat) a + S16x1x205.size a ≤ S16x256x256.size a
  h_S16x1x205 : 0 < S16x1x205.numel
  shapeCasts_S16x1x205_S16x205 : S16x1x205.ShapeCasts S16x205
  shapeCasts_S16x205_S16x1x205 : S16x205.ShapeCasts S16x1x205
  inb_S16x32896_S16x204_0_11986 : ∀ a, (![0, 11986] : Fin 2 → Nat) a + S16x204.size a ≤ S16x32896.size a
  h_S16x204 : 0 < S16x204.numel
  inb_S16x256x256_S16x1x204_0_52_52 : ∀ a, (![0, 52, 52] : Fin 3 → Nat) a + S16x1x204.size a ≤ S16x256x256.size a
  h_S16x1x204 : 0 < S16x1x204.numel
  shapeCasts_S16x1x204_S16x204 : S16x1x204.ShapeCasts S16x204
  shapeCasts_S16x204_S16x1x204 : S16x204.ShapeCasts S16x1x204
  inb_S16x32896_S16x203_0_12190 : ∀ a, (![0, 12190] : Fin 2 → Nat) a + S16x203.size a ≤ S16x32896.size a
  h_S16x203 : 0 < S16x203.numel
  inb_S16x256x256_S16x1x203_0_53_53 : ∀ a, (![0, 53, 53] : Fin 3 → Nat) a + S16x1x203.size a ≤ S16x256x256.size a
  h_S16x1x203 : 0 < S16x1x203.numel
  shapeCasts_S16x1x203_S16x203 : S16x1x203.ShapeCasts S16x203
  shapeCasts_S16x203_S16x1x203 : S16x203.ShapeCasts S16x1x203
  inb_S16x32896_S16x202_0_12393 : ∀ a, (![0, 12393] : Fin 2 → Nat) a + S16x202.size a ≤ S16x32896.size a
  h_S16x202 : 0 < S16x202.numel
  inb_S16x256x256_S16x1x202_0_54_54 : ∀ a, (![0, 54, 54] : Fin 3 → Nat) a + S16x1x202.size a ≤ S16x256x256.size a
  h_S16x1x202 : 0 < S16x1x202.numel
  shapeCasts_S16x1x202_S16x202 : S16x1x202.ShapeCasts S16x202
  shapeCasts_S16x202_S16x1x202 : S16x202.ShapeCasts S16x1x202
  inb_S16x32896_S16x201_0_12595 : ∀ a, (![0, 12595] : Fin 2 → Nat) a + S16x201.size a ≤ S16x32896.size a
  h_S16x201 : 0 < S16x201.numel
  inb_S16x256x256_S16x1x201_0_55_55 : ∀ a, (![0, 55, 55] : Fin 3 → Nat) a + S16x1x201.size a ≤ S16x256x256.size a
  h_S16x1x201 : 0 < S16x1x201.numel
  shapeCasts_S16x1x201_S16x201 : S16x1x201.ShapeCasts S16x201
  shapeCasts_S16x201_S16x1x201 : S16x201.ShapeCasts S16x1x201
  inb_S16x32896_S16x200_0_12796 : ∀ a, (![0, 12796] : Fin 2 → Nat) a + S16x200.size a ≤ S16x32896.size a
  h_S16x200 : 0 < S16x200.numel
  inb_S16x256x256_S16x1x200_0_56_56 : ∀ a, (![0, 56, 56] : Fin 3 → Nat) a + S16x1x200.size a ≤ S16x256x256.size a
  h_S16x1x200 : 0 < S16x1x200.numel
  shapeCasts_S16x1x200_S16x200 : S16x1x200.ShapeCasts S16x200
  shapeCasts_S16x200_S16x1x200 : S16x200.ShapeCasts S16x1x200
  inb_S16x32896_S16x199_0_12996 : ∀ a, (![0, 12996] : Fin 2 → Nat) a + S16x199.size a ≤ S16x32896.size a
  h_S16x199 : 0 < S16x199.numel
  inb_S16x256x256_S16x1x199_0_57_57 : ∀ a, (![0, 57, 57] : Fin 3 → Nat) a + S16x1x199.size a ≤ S16x256x256.size a
  h_S16x1x199 : 0 < S16x1x199.numel
  shapeCasts_S16x1x199_S16x199 : S16x1x199.ShapeCasts S16x199
  shapeCasts_S16x199_S16x1x199 : S16x199.ShapeCasts S16x1x199
  inb_S16x32896_S16x198_0_13195 : ∀ a, (![0, 13195] : Fin 2 → Nat) a + S16x198.size a ≤ S16x32896.size a
  h_S16x198 : 0 < S16x198.numel
  inb_S16x256x256_S16x1x198_0_58_58 : ∀ a, (![0, 58, 58] : Fin 3 → Nat) a + S16x1x198.size a ≤ S16x256x256.size a
  h_S16x1x198 : 0 < S16x1x198.numel
  shapeCasts_S16x1x198_S16x198 : S16x1x198.ShapeCasts S16x198
  shapeCasts_S16x198_S16x1x198 : S16x198.ShapeCasts S16x1x198
  inb_S16x32896_S16x197_0_13393 : ∀ a, (![0, 13393] : Fin 2 → Nat) a + S16x197.size a ≤ S16x32896.size a
  h_S16x197 : 0 < S16x197.numel
  inb_S16x256x256_S16x1x197_0_59_59 : ∀ a, (![0, 59, 59] : Fin 3 → Nat) a + S16x1x197.size a ≤ S16x256x256.size a
  h_S16x1x197 : 0 < S16x1x197.numel
  shapeCasts_S16x1x197_S16x197 : S16x1x197.ShapeCasts S16x197
  shapeCasts_S16x197_S16x1x197 : S16x197.ShapeCasts S16x1x197
  inb_S16x32896_S16x196_0_13590 : ∀ a, (![0, 13590] : Fin 2 → Nat) a + S16x196.size a ≤ S16x32896.size a
  h_S16x196 : 0 < S16x196.numel
  inb_S16x256x256_S16x1x196_0_60_60 : ∀ a, (![0, 60, 60] : Fin 3 → Nat) a + S16x1x196.size a ≤ S16x256x256.size a
  h_S16x1x196 : 0 < S16x1x196.numel
  shapeCasts_S16x1x196_S16x196 : S16x1x196.ShapeCasts S16x196
  shapeCasts_S16x196_S16x1x196 : S16x196.ShapeCasts S16x1x196
  inb_S16x32896_S16x195_0_13786 : ∀ a, (![0, 13786] : Fin 2 → Nat) a + S16x195.size a ≤ S16x32896.size a
  h_S16x195 : 0 < S16x195.numel
  inb_S16x256x256_S16x1x195_0_61_61 : ∀ a, (![0, 61, 61] : Fin 3 → Nat) a + S16x1x195.size a ≤ S16x256x256.size a
  h_S16x1x195 : 0 < S16x1x195.numel
  shapeCasts_S16x1x195_S16x195 : S16x1x195.ShapeCasts S16x195
  shapeCasts_S16x195_S16x1x195 : S16x195.ShapeCasts S16x1x195
  inb_S16x32896_S16x194_0_13981 : ∀ a, (![0, 13981] : Fin 2 → Nat) a + S16x194.size a ≤ S16x32896.size a
  h_S16x194 : 0 < S16x194.numel
  inb_S16x256x256_S16x1x194_0_62_62 : ∀ a, (![0, 62, 62] : Fin 3 → Nat) a + S16x1x194.size a ≤ S16x256x256.size a
  h_S16x1x194 : 0 < S16x1x194.numel
  shapeCasts_S16x1x194_S16x194 : S16x1x194.ShapeCasts S16x194
  shapeCasts_S16x194_S16x1x194 : S16x194.ShapeCasts S16x1x194
  inb_S16x32896_S16x193_0_14175 : ∀ a, (![0, 14175] : Fin 2 → Nat) a + S16x193.size a ≤ S16x32896.size a
  h_S16x193 : 0 < S16x193.numel
  inb_S16x256x256_S16x1x193_0_63_63 : ∀ a, (![0, 63, 63] : Fin 3 → Nat) a + S16x1x193.size a ≤ S16x256x256.size a
  h_S16x1x193 : 0 < S16x1x193.numel
  shapeCasts_S16x1x193_S16x193 : S16x1x193.ShapeCasts S16x193
  shapeCasts_S16x193_S16x1x193 : S16x193.ShapeCasts S16x1x193
  inb_S16x32896_S16x192_0_14368 : ∀ a, (![0, 14368] : Fin 2 → Nat) a + S16x192.size a ≤ S16x32896.size a
  h_S16x192 : 0 < S16x192.numel
  inb_S16x256x256_S16x1x192_0_64_64 : ∀ a, (![0, 64, 64] : Fin 3 → Nat) a + S16x1x192.size a ≤ S16x256x256.size a
  h_S16x1x192 : 0 < S16x1x192.numel
  shapeCasts_S16x1x192_S16x192 : S16x1x192.ShapeCasts S16x192
  shapeCasts_S16x192_S16x1x192 : S16x192.ShapeCasts S16x1x192
  inb_S16x32896_S16x191_0_14560 : ∀ a, (![0, 14560] : Fin 2 → Nat) a + S16x191.size a ≤ S16x32896.size a
  h_S16x191 : 0 < S16x191.numel
  inb_S16x256x256_S16x1x191_0_65_65 : ∀ a, (![0, 65, 65] : Fin 3 → Nat) a + S16x1x191.size a ≤ S16x256x256.size a
  h_S16x1x191 : 0 < S16x1x191.numel
  shapeCasts_S16x1x191_S16x191 : S16x1x191.ShapeCasts S16x191
  shapeCasts_S16x191_S16x1x191 : S16x191.ShapeCasts S16x1x191
  inb_S16x32896_S16x190_0_14751 : ∀ a, (![0, 14751] : Fin 2 → Nat) a + S16x190.size a ≤ S16x32896.size a
  h_S16x190 : 0 < S16x190.numel
  inb_S16x256x256_S16x1x190_0_66_66 : ∀ a, (![0, 66, 66] : Fin 3 → Nat) a + S16x1x190.size a ≤ S16x256x256.size a
  h_S16x1x190 : 0 < S16x1x190.numel
  shapeCasts_S16x1x190_S16x190 : S16x1x190.ShapeCasts S16x190
  shapeCasts_S16x190_S16x1x190 : S16x190.ShapeCasts S16x1x190
  inb_S16x32896_S16x189_0_14941 : ∀ a, (![0, 14941] : Fin 2 → Nat) a + S16x189.size a ≤ S16x32896.size a
  h_S16x189 : 0 < S16x189.numel
  inb_S16x256x256_S16x1x189_0_67_67 : ∀ a, (![0, 67, 67] : Fin 3 → Nat) a + S16x1x189.size a ≤ S16x256x256.size a
  h_S16x1x189 : 0 < S16x1x189.numel
  shapeCasts_S16x1x189_S16x189 : S16x1x189.ShapeCasts S16x189
  shapeCasts_S16x189_S16x1x189 : S16x189.ShapeCasts S16x1x189
  inb_S16x32896_S16x188_0_15130 : ∀ a, (![0, 15130] : Fin 2 → Nat) a + S16x188.size a ≤ S16x32896.size a
  h_S16x188 : 0 < S16x188.numel
  inb_S16x256x256_S16x1x188_0_68_68 : ∀ a, (![0, 68, 68] : Fin 3 → Nat) a + S16x1x188.size a ≤ S16x256x256.size a
  h_S16x1x188 : 0 < S16x1x188.numel
  shapeCasts_S16x1x188_S16x188 : S16x1x188.ShapeCasts S16x188
  shapeCasts_S16x188_S16x1x188 : S16x188.ShapeCasts S16x1x188
  inb_S16x32896_S16x187_0_15318 : ∀ a, (![0, 15318] : Fin 2 → Nat) a + S16x187.size a ≤ S16x32896.size a
  h_S16x187 : 0 < S16x187.numel
  inb_S16x256x256_S16x1x187_0_69_69 : ∀ a, (![0, 69, 69] : Fin 3 → Nat) a + S16x1x187.size a ≤ S16x256x256.size a
  h_S16x1x187 : 0 < S16x1x187.numel
  shapeCasts_S16x1x187_S16x187 : S16x1x187.ShapeCasts S16x187
  shapeCasts_S16x187_S16x1x187 : S16x187.ShapeCasts S16x1x187
  inb_S16x32896_S16x186_0_15505 : ∀ a, (![0, 15505] : Fin 2 → Nat) a + S16x186.size a ≤ S16x32896.size a
  h_S16x186 : 0 < S16x186.numel
  inb_S16x256x256_S16x1x186_0_70_70 : ∀ a, (![0, 70, 70] : Fin 3 → Nat) a + S16x1x186.size a ≤ S16x256x256.size a
  h_S16x1x186 : 0 < S16x1x186.numel
  shapeCasts_S16x1x186_S16x186 : S16x1x186.ShapeCasts S16x186
  shapeCasts_S16x186_S16x1x186 : S16x186.ShapeCasts S16x1x186
  inb_S16x32896_S16x185_0_15691 : ∀ a, (![0, 15691] : Fin 2 → Nat) a + S16x185.size a ≤ S16x32896.size a
  h_S16x185 : 0 < S16x185.numel
  inb_S16x256x256_S16x1x185_0_71_71 : ∀ a, (![0, 71, 71] : Fin 3 → Nat) a + S16x1x185.size a ≤ S16x256x256.size a
  h_S16x1x185 : 0 < S16x1x185.numel
  shapeCasts_S16x1x185_S16x185 : S16x1x185.ShapeCasts S16x185
  shapeCasts_S16x185_S16x1x185 : S16x185.ShapeCasts S16x1x185
  inb_S16x32896_S16x184_0_15876 : ∀ a, (![0, 15876] : Fin 2 → Nat) a + S16x184.size a ≤ S16x32896.size a
  h_S16x184 : 0 < S16x184.numel
  inb_S16x256x256_S16x1x184_0_72_72 : ∀ a, (![0, 72, 72] : Fin 3 → Nat) a + S16x1x184.size a ≤ S16x256x256.size a
  h_S16x1x184 : 0 < S16x1x184.numel
  shapeCasts_S16x1x184_S16x184 : S16x1x184.ShapeCasts S16x184
  shapeCasts_S16x184_S16x1x184 : S16x184.ShapeCasts S16x1x184
  inb_S16x32896_S16x183_0_16060 : ∀ a, (![0, 16060] : Fin 2 → Nat) a + S16x183.size a ≤ S16x32896.size a
  h_S16x183 : 0 < S16x183.numel
  inb_S16x256x256_S16x1x183_0_73_73 : ∀ a, (![0, 73, 73] : Fin 3 → Nat) a + S16x1x183.size a ≤ S16x256x256.size a
  h_S16x1x183 : 0 < S16x1x183.numel
  shapeCasts_S16x1x183_S16x183 : S16x1x183.ShapeCasts S16x183
  shapeCasts_S16x183_S16x1x183 : S16x183.ShapeCasts S16x1x183
  inb_S16x32896_S16x182_0_16243 : ∀ a, (![0, 16243] : Fin 2 → Nat) a + S16x182.size a ≤ S16x32896.size a
  h_S16x182 : 0 < S16x182.numel
  inb_S16x256x256_S16x1x182_0_74_74 : ∀ a, (![0, 74, 74] : Fin 3 → Nat) a + S16x1x182.size a ≤ S16x256x256.size a
  h_S16x1x182 : 0 < S16x1x182.numel
  shapeCasts_S16x1x182_S16x182 : S16x1x182.ShapeCasts S16x182
  shapeCasts_S16x182_S16x1x182 : S16x182.ShapeCasts S16x1x182
  inb_S16x32896_S16x181_0_16425 : ∀ a, (![0, 16425] : Fin 2 → Nat) a + S16x181.size a ≤ S16x32896.size a
  h_S16x181 : 0 < S16x181.numel
  inb_S16x256x256_S16x1x181_0_75_75 : ∀ a, (![0, 75, 75] : Fin 3 → Nat) a + S16x1x181.size a ≤ S16x256x256.size a
  h_S16x1x181 : 0 < S16x1x181.numel
  shapeCasts_S16x1x181_S16x181 : S16x1x181.ShapeCasts S16x181
  shapeCasts_S16x181_S16x1x181 : S16x181.ShapeCasts S16x1x181
  inb_S16x32896_S16x180_0_16606 : ∀ a, (![0, 16606] : Fin 2 → Nat) a + S16x180.size a ≤ S16x32896.size a
  h_S16x180 : 0 < S16x180.numel
  inb_S16x256x256_S16x1x180_0_76_76 : ∀ a, (![0, 76, 76] : Fin 3 → Nat) a + S16x1x180.size a ≤ S16x256x256.size a
  h_S16x1x180 : 0 < S16x1x180.numel
  shapeCasts_S16x1x180_S16x180 : S16x1x180.ShapeCasts S16x180
  shapeCasts_S16x180_S16x1x180 : S16x180.ShapeCasts S16x1x180
  inb_S16x32896_S16x179_0_16786 : ∀ a, (![0, 16786] : Fin 2 → Nat) a + S16x179.size a ≤ S16x32896.size a
  h_S16x179 : 0 < S16x179.numel
  inb_S16x256x256_S16x1x179_0_77_77 : ∀ a, (![0, 77, 77] : Fin 3 → Nat) a + S16x1x179.size a ≤ S16x256x256.size a
  h_S16x1x179 : 0 < S16x1x179.numel
  shapeCasts_S16x1x179_S16x179 : S16x1x179.ShapeCasts S16x179
  shapeCasts_S16x179_S16x1x179 : S16x179.ShapeCasts S16x1x179
  inb_S16x32896_S16x178_0_16965 : ∀ a, (![0, 16965] : Fin 2 → Nat) a + S16x178.size a ≤ S16x32896.size a
  h_S16x178 : 0 < S16x178.numel
  inb_S16x256x256_S16x1x178_0_78_78 : ∀ a, (![0, 78, 78] : Fin 3 → Nat) a + S16x1x178.size a ≤ S16x256x256.size a
  h_S16x1x178 : 0 < S16x1x178.numel
  shapeCasts_S16x1x178_S16x178 : S16x1x178.ShapeCasts S16x178
  shapeCasts_S16x178_S16x1x178 : S16x178.ShapeCasts S16x1x178
  inb_S16x32896_S16x177_0_17143 : ∀ a, (![0, 17143] : Fin 2 → Nat) a + S16x177.size a ≤ S16x32896.size a
  h_S16x177 : 0 < S16x177.numel
  inb_S16x256x256_S16x1x177_0_79_79 : ∀ a, (![0, 79, 79] : Fin 3 → Nat) a + S16x1x177.size a ≤ S16x256x256.size a
  h_S16x1x177 : 0 < S16x1x177.numel
  shapeCasts_S16x1x177_S16x177 : S16x1x177.ShapeCasts S16x177
  shapeCasts_S16x177_S16x1x177 : S16x177.ShapeCasts S16x1x177
  inb_S16x32896_S16x176_0_17320 : ∀ a, (![0, 17320] : Fin 2 → Nat) a + S16x176.size a ≤ S16x32896.size a
  h_S16x176 : 0 < S16x176.numel
  inb_S16x256x256_S16x1x176_0_80_80 : ∀ a, (![0, 80, 80] : Fin 3 → Nat) a + S16x1x176.size a ≤ S16x256x256.size a
  h_S16x1x176 : 0 < S16x1x176.numel
  shapeCasts_S16x1x176_S16x176 : S16x1x176.ShapeCasts S16x176
  shapeCasts_S16x176_S16x1x176 : S16x176.ShapeCasts S16x1x176
  inb_S16x32896_S16x175_0_17496 : ∀ a, (![0, 17496] : Fin 2 → Nat) a + S16x175.size a ≤ S16x32896.size a
  h_S16x175 : 0 < S16x175.numel
  inb_S16x256x256_S16x1x175_0_81_81 : ∀ a, (![0, 81, 81] : Fin 3 → Nat) a + S16x1x175.size a ≤ S16x256x256.size a
  h_S16x1x175 : 0 < S16x1x175.numel
  shapeCasts_S16x1x175_S16x175 : S16x1x175.ShapeCasts S16x175
  shapeCasts_S16x175_S16x1x175 : S16x175.ShapeCasts S16x1x175
  inb_S16x32896_S16x174_0_17671 : ∀ a, (![0, 17671] : Fin 2 → Nat) a + S16x174.size a ≤ S16x32896.size a
  h_S16x174 : 0 < S16x174.numel
  inb_S16x256x256_S16x1x174_0_82_82 : ∀ a, (![0, 82, 82] : Fin 3 → Nat) a + S16x1x174.size a ≤ S16x256x256.size a
  h_S16x1x174 : 0 < S16x1x174.numel
  shapeCasts_S16x1x174_S16x174 : S16x1x174.ShapeCasts S16x174
  shapeCasts_S16x174_S16x1x174 : S16x174.ShapeCasts S16x1x174
  inb_S16x32896_S16x173_0_17845 : ∀ a, (![0, 17845] : Fin 2 → Nat) a + S16x173.size a ≤ S16x32896.size a
  h_S16x173 : 0 < S16x173.numel
  inb_S16x256x256_S16x1x173_0_83_83 : ∀ a, (![0, 83, 83] : Fin 3 → Nat) a + S16x1x173.size a ≤ S16x256x256.size a
  h_S16x1x173 : 0 < S16x1x173.numel
  shapeCasts_S16x1x173_S16x173 : S16x1x173.ShapeCasts S16x173
  shapeCasts_S16x173_S16x1x173 : S16x173.ShapeCasts S16x1x173
  inb_S16x32896_S16x172_0_18018 : ∀ a, (![0, 18018] : Fin 2 → Nat) a + S16x172.size a ≤ S16x32896.size a
  h_S16x172 : 0 < S16x172.numel
  inb_S16x256x256_S16x1x172_0_84_84 : ∀ a, (![0, 84, 84] : Fin 3 → Nat) a + S16x1x172.size a ≤ S16x256x256.size a
  h_S16x1x172 : 0 < S16x1x172.numel
  shapeCasts_S16x1x172_S16x172 : S16x1x172.ShapeCasts S16x172
  shapeCasts_S16x172_S16x1x172 : S16x172.ShapeCasts S16x1x172
  inb_S16x32896_S16x171_0_18190 : ∀ a, (![0, 18190] : Fin 2 → Nat) a + S16x171.size a ≤ S16x32896.size a
  h_S16x171 : 0 < S16x171.numel
  inb_S16x256x256_S16x1x171_0_85_85 : ∀ a, (![0, 85, 85] : Fin 3 → Nat) a + S16x1x171.size a ≤ S16x256x256.size a
  h_S16x1x171 : 0 < S16x1x171.numel
  shapeCasts_S16x1x171_S16x171 : S16x1x171.ShapeCasts S16x171
  shapeCasts_S16x171_S16x1x171 : S16x171.ShapeCasts S16x1x171
  inb_S16x32896_S16x170_0_18361 : ∀ a, (![0, 18361] : Fin 2 → Nat) a + S16x170.size a ≤ S16x32896.size a
  h_S16x170 : 0 < S16x170.numel
  inb_S16x256x256_S16x1x170_0_86_86 : ∀ a, (![0, 86, 86] : Fin 3 → Nat) a + S16x1x170.size a ≤ S16x256x256.size a
  h_S16x1x170 : 0 < S16x1x170.numel
  shapeCasts_S16x1x170_S16x170 : S16x1x170.ShapeCasts S16x170
  shapeCasts_S16x170_S16x1x170 : S16x170.ShapeCasts S16x1x170
  inb_S16x32896_S16x169_0_18531 : ∀ a, (![0, 18531] : Fin 2 → Nat) a + S16x169.size a ≤ S16x32896.size a
  h_S16x169 : 0 < S16x169.numel
  inb_S16x256x256_S16x1x169_0_87_87 : ∀ a, (![0, 87, 87] : Fin 3 → Nat) a + S16x1x169.size a ≤ S16x256x256.size a
  h_S16x1x169 : 0 < S16x1x169.numel
  shapeCasts_S16x1x169_S16x169 : S16x1x169.ShapeCasts S16x169
  shapeCasts_S16x169_S16x1x169 : S16x169.ShapeCasts S16x1x169
  inb_S16x32896_S16x168_0_18700 : ∀ a, (![0, 18700] : Fin 2 → Nat) a + S16x168.size a ≤ S16x32896.size a
  h_S16x168 : 0 < S16x168.numel
  inb_S16x256x256_S16x1x168_0_88_88 : ∀ a, (![0, 88, 88] : Fin 3 → Nat) a + S16x1x168.size a ≤ S16x256x256.size a
  h_S16x1x168 : 0 < S16x1x168.numel
  shapeCasts_S16x1x168_S16x168 : S16x1x168.ShapeCasts S16x168
  shapeCasts_S16x168_S16x1x168 : S16x168.ShapeCasts S16x1x168
  inb_S16x32896_S16x167_0_18868 : ∀ a, (![0, 18868] : Fin 2 → Nat) a + S16x167.size a ≤ S16x32896.size a
  h_S16x167 : 0 < S16x167.numel
  inb_S16x256x256_S16x1x167_0_89_89 : ∀ a, (![0, 89, 89] : Fin 3 → Nat) a + S16x1x167.size a ≤ S16x256x256.size a
  h_S16x1x167 : 0 < S16x1x167.numel
  shapeCasts_S16x1x167_S16x167 : S16x1x167.ShapeCasts S16x167
  shapeCasts_S16x167_S16x1x167 : S16x167.ShapeCasts S16x1x167
  inb_S16x32896_S16x166_0_19035 : ∀ a, (![0, 19035] : Fin 2 → Nat) a + S16x166.size a ≤ S16x32896.size a
  h_S16x166 : 0 < S16x166.numel
  inb_S16x256x256_S16x1x166_0_90_90 : ∀ a, (![0, 90, 90] : Fin 3 → Nat) a + S16x1x166.size a ≤ S16x256x256.size a
  h_S16x1x166 : 0 < S16x1x166.numel
  shapeCasts_S16x1x166_S16x166 : S16x1x166.ShapeCasts S16x166
  shapeCasts_S16x166_S16x1x166 : S16x166.ShapeCasts S16x1x166
  inb_S16x32896_S16x165_0_19201 : ∀ a, (![0, 19201] : Fin 2 → Nat) a + S16x165.size a ≤ S16x32896.size a
  h_S16x165 : 0 < S16x165.numel
  inb_S16x256x256_S16x1x165_0_91_91 : ∀ a, (![0, 91, 91] : Fin 3 → Nat) a + S16x1x165.size a ≤ S16x256x256.size a
  h_S16x1x165 : 0 < S16x1x165.numel
  shapeCasts_S16x1x165_S16x165 : S16x1x165.ShapeCasts S16x165
  shapeCasts_S16x165_S16x1x165 : S16x165.ShapeCasts S16x1x165
  inb_S16x32896_S16x164_0_19366 : ∀ a, (![0, 19366] : Fin 2 → Nat) a + S16x164.size a ≤ S16x32896.size a
  h_S16x164 : 0 < S16x164.numel
  inb_S16x256x256_S16x1x164_0_92_92 : ∀ a, (![0, 92, 92] : Fin 3 → Nat) a + S16x1x164.size a ≤ S16x256x256.size a
  h_S16x1x164 : 0 < S16x1x164.numel
  shapeCasts_S16x1x164_S16x164 : S16x1x164.ShapeCasts S16x164
  shapeCasts_S16x164_S16x1x164 : S16x164.ShapeCasts S16x1x164
  inb_S16x32896_S16x163_0_19530 : ∀ a, (![0, 19530] : Fin 2 → Nat) a + S16x163.size a ≤ S16x32896.size a
  h_S16x163 : 0 < S16x163.numel
  inb_S16x256x256_S16x1x163_0_93_93 : ∀ a, (![0, 93, 93] : Fin 3 → Nat) a + S16x1x163.size a ≤ S16x256x256.size a
  h_S16x1x163 : 0 < S16x1x163.numel
  shapeCasts_S16x1x163_S16x163 : S16x1x163.ShapeCasts S16x163
  shapeCasts_S16x163_S16x1x163 : S16x163.ShapeCasts S16x1x163
  inb_S16x32896_S16x162_0_19693 : ∀ a, (![0, 19693] : Fin 2 → Nat) a + S16x162.size a ≤ S16x32896.size a
  h_S16x162 : 0 < S16x162.numel
  inb_S16x256x256_S16x1x162_0_94_94 : ∀ a, (![0, 94, 94] : Fin 3 → Nat) a + S16x1x162.size a ≤ S16x256x256.size a
  h_S16x1x162 : 0 < S16x1x162.numel
  shapeCasts_S16x1x162_S16x162 : S16x1x162.ShapeCasts S16x162
  shapeCasts_S16x162_S16x1x162 : S16x162.ShapeCasts S16x1x162
  inb_S16x32896_S16x161_0_19855 : ∀ a, (![0, 19855] : Fin 2 → Nat) a + S16x161.size a ≤ S16x32896.size a
  h_S16x161 : 0 < S16x161.numel
  inb_S16x256x256_S16x1x161_0_95_95 : ∀ a, (![0, 95, 95] : Fin 3 → Nat) a + S16x1x161.size a ≤ S16x256x256.size a
  h_S16x1x161 : 0 < S16x1x161.numel
  shapeCasts_S16x1x161_S16x161 : S16x1x161.ShapeCasts S16x161
  shapeCasts_S16x161_S16x1x161 : S16x161.ShapeCasts S16x1x161
  inb_S16x32896_S16x160_0_20016 : ∀ a, (![0, 20016] : Fin 2 → Nat) a + S16x160.size a ≤ S16x32896.size a
  h_S16x160 : 0 < S16x160.numel
  inb_S16x256x256_S16x1x160_0_96_96 : ∀ a, (![0, 96, 96] : Fin 3 → Nat) a + S16x1x160.size a ≤ S16x256x256.size a
  h_S16x1x160 : 0 < S16x1x160.numel
  shapeCasts_S16x1x160_S16x160 : S16x1x160.ShapeCasts S16x160
  shapeCasts_S16x160_S16x1x160 : S16x160.ShapeCasts S16x1x160
  inb_S16x32896_S16x159_0_20176 : ∀ a, (![0, 20176] : Fin 2 → Nat) a + S16x159.size a ≤ S16x32896.size a
  h_S16x159 : 0 < S16x159.numel
  inb_S16x256x256_S16x1x159_0_97_97 : ∀ a, (![0, 97, 97] : Fin 3 → Nat) a + S16x1x159.size a ≤ S16x256x256.size a
  h_S16x1x159 : 0 < S16x1x159.numel
  shapeCasts_S16x1x159_S16x159 : S16x1x159.ShapeCasts S16x159
  shapeCasts_S16x159_S16x1x159 : S16x159.ShapeCasts S16x1x159
  inb_S16x32896_S16x158_0_20335 : ∀ a, (![0, 20335] : Fin 2 → Nat) a + S16x158.size a ≤ S16x32896.size a
  h_S16x158 : 0 < S16x158.numel
  inb_S16x256x256_S16x1x158_0_98_98 : ∀ a, (![0, 98, 98] : Fin 3 → Nat) a + S16x1x158.size a ≤ S16x256x256.size a
  h_S16x1x158 : 0 < S16x1x158.numel
  shapeCasts_S16x1x158_S16x158 : S16x1x158.ShapeCasts S16x158
  shapeCasts_S16x158_S16x1x158 : S16x158.ShapeCasts S16x1x158
  inb_S16x32896_S16x157_0_20493 : ∀ a, (![0, 20493] : Fin 2 → Nat) a + S16x157.size a ≤ S16x32896.size a
  h_S16x157 : 0 < S16x157.numel
  inb_S16x256x256_S16x1x157_0_99_99 : ∀ a, (![0, 99, 99] : Fin 3 → Nat) a + S16x1x157.size a ≤ S16x256x256.size a
  h_S16x1x157 : 0 < S16x1x157.numel
  shapeCasts_S16x1x157_S16x157 : S16x1x157.ShapeCasts S16x157
  shapeCasts_S16x157_S16x1x157 : S16x157.ShapeCasts S16x1x157
  inb_S16x32896_S16x156_0_20650 : ∀ a, (![0, 20650] : Fin 2 → Nat) a + S16x156.size a ≤ S16x32896.size a
  h_S16x156 : 0 < S16x156.numel
  inb_S16x256x256_S16x1x156_0_100_100 : ∀ a, (![0, 100, 100] : Fin 3 → Nat) a + S16x1x156.size a ≤ S16x256x256.size a
  h_S16x1x156 : 0 < S16x1x156.numel
  shapeCasts_S16x1x156_S16x156 : S16x1x156.ShapeCasts S16x156
  shapeCasts_S16x156_S16x1x156 : S16x156.ShapeCasts S16x1x156
  inb_S16x32896_S16x155_0_20806 : ∀ a, (![0, 20806] : Fin 2 → Nat) a + S16x155.size a ≤ S16x32896.size a
  h_S16x155 : 0 < S16x155.numel
  inb_S16x256x256_S16x1x155_0_101_101 : ∀ a, (![0, 101, 101] : Fin 3 → Nat) a + S16x1x155.size a ≤ S16x256x256.size a
  h_S16x1x155 : 0 < S16x1x155.numel
  shapeCasts_S16x1x155_S16x155 : S16x1x155.ShapeCasts S16x155
  shapeCasts_S16x155_S16x1x155 : S16x155.ShapeCasts S16x1x155
  inb_S16x32896_S16x154_0_20961 : ∀ a, (![0, 20961] : Fin 2 → Nat) a + S16x154.size a ≤ S16x32896.size a
  h_S16x154 : 0 < S16x154.numel
  inb_S16x256x256_S16x1x154_0_102_102 : ∀ a, (![0, 102, 102] : Fin 3 → Nat) a + S16x1x154.size a ≤ S16x256x256.size a
  h_S16x1x154 : 0 < S16x1x154.numel
  shapeCasts_S16x1x154_S16x154 : S16x1x154.ShapeCasts S16x154
  shapeCasts_S16x154_S16x1x154 : S16x154.ShapeCasts S16x1x154
  inb_S16x32896_S16x153_0_21115 : ∀ a, (![0, 21115] : Fin 2 → Nat) a + S16x153.size a ≤ S16x32896.size a
  h_S16x153 : 0 < S16x153.numel
  inb_S16x256x256_S16x1x153_0_103_103 : ∀ a, (![0, 103, 103] : Fin 3 → Nat) a + S16x1x153.size a ≤ S16x256x256.size a
  h_S16x1x153 : 0 < S16x1x153.numel
  shapeCasts_S16x1x153_S16x153 : S16x1x153.ShapeCasts S16x153
  shapeCasts_S16x153_S16x1x153 : S16x153.ShapeCasts S16x1x153
  inb_S16x32896_S16x152_0_21268 : ∀ a, (![0, 21268] : Fin 2 → Nat) a + S16x152.size a ≤ S16x32896.size a
  h_S16x152 : 0 < S16x152.numel
  inb_S16x256x256_S16x1x152_0_104_104 : ∀ a, (![0, 104, 104] : Fin 3 → Nat) a + S16x1x152.size a ≤ S16x256x256.size a
  h_S16x1x152 : 0 < S16x1x152.numel
  shapeCasts_S16x1x152_S16x152 : S16x1x152.ShapeCasts S16x152
  shapeCasts_S16x152_S16x1x152 : S16x152.ShapeCasts S16x1x152
  inb_S16x32896_S16x151_0_21420 : ∀ a, (![0, 21420] : Fin 2 → Nat) a + S16x151.size a ≤ S16x32896.size a
  h_S16x151 : 0 < S16x151.numel
  inb_S16x256x256_S16x1x151_0_105_105 : ∀ a, (![0, 105, 105] : Fin 3 → Nat) a + S16x1x151.size a ≤ S16x256x256.size a
  h_S16x1x151 : 0 < S16x1x151.numel
  shapeCasts_S16x1x151_S16x151 : S16x1x151.ShapeCasts S16x151
  shapeCasts_S16x151_S16x1x151 : S16x151.ShapeCasts S16x1x151
  inb_S16x32896_S16x150_0_21571 : ∀ a, (![0, 21571] : Fin 2 → Nat) a + S16x150.size a ≤ S16x32896.size a
  h_S16x150 : 0 < S16x150.numel
  inb_S16x256x256_S16x1x150_0_106_106 : ∀ a, (![0, 106, 106] : Fin 3 → Nat) a + S16x1x150.size a ≤ S16x256x256.size a
  h_S16x1x150 : 0 < S16x1x150.numel
  shapeCasts_S16x1x150_S16x150 : S16x1x150.ShapeCasts S16x150
  shapeCasts_S16x150_S16x1x150 : S16x150.ShapeCasts S16x1x150
  inb_S16x32896_S16x149_0_21721 : ∀ a, (![0, 21721] : Fin 2 → Nat) a + S16x149.size a ≤ S16x32896.size a
  h_S16x149 : 0 < S16x149.numel
  inb_S16x256x256_S16x1x149_0_107_107 : ∀ a, (![0, 107, 107] : Fin 3 → Nat) a + S16x1x149.size a ≤ S16x256x256.size a
  h_S16x1x149 : 0 < S16x1x149.numel
  shapeCasts_S16x1x149_S16x149 : S16x1x149.ShapeCasts S16x149
  shapeCasts_S16x149_S16x1x149 : S16x149.ShapeCasts S16x1x149
  inb_S16x32896_S16x148_0_21870 : ∀ a, (![0, 21870] : Fin 2 → Nat) a + S16x148.size a ≤ S16x32896.size a
  h_S16x148 : 0 < S16x148.numel
  inb_S16x256x256_S16x1x148_0_108_108 : ∀ a, (![0, 108, 108] : Fin 3 → Nat) a + S16x1x148.size a ≤ S16x256x256.size a
  h_S16x1x148 : 0 < S16x1x148.numel
  shapeCasts_S16x1x148_S16x148 : S16x1x148.ShapeCasts S16x148
  shapeCasts_S16x148_S16x1x148 : S16x148.ShapeCasts S16x1x148
  inb_S16x32896_S16x147_0_22018 : ∀ a, (![0, 22018] : Fin 2 → Nat) a + S16x147.size a ≤ S16x32896.size a
  h_S16x147 : 0 < S16x147.numel
  inb_S16x256x256_S16x1x147_0_109_109 : ∀ a, (![0, 109, 109] : Fin 3 → Nat) a + S16x1x147.size a ≤ S16x256x256.size a
  h_S16x1x147 : 0 < S16x1x147.numel
  shapeCasts_S16x1x147_S16x147 : S16x1x147.ShapeCasts S16x147
  shapeCasts_S16x147_S16x1x147 : S16x147.ShapeCasts S16x1x147
  inb_S16x32896_S16x146_0_22165 : ∀ a, (![0, 22165] : Fin 2 → Nat) a + S16x146.size a ≤ S16x32896.size a
  h_S16x146 : 0 < S16x146.numel
  inb_S16x256x256_S16x1x146_0_110_110 : ∀ a, (![0, 110, 110] : Fin 3 → Nat) a + S16x1x146.size a ≤ S16x256x256.size a
  h_S16x1x146 : 0 < S16x1x146.numel
  shapeCasts_S16x1x146_S16x146 : S16x1x146.ShapeCasts S16x146
  shapeCasts_S16x146_S16x1x146 : S16x146.ShapeCasts S16x1x146
  inb_S16x32896_S16x145_0_22311 : ∀ a, (![0, 22311] : Fin 2 → Nat) a + S16x145.size a ≤ S16x32896.size a
  h_S16x145 : 0 < S16x145.numel
  inb_S16x256x256_S16x1x145_0_111_111 : ∀ a, (![0, 111, 111] : Fin 3 → Nat) a + S16x1x145.size a ≤ S16x256x256.size a
  h_S16x1x145 : 0 < S16x1x145.numel
  shapeCasts_S16x1x145_S16x145 : S16x1x145.ShapeCasts S16x145
  shapeCasts_S16x145_S16x1x145 : S16x145.ShapeCasts S16x1x145
  inb_S16x32896_S16x144_0_22456 : ∀ a, (![0, 22456] : Fin 2 → Nat) a + S16x144.size a ≤ S16x32896.size a
  h_S16x144 : 0 < S16x144.numel
  inb_S16x256x256_S16x1x144_0_112_112 : ∀ a, (![0, 112, 112] : Fin 3 → Nat) a + S16x1x144.size a ≤ S16x256x256.size a
  h_S16x1x144 : 0 < S16x1x144.numel
  shapeCasts_S16x1x144_S16x144 : S16x1x144.ShapeCasts S16x144
  shapeCasts_S16x144_S16x1x144 : S16x144.ShapeCasts S16x1x144
  inb_S16x32896_S16x143_0_22600 : ∀ a, (![0, 22600] : Fin 2 → Nat) a + S16x143.size a ≤ S16x32896.size a
  h_S16x143 : 0 < S16x143.numel
  inb_S16x256x256_S16x1x143_0_113_113 : ∀ a, (![0, 113, 113] : Fin 3 → Nat) a + S16x1x143.size a ≤ S16x256x256.size a
  h_S16x1x143 : 0 < S16x1x143.numel
  shapeCasts_S16x1x143_S16x143 : S16x1x143.ShapeCasts S16x143
  shapeCasts_S16x143_S16x1x143 : S16x143.ShapeCasts S16x1x143
  inb_S16x32896_S16x142_0_22743 : ∀ a, (![0, 22743] : Fin 2 → Nat) a + S16x142.size a ≤ S16x32896.size a
  h_S16x142 : 0 < S16x142.numel
  inb_S16x256x256_S16x1x142_0_114_114 : ∀ a, (![0, 114, 114] : Fin 3 → Nat) a + S16x1x142.size a ≤ S16x256x256.size a
  h_S16x1x142 : 0 < S16x1x142.numel
  shapeCasts_S16x1x142_S16x142 : S16x1x142.ShapeCasts S16x142
  shapeCasts_S16x142_S16x1x142 : S16x142.ShapeCasts S16x1x142
  inb_S16x32896_S16x141_0_22885 : ∀ a, (![0, 22885] : Fin 2 → Nat) a + S16x141.size a ≤ S16x32896.size a
  h_S16x141 : 0 < S16x141.numel
  inb_S16x256x256_S16x1x141_0_115_115 : ∀ a, (![0, 115, 115] : Fin 3 → Nat) a + S16x1x141.size a ≤ S16x256x256.size a
  h_S16x1x141 : 0 < S16x1x141.numel
  shapeCasts_S16x1x141_S16x141 : S16x1x141.ShapeCasts S16x141
  shapeCasts_S16x141_S16x1x141 : S16x141.ShapeCasts S16x1x141
  inb_S16x32896_S16x140_0_23026 : ∀ a, (![0, 23026] : Fin 2 → Nat) a + S16x140.size a ≤ S16x32896.size a
  h_S16x140 : 0 < S16x140.numel
  inb_S16x256x256_S16x1x140_0_116_116 : ∀ a, (![0, 116, 116] : Fin 3 → Nat) a + S16x1x140.size a ≤ S16x256x256.size a
  h_S16x1x140 : 0 < S16x1x140.numel
  shapeCasts_S16x1x140_S16x140 : S16x1x140.ShapeCasts S16x140
  shapeCasts_S16x140_S16x1x140 : S16x140.ShapeCasts S16x1x140
  inb_S16x32896_S16x139_0_23166 : ∀ a, (![0, 23166] : Fin 2 → Nat) a + S16x139.size a ≤ S16x32896.size a
  h_S16x139 : 0 < S16x139.numel
  inb_S16x256x256_S16x1x139_0_117_117 : ∀ a, (![0, 117, 117] : Fin 3 → Nat) a + S16x1x139.size a ≤ S16x256x256.size a
  h_S16x1x139 : 0 < S16x1x139.numel
  shapeCasts_S16x1x139_S16x139 : S16x1x139.ShapeCasts S16x139
  shapeCasts_S16x139_S16x1x139 : S16x139.ShapeCasts S16x1x139
  inb_S16x32896_S16x138_0_23305 : ∀ a, (![0, 23305] : Fin 2 → Nat) a + S16x138.size a ≤ S16x32896.size a
  h_S16x138 : 0 < S16x138.numel
  inb_S16x256x256_S16x1x138_0_118_118 : ∀ a, (![0, 118, 118] : Fin 3 → Nat) a + S16x1x138.size a ≤ S16x256x256.size a
  h_S16x1x138 : 0 < S16x1x138.numel
  shapeCasts_S16x1x138_S16x138 : S16x1x138.ShapeCasts S16x138
  shapeCasts_S16x138_S16x1x138 : S16x138.ShapeCasts S16x1x138
  inb_S16x32896_S16x137_0_23443 : ∀ a, (![0, 23443] : Fin 2 → Nat) a + S16x137.size a ≤ S16x32896.size a
  h_S16x137 : 0 < S16x137.numel
  inb_S16x256x256_S16x1x137_0_119_119 : ∀ a, (![0, 119, 119] : Fin 3 → Nat) a + S16x1x137.size a ≤ S16x256x256.size a
  h_S16x1x137 : 0 < S16x1x137.numel
  shapeCasts_S16x1x137_S16x137 : S16x1x137.ShapeCasts S16x137
  shapeCasts_S16x137_S16x1x137 : S16x137.ShapeCasts S16x1x137
  inb_S16x32896_S16x136_0_23580 : ∀ a, (![0, 23580] : Fin 2 → Nat) a + S16x136.size a ≤ S16x32896.size a
  h_S16x136 : 0 < S16x136.numel
  inb_S16x256x256_S16x1x136_0_120_120 : ∀ a, (![0, 120, 120] : Fin 3 → Nat) a + S16x1x136.size a ≤ S16x256x256.size a
  h_S16x1x136 : 0 < S16x1x136.numel
  shapeCasts_S16x1x136_S16x136 : S16x1x136.ShapeCasts S16x136
  shapeCasts_S16x136_S16x1x136 : S16x136.ShapeCasts S16x1x136
  inb_S16x32896_S16x135_0_23716 : ∀ a, (![0, 23716] : Fin 2 → Nat) a + S16x135.size a ≤ S16x32896.size a
  h_S16x135 : 0 < S16x135.numel
  inb_S16x256x256_S16x1x135_0_121_121 : ∀ a, (![0, 121, 121] : Fin 3 → Nat) a + S16x1x135.size a ≤ S16x256x256.size a
  h_S16x1x135 : 0 < S16x1x135.numel
  shapeCasts_S16x1x135_S16x135 : S16x1x135.ShapeCasts S16x135
  shapeCasts_S16x135_S16x1x135 : S16x135.ShapeCasts S16x1x135
  inb_S16x32896_S16x134_0_23851 : ∀ a, (![0, 23851] : Fin 2 → Nat) a + S16x134.size a ≤ S16x32896.size a
  h_S16x134 : 0 < S16x134.numel
  inb_S16x256x256_S16x1x134_0_122_122 : ∀ a, (![0, 122, 122] : Fin 3 → Nat) a + S16x1x134.size a ≤ S16x256x256.size a
  h_S16x1x134 : 0 < S16x1x134.numel
  shapeCasts_S16x1x134_S16x134 : S16x1x134.ShapeCasts S16x134
  shapeCasts_S16x134_S16x1x134 : S16x134.ShapeCasts S16x1x134
  inb_S16x32896_S16x133_0_23985 : ∀ a, (![0, 23985] : Fin 2 → Nat) a + S16x133.size a ≤ S16x32896.size a
  h_S16x133 : 0 < S16x133.numel
  inb_S16x256x256_S16x1x133_0_123_123 : ∀ a, (![0, 123, 123] : Fin 3 → Nat) a + S16x1x133.size a ≤ S16x256x256.size a
  h_S16x1x133 : 0 < S16x1x133.numel
  shapeCasts_S16x1x133_S16x133 : S16x1x133.ShapeCasts S16x133
  shapeCasts_S16x133_S16x1x133 : S16x133.ShapeCasts S16x1x133
  inb_S16x32896_S16x132_0_24118 : ∀ a, (![0, 24118] : Fin 2 → Nat) a + S16x132.size a ≤ S16x32896.size a
  h_S16x132 : 0 < S16x132.numel
  inb_S16x256x256_S16x1x132_0_124_124 : ∀ a, (![0, 124, 124] : Fin 3 → Nat) a + S16x1x132.size a ≤ S16x256x256.size a
  h_S16x1x132 : 0 < S16x1x132.numel
  shapeCasts_S16x1x132_S16x132 : S16x1x132.ShapeCasts S16x132
  shapeCasts_S16x132_S16x1x132 : S16x132.ShapeCasts S16x1x132
  inb_S16x32896_S16x131_0_24250 : ∀ a, (![0, 24250] : Fin 2 → Nat) a + S16x131.size a ≤ S16x32896.size a
  h_S16x131 : 0 < S16x131.numel
  inb_S16x256x256_S16x1x131_0_125_125 : ∀ a, (![0, 125, 125] : Fin 3 → Nat) a + S16x1x131.size a ≤ S16x256x256.size a
  h_S16x1x131 : 0 < S16x1x131.numel
  shapeCasts_S16x1x131_S16x131 : S16x1x131.ShapeCasts S16x131
  shapeCasts_S16x131_S16x1x131 : S16x131.ShapeCasts S16x1x131
  inb_S16x32896_S16x130_0_24381 : ∀ a, (![0, 24381] : Fin 2 → Nat) a + S16x130.size a ≤ S16x32896.size a
  h_S16x130 : 0 < S16x130.numel
  inb_S16x256x256_S16x1x130_0_126_126 : ∀ a, (![0, 126, 126] : Fin 3 → Nat) a + S16x1x130.size a ≤ S16x256x256.size a
  h_S16x1x130 : 0 < S16x1x130.numel
  shapeCasts_S16x1x130_S16x130 : S16x1x130.ShapeCasts S16x130
  shapeCasts_S16x130_S16x1x130 : S16x130.ShapeCasts S16x1x130
  inb_S16x32896_S16x129_0_24511 : ∀ a, (![0, 24511] : Fin 2 → Nat) a + S16x129.size a ≤ S16x32896.size a
  h_S16x129 : 0 < S16x129.numel
  inb_S16x256x256_S16x1x129_0_127_127 : ∀ a, (![0, 127, 127] : Fin 3 → Nat) a + S16x1x129.size a ≤ S16x256x256.size a
  h_S16x1x129 : 0 < S16x1x129.numel
  shapeCasts_S16x1x129_S16x129 : S16x1x129.ShapeCasts S16x129
  shapeCasts_S16x129_S16x1x129 : S16x129.ShapeCasts S16x1x129
  inb_S16x32896_S16x128_0_24640 : ∀ a, (![0, 24640] : Fin 2 → Nat) a + S16x128.size a ≤ S16x32896.size a
  h_S16x128 : 0 < S16x128.numel
  inb_S16x256x256_S16x1x128_0_128_128 : ∀ a, (![0, 128, 128] : Fin 3 → Nat) a + S16x1x128.size a ≤ S16x256x256.size a
  h_S16x1x128 : 0 < S16x1x128.numel
  shapeCasts_S16x1x128_S16x128 : S16x1x128.ShapeCasts S16x128
  shapeCasts_S16x128_S16x1x128 : S16x128.ShapeCasts S16x1x128
  inb_S16x32896_S16x127_0_24768 : ∀ a, (![0, 24768] : Fin 2 → Nat) a + S16x127.size a ≤ S16x32896.size a
  h_S16x127 : 0 < S16x127.numel
  inb_S16x256x256_S16x1x127_0_129_129 : ∀ a, (![0, 129, 129] : Fin 3 → Nat) a + S16x1x127.size a ≤ S16x256x256.size a
  h_S16x1x127 : 0 < S16x1x127.numel
  shapeCasts_S16x1x127_S16x127 : S16x1x127.ShapeCasts S16x127
  shapeCasts_S16x127_S16x1x127 : S16x127.ShapeCasts S16x1x127
  inb_S16x32896_S16x126_0_24895 : ∀ a, (![0, 24895] : Fin 2 → Nat) a + S16x126.size a ≤ S16x32896.size a
  h_S16x126 : 0 < S16x126.numel
  inb_S16x256x256_S16x1x126_0_130_130 : ∀ a, (![0, 130, 130] : Fin 3 → Nat) a + S16x1x126.size a ≤ S16x256x256.size a
  h_S16x1x126 : 0 < S16x1x126.numel
  shapeCasts_S16x1x126_S16x126 : S16x1x126.ShapeCasts S16x126
  shapeCasts_S16x126_S16x1x126 : S16x126.ShapeCasts S16x1x126
  inb_S16x32896_S16x125_0_25021 : ∀ a, (![0, 25021] : Fin 2 → Nat) a + S16x125.size a ≤ S16x32896.size a
  h_S16x125 : 0 < S16x125.numel
  inb_S16x256x256_S16x1x125_0_131_131 : ∀ a, (![0, 131, 131] : Fin 3 → Nat) a + S16x1x125.size a ≤ S16x256x256.size a
  h_S16x1x125 : 0 < S16x1x125.numel
  shapeCasts_S16x1x125_S16x125 : S16x1x125.ShapeCasts S16x125
  shapeCasts_S16x125_S16x1x125 : S16x125.ShapeCasts S16x1x125
  inb_S16x32896_S16x124_0_25146 : ∀ a, (![0, 25146] : Fin 2 → Nat) a + S16x124.size a ≤ S16x32896.size a
  h_S16x124 : 0 < S16x124.numel
  inb_S16x256x256_S16x1x124_0_132_132 : ∀ a, (![0, 132, 132] : Fin 3 → Nat) a + S16x1x124.size a ≤ S16x256x256.size a
  h_S16x1x124 : 0 < S16x1x124.numel
  shapeCasts_S16x1x124_S16x124 : S16x1x124.ShapeCasts S16x124
  shapeCasts_S16x124_S16x1x124 : S16x124.ShapeCasts S16x1x124
  inb_S16x32896_S16x123_0_25270 : ∀ a, (![0, 25270] : Fin 2 → Nat) a + S16x123.size a ≤ S16x32896.size a
  h_S16x123 : 0 < S16x123.numel
  inb_S16x256x256_S16x1x123_0_133_133 : ∀ a, (![0, 133, 133] : Fin 3 → Nat) a + S16x1x123.size a ≤ S16x256x256.size a
  h_S16x1x123 : 0 < S16x1x123.numel
  shapeCasts_S16x1x123_S16x123 : S16x1x123.ShapeCasts S16x123
  shapeCasts_S16x123_S16x1x123 : S16x123.ShapeCasts S16x1x123
  inb_S16x32896_S16x122_0_25393 : ∀ a, (![0, 25393] : Fin 2 → Nat) a + S16x122.size a ≤ S16x32896.size a
  h_S16x122 : 0 < S16x122.numel
  inb_S16x256x256_S16x1x122_0_134_134 : ∀ a, (![0, 134, 134] : Fin 3 → Nat) a + S16x1x122.size a ≤ S16x256x256.size a
  h_S16x1x122 : 0 < S16x1x122.numel
  shapeCasts_S16x1x122_S16x122 : S16x1x122.ShapeCasts S16x122
  shapeCasts_S16x122_S16x1x122 : S16x122.ShapeCasts S16x1x122
  inb_S16x32896_S16x121_0_25515 : ∀ a, (![0, 25515] : Fin 2 → Nat) a + S16x121.size a ≤ S16x32896.size a
  h_S16x121 : 0 < S16x121.numel
  inb_S16x256x256_S16x1x121_0_135_135 : ∀ a, (![0, 135, 135] : Fin 3 → Nat) a + S16x1x121.size a ≤ S16x256x256.size a
  h_S16x1x121 : 0 < S16x1x121.numel
  shapeCasts_S16x1x121_S16x121 : S16x1x121.ShapeCasts S16x121
  shapeCasts_S16x121_S16x1x121 : S16x121.ShapeCasts S16x1x121
  inb_S16x32896_S16x120_0_25636 : ∀ a, (![0, 25636] : Fin 2 → Nat) a + S16x120.size a ≤ S16x32896.size a
  h_S16x120 : 0 < S16x120.numel
  inb_S16x256x256_S16x1x120_0_136_136 : ∀ a, (![0, 136, 136] : Fin 3 → Nat) a + S16x1x120.size a ≤ S16x256x256.size a
  h_S16x1x120 : 0 < S16x1x120.numel
  shapeCasts_S16x1x120_S16x120 : S16x1x120.ShapeCasts S16x120
  shapeCasts_S16x120_S16x1x120 : S16x120.ShapeCasts S16x1x120
  inb_S16x32896_S16x119_0_25756 : ∀ a, (![0, 25756] : Fin 2 → Nat) a + S16x119.size a ≤ S16x32896.size a
  h_S16x119 : 0 < S16x119.numel
  inb_S16x256x256_S16x1x119_0_137_137 : ∀ a, (![0, 137, 137] : Fin 3 → Nat) a + S16x1x119.size a ≤ S16x256x256.size a
  h_S16x1x119 : 0 < S16x1x119.numel
  shapeCasts_S16x1x119_S16x119 : S16x1x119.ShapeCasts S16x119
  shapeCasts_S16x119_S16x1x119 : S16x119.ShapeCasts S16x1x119
  inb_S16x32896_S16x118_0_25875 : ∀ a, (![0, 25875] : Fin 2 → Nat) a + S16x118.size a ≤ S16x32896.size a
  h_S16x118 : 0 < S16x118.numel
  inb_S16x256x256_S16x1x118_0_138_138 : ∀ a, (![0, 138, 138] : Fin 3 → Nat) a + S16x1x118.size a ≤ S16x256x256.size a
  h_S16x1x118 : 0 < S16x1x118.numel
  shapeCasts_S16x1x118_S16x118 : S16x1x118.ShapeCasts S16x118
  shapeCasts_S16x118_S16x1x118 : S16x118.ShapeCasts S16x1x118
  inb_S16x32896_S16x117_0_25993 : ∀ a, (![0, 25993] : Fin 2 → Nat) a + S16x117.size a ≤ S16x32896.size a
  h_S16x117 : 0 < S16x117.numel
  inb_S16x256x256_S16x1x117_0_139_139 : ∀ a, (![0, 139, 139] : Fin 3 → Nat) a + S16x1x117.size a ≤ S16x256x256.size a
  h_S16x1x117 : 0 < S16x1x117.numel
  shapeCasts_S16x1x117_S16x117 : S16x1x117.ShapeCasts S16x117
  shapeCasts_S16x117_S16x1x117 : S16x117.ShapeCasts S16x1x117
  inb_S16x32896_S16x116_0_26110 : ∀ a, (![0, 26110] : Fin 2 → Nat) a + S16x116.size a ≤ S16x32896.size a
  h_S16x116 : 0 < S16x116.numel
  inb_S16x256x256_S16x1x116_0_140_140 : ∀ a, (![0, 140, 140] : Fin 3 → Nat) a + S16x1x116.size a ≤ S16x256x256.size a
  h_S16x1x116 : 0 < S16x1x116.numel
  shapeCasts_S16x1x116_S16x116 : S16x1x116.ShapeCasts S16x116
  shapeCasts_S16x116_S16x1x116 : S16x116.ShapeCasts S16x1x116
  inb_S16x32896_S16x115_0_26226 : ∀ a, (![0, 26226] : Fin 2 → Nat) a + S16x115.size a ≤ S16x32896.size a
  h_S16x115 : 0 < S16x115.numel
  inb_S16x256x256_S16x1x115_0_141_141 : ∀ a, (![0, 141, 141] : Fin 3 → Nat) a + S16x1x115.size a ≤ S16x256x256.size a
  h_S16x1x115 : 0 < S16x1x115.numel
  shapeCasts_S16x1x115_S16x115 : S16x1x115.ShapeCasts S16x115
  shapeCasts_S16x115_S16x1x115 : S16x115.ShapeCasts S16x1x115
  inb_S16x32896_S16x114_0_26341 : ∀ a, (![0, 26341] : Fin 2 → Nat) a + S16x114.size a ≤ S16x32896.size a
  h_S16x114 : 0 < S16x114.numel
  inb_S16x256x256_S16x1x114_0_142_142 : ∀ a, (![0, 142, 142] : Fin 3 → Nat) a + S16x1x114.size a ≤ S16x256x256.size a
  h_S16x1x114 : 0 < S16x1x114.numel
  shapeCasts_S16x1x114_S16x114 : S16x1x114.ShapeCasts S16x114
  shapeCasts_S16x114_S16x1x114 : S16x114.ShapeCasts S16x1x114
  inb_S16x32896_S16x113_0_26455 : ∀ a, (![0, 26455] : Fin 2 → Nat) a + S16x113.size a ≤ S16x32896.size a
  h_S16x113 : 0 < S16x113.numel
  inb_S16x256x256_S16x1x113_0_143_143 : ∀ a, (![0, 143, 143] : Fin 3 → Nat) a + S16x1x113.size a ≤ S16x256x256.size a
  h_S16x1x113 : 0 < S16x1x113.numel
  shapeCasts_S16x1x113_S16x113 : S16x1x113.ShapeCasts S16x113
  shapeCasts_S16x113_S16x1x113 : S16x113.ShapeCasts S16x1x113
  inb_S16x32896_S16x112_0_26568 : ∀ a, (![0, 26568] : Fin 2 → Nat) a + S16x112.size a ≤ S16x32896.size a
  h_S16x112 : 0 < S16x112.numel
  inb_S16x256x256_S16x1x112_0_144_144 : ∀ a, (![0, 144, 144] : Fin 3 → Nat) a + S16x1x112.size a ≤ S16x256x256.size a
  h_S16x1x112 : 0 < S16x1x112.numel
  shapeCasts_S16x1x112_S16x112 : S16x1x112.ShapeCasts S16x112
  shapeCasts_S16x112_S16x1x112 : S16x112.ShapeCasts S16x1x112
  inb_S16x32896_S16x111_0_26680 : ∀ a, (![0, 26680] : Fin 2 → Nat) a + S16x111.size a ≤ S16x32896.size a
  h_S16x111 : 0 < S16x111.numel
  inb_S16x256x256_S16x1x111_0_145_145 : ∀ a, (![0, 145, 145] : Fin 3 → Nat) a + S16x1x111.size a ≤ S16x256x256.size a
  h_S16x1x111 : 0 < S16x1x111.numel
  shapeCasts_S16x1x111_S16x111 : S16x1x111.ShapeCasts S16x111
  shapeCasts_S16x111_S16x1x111 : S16x111.ShapeCasts S16x1x111
  inb_S16x32896_S16x110_0_26791 : ∀ a, (![0, 26791] : Fin 2 → Nat) a + S16x110.size a ≤ S16x32896.size a
  h_S16x110 : 0 < S16x110.numel
  inb_S16x256x256_S16x1x110_0_146_146 : ∀ a, (![0, 146, 146] : Fin 3 → Nat) a + S16x1x110.size a ≤ S16x256x256.size a
  h_S16x1x110 : 0 < S16x1x110.numel
  shapeCasts_S16x1x110_S16x110 : S16x1x110.ShapeCasts S16x110
  shapeCasts_S16x110_S16x1x110 : S16x110.ShapeCasts S16x1x110
  inb_S16x32896_S16x109_0_26901 : ∀ a, (![0, 26901] : Fin 2 → Nat) a + S16x109.size a ≤ S16x32896.size a
  h_S16x109 : 0 < S16x109.numel
  inb_S16x256x256_S16x1x109_0_147_147 : ∀ a, (![0, 147, 147] : Fin 3 → Nat) a + S16x1x109.size a ≤ S16x256x256.size a
  h_S16x1x109 : 0 < S16x1x109.numel
  shapeCasts_S16x1x109_S16x109 : S16x1x109.ShapeCasts S16x109
  shapeCasts_S16x109_S16x1x109 : S16x109.ShapeCasts S16x1x109
  inb_S16x32896_S16x108_0_27010 : ∀ a, (![0, 27010] : Fin 2 → Nat) a + S16x108.size a ≤ S16x32896.size a
  h_S16x108 : 0 < S16x108.numel
  inb_S16x256x256_S16x1x108_0_148_148 : ∀ a, (![0, 148, 148] : Fin 3 → Nat) a + S16x1x108.size a ≤ S16x256x256.size a
  h_S16x1x108 : 0 < S16x1x108.numel
  shapeCasts_S16x1x108_S16x108 : S16x1x108.ShapeCasts S16x108
  shapeCasts_S16x108_S16x1x108 : S16x108.ShapeCasts S16x1x108
  inb_S16x32896_S16x107_0_27118 : ∀ a, (![0, 27118] : Fin 2 → Nat) a + S16x107.size a ≤ S16x32896.size a
  h_S16x107 : 0 < S16x107.numel
  inb_S16x256x256_S16x1x107_0_149_149 : ∀ a, (![0, 149, 149] : Fin 3 → Nat) a + S16x1x107.size a ≤ S16x256x256.size a
  h_S16x1x107 : 0 < S16x1x107.numel
  shapeCasts_S16x1x107_S16x107 : S16x1x107.ShapeCasts S16x107
  shapeCasts_S16x107_S16x1x107 : S16x107.ShapeCasts S16x1x107
  inb_S16x32896_S16x106_0_27225 : ∀ a, (![0, 27225] : Fin 2 → Nat) a + S16x106.size a ≤ S16x32896.size a
  h_S16x106 : 0 < S16x106.numel
  inb_S16x256x256_S16x1x106_0_150_150 : ∀ a, (![0, 150, 150] : Fin 3 → Nat) a + S16x1x106.size a ≤ S16x256x256.size a
  h_S16x1x106 : 0 < S16x1x106.numel
  shapeCasts_S16x1x106_S16x106 : S16x1x106.ShapeCasts S16x106
  shapeCasts_S16x106_S16x1x106 : S16x106.ShapeCasts S16x1x106
  inb_S16x32896_S16x105_0_27331 : ∀ a, (![0, 27331] : Fin 2 → Nat) a + S16x105.size a ≤ S16x32896.size a
  h_S16x105 : 0 < S16x105.numel
  inb_S16x256x256_S16x1x105_0_151_151 : ∀ a, (![0, 151, 151] : Fin 3 → Nat) a + S16x1x105.size a ≤ S16x256x256.size a
  h_S16x1x105 : 0 < S16x1x105.numel
  shapeCasts_S16x1x105_S16x105 : S16x1x105.ShapeCasts S16x105
  shapeCasts_S16x105_S16x1x105 : S16x105.ShapeCasts S16x1x105
  inb_S16x32896_S16x104_0_27436 : ∀ a, (![0, 27436] : Fin 2 → Nat) a + S16x104.size a ≤ S16x32896.size a
  h_S16x104 : 0 < S16x104.numel
  inb_S16x256x256_S16x1x104_0_152_152 : ∀ a, (![0, 152, 152] : Fin 3 → Nat) a + S16x1x104.size a ≤ S16x256x256.size a
  h_S16x1x104 : 0 < S16x1x104.numel
  shapeCasts_S16x1x104_S16x104 : S16x1x104.ShapeCasts S16x104
  shapeCasts_S16x104_S16x1x104 : S16x104.ShapeCasts S16x1x104
  inb_S16x32896_S16x103_0_27540 : ∀ a, (![0, 27540] : Fin 2 → Nat) a + S16x103.size a ≤ S16x32896.size a
  h_S16x103 : 0 < S16x103.numel
  inb_S16x256x256_S16x1x103_0_153_153 : ∀ a, (![0, 153, 153] : Fin 3 → Nat) a + S16x1x103.size a ≤ S16x256x256.size a
  h_S16x1x103 : 0 < S16x1x103.numel
  shapeCasts_S16x1x103_S16x103 : S16x1x103.ShapeCasts S16x103
  shapeCasts_S16x103_S16x1x103 : S16x103.ShapeCasts S16x1x103
  inb_S16x32896_S16x102_0_27643 : ∀ a, (![0, 27643] : Fin 2 → Nat) a + S16x102.size a ≤ S16x32896.size a
  h_S16x102 : 0 < S16x102.numel
  inb_S16x256x256_S16x1x102_0_154_154 : ∀ a, (![0, 154, 154] : Fin 3 → Nat) a + S16x1x102.size a ≤ S16x256x256.size a
  h_S16x1x102 : 0 < S16x1x102.numel
  shapeCasts_S16x1x102_S16x102 : S16x1x102.ShapeCasts S16x102
  shapeCasts_S16x102_S16x1x102 : S16x102.ShapeCasts S16x1x102
  inb_S16x32896_S16x101_0_27745 : ∀ a, (![0, 27745] : Fin 2 → Nat) a + S16x101.size a ≤ S16x32896.size a
  h_S16x101 : 0 < S16x101.numel
  inb_S16x256x256_S16x1x101_0_155_155 : ∀ a, (![0, 155, 155] : Fin 3 → Nat) a + S16x1x101.size a ≤ S16x256x256.size a
  h_S16x1x101 : 0 < S16x1x101.numel
  shapeCasts_S16x1x101_S16x101 : S16x1x101.ShapeCasts S16x101
  shapeCasts_S16x101_S16x1x101 : S16x101.ShapeCasts S16x1x101
  inb_S16x32896_S16x100_0_27846 : ∀ a, (![0, 27846] : Fin 2 → Nat) a + S16x100.size a ≤ S16x32896.size a
  h_S16x100 : 0 < S16x100.numel
  inb_S16x256x256_S16x1x100_0_156_156 : ∀ a, (![0, 156, 156] : Fin 3 → Nat) a + S16x1x100.size a ≤ S16x256x256.size a
  h_S16x1x100 : 0 < S16x1x100.numel
  shapeCasts_S16x1x100_S16x100 : S16x1x100.ShapeCasts S16x100
  shapeCasts_S16x100_S16x1x100 : S16x100.ShapeCasts S16x1x100
  inb_S16x32896_S16x99_0_27946 : ∀ a, (![0, 27946] : Fin 2 → Nat) a + S16x99.size a ≤ S16x32896.size a
  h_S16x99 : 0 < S16x99.numel
  inb_S16x256x256_S16x1x99_0_157_157 : ∀ a, (![0, 157, 157] : Fin 3 → Nat) a + S16x1x99.size a ≤ S16x256x256.size a
  h_S16x1x99 : 0 < S16x1x99.numel
  shapeCasts_S16x1x99_S16x99 : S16x1x99.ShapeCasts S16x99
  shapeCasts_S16x99_S16x1x99 : S16x99.ShapeCasts S16x1x99
  inb_S16x32896_S16x98_0_28045 : ∀ a, (![0, 28045] : Fin 2 → Nat) a + S16x98.size a ≤ S16x32896.size a
  h_S16x98 : 0 < S16x98.numel
  inb_S16x256x256_S16x1x98_0_158_158 : ∀ a, (![0, 158, 158] : Fin 3 → Nat) a + S16x1x98.size a ≤ S16x256x256.size a
  h_S16x1x98 : 0 < S16x1x98.numel
  shapeCasts_S16x1x98_S16x98 : S16x1x98.ShapeCasts S16x98
  shapeCasts_S16x98_S16x1x98 : S16x98.ShapeCasts S16x1x98
  inb_S16x32896_S16x97_0_28143 : ∀ a, (![0, 28143] : Fin 2 → Nat) a + S16x97.size a ≤ S16x32896.size a
  h_S16x97 : 0 < S16x97.numel
  inb_S16x256x256_S16x1x97_0_159_159 : ∀ a, (![0, 159, 159] : Fin 3 → Nat) a + S16x1x97.size a ≤ S16x256x256.size a
  h_S16x1x97 : 0 < S16x1x97.numel
  shapeCasts_S16x1x97_S16x97 : S16x1x97.ShapeCasts S16x97
  shapeCasts_S16x97_S16x1x97 : S16x97.ShapeCasts S16x1x97
  inb_S16x32896_S16x96_0_28240 : ∀ a, (![0, 28240] : Fin 2 → Nat) a + S16x96.size a ≤ S16x32896.size a
  h_S16x96 : 0 < S16x96.numel
  inb_S16x256x256_S16x1x96_0_160_160 : ∀ a, (![0, 160, 160] : Fin 3 → Nat) a + S16x1x96.size a ≤ S16x256x256.size a
  h_S16x1x96 : 0 < S16x1x96.numel
  shapeCasts_S16x1x96_S16x96 : S16x1x96.ShapeCasts S16x96
  shapeCasts_S16x96_S16x1x96 : S16x96.ShapeCasts S16x1x96
  inb_S16x32896_S16x95_0_28336 : ∀ a, (![0, 28336] : Fin 2 → Nat) a + S16x95.size a ≤ S16x32896.size a
  h_S16x95 : 0 < S16x95.numel
  inb_S16x256x256_S16x1x95_0_161_161 : ∀ a, (![0, 161, 161] : Fin 3 → Nat) a + S16x1x95.size a ≤ S16x256x256.size a
  h_S16x1x95 : 0 < S16x1x95.numel
  shapeCasts_S16x1x95_S16x95 : S16x1x95.ShapeCasts S16x95
  shapeCasts_S16x95_S16x1x95 : S16x95.ShapeCasts S16x1x95
  inb_S16x32896_S16x94_0_28431 : ∀ a, (![0, 28431] : Fin 2 → Nat) a + S16x94.size a ≤ S16x32896.size a
  h_S16x94 : 0 < S16x94.numel
  inb_S16x256x256_S16x1x94_0_162_162 : ∀ a, (![0, 162, 162] : Fin 3 → Nat) a + S16x1x94.size a ≤ S16x256x256.size a
  h_S16x1x94 : 0 < S16x1x94.numel
  shapeCasts_S16x1x94_S16x94 : S16x1x94.ShapeCasts S16x94
  shapeCasts_S16x94_S16x1x94 : S16x94.ShapeCasts S16x1x94
  inb_S16x32896_S16x93_0_28525 : ∀ a, (![0, 28525] : Fin 2 → Nat) a + S16x93.size a ≤ S16x32896.size a
  h_S16x93 : 0 < S16x93.numel
  inb_S16x256x256_S16x1x93_0_163_163 : ∀ a, (![0, 163, 163] : Fin 3 → Nat) a + S16x1x93.size a ≤ S16x256x256.size a
  h_S16x1x93 : 0 < S16x1x93.numel
  shapeCasts_S16x1x93_S16x93 : S16x1x93.ShapeCasts S16x93
  shapeCasts_S16x93_S16x1x93 : S16x93.ShapeCasts S16x1x93
  inb_S16x32896_S16x92_0_28618 : ∀ a, (![0, 28618] : Fin 2 → Nat) a + S16x92.size a ≤ S16x32896.size a
  h_S16x92 : 0 < S16x92.numel
  inb_S16x256x256_S16x1x92_0_164_164 : ∀ a, (![0, 164, 164] : Fin 3 → Nat) a + S16x1x92.size a ≤ S16x256x256.size a
  h_S16x1x92 : 0 < S16x1x92.numel
  shapeCasts_S16x1x92_S16x92 : S16x1x92.ShapeCasts S16x92
  shapeCasts_S16x92_S16x1x92 : S16x92.ShapeCasts S16x1x92
  inb_S16x32896_S16x91_0_28710 : ∀ a, (![0, 28710] : Fin 2 → Nat) a + S16x91.size a ≤ S16x32896.size a
  h_S16x91 : 0 < S16x91.numel
  inb_S16x256x256_S16x1x91_0_165_165 : ∀ a, (![0, 165, 165] : Fin 3 → Nat) a + S16x1x91.size a ≤ S16x256x256.size a
  h_S16x1x91 : 0 < S16x1x91.numel
  shapeCasts_S16x1x91_S16x91 : S16x1x91.ShapeCasts S16x91
  shapeCasts_S16x91_S16x1x91 : S16x91.ShapeCasts S16x1x91
  inb_S16x32896_S16x90_0_28801 : ∀ a, (![0, 28801] : Fin 2 → Nat) a + S16x90.size a ≤ S16x32896.size a

class Shapes2.Facts₀ : Prop where
  h_S16x90 : 0 < S16x90.numel
  inb_S16x256x256_S16x1x90_0_166_166 : ∀ a, (![0, 166, 166] : Fin 3 → Nat) a + S16x1x90.size a ≤ S16x256x256.size a
  h_S16x1x90 : 0 < S16x1x90.numel
  shapeCasts_S16x1x90_S16x90 : S16x1x90.ShapeCasts S16x90
  shapeCasts_S16x90_S16x1x90 : S16x90.ShapeCasts S16x1x90
  inb_S16x32896_S16x89_0_28891 : ∀ a, (![0, 28891] : Fin 2 → Nat) a + S16x89.size a ≤ S16x32896.size a
  h_S16x89 : 0 < S16x89.numel
  inb_S16x256x256_S16x1x89_0_167_167 : ∀ a, (![0, 167, 167] : Fin 3 → Nat) a + S16x1x89.size a ≤ S16x256x256.size a
  h_S16x1x89 : 0 < S16x1x89.numel
  shapeCasts_S16x1x89_S16x89 : S16x1x89.ShapeCasts S16x89
  shapeCasts_S16x89_S16x1x89 : S16x89.ShapeCasts S16x1x89
  inb_S16x32896_S16x88_0_28980 : ∀ a, (![0, 28980] : Fin 2 → Nat) a + S16x88.size a ≤ S16x32896.size a
  h_S16x88 : 0 < S16x88.numel
  inb_S16x256x256_S16x1x88_0_168_168 : ∀ a, (![0, 168, 168] : Fin 3 → Nat) a + S16x1x88.size a ≤ S16x256x256.size a
  h_S16x1x88 : 0 < S16x1x88.numel
  shapeCasts_S16x1x88_S16x88 : S16x1x88.ShapeCasts S16x88
  shapeCasts_S16x88_S16x1x88 : S16x88.ShapeCasts S16x1x88
  inb_S16x32896_S16x87_0_29068 : ∀ a, (![0, 29068] : Fin 2 → Nat) a + S16x87.size a ≤ S16x32896.size a
  h_S16x87 : 0 < S16x87.numel
  inb_S16x256x256_S16x1x87_0_169_169 : ∀ a, (![0, 169, 169] : Fin 3 → Nat) a + S16x1x87.size a ≤ S16x256x256.size a
  h_S16x1x87 : 0 < S16x1x87.numel
  shapeCasts_S16x1x87_S16x87 : S16x1x87.ShapeCasts S16x87
  shapeCasts_S16x87_S16x1x87 : S16x87.ShapeCasts S16x1x87
  inb_S16x32896_S16x86_0_29155 : ∀ a, (![0, 29155] : Fin 2 → Nat) a + S16x86.size a ≤ S16x32896.size a
  h_S16x86 : 0 < S16x86.numel
  inb_S16x256x256_S16x1x86_0_170_170 : ∀ a, (![0, 170, 170] : Fin 3 → Nat) a + S16x1x86.size a ≤ S16x256x256.size a
  h_S16x1x86 : 0 < S16x1x86.numel
  shapeCasts_S16x1x86_S16x86 : S16x1x86.ShapeCasts S16x86
  shapeCasts_S16x86_S16x1x86 : S16x86.ShapeCasts S16x1x86
  inb_S16x32896_S16x85_0_29241 : ∀ a, (![0, 29241] : Fin 2 → Nat) a + S16x85.size a ≤ S16x32896.size a
  h_S16x85 : 0 < S16x85.numel
  inb_S16x256x256_S16x1x85_0_171_171 : ∀ a, (![0, 171, 171] : Fin 3 → Nat) a + S16x1x85.size a ≤ S16x256x256.size a
  h_S16x1x85 : 0 < S16x1x85.numel
  shapeCasts_S16x1x85_S16x85 : S16x1x85.ShapeCasts S16x85
  shapeCasts_S16x85_S16x1x85 : S16x85.ShapeCasts S16x1x85
  inb_S16x32896_S16x84_0_29326 : ∀ a, (![0, 29326] : Fin 2 → Nat) a + S16x84.size a ≤ S16x32896.size a
  h_S16x84 : 0 < S16x84.numel
  inb_S16x256x256_S16x1x84_0_172_172 : ∀ a, (![0, 172, 172] : Fin 3 → Nat) a + S16x1x84.size a ≤ S16x256x256.size a
  h_S16x1x84 : 0 < S16x1x84.numel
  shapeCasts_S16x1x84_S16x84 : S16x1x84.ShapeCasts S16x84
  shapeCasts_S16x84_S16x1x84 : S16x84.ShapeCasts S16x1x84
  inb_S16x32896_S16x83_0_29410 : ∀ a, (![0, 29410] : Fin 2 → Nat) a + S16x83.size a ≤ S16x32896.size a
  h_S16x83 : 0 < S16x83.numel
  inb_S16x256x256_S16x1x83_0_173_173 : ∀ a, (![0, 173, 173] : Fin 3 → Nat) a + S16x1x83.size a ≤ S16x256x256.size a
  h_S16x1x83 : 0 < S16x1x83.numel
  shapeCasts_S16x1x83_S16x83 : S16x1x83.ShapeCasts S16x83
  shapeCasts_S16x83_S16x1x83 : S16x83.ShapeCasts S16x1x83
  inb_S16x32896_S16x82_0_29493 : ∀ a, (![0, 29493] : Fin 2 → Nat) a + S16x82.size a ≤ S16x32896.size a
  h_S16x82 : 0 < S16x82.numel
  inb_S16x256x256_S16x1x82_0_174_174 : ∀ a, (![0, 174, 174] : Fin 3 → Nat) a + S16x1x82.size a ≤ S16x256x256.size a
  h_S16x1x82 : 0 < S16x1x82.numel
  shapeCasts_S16x1x82_S16x82 : S16x1x82.ShapeCasts S16x82
  shapeCasts_S16x82_S16x1x82 : S16x82.ShapeCasts S16x1x82
  inb_S16x32896_S16x81_0_29575 : ∀ a, (![0, 29575] : Fin 2 → Nat) a + S16x81.size a ≤ S16x32896.size a
  h_S16x81 : 0 < S16x81.numel
  inb_S16x256x256_S16x1x81_0_175_175 : ∀ a, (![0, 175, 175] : Fin 3 → Nat) a + S16x1x81.size a ≤ S16x256x256.size a
  h_S16x1x81 : 0 < S16x1x81.numel
  shapeCasts_S16x1x81_S16x81 : S16x1x81.ShapeCasts S16x81
  shapeCasts_S16x81_S16x1x81 : S16x81.ShapeCasts S16x1x81
  inb_S16x32896_S16x80_0_29656 : ∀ a, (![0, 29656] : Fin 2 → Nat) a + S16x80.size a ≤ S16x32896.size a
  h_S16x80 : 0 < S16x80.numel
  inb_S16x256x256_S16x1x80_0_176_176 : ∀ a, (![0, 176, 176] : Fin 3 → Nat) a + S16x1x80.size a ≤ S16x256x256.size a
  h_S16x1x80 : 0 < S16x1x80.numel
  shapeCasts_S16x1x80_S16x80 : S16x1x80.ShapeCasts S16x80
  shapeCasts_S16x80_S16x1x80 : S16x80.ShapeCasts S16x1x80
  inb_S16x32896_S16x79_0_29736 : ∀ a, (![0, 29736] : Fin 2 → Nat) a + S16x79.size a ≤ S16x32896.size a
  h_S16x79 : 0 < S16x79.numel
  inb_S16x256x256_S16x1x79_0_177_177 : ∀ a, (![0, 177, 177] : Fin 3 → Nat) a + S16x1x79.size a ≤ S16x256x256.size a
  h_S16x1x79 : 0 < S16x1x79.numel
  shapeCasts_S16x1x79_S16x79 : S16x1x79.ShapeCasts S16x79
  shapeCasts_S16x79_S16x1x79 : S16x79.ShapeCasts S16x1x79
  inb_S16x32896_S16x78_0_29815 : ∀ a, (![0, 29815] : Fin 2 → Nat) a + S16x78.size a ≤ S16x32896.size a
  h_S16x78 : 0 < S16x78.numel
  inb_S16x256x256_S16x1x78_0_178_178 : ∀ a, (![0, 178, 178] : Fin 3 → Nat) a + S16x1x78.size a ≤ S16x256x256.size a
  h_S16x1x78 : 0 < S16x1x78.numel
  shapeCasts_S16x1x78_S16x78 : S16x1x78.ShapeCasts S16x78
  shapeCasts_S16x78_S16x1x78 : S16x78.ShapeCasts S16x1x78
  inb_S16x32896_S16x77_0_29893 : ∀ a, (![0, 29893] : Fin 2 → Nat) a + S16x77.size a ≤ S16x32896.size a
  h_S16x77 : 0 < S16x77.numel
  inb_S16x256x256_S16x1x77_0_179_179 : ∀ a, (![0, 179, 179] : Fin 3 → Nat) a + S16x1x77.size a ≤ S16x256x256.size a
  h_S16x1x77 : 0 < S16x1x77.numel
  shapeCasts_S16x1x77_S16x77 : S16x1x77.ShapeCasts S16x77
  shapeCasts_S16x77_S16x1x77 : S16x77.ShapeCasts S16x1x77
  inb_S16x32896_S16x76_0_29970 : ∀ a, (![0, 29970] : Fin 2 → Nat) a + S16x76.size a ≤ S16x32896.size a
  h_S16x76 : 0 < S16x76.numel
  inb_S16x256x256_S16x1x76_0_180_180 : ∀ a, (![0, 180, 180] : Fin 3 → Nat) a + S16x1x76.size a ≤ S16x256x256.size a
  h_S16x1x76 : 0 < S16x1x76.numel
  shapeCasts_S16x1x76_S16x76 : S16x1x76.ShapeCasts S16x76
  shapeCasts_S16x76_S16x1x76 : S16x76.ShapeCasts S16x1x76
  inb_S16x32896_S16x75_0_30046 : ∀ a, (![0, 30046] : Fin 2 → Nat) a + S16x75.size a ≤ S16x32896.size a
  h_S16x75 : 0 < S16x75.numel
  inb_S16x256x256_S16x1x75_0_181_181 : ∀ a, (![0, 181, 181] : Fin 3 → Nat) a + S16x1x75.size a ≤ S16x256x256.size a
  h_S16x1x75 : 0 < S16x1x75.numel
  shapeCasts_S16x1x75_S16x75 : S16x1x75.ShapeCasts S16x75
  shapeCasts_S16x75_S16x1x75 : S16x75.ShapeCasts S16x1x75
  inb_S16x32896_S16x74_0_30121 : ∀ a, (![0, 30121] : Fin 2 → Nat) a + S16x74.size a ≤ S16x32896.size a
  h_S16x74 : 0 < S16x74.numel
  inb_S16x256x256_S16x1x74_0_182_182 : ∀ a, (![0, 182, 182] : Fin 3 → Nat) a + S16x1x74.size a ≤ S16x256x256.size a
  h_S16x1x74 : 0 < S16x1x74.numel
  shapeCasts_S16x1x74_S16x74 : S16x1x74.ShapeCasts S16x74
  shapeCasts_S16x74_S16x1x74 : S16x74.ShapeCasts S16x1x74
  inb_S16x32896_S16x73_0_30195 : ∀ a, (![0, 30195] : Fin 2 → Nat) a + S16x73.size a ≤ S16x32896.size a
  h_S16x73 : 0 < S16x73.numel
  inb_S16x256x256_S16x1x73_0_183_183 : ∀ a, (![0, 183, 183] : Fin 3 → Nat) a + S16x1x73.size a ≤ S16x256x256.size a
  h_S16x1x73 : 0 < S16x1x73.numel
  shapeCasts_S16x1x73_S16x73 : S16x1x73.ShapeCasts S16x73
  shapeCasts_S16x73_S16x1x73 : S16x73.ShapeCasts S16x1x73
  inb_S16x32896_S16x72_0_30268 : ∀ a, (![0, 30268] : Fin 2 → Nat) a + S16x72.size a ≤ S16x32896.size a
  h_S16x72 : 0 < S16x72.numel
  inb_S16x256x256_S16x1x72_0_184_184 : ∀ a, (![0, 184, 184] : Fin 3 → Nat) a + S16x1x72.size a ≤ S16x256x256.size a
  h_S16x1x72 : 0 < S16x1x72.numel
  shapeCasts_S16x1x72_S16x72 : S16x1x72.ShapeCasts S16x72
  shapeCasts_S16x72_S16x1x72 : S16x72.ShapeCasts S16x1x72
  inb_S16x32896_S16x71_0_30340 : ∀ a, (![0, 30340] : Fin 2 → Nat) a + S16x71.size a ≤ S16x32896.size a
  h_S16x71 : 0 < S16x71.numel
  inb_S16x256x256_S16x1x71_0_185_185 : ∀ a, (![0, 185, 185] : Fin 3 → Nat) a + S16x1x71.size a ≤ S16x256x256.size a
  h_S16x1x71 : 0 < S16x1x71.numel
  shapeCasts_S16x1x71_S16x71 : S16x1x71.ShapeCasts S16x71
  shapeCasts_S16x71_S16x1x71 : S16x71.ShapeCasts S16x1x71
  inb_S16x32896_S16x70_0_30411 : ∀ a, (![0, 30411] : Fin 2 → Nat) a + S16x70.size a ≤ S16x32896.size a
  h_S16x70 : 0 < S16x70.numel
  inb_S16x256x256_S16x1x70_0_186_186 : ∀ a, (![0, 186, 186] : Fin 3 → Nat) a + S16x1x70.size a ≤ S16x256x256.size a
  h_S16x1x70 : 0 < S16x1x70.numel
  shapeCasts_S16x1x70_S16x70 : S16x1x70.ShapeCasts S16x70
  shapeCasts_S16x70_S16x1x70 : S16x70.ShapeCasts S16x1x70
  inb_S16x32896_S16x69_0_30481 : ∀ a, (![0, 30481] : Fin 2 → Nat) a + S16x69.size a ≤ S16x32896.size a
  h_S16x69 : 0 < S16x69.numel
  inb_S16x256x256_S16x1x69_0_187_187 : ∀ a, (![0, 187, 187] : Fin 3 → Nat) a + S16x1x69.size a ≤ S16x256x256.size a
  h_S16x1x69 : 0 < S16x1x69.numel
  shapeCasts_S16x1x69_S16x69 : S16x1x69.ShapeCasts S16x69
  shapeCasts_S16x69_S16x1x69 : S16x69.ShapeCasts S16x1x69
  inb_S16x32896_S16x68_0_30550 : ∀ a, (![0, 30550] : Fin 2 → Nat) a + S16x68.size a ≤ S16x32896.size a
  h_S16x68 : 0 < S16x68.numel
  inb_S16x256x256_S16x1x68_0_188_188 : ∀ a, (![0, 188, 188] : Fin 3 → Nat) a + S16x1x68.size a ≤ S16x256x256.size a
  h_S16x1x68 : 0 < S16x1x68.numel
  shapeCasts_S16x1x68_S16x68 : S16x1x68.ShapeCasts S16x68
  shapeCasts_S16x68_S16x1x68 : S16x68.ShapeCasts S16x1x68
  inb_S16x32896_S16x67_0_30618 : ∀ a, (![0, 30618] : Fin 2 → Nat) a + S16x67.size a ≤ S16x32896.size a
  h_S16x67 : 0 < S16x67.numel
  inb_S16x256x256_S16x1x67_0_189_189 : ∀ a, (![0, 189, 189] : Fin 3 → Nat) a + S16x1x67.size a ≤ S16x256x256.size a
  h_S16x1x67 : 0 < S16x1x67.numel
  shapeCasts_S16x1x67_S16x67 : S16x1x67.ShapeCasts S16x67
  shapeCasts_S16x67_S16x1x67 : S16x67.ShapeCasts S16x1x67
  inb_S16x32896_S16x66_0_30685 : ∀ a, (![0, 30685] : Fin 2 → Nat) a + S16x66.size a ≤ S16x32896.size a
  h_S16x66 : 0 < S16x66.numel
  inb_S16x256x256_S16x1x66_0_190_190 : ∀ a, (![0, 190, 190] : Fin 3 → Nat) a + S16x1x66.size a ≤ S16x256x256.size a
  h_S16x1x66 : 0 < S16x1x66.numel
  shapeCasts_S16x1x66_S16x66 : S16x1x66.ShapeCasts S16x66
  shapeCasts_S16x66_S16x1x66 : S16x66.ShapeCasts S16x1x66
  inb_S16x32896_S16x65_0_30751 : ∀ a, (![0, 30751] : Fin 2 → Nat) a + S16x65.size a ≤ S16x32896.size a
  h_S16x65 : 0 < S16x65.numel
  inb_S16x256x256_S16x1x65_0_191_191 : ∀ a, (![0, 191, 191] : Fin 3 → Nat) a + S16x1x65.size a ≤ S16x256x256.size a
  h_S16x1x65 : 0 < S16x1x65.numel
  shapeCasts_S16x1x65_S16x65 : S16x1x65.ShapeCasts S16x65
  shapeCasts_S16x65_S16x1x65 : S16x65.ShapeCasts S16x1x65
  inb_S16x32896_S16x64_0_30816 : ∀ a, (![0, 30816] : Fin 2 → Nat) a + S16x64.size a ≤ S16x32896.size a
  h_S16x64 : 0 < S16x64.numel
  inb_S16x256x256_S16x1x64_0_192_192 : ∀ a, (![0, 192, 192] : Fin 3 → Nat) a + S16x1x64.size a ≤ S16x256x256.size a
  h_S16x1x64 : 0 < S16x1x64.numel
  shapeCasts_S16x1x64_S16x64 : S16x1x64.ShapeCasts S16x64
  shapeCasts_S16x64_S16x1x64 : S16x64.ShapeCasts S16x1x64
  inb_S16x32896_S16x63_0_30880 : ∀ a, (![0, 30880] : Fin 2 → Nat) a + S16x63.size a ≤ S16x32896.size a
  h_S16x63 : 0 < S16x63.numel
  inb_S16x256x256_S16x1x63_0_193_193 : ∀ a, (![0, 193, 193] : Fin 3 → Nat) a + S16x1x63.size a ≤ S16x256x256.size a
  h_S16x1x63 : 0 < S16x1x63.numel
  shapeCasts_S16x1x63_S16x63 : S16x1x63.ShapeCasts S16x63
  shapeCasts_S16x63_S16x1x63 : S16x63.ShapeCasts S16x1x63
  inb_S16x32896_S16x62_0_30943 : ∀ a, (![0, 30943] : Fin 2 → Nat) a + S16x62.size a ≤ S16x32896.size a
  h_S16x62 : 0 < S16x62.numel
  inb_S16x256x256_S16x1x62_0_194_194 : ∀ a, (![0, 194, 194] : Fin 3 → Nat) a + S16x1x62.size a ≤ S16x256x256.size a
  h_S16x1x62 : 0 < S16x1x62.numel
  shapeCasts_S16x1x62_S16x62 : S16x1x62.ShapeCasts S16x62
  shapeCasts_S16x62_S16x1x62 : S16x62.ShapeCasts S16x1x62
  inb_S16x32896_S16x61_0_31005 : ∀ a, (![0, 31005] : Fin 2 → Nat) a + S16x61.size a ≤ S16x32896.size a
  h_S16x61 : 0 < S16x61.numel
  inb_S16x256x256_S16x1x61_0_195_195 : ∀ a, (![0, 195, 195] : Fin 3 → Nat) a + S16x1x61.size a ≤ S16x256x256.size a
  h_S16x1x61 : 0 < S16x1x61.numel
  shapeCasts_S16x1x61_S16x61 : S16x1x61.ShapeCasts S16x61
  shapeCasts_S16x61_S16x1x61 : S16x61.ShapeCasts S16x1x61
  inb_S16x32896_S16x60_0_31066 : ∀ a, (![0, 31066] : Fin 2 → Nat) a + S16x60.size a ≤ S16x32896.size a
  h_S16x60 : 0 < S16x60.numel
  inb_S16x256x256_S16x1x60_0_196_196 : ∀ a, (![0, 196, 196] : Fin 3 → Nat) a + S16x1x60.size a ≤ S16x256x256.size a
  h_S16x1x60 : 0 < S16x1x60.numel
  shapeCasts_S16x1x60_S16x60 : S16x1x60.ShapeCasts S16x60
  shapeCasts_S16x60_S16x1x60 : S16x60.ShapeCasts S16x1x60
  inb_S16x32896_S16x59_0_31126 : ∀ a, (![0, 31126] : Fin 2 → Nat) a + S16x59.size a ≤ S16x32896.size a
  h_S16x59 : 0 < S16x59.numel
  inb_S16x256x256_S16x1x59_0_197_197 : ∀ a, (![0, 197, 197] : Fin 3 → Nat) a + S16x1x59.size a ≤ S16x256x256.size a
  h_S16x1x59 : 0 < S16x1x59.numel
  shapeCasts_S16x1x59_S16x59 : S16x1x59.ShapeCasts S16x59
  shapeCasts_S16x59_S16x1x59 : S16x59.ShapeCasts S16x1x59
  inb_S16x32896_S16x58_0_31185 : ∀ a, (![0, 31185] : Fin 2 → Nat) a + S16x58.size a ≤ S16x32896.size a
  h_S16x58 : 0 < S16x58.numel
  inb_S16x256x256_S16x1x58_0_198_198 : ∀ a, (![0, 198, 198] : Fin 3 → Nat) a + S16x1x58.size a ≤ S16x256x256.size a
  h_S16x1x58 : 0 < S16x1x58.numel
  shapeCasts_S16x1x58_S16x58 : S16x1x58.ShapeCasts S16x58
  shapeCasts_S16x58_S16x1x58 : S16x58.ShapeCasts S16x1x58
  inb_S16x32896_S16x57_0_31243 : ∀ a, (![0, 31243] : Fin 2 → Nat) a + S16x57.size a ≤ S16x32896.size a
  h_S16x57 : 0 < S16x57.numel
  inb_S16x256x256_S16x1x57_0_199_199 : ∀ a, (![0, 199, 199] : Fin 3 → Nat) a + S16x1x57.size a ≤ S16x256x256.size a
  h_S16x1x57 : 0 < S16x1x57.numel
  shapeCasts_S16x1x57_S16x57 : S16x1x57.ShapeCasts S16x57
  shapeCasts_S16x57_S16x1x57 : S16x57.ShapeCasts S16x1x57
  inb_S16x32896_S16x56_0_31300 : ∀ a, (![0, 31300] : Fin 2 → Nat) a + S16x56.size a ≤ S16x32896.size a
  h_S16x56 : 0 < S16x56.numel
  inb_S16x256x256_S16x1x56_0_200_200 : ∀ a, (![0, 200, 200] : Fin 3 → Nat) a + S16x1x56.size a ≤ S16x256x256.size a
  h_S16x1x56 : 0 < S16x1x56.numel
  shapeCasts_S16x1x56_S16x56 : S16x1x56.ShapeCasts S16x56
  shapeCasts_S16x56_S16x1x56 : S16x56.ShapeCasts S16x1x56
  inb_S16x32896_S16x55_0_31356 : ∀ a, (![0, 31356] : Fin 2 → Nat) a + S16x55.size a ≤ S16x32896.size a
  h_S16x55 : 0 < S16x55.numel
  inb_S16x256x256_S16x1x55_0_201_201 : ∀ a, (![0, 201, 201] : Fin 3 → Nat) a + S16x1x55.size a ≤ S16x256x256.size a
  h_S16x1x55 : 0 < S16x1x55.numel
  shapeCasts_S16x1x55_S16x55 : S16x1x55.ShapeCasts S16x55
  shapeCasts_S16x55_S16x1x55 : S16x55.ShapeCasts S16x1x55
  inb_S16x32896_S16x54_0_31411 : ∀ a, (![0, 31411] : Fin 2 → Nat) a + S16x54.size a ≤ S16x32896.size a
  h_S16x54 : 0 < S16x54.numel
  inb_S16x256x256_S16x1x54_0_202_202 : ∀ a, (![0, 202, 202] : Fin 3 → Nat) a + S16x1x54.size a ≤ S16x256x256.size a
  h_S16x1x54 : 0 < S16x1x54.numel
  shapeCasts_S16x1x54_S16x54 : S16x1x54.ShapeCasts S16x54
  shapeCasts_S16x54_S16x1x54 : S16x54.ShapeCasts S16x1x54
  inb_S16x32896_S16x53_0_31465 : ∀ a, (![0, 31465] : Fin 2 → Nat) a + S16x53.size a ≤ S16x32896.size a
  h_S16x53 : 0 < S16x53.numel
  inb_S16x256x256_S16x1x53_0_203_203 : ∀ a, (![0, 203, 203] : Fin 3 → Nat) a + S16x1x53.size a ≤ S16x256x256.size a
  h_S16x1x53 : 0 < S16x1x53.numel
  shapeCasts_S16x1x53_S16x53 : S16x1x53.ShapeCasts S16x53
  shapeCasts_S16x53_S16x1x53 : S16x53.ShapeCasts S16x1x53
  inb_S16x32896_S16x52_0_31518 : ∀ a, (![0, 31518] : Fin 2 → Nat) a + S16x52.size a ≤ S16x32896.size a
  h_S16x52 : 0 < S16x52.numel
  inb_S16x256x256_S16x1x52_0_204_204 : ∀ a, (![0, 204, 204] : Fin 3 → Nat) a + S16x1x52.size a ≤ S16x256x256.size a
  h_S16x1x52 : 0 < S16x1x52.numel
  shapeCasts_S16x1x52_S16x52 : S16x1x52.ShapeCasts S16x52
  shapeCasts_S16x52_S16x1x52 : S16x52.ShapeCasts S16x1x52
  inb_S16x32896_S16x51_0_31570 : ∀ a, (![0, 31570] : Fin 2 → Nat) a + S16x51.size a ≤ S16x32896.size a
  h_S16x51 : 0 < S16x51.numel
  inb_S16x256x256_S16x1x51_0_205_205 : ∀ a, (![0, 205, 205] : Fin 3 → Nat) a + S16x1x51.size a ≤ S16x256x256.size a
  h_S16x1x51 : 0 < S16x1x51.numel
  shapeCasts_S16x1x51_S16x51 : S16x1x51.ShapeCasts S16x51
  shapeCasts_S16x51_S16x1x51 : S16x51.ShapeCasts S16x1x51
  inb_S16x32896_S16x50_0_31621 : ∀ a, (![0, 31621] : Fin 2 → Nat) a + S16x50.size a ≤ S16x32896.size a
  h_S16x50 : 0 < S16x50.numel
  inb_S16x256x256_S16x1x50_0_206_206 : ∀ a, (![0, 206, 206] : Fin 3 → Nat) a + S16x1x50.size a ≤ S16x256x256.size a
  h_S16x1x50 : 0 < S16x1x50.numel
  shapeCasts_S16x1x50_S16x50 : S16x1x50.ShapeCasts S16x50
  shapeCasts_S16x50_S16x1x50 : S16x50.ShapeCasts S16x1x50
  inb_S16x32896_S16x49_0_31671 : ∀ a, (![0, 31671] : Fin 2 → Nat) a + S16x49.size a ≤ S16x32896.size a
  h_S16x49 : 0 < S16x49.numel
  inb_S16x256x256_S16x1x49_0_207_207 : ∀ a, (![0, 207, 207] : Fin 3 → Nat) a + S16x1x49.size a ≤ S16x256x256.size a
  h_S16x1x49 : 0 < S16x1x49.numel
  shapeCasts_S16x1x49_S16x49 : S16x1x49.ShapeCasts S16x49
  shapeCasts_S16x49_S16x1x49 : S16x49.ShapeCasts S16x1x49
  inb_S16x32896_S16x48_0_31720 : ∀ a, (![0, 31720] : Fin 2 → Nat) a + S16x48.size a ≤ S16x32896.size a
  h_S16x48 : 0 < S16x48.numel
  inb_S16x256x256_S16x1x48_0_208_208 : ∀ a, (![0, 208, 208] : Fin 3 → Nat) a + S16x1x48.size a ≤ S16x256x256.size a
  h_S16x1x48 : 0 < S16x1x48.numel
  shapeCasts_S16x1x48_S16x48 : S16x1x48.ShapeCasts S16x48
  shapeCasts_S16x48_S16x1x48 : S16x48.ShapeCasts S16x1x48
  inb_S16x32896_S16x47_0_31768 : ∀ a, (![0, 31768] : Fin 2 → Nat) a + S16x47.size a ≤ S16x32896.size a
  h_S16x47 : 0 < S16x47.numel
  inb_S16x256x256_S16x1x47_0_209_209 : ∀ a, (![0, 209, 209] : Fin 3 → Nat) a + S16x1x47.size a ≤ S16x256x256.size a
  h_S16x1x47 : 0 < S16x1x47.numel
  shapeCasts_S16x1x47_S16x47 : S16x1x47.ShapeCasts S16x47
  shapeCasts_S16x47_S16x1x47 : S16x47.ShapeCasts S16x1x47
  inb_S16x32896_S16x46_0_31815 : ∀ a, (![0, 31815] : Fin 2 → Nat) a + S16x46.size a ≤ S16x32896.size a
  h_S16x46 : 0 < S16x46.numel
  inb_S16x256x256_S16x1x46_0_210_210 : ∀ a, (![0, 210, 210] : Fin 3 → Nat) a + S16x1x46.size a ≤ S16x256x256.size a
  h_S16x1x46 : 0 < S16x1x46.numel
  shapeCasts_S16x1x46_S16x46 : S16x1x46.ShapeCasts S16x46
  shapeCasts_S16x46_S16x1x46 : S16x46.ShapeCasts S16x1x46
  inb_S16x32896_S16x45_0_31861 : ∀ a, (![0, 31861] : Fin 2 → Nat) a + S16x45.size a ≤ S16x32896.size a
  h_S16x45 : 0 < S16x45.numel
  inb_S16x256x256_S16x1x45_0_211_211 : ∀ a, (![0, 211, 211] : Fin 3 → Nat) a + S16x1x45.size a ≤ S16x256x256.size a
  h_S16x1x45 : 0 < S16x1x45.numel
  shapeCasts_S16x1x45_S16x45 : S16x1x45.ShapeCasts S16x45
  shapeCasts_S16x45_S16x1x45 : S16x45.ShapeCasts S16x1x45
  inb_S16x32896_S16x44_0_31906 : ∀ a, (![0, 31906] : Fin 2 → Nat) a + S16x44.size a ≤ S16x32896.size a
  h_S16x44 : 0 < S16x44.numel
  inb_S16x256x256_S16x1x44_0_212_212 : ∀ a, (![0, 212, 212] : Fin 3 → Nat) a + S16x1x44.size a ≤ S16x256x256.size a
  h_S16x1x44 : 0 < S16x1x44.numel
  shapeCasts_S16x1x44_S16x44 : S16x1x44.ShapeCasts S16x44
  shapeCasts_S16x44_S16x1x44 : S16x44.ShapeCasts S16x1x44
  inb_S16x32896_S16x43_0_31950 : ∀ a, (![0, 31950] : Fin 2 → Nat) a + S16x43.size a ≤ S16x32896.size a
  h_S16x43 : 0 < S16x43.numel
  inb_S16x256x256_S16x1x43_0_213_213 : ∀ a, (![0, 213, 213] : Fin 3 → Nat) a + S16x1x43.size a ≤ S16x256x256.size a
  h_S16x1x43 : 0 < S16x1x43.numel
  shapeCasts_S16x1x43_S16x43 : S16x1x43.ShapeCasts S16x43
  shapeCasts_S16x43_S16x1x43 : S16x43.ShapeCasts S16x1x43
  inb_S16x32896_S16x42_0_31993 : ∀ a, (![0, 31993] : Fin 2 → Nat) a + S16x42.size a ≤ S16x32896.size a
  h_S16x42 : 0 < S16x42.numel
  inb_S16x256x256_S16x1x42_0_214_214 : ∀ a, (![0, 214, 214] : Fin 3 → Nat) a + S16x1x42.size a ≤ S16x256x256.size a
  h_S16x1x42 : 0 < S16x1x42.numel
  shapeCasts_S16x1x42_S16x42 : S16x1x42.ShapeCasts S16x42
  shapeCasts_S16x42_S16x1x42 : S16x42.ShapeCasts S16x1x42
  inb_S16x32896_S16x41_0_32035 : ∀ a, (![0, 32035] : Fin 2 → Nat) a + S16x41.size a ≤ S16x32896.size a
  h_S16x41 : 0 < S16x41.numel
  inb_S16x256x256_S16x1x41_0_215_215 : ∀ a, (![0, 215, 215] : Fin 3 → Nat) a + S16x1x41.size a ≤ S16x256x256.size a
  h_S16x1x41 : 0 < S16x1x41.numel
  shapeCasts_S16x1x41_S16x41 : S16x1x41.ShapeCasts S16x41
  shapeCasts_S16x41_S16x1x41 : S16x41.ShapeCasts S16x1x41
  inb_S16x32896_S16x40_0_32076 : ∀ a, (![0, 32076] : Fin 2 → Nat) a + S16x40.size a ≤ S16x32896.size a
  h_S16x40 : 0 < S16x40.numel
  inb_S16x256x256_S16x1x40_0_216_216 : ∀ a, (![0, 216, 216] : Fin 3 → Nat) a + S16x1x40.size a ≤ S16x256x256.size a
  h_S16x1x40 : 0 < S16x1x40.numel
  shapeCasts_S16x1x40_S16x40 : S16x1x40.ShapeCasts S16x40
  shapeCasts_S16x40_S16x1x40 : S16x40.ShapeCasts S16x1x40
  inb_S16x32896_S16x39_0_32116 : ∀ a, (![0, 32116] : Fin 2 → Nat) a + S16x39.size a ≤ S16x32896.size a
  h_S16x39 : 0 < S16x39.numel
  inb_S16x256x256_S16x1x39_0_217_217 : ∀ a, (![0, 217, 217] : Fin 3 → Nat) a + S16x1x39.size a ≤ S16x256x256.size a
  h_S16x1x39 : 0 < S16x1x39.numel
  shapeCasts_S16x1x39_S16x39 : S16x1x39.ShapeCasts S16x39
  shapeCasts_S16x39_S16x1x39 : S16x39.ShapeCasts S16x1x39
  inb_S16x32896_S16x38_0_32155 : ∀ a, (![0, 32155] : Fin 2 → Nat) a + S16x38.size a ≤ S16x32896.size a
  h_S16x38 : 0 < S16x38.numel
  inb_S16x256x256_S16x1x38_0_218_218 : ∀ a, (![0, 218, 218] : Fin 3 → Nat) a + S16x1x38.size a ≤ S16x256x256.size a
  h_S16x1x38 : 0 < S16x1x38.numel
  shapeCasts_S16x1x38_S16x38 : S16x1x38.ShapeCasts S16x38
  shapeCasts_S16x38_S16x1x38 : S16x38.ShapeCasts S16x1x38
  inb_S16x32896_S16x37_0_32193 : ∀ a, (![0, 32193] : Fin 2 → Nat) a + S16x37.size a ≤ S16x32896.size a
  h_S16x37 : 0 < S16x37.numel
  inb_S16x256x256_S16x1x37_0_219_219 : ∀ a, (![0, 219, 219] : Fin 3 → Nat) a + S16x1x37.size a ≤ S16x256x256.size a
  h_S16x1x37 : 0 < S16x1x37.numel
  shapeCasts_S16x1x37_S16x37 : S16x1x37.ShapeCasts S16x37
  shapeCasts_S16x37_S16x1x37 : S16x37.ShapeCasts S16x1x37
  inb_S16x32896_S16x36_0_32230 : ∀ a, (![0, 32230] : Fin 2 → Nat) a + S16x36.size a ≤ S16x32896.size a
  h_S16x36 : 0 < S16x36.numel
  inb_S16x256x256_S16x1x36_0_220_220 : ∀ a, (![0, 220, 220] : Fin 3 → Nat) a + S16x1x36.size a ≤ S16x256x256.size a
  h_S16x1x36 : 0 < S16x1x36.numel
  shapeCasts_S16x1x36_S16x36 : S16x1x36.ShapeCasts S16x36
  shapeCasts_S16x36_S16x1x36 : S16x36.ShapeCasts S16x1x36
  inb_S16x32896_S16x35_0_32266 : ∀ a, (![0, 32266] : Fin 2 → Nat) a + S16x35.size a ≤ S16x32896.size a
  h_S16x35 : 0 < S16x35.numel
  inb_S16x256x256_S16x1x35_0_221_221 : ∀ a, (![0, 221, 221] : Fin 3 → Nat) a + S16x1x35.size a ≤ S16x256x256.size a
  h_S16x1x35 : 0 < S16x1x35.numel
  shapeCasts_S16x1x35_S16x35 : S16x1x35.ShapeCasts S16x35
  shapeCasts_S16x35_S16x1x35 : S16x35.ShapeCasts S16x1x35
  inb_S16x32896_S16x34_0_32301 : ∀ a, (![0, 32301] : Fin 2 → Nat) a + S16x34.size a ≤ S16x32896.size a
  h_S16x34 : 0 < S16x34.numel
  inb_S16x256x256_S16x1x34_0_222_222 : ∀ a, (![0, 222, 222] : Fin 3 → Nat) a + S16x1x34.size a ≤ S16x256x256.size a
  h_S16x1x34 : 0 < S16x1x34.numel
  shapeCasts_S16x1x34_S16x34 : S16x1x34.ShapeCasts S16x34
  shapeCasts_S16x34_S16x1x34 : S16x34.ShapeCasts S16x1x34
  inb_S16x32896_S16x33_0_32335 : ∀ a, (![0, 32335] : Fin 2 → Nat) a + S16x33.size a ≤ S16x32896.size a
  h_S16x33 : 0 < S16x33.numel
  inb_S16x256x256_S16x1x33_0_223_223 : ∀ a, (![0, 223, 223] : Fin 3 → Nat) a + S16x1x33.size a ≤ S16x256x256.size a
  h_S16x1x33 : 0 < S16x1x33.numel
  shapeCasts_S16x1x33_S16x33 : S16x1x33.ShapeCasts S16x33
  shapeCasts_S16x33_S16x1x33 : S16x33.ShapeCasts S16x1x33
  inb_S16x32896_S16x32_0_32368 : ∀ a, (![0, 32368] : Fin 2 → Nat) a + S16x32.size a ≤ S16x32896.size a
  h_S16x32 : 0 < S16x32.numel
  inb_S16x256x256_S16x1x32_0_224_224 : ∀ a, (![0, 224, 224] : Fin 3 → Nat) a + S16x1x32.size a ≤ S16x256x256.size a
  h_S16x1x32 : 0 < S16x1x32.numel
  shapeCasts_S16x1x32_S16x32 : S16x1x32.ShapeCasts S16x32
  shapeCasts_S16x32_S16x1x32 : S16x32.ShapeCasts S16x1x32
  inb_S16x32896_S16x31_0_32400 : ∀ a, (![0, 32400] : Fin 2 → Nat) a + S16x31.size a ≤ S16x32896.size a
  h_S16x31 : 0 < S16x31.numel
  inb_S16x256x256_S16x1x31_0_225_225 : ∀ a, (![0, 225, 225] : Fin 3 → Nat) a + S16x1x31.size a ≤ S16x256x256.size a
  h_S16x1x31 : 0 < S16x1x31.numel
  shapeCasts_S16x1x31_S16x31 : S16x1x31.ShapeCasts S16x31
  shapeCasts_S16x31_S16x1x31 : S16x31.ShapeCasts S16x1x31
  inb_S16x32896_S16x30_0_32431 : ∀ a, (![0, 32431] : Fin 2 → Nat) a + S16x30.size a ≤ S16x32896.size a
  h_S16x30 : 0 < S16x30.numel
  inb_S16x256x256_S16x1x30_0_226_226 : ∀ a, (![0, 226, 226] : Fin 3 → Nat) a + S16x1x30.size a ≤ S16x256x256.size a
  h_S16x1x30 : 0 < S16x1x30.numel
  shapeCasts_S16x1x30_S16x30 : S16x1x30.ShapeCasts S16x30
  shapeCasts_S16x30_S16x1x30 : S16x30.ShapeCasts S16x1x30
  inb_S16x32896_S16x29_0_32461 : ∀ a, (![0, 32461] : Fin 2 → Nat) a + S16x29.size a ≤ S16x32896.size a
  h_S16x29 : 0 < S16x29.numel
  inb_S16x256x256_S16x1x29_0_227_227 : ∀ a, (![0, 227, 227] : Fin 3 → Nat) a + S16x1x29.size a ≤ S16x256x256.size a
  h_S16x1x29 : 0 < S16x1x29.numel
  shapeCasts_S16x1x29_S16x29 : S16x1x29.ShapeCasts S16x29
  shapeCasts_S16x29_S16x1x29 : S16x29.ShapeCasts S16x1x29
  inb_S16x32896_S16x28_0_32490 : ∀ a, (![0, 32490] : Fin 2 → Nat) a + S16x28.size a ≤ S16x32896.size a
  h_S16x28 : 0 < S16x28.numel
  inb_S16x256x256_S16x1x28_0_228_228 : ∀ a, (![0, 228, 228] : Fin 3 → Nat) a + S16x1x28.size a ≤ S16x256x256.size a
  h_S16x1x28 : 0 < S16x1x28.numel
  shapeCasts_S16x1x28_S16x28 : S16x1x28.ShapeCasts S16x28
  shapeCasts_S16x28_S16x1x28 : S16x28.ShapeCasts S16x1x28
  inb_S16x32896_S16x27_0_32518 : ∀ a, (![0, 32518] : Fin 2 → Nat) a + S16x27.size a ≤ S16x32896.size a
  h_S16x27 : 0 < S16x27.numel
  inb_S16x256x256_S16x1x27_0_229_229 : ∀ a, (![0, 229, 229] : Fin 3 → Nat) a + S16x1x27.size a ≤ S16x256x256.size a
  h_S16x1x27 : 0 < S16x1x27.numel
  shapeCasts_S16x1x27_S16x27 : S16x1x27.ShapeCasts S16x27
  shapeCasts_S16x27_S16x1x27 : S16x27.ShapeCasts S16x1x27
  inb_S16x32896_S16x26_0_32545 : ∀ a, (![0, 32545] : Fin 2 → Nat) a + S16x26.size a ≤ S16x32896.size a
  h_S16x26 : 0 < S16x26.numel
  inb_S16x256x256_S16x1x26_0_230_230 : ∀ a, (![0, 230, 230] : Fin 3 → Nat) a + S16x1x26.size a ≤ S16x256x256.size a
  h_S16x1x26 : 0 < S16x1x26.numel
  shapeCasts_S16x1x26_S16x26 : S16x1x26.ShapeCasts S16x26
  shapeCasts_S16x26_S16x1x26 : S16x26.ShapeCasts S16x1x26
  inb_S16x32896_S16x25_0_32571 : ∀ a, (![0, 32571] : Fin 2 → Nat) a + S16x25.size a ≤ S16x32896.size a
  h_S16x25 : 0 < S16x25.numel
  inb_S16x256x256_S16x1x25_0_231_231 : ∀ a, (![0, 231, 231] : Fin 3 → Nat) a + S16x1x25.size a ≤ S16x256x256.size a
  h_S16x1x25 : 0 < S16x1x25.numel
  shapeCasts_S16x1x25_S16x25 : S16x1x25.ShapeCasts S16x25
  shapeCasts_S16x25_S16x1x25 : S16x25.ShapeCasts S16x1x25
  inb_S16x32896_S16x24_0_32596 : ∀ a, (![0, 32596] : Fin 2 → Nat) a + S16x24.size a ≤ S16x32896.size a
  h_S16x24 : 0 < S16x24.numel
  inb_S16x256x256_S16x1x24_0_232_232 : ∀ a, (![0, 232, 232] : Fin 3 → Nat) a + S16x1x24.size a ≤ S16x256x256.size a
  h_S16x1x24 : 0 < S16x1x24.numel
  shapeCasts_S16x1x24_S16x24 : S16x1x24.ShapeCasts S16x24
  shapeCasts_S16x24_S16x1x24 : S16x24.ShapeCasts S16x1x24
  inb_S16x32896_S16x23_0_32620 : ∀ a, (![0, 32620] : Fin 2 → Nat) a + S16x23.size a ≤ S16x32896.size a
  h_S16x23 : 0 < S16x23.numel
  inb_S16x256x256_S16x1x23_0_233_233 : ∀ a, (![0, 233, 233] : Fin 3 → Nat) a + S16x1x23.size a ≤ S16x256x256.size a
  h_S16x1x23 : 0 < S16x1x23.numel
  shapeCasts_S16x1x23_S16x23 : S16x1x23.ShapeCasts S16x23
  shapeCasts_S16x23_S16x1x23 : S16x23.ShapeCasts S16x1x23
  inb_S16x32896_S16x22_0_32643 : ∀ a, (![0, 32643] : Fin 2 → Nat) a + S16x22.size a ≤ S16x32896.size a
  h_S16x22 : 0 < S16x22.numel
  inb_S16x256x256_S16x1x22_0_234_234 : ∀ a, (![0, 234, 234] : Fin 3 → Nat) a + S16x1x22.size a ≤ S16x256x256.size a
  h_S16x1x22 : 0 < S16x1x22.numel
  shapeCasts_S16x1x22_S16x22 : S16x1x22.ShapeCasts S16x22
  shapeCasts_S16x22_S16x1x22 : S16x22.ShapeCasts S16x1x22
  inb_S16x32896_S16x21_0_32665 : ∀ a, (![0, 32665] : Fin 2 → Nat) a + S16x21.size a ≤ S16x32896.size a
  h_S16x21 : 0 < S16x21.numel
  inb_S16x256x256_S16x1x21_0_235_235 : ∀ a, (![0, 235, 235] : Fin 3 → Nat) a + S16x1x21.size a ≤ S16x256x256.size a
  h_S16x1x21 : 0 < S16x1x21.numel
  shapeCasts_S16x1x21_S16x21 : S16x1x21.ShapeCasts S16x21
  shapeCasts_S16x21_S16x1x21 : S16x21.ShapeCasts S16x1x21
  inb_S16x32896_S16x20_0_32686 : ∀ a, (![0, 32686] : Fin 2 → Nat) a + S16x20.size a ≤ S16x32896.size a
  h_S16x20 : 0 < S16x20.numel
  inb_S16x256x256_S16x1x20_0_236_236 : ∀ a, (![0, 236, 236] : Fin 3 → Nat) a + S16x1x20.size a ≤ S16x256x256.size a
  h_S16x1x20 : 0 < S16x1x20.numel
  shapeCasts_S16x1x20_S16x20 : S16x1x20.ShapeCasts S16x20
  shapeCasts_S16x20_S16x1x20 : S16x20.ShapeCasts S16x1x20
  inb_S16x32896_S16x19_0_32706 : ∀ a, (![0, 32706] : Fin 2 → Nat) a + S16x19.size a ≤ S16x32896.size a
  h_S16x19 : 0 < S16x19.numel
  inb_S16x256x256_S16x1x19_0_237_237 : ∀ a, (![0, 237, 237] : Fin 3 → Nat) a + S16x1x19.size a ≤ S16x256x256.size a
  h_S16x1x19 : 0 < S16x1x19.numel
  shapeCasts_S16x1x19_S16x19 : S16x1x19.ShapeCasts S16x19
  shapeCasts_S16x19_S16x1x19 : S16x19.ShapeCasts S16x1x19
  inb_S16x32896_S16x18_0_32725 : ∀ a, (![0, 32725] : Fin 2 → Nat) a + S16x18.size a ≤ S16x32896.size a
  h_S16x18 : 0 < S16x18.numel
  inb_S16x256x256_S16x1x18_0_238_238 : ∀ a, (![0, 238, 238] : Fin 3 → Nat) a + S16x1x18.size a ≤ S16x256x256.size a
  h_S16x1x18 : 0 < S16x1x18.numel
  shapeCasts_S16x1x18_S16x18 : S16x1x18.ShapeCasts S16x18
  shapeCasts_S16x18_S16x1x18 : S16x18.ShapeCasts S16x1x18
  inb_S16x32896_S16x17_0_32743 : ∀ a, (![0, 32743] : Fin 2 → Nat) a + S16x17.size a ≤ S16x32896.size a
  h_S16x17 : 0 < S16x17.numel
  inb_S16x256x256_S16x1x17_0_239_239 : ∀ a, (![0, 239, 239] : Fin 3 → Nat) a + S16x1x17.size a ≤ S16x256x256.size a
  h_S16x1x17 : 0 < S16x1x17.numel
  shapeCasts_S16x1x17_S16x17 : S16x1x17.ShapeCasts S16x17
  shapeCasts_S16x17_S16x1x17 : S16x17.ShapeCasts S16x1x17
  inb_S16x32896_S16x16_0_32760 : ∀ a, (![0, 32760] : Fin 2 → Nat) a + S16x16.size a ≤ S16x32896.size a
  h_S16x16 : 0 < S16x16.numel
  inb_S16x256x256_S16x1x16_0_240_240 : ∀ a, (![0, 240, 240] : Fin 3 → Nat) a + S16x1x16.size a ≤ S16x256x256.size a
  h_S16x1x16 : 0 < S16x1x16.numel
  shapeCasts_S16x1x16_S16x16 : S16x1x16.ShapeCasts S16x16
  shapeCasts_S16x16_S16x1x16 : S16x16.ShapeCasts S16x1x16
  inb_S16x32896_S16x15_0_32776 : ∀ a, (![0, 32776] : Fin 2 → Nat) a + S16x15.size a ≤ S16x32896.size a
  h_S16x15 : 0 < S16x15.numel
  inb_S16x256x256_S16x1x15_0_241_241 : ∀ a, (![0, 241, 241] : Fin 3 → Nat) a + S16x1x15.size a ≤ S16x256x256.size a
  h_S16x1x15 : 0 < S16x1x15.numel
  shapeCasts_S16x1x15_S16x15 : S16x1x15.ShapeCasts S16x15
  shapeCasts_S16x15_S16x1x15 : S16x15.ShapeCasts S16x1x15
  inb_S16x32896_S16x14_0_32791 : ∀ a, (![0, 32791] : Fin 2 → Nat) a + S16x14.size a ≤ S16x32896.size a
  h_S16x14 : 0 < S16x14.numel
  inb_S16x256x256_S16x1x14_0_242_242 : ∀ a, (![0, 242, 242] : Fin 3 → Nat) a + S16x1x14.size a ≤ S16x256x256.size a
  h_S16x1x14 : 0 < S16x1x14.numel
  shapeCasts_S16x1x14_S16x14 : S16x1x14.ShapeCasts S16x14
  shapeCasts_S16x14_S16x1x14 : S16x14.ShapeCasts S16x1x14
  inb_S16x32896_S16x13_0_32805 : ∀ a, (![0, 32805] : Fin 2 → Nat) a + S16x13.size a ≤ S16x32896.size a
  h_S16x13 : 0 < S16x13.numel
  inb_S16x256x256_S16x1x13_0_243_243 : ∀ a, (![0, 243, 243] : Fin 3 → Nat) a + S16x1x13.size a ≤ S16x256x256.size a
  h_S16x1x13 : 0 < S16x1x13.numel
  shapeCasts_S16x1x13_S16x13 : S16x1x13.ShapeCasts S16x13
  shapeCasts_S16x13_S16x1x13 : S16x13.ShapeCasts S16x1x13
  inb_S16x32896_S16x12_0_32818 : ∀ a, (![0, 32818] : Fin 2 → Nat) a + S16x12.size a ≤ S16x32896.size a
  h_S16x12 : 0 < S16x12.numel
  inb_S16x256x256_S16x1x12_0_244_244 : ∀ a, (![0, 244, 244] : Fin 3 → Nat) a + S16x1x12.size a ≤ S16x256x256.size a
  h_S16x1x12 : 0 < S16x1x12.numel
  shapeCasts_S16x1x12_S16x12 : S16x1x12.ShapeCasts S16x12
  shapeCasts_S16x12_S16x1x12 : S16x12.ShapeCasts S16x1x12
  inb_S16x32896_S16x11_0_32830 : ∀ a, (![0, 32830] : Fin 2 → Nat) a + S16x11.size a ≤ S16x32896.size a
  h_S16x11 : 0 < S16x11.numel
  inb_S16x256x256_S16x1x11_0_245_245 : ∀ a, (![0, 245, 245] : Fin 3 → Nat) a + S16x1x11.size a ≤ S16x256x256.size a
  h_S16x1x11 : 0 < S16x1x11.numel
  shapeCasts_S16x1x11_S16x11 : S16x1x11.ShapeCasts S16x11
  shapeCasts_S16x11_S16x1x11 : S16x11.ShapeCasts S16x1x11
  inb_S16x32896_S16x10_0_32841 : ∀ a, (![0, 32841] : Fin 2 → Nat) a + S16x10.size a ≤ S16x32896.size a
  h_S16x10 : 0 < S16x10.numel
  inb_S16x256x256_S16x1x10_0_246_246 : ∀ a, (![0, 246, 246] : Fin 3 → Nat) a + S16x1x10.size a ≤ S16x256x256.size a
  h_S16x1x10 : 0 < S16x1x10.numel
  shapeCasts_S16x1x10_S16x10 : S16x1x10.ShapeCasts S16x10
  shapeCasts_S16x10_S16x1x10 : S16x10.ShapeCasts S16x1x10
  inb_S16x32896_S16x9_0_32851 : ∀ a, (![0, 32851] : Fin 2 → Nat) a + S16x9.size a ≤ S16x32896.size a
  h_S16x9 : 0 < S16x9.numel
  inb_S16x256x256_S16x1x9_0_247_247 : ∀ a, (![0, 247, 247] : Fin 3 → Nat) a + S16x1x9.size a ≤ S16x256x256.size a
  h_S16x1x9 : 0 < S16x1x9.numel
  shapeCasts_S16x1x9_S16x9 : S16x1x9.ShapeCasts S16x9
  shapeCasts_S16x9_S16x1x9 : S16x9.ShapeCasts S16x1x9
  inb_S16x32896_S16x8_0_32860 : ∀ a, (![0, 32860] : Fin 2 → Nat) a + S16x8.size a ≤ S16x32896.size a
  h_S16x8 : 0 < S16x8.numel
  inb_S16x256x256_S16x1x8_0_248_248 : ∀ a, (![0, 248, 248] : Fin 3 → Nat) a + S16x1x8.size a ≤ S16x256x256.size a
  h_S16x1x8 : 0 < S16x1x8.numel
  shapeCasts_S16x1x8_S16x8 : S16x1x8.ShapeCasts S16x8
  shapeCasts_S16x8_S16x1x8 : S16x8.ShapeCasts S16x1x8
  inb_S16x32896_S16x7_0_32868 : ∀ a, (![0, 32868] : Fin 2 → Nat) a + S16x7.size a ≤ S16x32896.size a
  h_S16x7 : 0 < S16x7.numel
  inb_S16x256x256_S16x1x7_0_249_249 : ∀ a, (![0, 249, 249] : Fin 3 → Nat) a + S16x1x7.size a ≤ S16x256x256.size a
  h_S16x1x7 : 0 < S16x1x7.numel
  shapeCasts_S16x1x7_S16x7 : S16x1x7.ShapeCasts S16x7
  shapeCasts_S16x7_S16x1x7 : S16x7.ShapeCasts S16x1x7
  inb_S16x32896_S16x6_0_32875 : ∀ a, (![0, 32875] : Fin 2 → Nat) a + S16x6.size a ≤ S16x32896.size a
  h_S16x6 : 0 < S16x6.numel
  inb_S16x256x256_S16x1x6_0_250_250 : ∀ a, (![0, 250, 250] : Fin 3 → Nat) a + S16x1x6.size a ≤ S16x256x256.size a
  h_S16x1x6 : 0 < S16x1x6.numel
  shapeCasts_S16x1x6_S16x6 : S16x1x6.ShapeCasts S16x6
  shapeCasts_S16x6_S16x1x6 : S16x6.ShapeCasts S16x1x6
  inb_S16x32896_S16x5_0_32881 : ∀ a, (![0, 32881] : Fin 2 → Nat) a + S16x5.size a ≤ S16x32896.size a
  h_S16x5 : 0 < S16x5.numel
  inb_S16x256x256_S16x1x5_0_251_251 : ∀ a, (![0, 251, 251] : Fin 3 → Nat) a + S16x1x5.size a ≤ S16x256x256.size a
  h_S16x1x5 : 0 < S16x1x5.numel
  shapeCasts_S16x1x5_S16x5 : S16x1x5.ShapeCasts S16x5
  shapeCasts_S16x5_S16x1x5 : S16x5.ShapeCasts S16x1x5
  inb_S16x32896_S16x4_0_32886 : ∀ a, (![0, 32886] : Fin 2 → Nat) a + S16x4.size a ≤ S16x32896.size a
  h_S16x4 : 0 < S16x4.numel
  inb_S16x256x256_S16x1x4_0_252_252 : ∀ a, (![0, 252, 252] : Fin 3 → Nat) a + S16x1x4.size a ≤ S16x256x256.size a
  h_S16x1x4 : 0 < S16x1x4.numel
  shapeCasts_S16x1x4_S16x4 : S16x1x4.ShapeCasts S16x4
  shapeCasts_S16x4_S16x1x4 : S16x4.ShapeCasts S16x1x4
  inb_S16x32896_S16x3_0_32890 : ∀ a, (![0, 32890] : Fin 2 → Nat) a + S16x3.size a ≤ S16x32896.size a
  h_S16x3 : 0 < S16x3.numel
  inb_S16x256x256_S16x1x3_0_253_253 : ∀ a, (![0, 253, 253] : Fin 3 → Nat) a + S16x1x3.size a ≤ S16x256x256.size a
  h_S16x1x3 : 0 < S16x1x3.numel
  shapeCasts_S16x1x3_S16x3 : S16x1x3.ShapeCasts S16x3
  shapeCasts_S16x3_S16x1x3 : S16x3.ShapeCasts S16x1x3
  inb_S16x32896_S16x2_0_32893 : ∀ a, (![0, 32893] : Fin 2 → Nat) a + S16x2.size a ≤ S16x32896.size a
  h_S16x2 : 0 < S16x2.numel
  inb_S16x256x256_S16x1x2_0_254_254 : ∀ a, (![0, 254, 254] : Fin 3 → Nat) a + S16x1x2.size a ≤ S16x256x256.size a
  h_S16x1x2 : 0 < S16x1x2.numel
  shapeCasts_S16x1x2_S16x2 : S16x1x2.ShapeCasts S16x2
  shapeCasts_S16x2_S16x1x2 : S16x2.ShapeCasts S16x1x2
  inb_S16x32896_S16x1_0_32895 : ∀ a, (![0, 32895] : Fin 2 → Nat) a + S16x1.size a ≤ S16x32896.size a
  h_S16x1 : 0 < S16x1.numel
  inb_S16x256x256_S16x1x1_0_255_255 : ∀ a, (![0, 255, 255] : Fin 3 → Nat) a + S16x1x1.size a ≤ S16x256x256.size a
  h_S16x1x1 : 0 < S16x1x1.numel
  shapeCasts_S16x1x1_S16x1 : S16x1x1.ShapeCasts S16x1
  shapeCasts_S16x1_S16x1x1 : S16x1.ShapeCasts S16x1x1
  transposes_S16x256x256_p0_2_1_S16x256x256 : S16x256x256.Transposes [0, 2, 1] S16x256x256
  iota_S256x256_d0_w32 : S256x256.Iotas .tc 32 [0]
  iota_S256x256_d1_w32 : S256x256.Iotas .tc 32 [1]
  natLt_1_32 : 1 < 32
  shapeCasts_S256x256_S1x256x256 : S256x256.ShapeCasts S1x256x256
  broadcasts_S1x256x256_S16x256x256 : S1x256x256.Broadcasts S16x256x256

class Facts₀ : Prop where
  k0 : K0.Facts₀
  shapes1 : Shapes1.Facts₀
  shapes2 : Shapes2.Facts₀
attribute [instance] Facts₀.k0 Facts₀.shapes1 Facts₀.shapes2

variable [Facts₀]

abbrev win0_0 : Pipeline.Window sig grid0 :=
  Pipeline.Window.ofSpec (Memref.whole main_arg0) S16x32896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x32896 : Shape := ⟨2, ![4096, 32896]⟩
abbrev S_ : Shape := ⟨0, ![]⟩
abbrev S256x256 : Shape := ⟨2, ![256, 256]⟩
abbrev S65536 : Shape := ⟨1, ![65536]⟩
abbrev S32896 : Shape := ⟨1, ![32896]⟩
abbrev S65536x1 : Shape := ⟨2, ![65536, 1]⟩
abbrev S4096x256x256 : Shape := ⟨3, ![4096, 256, 256]⟩
abbrev S32896x1 : Shape := ⟨2, ![32896, 1]⟩
abbrev S32896x2 : Shape := ⟨2, ![32896, 2]⟩
abbrev S1x256x256 : Shape := ⟨3, ![1, 256, 256]⟩

abbrev nBuf : Space → Nat
  | .hbm => 156
  | .vmem => 0
  | .smem => 0
  | _ => 0

abbrev hbmTy0_0 (i : Nat) : BufTy := match i % 128 with
  | 0 => ⟨S4096x32896, .f32⟩
  | 1 => ⟨S_, .f32⟩
  | 2 => ⟨S256x256, .f32⟩
  | 3 => ⟨S256x256, .i32⟩
  | 4 => ⟨S_, .i32⟩
  | 5 => ⟨S256x256, .i32⟩
  | 6 => ⟨S256x256, .i32⟩
  | 7 => ⟨S256x256, .i32⟩
  | 8 => ⟨S256x256, .i1⟩
  | 9 => ⟨S_, .f32⟩
  | 10 => ⟨S256x256, .f32⟩
  | 11 => ⟨S256x256, .f32⟩
  | 12 => ⟨S_, .f32⟩
  | 13 => ⟨S256x256, .f32⟩
  | 14 => ⟨S256x256, .i1⟩
  | 15 => ⟨S65536, .i1⟩
  | 16 => ⟨S65536, .i32⟩
  | 17 => ⟨S_, .i32⟩
  | 18 => ⟨S_, .i32⟩
  | 19 => ⟨S65536, .i32⟩
  | 20 => ⟨S_, .i32⟩
  | 21 => ⟨S32896, .i32⟩
  | 22 => ⟨S_, .i32⟩
  | 23 => ⟨S_, .i32⟩
  | 24 => ⟨S65536, .i32⟩
  | 25 => ⟨S65536, .i32⟩
  | 26 => ⟨S_, .i32⟩
  | 27 => ⟨S65536, .i32⟩
  | 28 => ⟨S65536, .i1⟩
  | 29 => ⟨S_, .i32⟩
  | 30 => ⟨S65536, .i32⟩
  | 31 => ⟨S65536, .i32⟩
  | 32 => ⟨S65536, .i32⟩
  | 33 => ⟨S65536x1, .i32⟩
  | 34 => ⟨S_, .i32⟩
  | 35 => ⟨S65536, .i32⟩
  | 36 => ⟨S32896, .i32⟩
  | 37 => ⟨S_, .i32⟩
  | 38 => ⟨S_, .i32⟩
  | 39 => ⟨S32896, .i32⟩
  | 40 => ⟨S_, .i32⟩
  | 41 => ⟨S32896, .i32⟩
  | 42 => ⟨S32896, .i32⟩
  | 43 => ⟨S32896, .i32⟩
  | 44 => ⟨S_, .i32⟩
  | 45 => ⟨S32896, .i32⟩
  | 46 => ⟨S32896, .i1⟩
  | 47 => ⟨S32896, .i32⟩
  | 48 => ⟨S32896, .i32⟩
  | 49 => ⟨S_, .i32⟩
  | 50 => ⟨S32896, .i32⟩
  | 51 => ⟨S32896, .i1⟩
  | 52 => ⟨S32896, .i1⟩
  | 53 => ⟨S_, .i32⟩
  | 54 => ⟨S32896, .i32⟩
  | 55 => ⟨S32896, .i32⟩
  | 56 => ⟨S32896, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S32896, .i32⟩
  | 64 => ⟨S32896, .i32⟩
  | 65 => ⟨S_, .i32⟩
  | 66 => ⟨S32896, .i32⟩
  | 67 => ⟨S32896, .i1⟩
  | 68 => ⟨S_, .i32⟩
  | 69 => ⟨S32896, .i32⟩
  | 70 => ⟨S32896, .i1⟩
  | 71 => ⟨S_, .i32⟩
  | 72 => ⟨S_, .i1⟩
  | 73 => ⟨S32896, .i1⟩
  | 74 => ⟨S32896, .i1⟩
  | 75 => ⟨S32896, .i1⟩
  | 76 => ⟨S32896, .i32⟩
  | 77 => ⟨S32896, .i32⟩
  | 78 => ⟨S32896, .i32⟩
  | 79 => ⟨S_, .i32⟩
  | 80 => ⟨S32896, .i32⟩
  | 81 => ⟨S32896, .i32⟩
  | 82 => ⟨S32896, .i32⟩
  | 83 => ⟨S_, .i32⟩
  | 84 => ⟨S32896, .i32⟩
  | 85 => ⟨S32896, .i1⟩
  | 86 => ⟨S32896, .i32⟩
  | 87 => ⟨S32896, .i32⟩
  | 88 => ⟨S_, .i32⟩
  | 89 => ⟨S32896, .i32⟩
  | 90 => ⟨S32896, .i1⟩
  | 91 => ⟨S32896, .i1⟩
  | 92 => ⟨S_, .i32⟩
  | 93 => ⟨S32896, .i32⟩
  | 94 => ⟨S32896, .i32⟩
  | 95 => ⟨S32896, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S32896, .i32⟩
  | 103 => ⟨S32896, .i32⟩
  | 104 => ⟨S_, .i32⟩
  | 105 => ⟨S32896, .i32⟩
  | 106 => ⟨S32896, .i1⟩
  | 107 => ⟨S_, .i32⟩
  | 108 => ⟨S32896, .i32⟩
  | 109 => ⟨S32896, .i1⟩
  | 110 => ⟨S_, .i32⟩
  | 111 => ⟨S_, .i1⟩
  | 112 => ⟨S32896, .i1⟩
  | 113 => ⟨S32896, .i1⟩
  | 114 => ⟨S32896, .i1⟩
  | 115 => ⟨S32896, .i32⟩
  | 116 => ⟨S32896, .i32⟩
  | 117 => ⟨S32896, .i32⟩
  | 118 => ⟨S_, .f32⟩
  | 119 => ⟨S4096x256x256, .f32⟩
  | 120 => ⟨S_, .i32⟩
  | 121 => ⟨S32896, .i32⟩
  | 122 => ⟨S32896, .i1⟩
  | 123 => ⟨S_, .i32⟩
  | 124 => ⟨S32896, .i32⟩
  | 125 => ⟨S32896, .i32⟩
  | 126 => ⟨S32896, .i32⟩
  | 127 => ⟨S_, .i32⟩
  | _ => ⟨S4096x32896, .f32⟩

abbrev hbmTy0_1 (i : Nat) : BufTy := match i % 128 with
  | 0 => ⟨S32896, .i32⟩
  | 1 => ⟨S32896, .i1⟩
  | 2 => ⟨S_, .i32⟩
  | 3 => ⟨S32896, .i32⟩
  | 4 => ⟨S32896, .i32⟩
  | 5 => ⟨S32896, .i32⟩
  | 6 => ⟨S32896x1, .i32⟩
  | 7 => ⟨S32896x1, .i32⟩
  | 8 => ⟨S32896x2, .i32⟩
  | 9 => ⟨S4096x256x256, .f32⟩
  | 10 => ⟨S4096x256x256, .f32⟩
  | 11 => ⟨S4096x256x256, .f32⟩
  | 12 => ⟨S256x256, .i32⟩
  | 13 => ⟨S256x256, .i32⟩
  | 14 => ⟨S_, .i32⟩
  | 15 => ⟨S256x256, .i32⟩
  | 16 => ⟨S256x256, .i32⟩
  | 17 => ⟨S256x256, .i1⟩
  | 18 => ⟨S256x256, .f32⟩
  | 19 => ⟨S_, .f32⟩
  | 20 => ⟨S256x256, .f32⟩
  | 21 => ⟨S256x256, .f32⟩
  | 22 => ⟨S_, .f32⟩
  | 23 => ⟨S256x256, .f32⟩
  | 24 => ⟨S256x256, .f32⟩
  | 25 => ⟨S1x256x256, .f32⟩
  | 26 => ⟨S4096x256x256, .f32⟩
  | 27 => ⟨S4096x256x256, .f32⟩
  | _ => ⟨S4096x32896, .f32⟩

abbrev hbmTy (i : Nat) : BufTy := match i / 128 with
  | 0 => hbmTy0_0 i
  | 1 => hbmTy0_1 i
  | _ => ⟨S4096x32896, .f32⟩

abbrev bufTy : (tb : Table) → Fin (tcTables nBuf tb) → BufTy
  | .hbm, ⟨i, _⟩ => hbmTy i
  | _, _ => ⟨S4096x32896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_call1_v0 : Ref sig .tc := ⟨.hbm, 15, rfl⟩
abbrev main_call1_v1 : Ref sig .tc := ⟨.hbm, 16, rfl⟩
abbrev main_call1_call0_c : Ref sig .tc := ⟨.hbm, 17, rfl⟩
abbrev main_call1_call0_v0 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_c_1 : Ref sig .tc := ⟨.hbm, 22, rfl⟩
abbrev main_call2_v0 : Ref sig .tc := ⟨.hbm, 23, rfl⟩
abbrev main_call2_v1 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_v8 : Ref sig .tc := ⟨.hbm, 28, rfl⟩
abbrev main_c_3 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_4 : Ref sig .tc := ⟨.hbm, 34, rfl⟩
abbrev main_v13 : Ref sig .tc := ⟨.hbm, 35, rfl⟩
abbrev main_v14 : Ref sig .tc := ⟨.hbm, 36, rfl⟩
abbrev main_call3_call0_c : Ref sig .tc := ⟨.hbm, 37, rfl⟩
abbrev main_call3_call0_v0 : Ref sig .tc := ⟨.hbm, 38, rfl⟩
abbrev main_v15 : Ref sig .tc := ⟨.hbm, 39, rfl⟩
abbrev main_c_5 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_v6 : Ref sig .tc := ⟨.hbm, 47, rfl⟩
abbrev main_call4_v7 : Ref sig .tc := ⟨.hbm, 48, rfl⟩
abbrev main_call4_c : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_c_0 : Ref sig .tc := ⟨.hbm, 53, rfl⟩
abbrev main_call4_v11 : Ref sig .tc := ⟨.hbm, 54, rfl⟩
abbrev main_call4_v12 : Ref sig .tc := ⟨.hbm, 55, rfl⟩
abbrev main_v16 : Ref sig .tc := ⟨.hbm, 56, rfl⟩
abbrev main_c_6 : Ref sig .tc := ⟨.hbm, 57, rfl⟩
abbrev main_call5_v0 : Ref sig .tc := ⟨.hbm, 58, rfl⟩
abbrev main_call5_c : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_v5 : Ref sig .tc := ⟨.hbm, 66, rfl⟩
abbrev main_call5_v6 : Ref sig .tc := ⟨.hbm, 67, rfl⟩
abbrev main_call5_c_2 : Ref sig .tc := ⟨.hbm, 68, rfl⟩
abbrev main_call5_v7 : Ref sig .tc := ⟨.hbm, 69, rfl⟩
abbrev main_call5_v8 : Ref sig .tc := ⟨.hbm, 70, rfl⟩
abbrev main_call5_c_3 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_v14 : Ref sig .tc := ⟨.hbm, 77, rfl⟩
abbrev main_v17 : Ref sig .tc := ⟨.hbm, 78, rfl⟩
abbrev main_c_7 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_call6_v5 : Ref sig .tc := ⟨.hbm, 85, rfl⟩
abbrev main_call6_v6 : Ref sig .tc := ⟨.hbm, 86, rfl⟩
abbrev main_call6_v7 : Ref sig .tc := ⟨.hbm, 87, rfl⟩
abbrev main_call6_c : Ref sig .tc := ⟨.hbm, 88, rfl⟩
abbrev main_call6_v8 : Ref sig .tc := ⟨.hbm, 89, rfl⟩
abbrev main_call6_v9 : Ref sig .tc := ⟨.hbm, 90, rfl⟩
abbrev main_call6_v10 : Ref sig .tc := ⟨.hbm, 91, rfl⟩
abbrev main_call6_c_0 : Ref sig .tc := ⟨.hbm, 92, rfl⟩
abbrev main_call6_v11 : Ref sig .tc := ⟨.hbm, 93, rfl⟩
abbrev main_call6_v12 : Ref sig .tc := ⟨.hbm, 94, rfl⟩
abbrev main_v18 : Ref sig .tc := ⟨.hbm, 95, rfl⟩
abbrev main_c_8 : Ref sig .tc := ⟨.hbm, 96, rfl⟩
abbrev main_call7_v0 : Ref sig .tc := ⟨.hbm, 97, rfl⟩
abbrev main_call7_c : Ref sig .tc := ⟨.hbm, 98, rfl⟩
abbrev main_call7_v1 : Ref sig .tc := ⟨.hbm, 99, rfl⟩
abbrev main_call7_c_0 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_call7_c_1 : Ref sig .tc := ⟨.hbm, 104, rfl⟩
abbrev main_call7_v5 : Ref sig .tc := ⟨.hbm, 105, rfl⟩
abbrev main_call7_v6 : Ref sig .tc := ⟨.hbm, 106, rfl⟩
abbrev main_call7_c_2 : Ref sig .tc := ⟨.hbm, 107, rfl⟩
abbrev main_call7_v7 : Ref sig .tc := ⟨.hbm, 108, rfl⟩
abbrev main_call7_v8 : Ref sig .tc := ⟨.hbm, 109, rfl⟩
abbrev main_call7_c_3 : Ref sig .tc := ⟨.hbm, 110, rfl⟩
abbrev main_call7_v9 : Ref sig .tc := ⟨.hbm, 111, rfl⟩
abbrev main_call7_v10 : Ref sig .tc := ⟨.hbm, 112, rfl⟩
abbrev main_call7_v11 : Ref sig .tc := ⟨.hbm, 113, rfl⟩
abbrev main_call7_v12 : Ref sig .tc := ⟨.hbm, 114, rfl⟩
abbrev main_call7_v13 : Ref sig .tc := ⟨.hbm, 115, rfl⟩
abbrev main_call7_v14 : Ref sig .tc := ⟨.hbm, 116, rfl⟩
abbrev main_v19 : Ref sig .tc := ⟨.hbm, 117, rfl⟩
abbrev main_cst_9 : Ref sig .tc := ⟨.hbm, 118, rfl⟩
abbrev main_v20 : Ref sig .tc := ⟨.hbm, 119, rfl⟩
abbrev main_c_10 : Ref sig .tc := ⟨.hbm, 120, rfl⟩
abbrev main_v21 : Ref sig .tc := ⟨.hbm, 121, rfl⟩
abbrev main_v22 : Ref sig .tc := ⟨.hbm, 122, rfl⟩
abbrev main_c_11 : Ref sig .tc := ⟨.hbm, 123, rfl⟩
abbrev main_v23 : Ref sig .tc := ⟨.hbm, 124, rfl⟩
abbrev main_v24 : Ref sig .tc := ⟨.hbm, 125, rfl⟩
abbrev main_v25 : Ref sig .tc := ⟨.hbm, 126, rfl⟩
abbrev main_c_12 : Ref sig .tc := ⟨.hbm, 127, rfl⟩
abbrev main_v26 : Ref sig .tc := ⟨.hbm, 128, rfl⟩
abbrev main_v27 : Ref sig .tc := ⟨.hbm, 129, rfl⟩
abbrev main_c_13 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_v38 : Ref sig .tc := ⟨.hbm, 141, rfl⟩
abbrev main_c_14 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_cst_15 : Ref sig .tc := ⟨.hbm, 147, rfl⟩
abbrev main_v43 : Ref sig .tc := ⟨.hbm, 148, rfl⟩
abbrev main_v44 : Ref sig .tc := ⟨.hbm, 149, rfl⟩
abbrev main_cst_16 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  shapeCasts_S256x256_S65536 : S256x256.ShapeCasts S65536
  natLt_1_32 : 1 < 32
  bcast_S_S_ : S_.BroadcastsInDim S_ (![] : Fin 0 → Fin S_.rank)
  reduceWindows_S65536_S65536_w65536s1p65535_0 : S65536.ReduceWindows (![65536] : Fin 1 → Nat) ![1] ![65535] ![0] S65536
  h_S_ : 0 < S_.numel
  bcast_S_S32896 : S_.BroadcastsInDim S32896 (![] : Fin 0 → Fin S32896.rank)
  bcast_S_S65536 : S_.BroadcastsInDim S65536 (![] : Fin 0 → Fin S65536.rank)
  bcast_S65536_S65536x1_0 : S65536.BroadcastsInDim S65536x1 (![0] : Fin 1 → Fin S65536x1.rank)
  reduceWindows_S32896_S32896_w32896s1p32895_0 : S32896.ReduceWindows (![32896] : Fin 1 → Nat) ![1] ![32895] ![0] S32896
  bcast_S_S4096x256x256 : S_.BroadcastsInDim S4096x256x256 (![] : Fin 0 → Fin S4096x256x256.rank)
  bcast_S32896_S32896x1_0 : S32896.BroadcastsInDim S32896x1 (![0] : Fin 1 → Fin S32896x1.rank)
  concatenates_S32896x1_S32896x1_S32896x2_d1 : Shape.Concatenates [S32896x1, S32896x1] S32896x2 1
  transposes_S4096x256x256_S4096x256x256_0_2_1 : S4096x256x256.Transposes [0, 2, 1] S4096x256x256
  bcast_S256x256_S1x256x256_1_2 : S256x256.BroadcastsInDim S1x256x256 (![1, 2] : Fin 2 → Fin S1x256x256.rank)
  bcast_S1x256x256_S4096x256x256_0_1_2 : S1x256x256.BroadcastsInDim S4096x256x256 (![0, 1, 2] : Fin 3 → Fin S4096x256x256.rank)
  scatter_S32896_S65536x1_S65536_n_0_0_1_wf : ScatterDims.WF S32896 S65536x1 S65536 [] [0] [0] 1
  scatter_S4096x256x256_S32896x2_S4096x32896_0_12_12_1_wf : ScatterDims.WF S4096x256x256 S32896x2 S4096x32896 [0] [1, 2] [1, 2] 1

variable [Facts₀]

def scatter_S32896_S65536x1_S65536_n_0_0_1 : ScatterDims S32896 S65536x1 S65536 where
  updateWindowDims := []
  insertedWindowDims := [0]
  scatterDimsToOperandDims := [0]
  indexVectorDim := 1
  wf := scatter_S32896_S65536x1_S65536_n_0_0_1_wf
def scatter_S4096x256x256_S32896x2_S4096x32896_0_12_12_1 : ScatterDims S4096x256x256 S32896x2 S4096x32896 where
  updateWindowDims := [0]
  insertedWindowDims := [1, 2]
  scatterDimsToOperandDims := [1, 2]
  indexVectorDim := 1
  wf := scatter_S4096x256x256_S32896x2_S4096x32896_0_12_12_1_wf

class Facts : Prop extends Facts₀ where

variable [Facts]
-- ==== Proof.Spec.lean ====
/-
  The symmetric matrix unpacked from a packed upper triangle: what both programs compute, as functions of the
  packed array, index by index.

  Row `i` of a 256 × 256 upper triangle holds its entries `(i, i) … (i, 255)` as `256 - i` consecutive entries of the
  packed vector, starting at `off i = 256 + 255 + … + (257 - i) = i (513 - i) / 2`; the packed vector has
  `off 256 = 32896` entries. `upper` is the triangle (zero below the diagonal). One program adds the triangle to its
  transpose and subtracts the diagonal once; the other adds the triangle to its transpose and halves the diagonal.
-/
import Idealize.ShloMosaic.PureOps.Ideal
import Idealize.ShloMosaic.Lib.ValueIdx

noncomputable section

namespace Cert.Tri

open Idealize.ShloMosaic Idealize.ShloMosaic.ValueIdx

/-- Where row `i` of the upper triangle starts in the packed vector. -/
def off (i : ℕ) : ℕ := i * (513 - i) / 2

abbrev SX : Shape := ⟨2, ![4096, 32896]⟩
abbrev SO : Shape := ⟨3, ![4096, 256, 256]⟩

/-- The upper triangle unpacked: entry `(i, j)` with `i ≤ j` is packed entry `off i + (j - i)` of batch row `b`; below
    the diagonal it is zero. -/
def upper (x : SX.Idx → EReal) (b : Fin 4096) (i j : Fin 256) : EReal :=
  if h : i.val ≤ j.val ∧ off i.val + (j.val - i.val) < 32896 then x (ix2 b ⟨off i.val + (j.val - i.val), h.2⟩) else 0

/-- The identity matrix's entry. -/
def diag (i j : Fin 256) : EReal := if i = j then 1 else 0

/-- The triangle plus its transpose, minus the diagonal counted once. -/
def kernelOut (x : SX.Idx → EReal) : SO.Idx → EReal := fun idx =>
  upper x (idx 0) (idx 1) (idx 2) + upper x (idx 0) (idx 2) (idx 1) - diag (idx 1) (idx 2) * upper x (idx 0) (idx 1) (idx 2)

/-- The triangle plus its transpose, times `1 - ½·identity` (the words are the floats 1.0 and 0.5). -/
def refOut (x : SX.Idx → EReal) : SO.Idx → EReal := fun idx =>
  (upper x (idx 0) (idx 1) (idx 2) + upper x (idx 0) (idx 2) (idx 1))
    * (Ideal.ofBits .f32 0x3F800000#32 - Ideal.ofBits .f32 0x3F000000#32 * diag (idx 1) (idx 2))

end Cert.Tri

end
-- ==== Proof.Algebra.lean ====
/-
  The two closed forms agree on finite data.

  Off the diagonal the identity matrix's entry is zero: u + v - 0·u = u + v = (u + v)·(1 - ½·0) for any extended reals.
  On the diagonal both triangle entries are the same packed entry u: u + u - 1·u = u = (u + u)·(1 - ½), which needs
  u finite (at an infinity the left side is ⊤ - ⊤). Finiteness of every entry is what the precondition says: the
  conjunction over all entries of |x| < +∞ is one.
-/
import proofs.«169714_j13546326851714_1_alg».proof.Proof.Spec
import proofs.«169714_j13546326851714_1_alg».proof.Pre_finite_inputs
import Idealize.ShloMosaic.Lib.ReduceAll

noncomputable section

namespace Cert.Tri

open Idealize.ShloMosaic Idealize.ShloMosaic.ValueIdx

/-- The float 1.0 denotes the real one. -/
theorem ofBits_one : Ideal.ofBits .f32 0x3F800000#32 = ((1 : ℝ) : EReal) := by
  simp [Ideal.ofBits, Ideal.ieee, -EReal.coe_mul]; norm_num

/-- The float 0.5 denotes the real one half. -/
theorem ofBits_half : Ideal.ofBits .f32 0x3F000000#32 = ((1 / 2 : ℝ) : EReal) := by
  simp [Ideal.ofBits, Ideal.ieee, -EReal.coe_mul]; norm_num

/-- The pattern of the float +∞ denotes the top element. -/
theorem ofBits_inf : Ideal.ofBits .f32 0x7F800000#32 = (⊤ : EReal) := by
  simp [Ideal.ofBits, Ideal.ieee]

/-- Every entry of the packed array is real when the precondition's conjunction is one. -/
theorem finite_of_pre [Cert.Pre_finite_inputs.Facts] (x : FVec Ideal Cert.Pre_finite_inputs.S4096x32896 .f32)
    (h : Cert.Pre_finite_inputs.fn (F := Ideal) x = fun _ => 1#1) (i : Cert.Pre_finite_inputs.S4096x32896.Idx) :
    ∃ r : ℝ, x i = (r : EReal) := by
  have h0 := congrFun h ix0
  dsimp only [Cert.Pre_finite_inputs.fn] at h0
  haveI : Subsingleton Cert.Pre_finite_inputs.S_.Idx := ⟨fun a b => funext fun d => d.elim0⟩
  have hi := Host.reduce_andi_all _ _ _ _ ix0 h0 i
  simp only [cmpf, Host.absf, broadcastInDim, constant] at hi
  change Ideal.cmp .olt (max (x i) (-(x i))) (Ideal.ofBits .f32 0x7F800000#32) = 1#1 at hi
  rw [ofBits_inf] at hi
  have hlt : max (x i) (-(x i)) < ⊤ := by
    simp only [Ideal.cmp] at hi
    by_contra hc
    simp [hc] at hi
  generalize x i = y at hlt ⊢
  induction y using EReal.rec with
  | bot => simp at hlt
  | coe r => exact ⟨r, rfl⟩
  | top => simp at hlt

/-- One entry: the sum of the two triangle entries less the diagonal's share, against the sum times 1 - ½·identity. -/
theorem entry_eq (u v : EReal) (i j : Fin 256) (hu : ∃ r : ℝ, u = (r : EReal)) (hv : ∃ r : ℝ, v = (r : EReal))
    (hdiag : i = j → u = v) :
    u + v - diag i j * u = (u + v) * (((1 : ℝ) : EReal) - ((1 / 2 : ℝ) : EReal) * diag i j) := by
  obtain ⟨r, rfl⟩ := hu
  obtain ⟨s, rfl⟩ := hv
  unfold diag
  by_cases h : i = j
  · have hrs : r = s := EReal.coe_injective (hdiag h)
    subst hrs
    rw [if_pos h, one_mul, mul_one, ← EReal.coe_add, ← EReal.coe_sub, ← EReal.coe_sub, ← EReal.coe_mul]
    congr 1
    ring
  · rw [if_neg h, zero_mul, mul_zero, sub_zero, sub_zero, EReal.coe_one, mul_one]

/-- A triangle entry is real when the packed array is. -/
theorem upper_finite (x : SX.Idx → EReal) (hfin : ∀ i, ∃ r : ℝ, x i = (r : EReal)) (b : Fin 4096) (i j : Fin 256) :
    ∃ r : ℝ, upper x b i j = (r : EReal) := by
  unfold upper
  split
  · exact hfin _
  · exact ⟨0, rfl⟩

/-- The two closed forms are one function of a finite packed array. -/
theorem kernelOut_eq_refOut (x : SX.Idx → EReal) (hfin : ∀ i, ∃ r : ℝ, x i = (r : EReal)) :
    kernelOut x = refOut x := by
  funext idx
  unfold kernelOut refOut
  rw [ofBits_one, ofBits_half]
  generalize idx 0 = b
  generalize idx 1 = i
  generalize idx 2 = j
  exact entry_eq _ _ i j (upper_finite x hfin b i j) (upper_finite x hfin b j i) (fun h => by subst h; rfl)

end Cert.Tri

end
-- ==== Proof.RefStages.lean ====
/-
  The reference program's values, stage by stage.

  The reference builds the (row, column) table of the upper triangle with integer operations and then scatters the packed
  array through it. Each definition below is the value of one buffer of the program as a pure function of the buffers it
  is computed from, written with exactly the operations the program applies, in the program's order:

  * `mask`      the upper-triangular 0/1 matrix: ones where `row - 1 ≥ column` fails, compared with zero;
  * `csum`      the mask flattened row-major, widened to 32 bits, and summed cumulatively (a window of the whole length
                ending at each position);
  * `norm65536` clamped below at zero, then a negative entry raised by 32896 (the wrap of a negative index);
  * `hist`      the histogram of those entries over 0 … 32895: a one added at each entry's position;
  * `csum2`     the cumulative sum of the histogram: the flat position `k` of packed entry number `k` in the 256 × 256 matrix;
  * `floorDiv`, `rem`  the floored quotient and the remainder of matching sign, by the truncating operations and their
                corrections;
  * `normIdx`   a negative entry raised by 256;
  * `table`     the two index columns side by side;
  * `scat`      the packed array scattered into a zero array at (row, column) per batch row;
  * `tail`      the triangle plus its transpose, times one minus one half of the identity;
  * `term`      their composition: the program's result as a function of its argument.
-/
import proofs.«169714_j13546326851714_1_alg».proof.ReferenceIdeal
import Idealize.ShloMosaic.PureOps.Ideal

noncomputable section

namespace Cert.ReferenceIdeal.Stages

open Idealize.ShloMosaic Cert.ReferenceIdeal
open Cert.ReferenceIdeal.Facts₀ Cert.ReferenceIdeal.Facts

variable [Facts]

/-- A 256 × 256 matrix filled with the float of the given word. -/
def fill256 (b : BitVec 32) : FVec Ideal S256x256 .f32 :=
  broadcastInDim S256x256 ![] bcast_S_S256x256 (constant (F := Ideal) S_ .f32 b)

/-- A vector of length 32896 filled with one word. -/
def fill32896 (b : BitVec 32) : IVec S32896 32 :=
  broadcastInDim S32896 ![] bcast_S_S32896 (constantI S_ 32 b)

/-- A vector of length 65536 filled with one word. -/
def fill65536 (b : BitVec 32) : IVec S65536 32 :=
  broadcastInDim S65536 ![] bcast_S_S65536 (constantI S_ 32 b)

/-- The upper triangle of a matrix of ones: zero where `row - 1 ≥ column`, the matrix's own entry elsewhere. -/
def triuOnes : FVec Ideal S256x256 .f32 :=
  select
    (cmpi .sge
      (addi (iotaInDim S256x256 32 0) (broadcastInDim S256x256 ![] bcast_S_S256x256 (constantI S_ 32 4294967295#32)))
      (iotaInDim S256x256 32 1))
    (fill256 0x00000000#32) (fill256 0x3F800000#32)

/-- The triangle's mask: where the upper triangle of ones differs from zero. -/
def mask : IVec S256x256 1 :=
  cmpf .une triuOnes (fill256 0x00000000#32)

/-- The mask flattened, widened to 32 bits, summed cumulatively. -/
def csum (x : IVec S256x256 1) : IVec S65536 32 :=
  Host.reduceWindow IntOp.addi ![65536] ![1] ![65535] ![0]
    (extui 32 (shapeCast S65536 x shapeCasts_S256x256_S65536) natLt_1_32)
    (broadcastInDim S_ ![] bcast_S_S_ (constantI S_ 32 0#32))
    reduceWindows_S65536_S65536_w65536s1p65535_0 h_S_

/-- Clamped below at zero. -/
def clip0 (c : IVec S65536 32) : IVec S65536 32 :=
  maxsi (broadcastInDim S65536 ![] bcast_S_S65536 (id (constantI S_ 32 0#32))) c

/-- Clamped below at zero, then a negative entry raised by 32896. -/
def norm65536 (c : IVec S65536 32) : IVec S65536 32 :=
  select (cmpi .slt (clip0 c) (fill65536 0#32)) (addi (clip0 c) (fill65536 32896#32)) (clip0 c)

/-- The histogram over 0 … 32895 of the entries: a one added at each entry's position. -/
def hist (c : IVec S65536 32) : IVec S32896 32 :=
  Host.scatter scatter_S32896_S65536x1_S65536_n_0_0_1 IntOp.addi (fill32896 0#32)
    (broadcastInDim S65536x1 ![0] bcast_S65536_S65536x1_0 c) (fill65536 1#32)

/-- The cumulative sum of a vector of length 32896. -/
def csum2 (h : IVec S32896 32) : IVec S32896 32 :=
  Host.reduceWindow IntOp.addi ![32896] ![1] ![32895] ![0] h
    (broadcastInDim S_ ![] bcast_S_S_ (constantI S_ 32 0#32))
    reduceWindows_S32896_S32896_w32896s1p32895_0 h_S_

/-- The scalar `y` along the vector's length. -/
def along (y : IVec S_ 32) : IVec S32896 32 :=
  broadcastInDim S32896 ![] bcast_S_S32896 y

/-- The floored quotient: the truncated quotient, less one where the signs differ and the remainder is not zero. -/
def floorDiv (x : IVec S32896 32) (y : IVec S_ 32) : IVec S32896 32 :=
  select
    (andi (cmpi .ne (signi x) (broadcastInDim S32896 ![] bcast_S_S32896 (signi y)))
      (cmpi .ne (Host.remsi x (along y)) (fill32896 0#32)))
    (subi (Host.divsi x (along y)) (fill32896 1#32))
    (Host.divsi x (along y))

/-- The divisor the remainder is taken by: one in place of zero. -/
def safeDiv (y : IVec S_ 32) : IVec S_ 32 :=
  select (cmpi .eq (id y) (constantI S_ 32 0#32)) (constantI S_ 32 1#32) (id y)

/-- The remainder of the divisor's sign: the truncated remainder, plus the divisor where it is not zero and its sign
    differs from the divisor's. -/
def rem (x : IVec S32896 32) (y : IVec S_ 32) : IVec S32896 32 :=
  select
    (andi
      (cmpi .ne (cmpi .slt (Host.remsi x (along (safeDiv y))) (fill32896 0#32))
        (broadcastInDim S32896 ![] bcast_S_S32896 (cmpi .slt (safeDiv y) (constantI S_ 32 0#32))))
      (cmpi .ne (Host.remsi x (along (safeDiv y))) (fill32896 0#32)))
    (addi (Host.remsi x (along (safeDiv y))) (along (safeDiv y)))
    (Host.remsi x (along (safeDiv y)))

/-- A negative entry raised by 256. -/
def normIdx (x : IVec S32896 32) : IVec S32896 32 :=
  select (cmpi .slt x (fill32896 0#32)) (addi x (fill32896 256#32)) x

/-- The index table: the row indices and the column indices side by side. -/
def table (r c : IVec S32896 32) : IVec S32896x2 32 :=
  concatenate S32896x2 1
    [⟨S32896x1, broadcastInDim S32896x1 ![0] bcast_S32896_S32896x1_0 r⟩,
     ⟨S32896x1, broadcastInDim S32896x1 ![0] bcast_S32896_S32896x1_0 c⟩]
    concatenates_S32896x1_S32896x1_S32896x2_d1

/-- The packed array scattered into a zero array: per batch row, entry `k` at (row `k`, column `k`) of the table. -/
def scat (t : IVec S32896x2 32) (x : FVec Ideal S4096x32896 .f32) : FVec Ideal S4096x256x256 .f32 :=
  Host.scatter scatter_S4096x256x256_S32896x2_S4096x32896_0_12_12_1 (fun _ b => b)
    (broadcastInDim S4096x256x256 ![] bcast_S_S4096x256x256 (constant (F := Ideal) S_ .f32 0x00000000#32)) t x

/-- The identity matrix as floats: one where row and column agree. -/
def eye : FVec Ideal S256x256 .f32 :=
  uitofp .f32
    (cmpi .eq (addi (iotaInDim S256x256 32 0) (broadcastInDim S256x256 ![] bcast_S_S256x256 (constantI S_ 32 0#32)))
      (iotaInDim S256x256 32 1))

/-- One minus one half of the identity. -/
def scale : FVec Ideal S256x256 .f32 :=
  subf (fill256 0x3F800000#32) (mulf (fill256 0x3F000000#32) eye)

/-- The triangle plus its transpose, times one minus one half of the identity. -/
def tail (s : FVec Ideal S4096x256x256 .f32) : FVec Ideal S4096x256x256 .f32 :=
  mulf (addf s (transpose S4096x256x256 [0, 2, 1] s transposes_S4096x256x256_S4096x256x256_0_2_1))
    (broadcastInDim S4096x256x256 ![0, 1, 2] bcast_S1x256x256_S4096x256x256_0_1_2
      (broadcastInDim S1x256x256 ![1, 2] bcast_S256x256_S1x256x256_1_2 scale))

/-- The flat position of each packed entry in the 256 × 256 matrix. -/
def flat : IVec S32896 32 := csum2 (hist (norm65536 (csum mask)))

/-- The row index of each packed entry. -/
def rows : IVec S32896 32 := normIdx (rem (floorDiv flat (constantI S_ 32 256#32)) (constantI S_ 32 256#32))

/-- The column index of each packed entry. -/
def cols : IVec S32896 32 := normIdx (rem (floorDiv flat (constantI S_ 32 1#32)) (constantI S_ 32 256#32))

/-- The program's result as a function of its argument. -/
def term (x : FVec Ideal S4096x32896 .f32) : FVec Ideal S4096x256x256 .f32 :=
  tail (scat (table rows cols) x)

end Cert.ReferenceIdeal.Stages

end
-- ==== Proof.RefOps.lean ====
/-
  The reference program as one straight line of operations.

  The program's functions other than its entry are inlined at their calls: each call runs the callee's operations
  over the buffers of that call's own record, so the whole program is a list of 155 operations, each writing one buffer
  from the buffers written before it. The list is stated in eleven consecutive windows, one per stage of the
  computation; the program is proved equal to running them in order, and its run is read off: every buffer ends at
  the fold of the operations over the launch contents.
-/
import proofs.«169714_j13546326851714_1_alg».proof.Proof.Gen.ReferenceIdeal
import Idealize.ShloMosaic.Lib.StableHlo.Run
import Idealize.ShloMosaic.PureOps.Ideal

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

/-- Operations 1 … 14: the triangle's mask. -/
abbrev w1 : List (HloOp τ sig (Elt Ideal)) :=
  [ StableHlo.nullary main_cst (constant (F := Ideal) S_ .f32 0x3F800000#32),
    StableHlo.unary main_cst main_v0 (broadcastInDim S256x256 ![] bcast_S_S256x256 : (⟨S_, .f32⟩ : BufTy).Contents (Elt Ideal) → (⟨S256x256, .f32⟩ : BufTy).Contents (Elt Ideal)),
    StableHlo.TRef.nullary main_call0.v0 (iotaInDim S256x256 32 0),
    StableHlo.TRef.nullary main_call0.c (constantI S_ 32 4294967295#32),
    StableHlo.TRef.unary main_call0.c main_call0.v1 (broadcastInDim S256x256 ![] bcast_S_S256x256),
    StableHlo.TRef.binary main_call0.v0 main_call0.v1 main_call0.v2 addi,
    StableHlo.TRef.nullary main_call0.v3 (iotaInDim S256x256 32 1),
    StableHlo.TRef.binary main_call0.v2 main_call0.v3 main_call0.v4 (cmpi .sge),
    StableHlo.TRef.nullary main_call0.cst (constant (F := Ideal) S_ .f32 0x00000000#32),
    StableHlo.TRef.unary main_call0.cst main_call0.v5 (broadcastInDim S256x256 ![] bcast_S_S256x256),
    StableHlo.TRef.ternary main_call0.v4 main_call0.v5 (.of main_v0 : StableHlo.TRef sig ⟨S256x256, .f32⟩) main_call0.v6 select,
    StableHlo.nullary main_cst_0 (constant (F := Ideal) S_ .f32 0x00000000#32),
    StableHlo.unary main_cst_0 main_v2 (broadcastInDim S256x256 ![] bcast_S_S256x256 : (⟨S_, .f32⟩ : BufTy).Contents (Elt Ideal) → (⟨S256x256, .f32⟩ : BufTy).Contents (Elt Ideal)),
    StableHlo.binary main_v1 main_v2 main_v3 (cmpf (F := Ideal) (φ := .f32) .une : (⟨S256x256, .f32⟩ : BufTy).Contents (Elt Ideal) → (⟨S256x256, .f32⟩ : BufTy).Contents (Elt Ideal) → (⟨S256x256, .i1⟩ : BufTy).Contents (Elt Ideal)) ]

/-- Operations 15 … 19: the mask's cumulative sum. -/
abbrev w2 : List (HloOp τ sig (Elt Ideal)) :=
  [ StableHlo.TRef.reshape (.of main_v3 : StableHlo.TRef sig ⟨S256x256, .i1⟩) main_call1.v0 rfl shapeCasts_S256x256_S65536,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![65536] ![1] ![65535] ![0] x v reduceWindows_S65536_S65536_w65536s1p65535_0 h_S_) ]

/-- Operations 20 … 36: the clamp, the wrap of negatives and the histogram. -/
abbrev w3 : List (HloOp τ sig (Elt Ideal)) :=
  [ StableHlo.nullary main_c (constantI S_ 32 0#32),
    StableHlo.unary main_c main_v5 (broadcastInDim S32896 ![] bcast_S_S32896 : (⟨S_, .i32⟩ : BufTy).Contents (Elt Ideal) → (⟨S32896, .i32⟩ : BufTy).Contents (Elt Ideal)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S65536 ![] bcast_S_S65536),
    StableHlo.TRef.binary main_call2.v1 (.of main_v4 : StableHlo.TRef sig ⟨S65536, .i32⟩) main_call2.v2 maxsi,
    StableHlo.nullary main_c_2 (constantI S_ 32 0#32),
    StableHlo.unary main_c_2 main_v7 (broadcastInDim S65536 ![] bcast_S_S65536 : (⟨S_, .i32⟩ : BufTy).Contents (Elt Ideal) → (⟨S65536, .i32⟩ : BufTy).Contents (Elt Ideal)),
    StableHlo.binary main_v6 main_v7 main_v8 (cmpi .slt : (⟨S65536, .i32⟩ : BufTy).Contents (Elt Ideal) → (⟨S65536, .i32⟩ : BufTy).Contents (Elt Ideal) → (⟨S65536, .i1⟩ : BufTy).Contents (Elt Ideal)),
    StableHlo.nullary main_c_3 (constantI S_ 32 32896#32),
    StableHlo.unary main_c_3 main_v9 (broadcastInDim S65536 ![] bcast_S_S65536 : (⟨S_, .i32⟩ : BufTy).Contents (Elt Ideal) → (⟨S65536, .i32⟩ : BufTy).Contents (Elt Ideal)),
    StableHlo.binary main_v6 main_v9 main_v10 (addi : (⟨S65536, .i32⟩ : BufTy).Contents (Elt Ideal) → (⟨S65536, .i32⟩ : BufTy).Contents (Elt Ideal) → (⟨S65536, .i32⟩ : BufTy).Contents (Elt Ideal)),
    StableHlo.ternary main_v8 main_v10 main_v6 main_v11 (select : (⟨S65536, .i1⟩ : BufTy).Contents (Elt Ideal) → (⟨S65536, .i32⟩ : BufTy).Contents (Elt Ideal) → (⟨S65536, .i32⟩ : BufTy).Contents (Elt Ideal) → (⟨S65536, .i32⟩ : BufTy).Contents (Elt Ideal)),
    StableHlo.unary main_v11 main_v12 (broadcastInDim S65536x1 ![0] bcast_S65536_S65536x1_0 : (⟨S65536, .i32⟩ : BufTy).Contents (Elt Ideal) → (⟨S65536x1, .i32⟩ : BufTy).Contents (Elt Ideal)),
    StableHlo.nullary main_c_4 (constantI S_ 32 1#32),
    StableHlo.unary main_c_4 main_v13 (broadcastInDim S65536 ![] bcast_S_S65536 : (⟨S_, .i32⟩ : BufTy).Contents (Elt Ideal) → (⟨S65536, .i32⟩ : BufTy).Contents (Elt Ideal)),
    StableHlo.ternary main_v5 main_v12 main_v13 main_v14 ((fun x i u => Host.scatter scatter_S32896_S65536x1_S65536_n_0_0_1 IntOp.addi x i u) : (⟨S32896, .i32⟩ : BufTy).Contents (Elt Ideal) → (⟨S65536x1, .i32⟩ : BufTy).Contents (Elt Ideal) → (⟨S65536, .i32⟩ : BufTy).Contents (Elt Ideal) → (⟨S32896, .i32⟩ : BufTy).Contents (Elt Ideal)) ]

/-- Operations 37 … 39: the histogram's cumulative sum. -/
abbrev w4 : List (HloOp τ sig (Elt Ideal)) :=
  [ StableHlo.TRef.nullary main_call3.call0.c (constantI S_ 32 0#32),
    StableHlo.TRef.unary main_call3.call0.c main_call3.call0.v0 (broadcastInDim S_ ![] bcast_S_S_),
    StableHlo.TRef.binary (.of main_v14 : StableHlo.TRef sig ⟨S32896, .i32⟩) main_call3.call0.v0 main_call3.call0.v1 (fun x v => Host.reduceWindow IntOp.addi ![32896] ![1] ![32895] ![0] x v reduceWindows_S32896_S32896_w32896s1p32895_0 h_S_) ]

/-- Operations 40 … 56: the floored quotient by 256. -/
abbrev w5 : List (HloOp τ sig (Elt Ideal)) :=
  [ StableHlo.nullary main_c_5 (constantI S_ 32 256#32),
    StableHlo.TRef.unary (.of main_c_5 : StableHlo.TRef sig ⟨S_, .i32⟩) main_call4.v0 (broadcastInDim S32896 ![] bcast_S_S32896),
    StableHlo.TRef.binary (.of main_v15 : StableHlo.TRef sig ⟨S32896, .i32⟩) main_call4.v0 main_call4.v1 Host.divsi,
    StableHlo.TRef.unary (.of main_v15 : StableHlo.TRef sig ⟨S32896, .i32⟩) main_call4.v2 signi,
    StableHlo.TRef.unary (.of main_c_5 : StableHlo.TRef sig ⟨S_, .i32⟩) main_call4.v3 signi,
    StableHlo.TRef.unary main_call4.v3 main_call4.v4 (broadcastInDim S32896 ![] bcast_S_S32896),
    StableHlo.TRef.binary main_call4.v2 main_call4.v4 main_call4.v5 (cmpi .ne),
    StableHlo.TRef.unary (.of main_c_5 : StableHlo.TRef sig ⟨S_, .i32⟩) main_call4.v6 (broadcastInDim S32896 ![] bcast_S_S32896),
    StableHlo.TRef.binary (.of main_v15 : StableHlo.TRef sig ⟨S32896, .i32⟩) main_call4.v6 main_call4.v7 Host.remsi,
    StableHlo.TRef.nullary main_call4.c (constantI S_ 32 0#32),
    StableHlo.TRef.unary main_call4.c main_call4.v8 (broadcastInDim S32896 ![] bcast_S_S32896),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S32896 ![] bcast_S_S32896),
    StableHlo.TRef.binary main_call4.v1 main_call4.v11 main_call4.v12 subi,
    StableHlo.TRef.ternary main_call4.v10 main_call4.v12 main_call4.v1 main_call4.call0.v0 select ]

/-- Operations 57 … 78: the remainder by 256 of that quotient: the row. -/
abbrev w6 : List (HloOp τ sig (Elt Ideal)) :=
  [ StableHlo.nullary main_c_6 (constantI S_ 32 256#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S32896 ![] bcast_S_S32896),
    StableHlo.TRef.binary (.of main_v16 : StableHlo.TRef sig ⟨S32896, .i32⟩) main_call5.v3 main_call5.v4 Host.remsi,
    StableHlo.TRef.nullary main_call5.c_1 (constantI S_ 32 0#32),
    StableHlo.TRef.unary main_call5.c_1 main_call5.v5 (broadcastInDim S32896 ![] bcast_S_S32896),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S32896 ![] bcast_S_S32896),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S32896 ![] bcast_S_S32896),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S32896 ![] bcast_S_S32896),
    StableHlo.TRef.binary main_call5.v4 main_call5.v13 main_call5.v14 addi,
    StableHlo.TRef.ternary main_call5.v12 main_call5.v14 main_call5.v4 main_call5.v15 select ]

/-- Operations 79 … 95: the floored quotient by 1. -/
abbrev w7 : List (HloOp τ sig (Elt Ideal)) :=
  [ StableHlo.nullary main_c_7 (constantI S_ 32 1#32),
    StableHlo.TRef.unary (.of main_c_7 : StableHlo.TRef sig ⟨S_, .i32⟩) main_call6.v0 (broadcastInDim S32896 ![] bcast_S_S32896),
    StableHlo.TRef.binary (.of main_v15 : StableHlo.TRef sig ⟨S32896, .i32⟩) main_call6.v0 main_call6.v1 Host.divsi,
    StableHlo.TRef.unary (.of main_v15 : StableHlo.TRef sig ⟨S32896, .i32⟩) main_call6.v2 signi,
    StableHlo.TRef.unary (.of main_c_7 : StableHlo.TRef sig ⟨S_, .i32⟩) main_call6.v3 signi,
    StableHlo.TRef.unary main_call6.v3 main_call6.v4 (broadcastInDim S32896 ![] bcast_S_S32896),
    StableHlo.TRef.binary main_call6.v2 main_call6.v4 main_call6.v5 (cmpi .ne),
    StableHlo.TRef.unary (.of main_c_7 : StableHlo.TRef sig ⟨S_, .i32⟩) main_call6.v6 (broadcastInDim S32896 ![] bcast_S_S32896),
    StableHlo.TRef.binary (.of main_v15 : StableHlo.TRef sig ⟨S32896, .i32⟩) main_call6.v6 main_call6.v7 Host.remsi,
    StableHlo.TRef.nullary main_call6.c (constantI S_ 32 0#32),
    StableHlo.TRef.unary main_call6.c main_call6.v8 (broadcastInDim S32896 ![] bcast_S_S32896),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S32896 ![] bcast_S_S32896),
    StableHlo.TRef.binary main_call6.v1 main_call6.v11 main_call6.v12 subi,
    StableHlo.TRef.ternary main_call6.v10 main_call6.v12 main_call6.v1 main_call6.call0.v0 select ]

/-- Operations 96 … 117: the remainder by 256 of that quotient: the column. -/
abbrev w8 : List (HloOp τ sig (Elt Ideal)) :=
  [ StableHlo.nullary main_c_8 (constantI S_ 32 256#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S32896 ![] bcast_S_S32896),
    StableHlo.TRef.binary (.of main_v18 : StableHlo.TRef sig ⟨S32896, .i32⟩) main_call7.v3 main_call7.v4 Host.remsi,
    StableHlo.TRef.nullary main_call7.c_1 (constantI S_ 32 0#32),
    StableHlo.TRef.unary main_call7.c_1 main_call7.v5 (broadcastInDim S32896 ![] bcast_S_S32896),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S32896 ![] bcast_S_S32896),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S32896 ![] bcast_S_S32896),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S32896 ![] bcast_S_S32896),
    StableHlo.TRef.binary main_call7.v4 main_call7.v13 main_call7.v14 addi,
    StableHlo.TRef.ternary main_call7.v12 main_call7.v14 main_call7.v4 main_call7.v15 select ]

/-- Operations 118 … 137: the index table and the scatter through it. -/
abbrev w9 : List (HloOp τ sig (Elt Ideal)) :=
  [ StableHlo.nullary main_cst_9 (constant (F := Ideal) S_ .f32 0x00000000#32),
    StableHlo.unary main_cst_9 main_v20 (broadcastInDim S4096x256x256 ![] bcast_S_S4096x256x256 : (⟨S_, .f32⟩ : BufTy).Contents (Elt Ideal) → (⟨S4096x256x256, .f32⟩ : BufTy).Contents (Elt Ideal)),
    StableHlo.nullary main_c_10 (constantI S_ 32 0#32),
    StableHlo.unary main_c_10 main_v21 (broadcastInDim S32896 ![] bcast_S_S32896 : (⟨S_, .i32⟩ : BufTy).Contents (Elt Ideal) → (⟨S32896, .i32⟩ : BufTy).Contents (Elt Ideal)),
    StableHlo.binary main_v17 main_v21 main_v22 (cmpi .slt : (⟨S32896, .i32⟩ : BufTy).Contents (Elt Ideal) → (⟨S32896, .i32⟩ : BufTy).Contents (Elt Ideal) → (⟨S32896, .i1⟩ : BufTy).Contents (Elt Ideal)),
    StableHlo.nullary main_c_11 (constantI S_ 32 256#32),
    StableHlo.unary main_c_11 main_v23 (broadcastInDim S32896 ![] bcast_S_S32896 : (⟨S_, .i32⟩ : BufTy).Contents (Elt Ideal) → (⟨S32896, .i32⟩ : BufTy).Contents (Elt Ideal)),
    StableHlo.binary main_v17 main_v23 main_v24 (addi : (⟨S32896, .i32⟩ : BufTy).Contents (Elt Ideal) → (⟨S32896, .i32⟩ : BufTy).Contents (Elt Ideal) → (⟨S32896, .i32⟩ : BufTy).Contents (Elt Ideal)),
    StableHlo.ternary main_v22 main_v24 main_v17 main_v25 (select : (⟨S32896, .i1⟩ : BufTy).Contents (Elt Ideal) → (⟨S32896, .i32⟩ : BufTy).Contents (Elt Ideal) → (⟨S32896, .i32⟩ : BufTy).Contents (Elt Ideal) → (⟨S32896, .i32⟩ : BufTy).Contents (Elt Ideal)),
    StableHlo.nullary main_c_12 (constantI S_ 32 0#32),
    StableHlo.unary main_c_12 main_v26 (broadcastInDim S32896 ![] bcast_S_S32896 : (⟨S_, .i32⟩ : BufTy).Contents (Elt Ideal) → (⟨S32896, .i32⟩ : BufTy).Contents (Elt Ideal)),
    StableHlo.binary main_v19 main_v26 main_v27 (cmpi .slt : (⟨S32896, .i32⟩ : BufTy).Contents (Elt Ideal) → (⟨S32896, .i32⟩ : BufTy).Contents (Elt Ideal) → (⟨S32896, .i1⟩ : BufTy).Contents (Elt Ideal)),
    StableHlo.nullary main_c_13 (constantI S_ 32 256#32),
    StableHlo.unary main_c_13 main_v28 (broadcastInDim S32896 ![] bcast_S_S32896 : (⟨S_, .i32⟩ : BufTy).Contents (Elt Ideal) → (⟨S32896, .i32⟩ : BufTy).Contents (Elt Ideal)),
    StableHlo.binary main_v19 main_v28 main_v29 (addi : (⟨S32896, .i32⟩ : BufTy).Contents (Elt Ideal) → (⟨S32896, .i32⟩ : BufTy).Contents (Elt Ideal) → (⟨S32896, .i32⟩ : BufTy).Contents (Elt Ideal)),
    StableHlo.ternary main_v27 main_v29 main_v19 main_v30 (select : (⟨S32896, .i1⟩ : BufTy).Contents (Elt Ideal) → (⟨S32896, .i32⟩ : BufTy).Contents (Elt Ideal) → (⟨S32896, .i32⟩ : BufTy).Contents (Elt Ideal) → (⟨S32896, .i32⟩ : BufTy).Contents (Elt Ideal)),
    StableHlo.unary main_v25 main_v31 (broadcastInDim S32896x1 ![0] bcast_S32896_S32896x1_0 : (⟨S32896, .i32⟩ : BufTy).Contents (Elt Ideal) → (⟨S32896x1, .i32⟩ : BufTy).Contents (Elt Ideal)),
    StableHlo.unary main_v30 main_v32 (broadcastInDim S32896x1 ![0] bcast_S32896_S32896x1_0 : (⟨S32896, .i32⟩ : BufTy).Contents (Elt Ideal) → (⟨S32896x1, .i32⟩ : BufTy).Contents (Elt Ideal)),
    StableHlo.binary main_v31 main_v32 main_v33 ((fun a b => concatenate S32896x2 1 [⟨S32896x1, a⟩, ⟨S32896x1, b⟩] concatenates_S32896x1_S32896x1_S32896x2_d1) : (⟨S32896x1, .i32⟩ : BufTy).Contents (Elt Ideal) → (⟨S32896x1, .i32⟩ : BufTy).Contents (Elt Ideal) → (⟨S32896x2, .i32⟩ : BufTy).Contents (Elt Ideal)),
    StableHlo.ternary main_v20 main_v33 main_arg0 main_v34 ((fun x i u => Host.scatter scatter_S4096x256x256_S32896x2_S4096x32896_0_12_12_1 (fun _ b => b) x i u) : (⟨S4096x256x256, .f32⟩ : BufTy).Contents (Elt Ideal) → (⟨S32896x2, .i32⟩ : BufTy).Contents (Elt Ideal) → (⟨S4096x32896, .f32⟩ : BufTy).Contents (Elt Ideal) → (⟨S4096x256x256, .f32⟩ : BufTy).Contents (Elt Ideal)) ]

/-- Operations 138 … 146: the transpose, the sum and the identity's mask. -/
abbrev w10 : List (HloOp τ sig (Elt Ideal)) :=
  [ StableHlo.unary main_v34 main_v35 ((transpose S4096x256x256 [0, 2, 1] · transposes_S4096x256x256_S4096x256x256_0_2_1) : (⟨S4096x256x256, .f32⟩ : BufTy).Contents (Elt Ideal) → (⟨S4096x256x256, .f32⟩ : BufTy).Contents (Elt Ideal)),
    StableHlo.binary main_v34 main_v35 main_v36 (addf (F := Ideal) (φ := .f32) : (⟨S4096x256x256, .f32⟩ : BufTy).Contents (Elt Ideal) → (⟨S4096x256x256, .f32⟩ : BufTy).Contents (Elt Ideal) → (⟨S4096x256x256, .f32⟩ : BufTy).Contents (Elt Ideal)),
    StableHlo.nullary main_v37 (iotaInDim S256x256 32 0),
    StableHlo.nullary main_v38 (iotaInDim S256x256 32 1),
    StableHlo.nullary main_c_14 (constantI S_ 32 0#32),
    StableHlo.unary main_c_14 main_v39 (broadcastInDim S256x256 ![] bcast_S_S256x256 : (⟨S_, .i32⟩ : BufTy).Contents (Elt Ideal) → (⟨S256x256, .i32⟩ : BufTy).Contents (Elt Ideal)),
    StableHlo.binary main_v37 main_v39 main_v40 (addi : (⟨S256x256, .i32⟩ : BufTy).Contents (Elt Ideal) → (⟨S256x256, .i32⟩ : BufTy).Contents (Elt Ideal) → (⟨S256x256, .i32⟩ : BufTy).Contents (Elt Ideal)),
    StableHlo.binary main_v40 main_v38 main_v41 (cmpi .eq : (⟨S256x256, .i32⟩ : BufTy).Contents (Elt Ideal) → (⟨S256x256, .i32⟩ : BufTy).Contents (Elt Ideal) → (⟨S256x256, .i1⟩ : BufTy).Contents (Elt Ideal)),
    StableHlo.unary main_v41 main_v42 (uitofp (F := Ideal) .f32 : (⟨S256x256, .i1⟩ : BufTy).Contents (Elt Ideal) → (⟨S256x256, .f32⟩ : BufTy).Contents (Elt Ideal)) ]

/-- Operations 147 … 155: one minus one half of the identity, and the product. -/
abbrev w11 : List (HloOp τ sig (Elt Ideal)) :=
  [ StableHlo.nullary main_cst_15 (constant (F := Ideal) S_ .f32 0x3F000000#32),
    StableHlo.unary main_cst_15 main_v43 (broadcastInDim S256x256 ![] bcast_S_S256x256 : (⟨S_, .f32⟩ : BufTy).Contents (Elt Ideal) → (⟨S256x256, .f32⟩ : BufTy).Contents (Elt Ideal)),
    StableHlo.binary main_v43 main_v42 main_v44 (mulf (F := Ideal) (φ := .f32) : (⟨S256x256, .f32⟩ : BufTy).Contents (Elt Ideal) → (⟨S256x256, .f32⟩ : BufTy).Contents (Elt Ideal) → (⟨S256x256, .f32⟩ : BufTy).Contents (Elt Ideal)),
    StableHlo.nullary main_cst_16 (constant (F := Ideal) S_ .f32 0x3F800000#32),
    StableHlo.unary main_cst_16 main_v45 (broadcastInDim S256x256 ![] bcast_S_S256x256 : (⟨S_, .f32⟩ : BufTy).Contents (Elt Ideal) → (⟨S256x256, .f32⟩ : BufTy).Contents (Elt Ideal)),
    StableHlo.binary main_v45 main_v44 main_v46 (subf (F := Ideal) (φ := .f32) : (⟨S256x256, .f32⟩ : BufTy).Contents (Elt Ideal) → (⟨S256x256, .f32⟩ : BufTy).Contents (Elt Ideal) → (⟨S256x256, .f32⟩ : BufTy).Contents (Elt Ideal)),
    StableHlo.unary main_v46 main_v47 (broadcastInDim S1x256x256 ![1, 2] bcast_S256x256_S1x256x256_1_2 : (⟨S256x256, .f32⟩ : BufTy).Contents (Elt Ideal) → (⟨S1x256x256, .f32⟩ : BufTy).Contents (Elt Ideal)),
    StableHlo.unary main_v47 main_v48 (broadcastInDim S4096x256x256 ![0, 1, 2] bcast_S1x256x256_S4096x256x256_0_1_2 : (⟨S1x256x256, .f32⟩ : BufTy).Contents (Elt Ideal) → (⟨S4096x256x256, .f32⟩ : BufTy).Contents (Elt Ideal)),
    StableHlo.binary main_v36 main_v48 main_v49 (mulf (F := Ideal) (φ := .f32) : (⟨S4096x256x256, .f32⟩ : BufTy).Contents (Elt Ideal) → (⟨S4096x256x256, .f32⟩ : BufTy).Contents (Elt Ideal) → (⟨S4096x256x256, .f32⟩ : BufTy).Contents (Elt Ideal)) ]

/-- The operations of the entry function's first part, in order. -/
abbrev ops0 : List (HloOp τ sig (Elt Ideal)) := w1 ++ (w2 ++ (w3 ++ (w4 ++ (w5 ++ (w6 ++ (w7 ++ (w8 ++ (w9 ++ (w10)))))))))

/-- The operations of its second part. -/
abbrev ops1 : List (HloOp τ sig (Elt Ideal)) := w11

/-- The program's 155 operations, in order. -/
abbrev ops : List (HloOp τ sig (Elt Ideal)) := ops0 ++ ops1

/-- The second part is its straight line. -/
theorem part1_eq (c : Dev nD) : main_part1 (F := Ideal) c = seq ops1 := rfl

set_option maxRecDepth 65536 in
set_option maxHeartbeats 4000000 in
/-- The first part is its straight line: the called functions unfold at their calls, and sequencing grafts each
    continuation onto the step before it, so both sides are the same chain of steps. -/
theorem part0_eq (c : Dev nD) : main_part0 (F := Ideal) c = seq ops0 := rfl

/-- The program is the two parts' straight lines run one after the other. -/
theorem main_eq (c : Dev nD) : main (F := Ideal) c = seq ops := by
  show (main_part0 (F := Ideal) c >>= fun _ => main_part1 (F := Ideal) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem w1_sub : (w1 : List (HloOp τ sig (Elt Ideal))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub ..⟩
theorem w1_fresh : ∀ op ∈ (w1 : List (HloOp τ sig (Elt Ideal))), op.fresh = ∅ := by
  intro op h; (repeat (cases h with | head => rfl | tail _ h => ?_)); exact nomatch h

theorem w2_sub : (w2 : List (HloOp τ sig (Elt Ideal))).Forall fun op => op.bufs ⊆ tcRefs τ sig :=
  ⟨reshape_bufs_sub .., unary_bufs_sub .., nullary_bufs_sub .., unary_bufs_sub .., binary_bufs_sub ..⟩
theorem w2_fresh : ∀ op ∈ (w2 : List (HloOp τ sig (Elt Ideal))), op.fresh = ∅ := by
  intro op h; (repeat (cases h with | head => rfl | tail _ h => ?_)); exact nomatch h

theorem w3_sub : (w3 : List (HloOp τ sig (Elt Ideal))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem w3_fresh : ∀ op ∈ (w3 : List (HloOp τ sig (Elt Ideal))), op.fresh = ∅ := by
  intro op h; (repeat (cases h with | head => rfl | tail _ h => ?_)); exact nomatch h

theorem w4_sub : (w4 : List (HloOp τ sig (Elt Ideal))).Forall fun op => op.bufs ⊆ tcRefs τ sig :=
  ⟨nullary_bufs_sub .., unary_bufs_sub .., binary_bufs_sub ..⟩
theorem w4_fresh : ∀ op ∈ (w4 : List (HloOp τ sig (Elt Ideal))), op.fresh = ∅ := by
  intro op h; (repeat (cases h with | head => rfl | tail _ h => ?_)); exact nomatch h

theorem w5_sub : (w5 : List (HloOp τ sig (Elt Ideal))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem w5_fresh : ∀ op ∈ (w5 : List (HloOp τ sig (Elt Ideal))), op.fresh = ∅ := by
  intro op h; (repeat (cases h with | head => rfl | tail _ h => ?_)); exact nomatch h

theorem w6_sub : (w6 : List (HloOp τ sig (Elt Ideal))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem w6_fresh : ∀ op ∈ (w6 : List (HloOp τ sig (Elt Ideal))), op.fresh = ∅ := by
  intro op h; (repeat (cases h with | head => rfl | tail _ h => ?_)); exact nomatch h

theorem w7_sub : (w7 : List (HloOp τ sig (Elt Ideal))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem w7_fresh : ∀ op ∈ (w7 : List (HloOp τ sig (Elt Ideal))), op.fresh = ∅ := by
  intro op h; (repeat (cases h with | head => rfl | tail _ h => ?_)); exact nomatch h

theorem w8_sub : (w8 : List (HloOp τ sig (Elt Ideal))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem w8_fresh : ∀ op ∈ (w8 : List (HloOp τ sig (Elt Ideal))), op.fresh = ∅ := by
  intro op h; (repeat (cases h with | head => rfl | tail _ h => ?_)); exact nomatch h

theorem w9_sub : (w9 : List (HloOp τ sig (Elt Ideal))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩
theorem w9_fresh : ∀ op ∈ (w9 : List (HloOp τ sig (Elt Ideal))), op.fresh = ∅ := by
  intro op h; (repeat (cases h with | head => rfl | tail _ h => ?_)); exact nomatch h

theorem w10_sub : (w10 : List (HloOp τ sig (Elt Ideal))).Forall fun op => op.bufs ⊆ tcRefs τ sig :=
  ⟨unary_bufs_sub .., binary_bufs_sub .., nullary_bufs_sub .., nullary_bufs_sub .., nullary_bufs_sub .., unary_bufs_sub .., binary_bufs_sub .., binary_bufs_sub .., unary_bufs_sub ..⟩
theorem w10_fresh : ∀ op ∈ (w10 : List (HloOp τ sig (Elt Ideal))), op.fresh = ∅ := by
  intro op h; (repeat (cases h with | head => rfl | tail _ h => ?_)); exact nomatch h

theorem w11_sub : (w11 : List (HloOp τ sig (Elt Ideal))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., binary_bufs_sub ..⟩
theorem w11_fresh : ∀ op ∈ (w11 : List (HloOp τ sig (Elt Ideal))), op.fresh = ∅ := by
  intro op h; (repeat (cases h with | head => rfl | tail _ h => ?_)); exact nomatch h

/-- Every operation touches buffers of the core only. -/
theorem ops_sub : (ops : List (HloOp τ sig (Elt Ideal))).Forall fun op => op.bufs ⊆ tcRefs τ sig :=
  List.forall_iff_forall_mem.2 fun op h => by
    simp only [ops, ops0, ops1, List.mem_append] at h
    rcases h with (h | h | h | h | h | h | h | h | h | h) | h
    exacts [List.forall_iff_forall_mem.1 w1_sub op h, List.forall_iff_forall_mem.1 w2_sub op h, List.forall_iff_forall_mem.1 w3_sub op h, List.forall_iff_forall_mem.1 w4_sub op h, List.forall_iff_forall_mem.1 w5_sub op h, List.forall_iff_forall_mem.1 w6_sub op h, List.forall_iff_forall_mem.1 w7_sub op h, List.forall_iff_forall_mem.1 w8_sub op h, List.forall_iff_forall_mem.1 w9_sub op h, List.forall_iff_forall_mem.1 w10_sub op h, List.forall_iff_forall_mem.1 w11_sub op h]

/-- Every operation determines what it writes. -/
theorem ops_fresh : ∀ op ∈ (ops : List (HloOp τ sig (Elt Ideal))), op.fresh = ∅ := by
  intro op h
  simp only [ops, ops0, ops1, List.mem_append] at h
  rcases h with (h | h | h | h | h | h | h | h | h | h) | h
  exacts [w1_fresh op h, w2_fresh op h, w3_fresh op h, w4_fresh op h, w5_fresh op h, w6_fresh op h, w7_fresh op h, w8_fresh op h, w9_fresh op h, w10_fresh op h, w11_fresh op h]

/-- From any memory with zero counters every weakly fair execution of the program terminates, and every buffer ends at
    the fold of the operations over the launch contents. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefRun.lean ====
/-
  The reference program's result as a function of its argument.

  The straight line of 155 operations is read in its eleven consecutive windows, one per stage of the computation: what
  each window leaves in its result buffer is the corresponding stage function of the buffers it reads, and a buffer a
  window does not write keeps its contents through it. Composed in order, the last buffer holds the stages' composition
  applied to the argument, and the argument is unchanged.
-/
import proofs.«169714_j13546326851714_1_alg».proof.Proof.RefOps
import proofs.«169714_j13546326851714_1_alg».proof.Proof.RefStages

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

/-- The fold over two lines run one after the other is the second's fold over the first's. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- Contents moved to a typed reference's buffer type and back are the contents. -/
theorem ofBuf_toBuf {T : BufTy} {Val : EltTy → Type} (x : TRef sig T) (v : T.Contents Val) : x.ofBuf (x.toBuf v) = v := by
  obtain ⟨ref, ty_eq, h1, h2⟩ := x
  subst ty_eq
  rfl

/-- The zero matrix the program builds is the stage's. -/
theorem zeros256_eq : (broadcastInDim S256x256 ![] bcast_S_S256x256 (constant (F := Ideal) S_ .f32 0x00000000#32) : FVec Ideal S256x256 .f32)
    = Stages.fill256 0x00000000#32 := rfl

/-- The matrix of ones, read at the call's argument, is the stage's. -/
theorem ones256_eq : (TRef.of main_v0 : TRef sig ⟨S256x256, .f32⟩).ofBuf (Val := Elt Ideal)
      (broadcastInDim S256x256 ![] bcast_S_S256x256 (constant (F := Ideal) S_ .f32 0x3F800000#32))
    = Stages.fill256 0x3F800000#32 := rfl

/-- The call's result buffer has the result's own type. -/
theorem toBuf_v1 (v : (⟨S256x256, .f32⟩ : BufTy).Contents (Elt Ideal)) :
    (TRef.of main_v1 : TRef sig ⟨S256x256, .f32⟩).toBuf (Val := Elt Ideal) v = v := rfl

set_option maxRecDepth 8192 in
set_option maxHeartbeats 2800000 in
/-- What window 1 leaves in main_v3: the triangle's mask. -/
theorem w1_v3 (V : Valuation τ sig (Elt Ideal)) :
    after w1 V (main_v3 : DevRef τ sig) = Stages.mask := by
  after_results_simp
  simp only [ofBuf_toBuf]
  unfold Stages.mask Stages.triuOnes
  refine congrArg₂ (cmpf (F := Ideal) (φ := .f32) .une) ?_ ?_
  · refine (toBuf_v1 _).trans ?_
    refine congrArg (select _ _) ?_
    exact ones256_eq
  · exact zeros256_eq

attribute [local irreducible] Host.reduceWindow Host.scatter in
set_option maxRecDepth 8192 in
/-- What window 2 leaves in main_v4, as a function of the buffers it reads. -/
theorem w2_v4 (V : Valuation τ sig (Elt Ideal)) :
    after w2 V (main_v4 : DevRef τ sig) = Stages.csum (V (main_v3 : DevRef τ sig)) := by
  after_results_simp <;> rfl

attribute [local irreducible] Host.reduceWindow Host.scatter in
set_option maxRecDepth 8192 in
set_option maxHeartbeats 3400000 in
/-- What window 3 leaves in main_v14, as a function of the buffers it reads. -/
theorem w3_v14 (V : Valuation τ sig (Elt Ideal)) :
    after w3 V (main_v14 : DevRef τ sig) = Stages.hist (Stages.norm65536 (V (main_v4 : DevRef τ sig))) := by
  after_results_simp <;> rfl

attribute [local irreducible] Host.reduceWindow Host.scatter in
set_option maxRecDepth 8192 in
/-- What window 4 leaves in main_v15, as a function of the buffers it reads. -/
theorem w4_v15 (V : Valuation τ sig (Elt Ideal)) :
    after w4 V (main_v15 : DevRef τ sig) = Stages.csum2 (V (main_v14 : DevRef τ sig)) := by
  after_results_simp <;> rfl

attribute [local irreducible] Host.reduceWindow Host.scatter in
set_option maxRecDepth 8192 in
set_option maxHeartbeats 3400000 in
/-- What window 5 leaves in main_v16, as a function of the buffers it reads. -/
theorem w5_v16 (V : Valuation τ sig (Elt Ideal)) :
    after w5 V (main_v16 : DevRef τ sig) = Stages.floorDiv (V (main_v15 : DevRef τ sig)) (constantI S_ 32 256#32) := by
  after_results_simp <;> rfl

attribute [local irreducible] Host.reduceWindow Host.scatter in
set_option maxRecDepth 8192 in
set_option maxHeartbeats 4000000 in
/-- What window 6 leaves in main_v17, as a function of the buffers it reads. -/
theorem w6_v17 (V : Valuation τ sig (Elt Ideal)) :
    after w6 V (main_v17 : DevRef τ sig) = Stages.rem (V (main_v16 : DevRef τ sig)) (constantI S_ 32 256#32) := by
  after_results_simp <;> rfl

attribute [local irreducible] Host.reduceWindow Host.scatter in
set_option maxRecDepth 8192 in
set_option maxHeartbeats 3400000 in
/-- What window 7 leaves in main_v18, as a function of the buffers it reads. -/
theorem w7_v18 (V : Valuation τ sig (Elt Ideal)) :
    after w7 V (main_v18 : DevRef τ sig) = Stages.floorDiv (V (main_v15 : DevRef τ sig)) (constantI S_ 32 1#32) := by
  after_results_simp <;> rfl

attribute [local irreducible] Host.reduceWindow Host.scatter in
set_option maxRecDepth 8192 in
set_option maxHeartbeats 4000000 in
/-- What window 8 leaves in main_v19, as a function of the buffers it reads. -/
theorem w8_v19 (V : Valuation τ sig (Elt Ideal)) :
    after w8 V (main_v19 : DevRef τ sig) = Stages.rem (V (main_v18 : DevRef τ sig)) (constantI S_ 32 256#32) := by
  after_results_simp <;> rfl

attribute [local irreducible] Host.reduceWindow Host.scatter in
set_option maxRecDepth 8192 in
set_option maxHeartbeats 4000000 in
/-- What window 9 leaves in main_v34, as a function of the buffers it reads. -/
theorem w9_v34 (V : Valuation τ sig (Elt Ideal)) :
    after w9 V (main_v34 : DevRef τ sig) = Stages.scat (Stages.table (Stages.normIdx (V (main_v17 : DevRef τ sig))) (Stages.normIdx (V (main_v19 : DevRef τ sig)))) (V (main_arg0 : DevRef τ sig)) := by
  after_results_simp <;> rfl

attribute [local irreducible] Host.reduceWindow Host.scatter in
set_option maxRecDepth 8192 in
set_option maxHeartbeats 1800000 in
/-- What window 10 leaves in main_v36, as a function of the buffers it reads. -/
theorem w10_v36 (V : Valuation τ sig (Elt Ideal)) :
    after w10 V (main_v36 : DevRef τ sig) = addf (F := Ideal) (φ := .f32) (V (main_v34 : DevRef τ sig)) (transpose S4096x256x256 [0, 2, 1] (V (main_v34 : DevRef τ sig)) transposes_S4096x256x256_S4096x256x256_0_2_1) := by
  after_results_simp <;> rfl

attribute [local irreducible] Host.reduceWindow Host.scatter in
set_option maxRecDepth 8192 in
set_option maxHeartbeats 1800000 in
/-- What window 10 leaves in main_v42, as a function of the buffers it reads. -/
theorem w10_v42 (V : Valuation τ sig (Elt Ideal)) :
    after w10 V (main_v42 : DevRef τ sig) = Stages.eye := by
  after_results_simp <;> rfl

attribute [local irreducible] Host.reduceWindow Host.scatter in
set_option maxRecDepth 8192 in
set_option maxHeartbeats 1800000 in
/-- What window 11 leaves in main_v49, as a function of the buffers it reads. -/
theorem w11_v49 (V : Valuation τ sig (Elt Ideal)) :
    after w11 V (main_v49 : DevRef τ sig) = mulf (F := Ideal) (φ := .f32) (V (main_v36 : DevRef τ sig)) (broadcastInDim S4096x256x256 ![0, 1, 2] bcast_S1x256x256_S4096x256x256_0_1_2 (broadcastInDim S1x256x256 ![1, 2] bcast_S256x256_S1x256x256_1_2 (subf (F := Ideal) (φ := .f32) (Stages.fill256 0x3F800000#32) (mulf (F := Ideal) (φ := .f32) (Stages.fill256 0x3F000000#32) (V (main_v42 : DevRef τ sig)))))) := by
  after_results_simp <;> rfl

set_option maxHeartbeats 2800000 in
/-- Window 1 does not write main_arg0. -/
theorem w1_arg0 (V : Valuation τ sig (Elt Ideal)) :
    after w1 V (main_arg0 : DevRef τ sig) = V (main_arg0 : DevRef τ sig) := by
  after_results_simp <;> rfl

/-- Window 2 does not write main_arg0. -/
theorem w2_arg0 (V : Valuation τ sig (Elt Ideal)) :
    after w2 V (main_arg0 : DevRef τ sig) = V (main_arg0 : DevRef τ sig) := by
  after_results_simp <;> rfl

set_option maxHeartbeats 3400000 in
/-- Window 3 does not write main_arg0. -/
theorem w3_arg0 (V : Valuation τ sig (Elt Ideal)) :
    after w3 V (main_arg0 : DevRef τ sig) = V (main_arg0 : DevRef τ sig) := by
  after_results_simp <;> rfl

/-- Window 4 does not write main_arg0. -/
theorem w4_arg0 (V : Valuation τ sig (Elt Ideal)) :
    after w4 V (main_arg0 : DevRef τ sig) = V (main_arg0 : DevRef τ sig) := by
  after_results_simp <;> rfl

set_option maxHeartbeats 3400000 in
/-- Window 5 does not write main_arg0. -/
theorem w5_arg0 (V : Valuation τ sig (Elt Ideal)) :
    after w5 V (main_arg0 : DevRef τ sig) = V (main_arg0 : DevRef τ sig) := by
  after_results_simp <;> rfl

set_option maxHeartbeats 4000000 in
/-- Window 6 does not write main_arg0. -/
theorem w6_arg0 (V : Valuation τ sig (Elt Ideal)) :
    after w6 V (main_arg0 : DevRef τ sig) = V (main_arg0 : DevRef τ sig) := by
  after_results_simp <;> rfl

set_option maxHeartbeats 3400000 in
/-- Window 7 does not write main_arg0. -/
theorem w7_arg0 (V : Valuation τ sig (Elt Ideal)) :
    after w7 V (main_arg0 : DevRef τ sig) = V (main_arg0 : DevRef τ sig) := by
  after_results_simp <;> rfl

set_option maxHeartbeats 4000000 in
/-- Window 8 does not write main_arg0. -/
theorem w8_arg0 (V : Valuation τ sig (Elt Ideal)) :
    after w8 V (main_arg0 : DevRef τ sig) = V (main_arg0 : DevRef τ sig) := by
  after_results_simp <;> rfl

set_option maxHeartbeats 4000000 in
/-- Window 9 does not write main_arg0. -/
theorem w9_arg0 (V : Valuation τ sig (Elt Ideal)) :
    after w9 V (main_arg0 : DevRef τ sig) = V (main_arg0 : DevRef τ sig) := by
  after_results_simp <;> rfl

set_option maxHeartbeats 1800000 in
/-- Window 10 does not write main_arg0. -/
theorem w10_arg0 (V : Valuation τ sig (Elt Ideal)) :
    after w10 V (main_arg0 : DevRef τ sig) = V (main_arg0 : DevRef τ sig) := by
  after_results_simp <;> rfl

set_option maxHeartbeats 1800000 in
/-- Window 11 does not write main_arg0. -/
theorem w11_arg0 (V : Valuation τ sig (Elt Ideal)) :
    after w11 V (main_arg0 : DevRef τ sig) = V (main_arg0 : DevRef τ sig) := by
  after_results_simp <;> rfl

set_option maxHeartbeats 3400000 in
/-- Window 5 does not write main_v15. -/
theorem w5_k15 (V : Valuation τ sig (Elt Ideal)) :
    after w5 V (main_v15 : DevRef τ sig) = V (main_v15 : DevRef τ sig) := by
  after_results_simp <;> rfl

set_option maxHeartbeats 4000000 in
/-- Window 6 does not write main_v15. -/
theorem w6_k15 (V : Valuation τ sig (Elt Ideal)) :
    after w6 V (main_v15 : DevRef τ sig) = V (main_v15 : DevRef τ sig) := by
  after_results_simp <;> rfl

set_option maxHeartbeats 3400000 in
/-- Window 7 does not write main_v17. -/
theorem w7_k17 (V : Valuation τ sig (Elt Ideal)) :
    after w7 V (main_v17 : DevRef τ sig) = V (main_v17 : DevRef τ sig) := by
  after_results_simp <;> rfl

set_option maxHeartbeats 4000000 in
/-- Window 8 does not write main_v17. -/
theorem w8_k17 (V : Valuation τ sig (Elt Ideal)) :
    after w8 V (main_v17 : DevRef τ sig) = V (main_v17 : DevRef τ sig) := by
  after_results_simp <;> rfl

/-- The fold over the whole line is the windows' folds in order. -/
theorem after_ops (V : Valuation τ sig (Elt Ideal)) :
    after ops V = after w11 (after w10 (after w9 (after w8 (after w7 (after w6 (after w5 (after w4 (after w3 (after w2 (after w1 V)))))))))) := by
  simp only [ops, ops0, ops1, after_app]

/-- After the whole line the last buffer holds the stages' composition applied to the argument. -/
theorem out_eq (V : Valuation τ sig (Elt Ideal)) :
    after ops V (main_v49 : DevRef τ sig) = Stages.term (V (main_arg0 : DevRef τ sig)) := by
  rw [after_ops, w11_v49, w10_v36, w10_v42, w9_v34, w8_v19, w8_k17, w8_arg0, w7_v18, w7_k17, w7_arg0, w6_v17, w6_k15, w6_arg0, w5_v16, w5_k15, w5_arg0, w4_v15, w4_arg0, w3_v14, w3_arg0, w2_v4, w2_arg0, w1_v3, w1_arg0]
  rfl

/-- The argument is unchanged. -/
theorem arg0_eq (V : Valuation τ sig (Elt Ideal)) :
    after ops V (main_arg0 : DevRef τ sig) = V (main_arg0 : DevRef τ sig) := by
  rw [after_ops, w11_arg0, w10_arg0, w9_arg0, w8_arg0, w7_arg0, w6_arg0, w5_arg0, w4_arg0, w3_arg0, w2_arg0, w1_arg0]

/-- From any memory with zero counters every weakly fair execution of the program terminates with its result at the
    stages' composition applied to the argument's launch contents, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = Stages.term (m ((c.tc : Thread nD τ).loc main_arg0))
      ∧ r.2.mem ((c.tc : Thread nD τ).loc main_arg0) = m ((c.tc : Thread nD τ).loc main_arg0) :=
  (θ_run defs _ _).mono (fun _ h c => ⟨(h c main_v49).trans (out_eq _), (h c main_arg0).trans (arg0_eq _)⟩) (run_main m ρ)

end Cert.ReferenceIdeal.RefValue

end
-- ==== Proof.RefPointwise.lean ====
/-
  The reference program's pointwise stages, read at one index.

  The reference computes the triangle's (row, column) table with integer operations on 32-bit words. Every word it
  meets is small and non-negative (a count of at most 65536, a flat position below 65536, a coordinate below 256), so
  each signed operation is the naturals' one: the floor division and floor remainder by 256 are `/` and `%`, floor
  division by 1 and the two clamp-and-wrap stages are the identity. The float tail at `(b, i, j)` is
  `(S b i j + S b j i) · (1 − ½ · [i = j])`.

  Each stage is stated twice: over the operations as the program applies them, on variable operands, and over the
  stage definitions (`Cert.ReferenceIdeal.Stages`), which unfold to the former.
-/
import proofs.«169714_j13546326851714_1_alg».proof.ReferenceIdeal
import proofs.«169714_j13546326851714_1_alg».proof.Proof.RefStages
import Idealize.ShloMosaic.Lib.ValueIdx
import Idealize.ShloMosaic.Lib.Pipeline.Value
import Idealize.ShloMosaic.PureOps.Ideal.Laws

noncomputable section

namespace Cert.ReferenceIdeal.Pointwise

open Idealize.ShloMosaic Idealize.ShloMosaic.ValueIdx

/-! ## Words: signed division and remainder of small non-negative words -/

/-- A word below 2³¹ has its sign bit clear. -/
theorem msb_false_of_lt (a : BitVec 32) (h : a.toNat < 2147483648) : a.msb = false := by
  rw [BitVec.msb_eq_decide]; simp; omega

/-- No signed-division corner (a zero divisor, or the least integer divided by minus one) for a positive divisor. -/
theorem not_sdivCorner (a d : BitVec 32) (h0 : 0 < d.toNat) (h1 : d.toNat < 2147483648) : ¬ IntOp.SDivCorner a d := by
  unfold IntOp.SDivCorner
  rintro (h | ⟨_, h⟩)
  · subst h; simp at h0
  · subst h; simp at h1

/-- The host's signed quotient of two non-negative words, the divisor positive, is the quotient of the naturals. -/
theorem divsi_host_nonneg (a d : BitVec 32) (ha : a.toNat < 2147483648) (h0 : 0 < d.toNat) (h1 : d.toNat < 2147483648) :
    IntOp.divsi .host a d = BitVec.ofNat 32 (a.toNat / d.toNat) := by
  unfold IntOp.divsi
  rw [if_neg (not_sdivCorner a d h0 h1), BitVec.sdiv_eq, msb_false_of_lt a ha, msb_false_of_lt d h1]
  apply BitVec.eq_of_toNat_eq
  have : a.toNat / d.toNat < 4294967296 := lt_of_le_of_lt (Nat.div_le_self _ _) (by omega)
  simp [Nat.mod_eq_of_lt this]

/-- The host's signed remainder of two non-negative words, the divisor positive, is the remainder of the naturals. -/
theorem remsi_host_nonneg (a d : BitVec 32) (ha : a.toNat < 2147483648) (h0 : 0 < d.toNat) (h1 : d.toNat < 2147483648) :
    IntOp.remsi .host a d = BitVec.ofNat 32 (a.toNat % d.toNat) := by
  unfold IntOp.remsi
  rw [if_neg (not_sdivCorner a d h0 h1), BitVec.srem_eq, msb_false_of_lt a ha, msb_false_of_lt d h1]
  apply BitVec.eq_of_toNat_eq
  have : a.toNat % d.toNat < 4294967296 := lt_of_le_of_lt (Nat.mod_le _ _) (by omega)
  simp [Nat.mod_eq_of_lt this]

/-- The sign of a word read signed: 0, 1 or −1. -/
def sgnW (a : BitVec 32) : BitVec 32 := if a = 0 then 0 else if a.msb then -1 else 1

/-- Floor division on words, operation by operation: the quotient toward zero, less one where the signs differ
    and the remainder is not zero. -/
def floorDivW (a d : BitVec 32) : BitVec 32 :=
  Scalar.select (IntOp.andi (IntOp.cmpi .ne (sgnW a) (sgnW d)) (IntOp.cmpi .ne (IntOp.remsi .host a d) 0#32))
    (IntOp.subi (IntOp.divsi .host a d) 1#32) (IntOp.divsi .host a d)

/-- The floor remainder on words, operation by operation: a zero divisor replaced by one, the remainder toward zero, plus the
    divisor where the remainder's sign differs from the divisor's and the remainder is not zero. -/
def remW (a d : BitVec 32) : BitVec 32 :=
  Scalar.select
    (IntOp.andi
      (IntOp.cmpi .ne (IntOp.cmpi .slt (IntOp.remsi .host a (Scalar.select (IntOp.cmpi .eq d 0#32) 1#32 d)) 0#32)
        (IntOp.cmpi .slt (Scalar.select (IntOp.cmpi .eq d 0#32) 1#32 d) 0#32))
      (IntOp.cmpi .ne (IntOp.remsi .host a (Scalar.select (IntOp.cmpi .eq d 0#32) 1#32 d)) 0#32))
    (IntOp.addi (IntOp.remsi .host a (Scalar.select (IntOp.cmpi .eq d 0#32) 1#32 d)) (Scalar.select (IntOp.cmpi .eq d 0#32) 1#32 d))
    (IntOp.remsi .host a (Scalar.select (IntOp.cmpi .eq d 0#32) 1#32 d))

/-- Floor division of a non-negative word by a positive one is the naturals' quotient: the signs differ only when the
    dividend is zero, and then the remainder is zero, so nothing is subtracted. -/
theorem floorDivW_nonneg (a d : BitVec 32) (ha : a.toNat < 2147483648) (h0 : 0 < d.toNat) (h1 : d.toNat < 2147483648) :
    floorDivW a d = BitVec.ofNat 32 (a.toNat / d.toNat) := by
  unfold floorDivW
  rw [divsi_host_nonneg a d ha h0 h1, remsi_host_nonneg a d ha h0 h1]
  have hd : sgnW d = 1 := by
    unfold sgnW
    rw [if_neg (by rintro rfl; simp at h0), msb_false_of_lt d h1]; rfl
  rw [hd]
  by_cases hz : a = 0
  · subst hz
    simp [sgnW, IntOp.cmpi, IntOp.andi, Scalar.select]
  · have hs : sgnW a = 1 := by
      unfold sgnW
      rw [if_neg hz, msb_false_of_lt a ha]; rfl
    rw [hs]
    simp [IntOp.cmpi, IntOp.andi, Scalar.select]

/-- A word below 2³¹ is not negative. -/
theorem slt_zero_false (x : BitVec 32) (h : x.toNat < 2147483648) : x.slt 0#32 = false := by
  rw [BitVec.slt_eq_decide, BitVec.toInt_eq_toNat_of_msb (msb_false_of_lt x h)]
  have : ¬ ((x.toNat : Int) < (0#32 : BitVec 32).toInt) := by
    have : (0#32 : BitVec 32).toInt = 0 := by decide
    rw [this]; omega
  exact decide_eq_false this

/-- The floor remainder of a non-negative word by a positive one is the naturals' remainder: neither the remainder nor
    the divisor is negative, so nothing is added. -/
theorem remW_nonneg (a d : BitVec 32) (ha : a.toNat < 2147483648) (h0 : 0 < d.toNat) (h1 : d.toNat < 2147483648) :
    remW a d = BitVec.ofNat 32 (a.toNat % d.toNat) := by
  unfold remW
  have hd0 : d ≠ 0#32 := by rintro rfl; simp at h0
  have hsel : Scalar.select (IntOp.cmpi .eq d 0#32) 1#32 d = d := by
    simp [IntOp.cmpi, Scalar.select, beq_eq_false_iff_ne.mpr hd0]
  rw [hsel, remsi_host_nonneg a d ha h0 h1]
  have hr : a.toNat % d.toNat < 2147483648 := lt_of_le_of_lt (Nat.mod_le _ _) ha
  have hr' : (BitVec.ofNat 32 (a.toNat % d.toNat)).toNat < 2147483648 := by
    simp; omega
  simp [IntOp.cmpi, IntOp.andi, Scalar.select, slt_zero_false _ hr', slt_zero_false _ h1]

/-! ## Floor division and floor remainder by a rank-0 divisor, read at an index -/

section Stages
variable [Facts]
open Facts₀ Facts

/-- A rank-0 word broadcast over 32896 entries reads the word everywhere. -/
theorem bcast0_apply {w : Nat} (d : IVec S_ w) (k : Fin 32896) :
    broadcastInDim S32896 ![] bcast_S_S32896 d (ix1 k) = d ix0 :=
  congrArg d (eq_ix0 _)

/-- The floor-division stage, as its operations stand, at entry `k` is the word-level floor division of the entry by
    the rank-0 divisor. -/
theorem floor_divide_eq_word (x : IVec S32896 32) (d : IVec S_ 32) (k : Fin 32896) :
    select
      (andi (cmpi .ne (signi x) (broadcastInDim S32896 ![] bcast_S_S32896 (signi d)))
        (cmpi .ne (Host.remsi x (broadcastInDim S32896 ![] bcast_S_S32896 d))
          (broadcastInDim S32896 ![] bcast_S_S32896 (constantI S_ 32 0#32))))
      (subi (Host.divsi x (broadcastInDim S32896 ![] bcast_S_S32896 d))
        (broadcastInDim S32896 ![] bcast_S_S32896 (constantI S_ 32 1#32)))
      (Host.divsi x (broadcastInDim S32896 ![] bcast_S_S32896 d)) (ix1 k)
    = floorDivW (x (ix1 k)) (d ix0) := by
  show Scalar.select (IntOp.andi (IntOp.cmpi .ne (signi x (ix1 k)) (broadcastInDim S32896 ![] bcast_S_S32896 (signi d) (ix1 k)))
        (IntOp.cmpi .ne (IntOp.remsi .host (x (ix1 k)) (broadcastInDim S32896 ![] bcast_S_S32896 d (ix1 k))) 0#32))
      (IntOp.subi (IntOp.divsi .host (x (ix1 k)) (broadcastInDim S32896 ![] bcast_S_S32896 d (ix1 k))) 1#32)
      (IntOp.divsi .host (x (ix1 k)) (broadcastInDim S32896 ![] bcast_S_S32896 d (ix1 k))) = _
  rw [bcast0_apply, bcast0_apply]
  rfl

/-- FLOOR DIVISION BY 256: where entry `k` of `x` is a word below 65536 (so non-negative) and the rank-0 divisor is
    the word 256, the stage's entry `k` is the word of `⌊x k / 256⌋`. No operand here is at the signed division's
    corner (a zero divisor, or the least integer over minus one). -/
theorem floor_divide_256_apply (x : IVec S32896 32) (d : IVec S_ 32) (k : Fin 32896) (hd : ∀ i, d i = 256#32)
    (hx : (x (ix1 k)).toNat < 65536) :
    select
      (andi (cmpi .ne (signi x) (broadcastInDim S32896 ![] bcast_S_S32896 (signi d)))
        (cmpi .ne (Host.remsi x (broadcastInDim S32896 ![] bcast_S_S32896 d))
          (broadcastInDim S32896 ![] bcast_S_S32896 (constantI S_ 32 0#32))))
      (subi (Host.divsi x (broadcastInDim S32896 ![] bcast_S_S32896 d))
        (broadcastInDim S32896 ![] bcast_S_S32896 (constantI S_ 32 1#32)))
      (Host.divsi x (broadcastInDim S32896 ![] bcast_S_S32896 d)) (ix1 k)
    = BitVec.ofNat 32 ((x (ix1 k)).toNat / 256) := by
  rw [floor_divide_eq_word, hd, floorDivW_nonneg _ _ (by omega) (by decide) (by decide)]
  rfl

/-- FLOOR DIVISION BY 1 is the identity on a non-negative word: where entry `k` of `x` is below 65536 and the
    rank-0 divisor is the word 1, the stage's entry `k` is `x k`. -/
theorem floor_divide_1_apply (x : IVec S32896 32) (d : IVec S_ 32) (k : Fin 32896) (hd : ∀ i, d i = 1#32)
    (hx : (x (ix1 k)).toNat < 65536) :
    select
      (andi (cmpi .ne (signi x) (broadcastInDim S32896 ![] bcast_S_S32896 (signi d)))
        (cmpi .ne (Host.remsi x (broadcastInDim S32896 ![] bcast_S_S32896 d))
          (broadcastInDim S32896 ![] bcast_S_S32896 (constantI S_ 32 0#32))))
      (subi (Host.divsi x (broadcastInDim S32896 ![] bcast_S_S32896 d))
        (broadcastInDim S32896 ![] bcast_S_S32896 (constantI S_ 32 1#32)))
      (Host.divsi x (broadcastInDim S32896 ![] bcast_S_S32896 d)) (ix1 k)
    = x (ix1 k) := by
  rw [floor_divide_eq_word, hd, floorDivW_nonneg _ _ (by omega) (by decide) (by decide)]
  apply BitVec.eq_of_toNat_eq
  have : (1#32 : BitVec 32).toNat = 1 := by decide
  rw [this, Nat.div_one, BitVec.toNat_ofNat, Nat.mod_eq_of_lt (by omega)]

/-- The floor-remainder stage, as its operations stand (the divisor first passed through the identity conversion, a zero
    divisor replaced by one, the sign fix-up), at entry `k` is the word-level floor remainder of the entry by the
    rank-0 divisor. -/
theorem remainder_eq_word (x : IVec S32896 32) (d : IVec S_ 32) (k : Fin 32896) :
    select
      (andi
        (cmpi .ne
          (cmpi .slt (Host.remsi x (broadcastInDim S32896 ![] bcast_S_S32896 (select (cmpi .eq d (constantI S_ 32 0#32)) (constantI S_ 32 1#32) d)))
            (broadcastInDim S32896 ![] bcast_S_S32896 (constantI S_ 32 0#32)))
          (broadcastInDim S32896 ![] bcast_S_S32896
            (cmpi .slt (select (cmpi .eq d (constantI S_ 32 0#32)) (constantI S_ 32 1#32) d) (constantI S_ 32 0#32))))
        (cmpi .ne (Host.remsi x (broadcastInDim S32896 ![] bcast_S_S32896 (select (cmpi .eq d (constantI S_ 32 0#32)) (constantI S_ 32 1#32) d)))
          (broadcastInDim S32896 ![] bcast_S_S32896 (constantI S_ 32 0#32))))
      (addi (Host.remsi x (broadcastInDim S32896 ![] bcast_S_S32896 (select (cmpi .eq d (constantI S_ 32 0#32)) (constantI S_ 32 1#32) d)))
        (broadcastInDim S32896 ![] bcast_S_S32896 (select (cmpi .eq d (constantI S_ 32 0#32)) (constantI S_ 32 1#32) d)))
      (Host.remsi x (broadcastInDim S32896 ![] bcast_S_S32896 (select (cmpi .eq d (constantI S_ 32 0#32)) (constantI S_ 32 1#32) d)))
      (ix1 k)
    = remW (x (ix1 k)) (d ix0) := by
  show Scalar.select
      (IntOp.andi
        (IntOp.cmpi .ne
          (IntOp.cmpi .slt (IntOp.remsi .host (x (ix1 k)) (broadcastInDim S32896 ![] bcast_S_S32896 (select (cmpi .eq d (constantI S_ 32 0#32)) (constantI S_ 32 1#32) d) (ix1 k))) 0#32)
          (broadcastInDim S32896 ![] bcast_S_S32896
            (cmpi .slt (select (cmpi .eq d (constantI S_ 32 0#32)) (constantI S_ 32 1#32) d) (constantI S_ 32 0#32)) (ix1 k)))
        (IntOp.cmpi .ne (IntOp.remsi .host (x (ix1 k)) (broadcastInDim S32896 ![] bcast_S_S32896 (select (cmpi .eq d (constantI S_ 32 0#32)) (constantI S_ 32 1#32) d) (ix1 k))) 0#32))
      (IntOp.addi (IntOp.remsi .host (x (ix1 k)) (broadcastInDim S32896 ![] bcast_S_S32896 (select (cmpi .eq d (constantI S_ 32 0#32)) (constantI S_ 32 1#32) d) (ix1 k)))
        (broadcastInDim S32896 ![] bcast_S_S32896 (select (cmpi .eq d (constantI S_ 32 0#32)) (constantI S_ 32 1#32) d) (ix1 k)))
      (IntOp.remsi .host (x (ix1 k)) (broadcastInDim S32896 ![] bcast_S_S32896 (select (cmpi .eq d (constantI S_ 32 0#32)) (constantI S_ 32 1#32) d) (ix1 k)))
    = _
  rw [bcast0_apply, bcast0_apply]
  rfl

/-- FLOOR REMAINDER BY 256: where entry `k` of `x` is a word below 65536 (so non-negative) and the rank-0 divisor is
    the word 256, the stage's entry `k` is the word of `x k mod 256`. The divisor is not zero, so the guard keeps it;
    no operand is at the signed division's corner. -/
theorem remainder_256_apply (x : IVec S32896 32) (d : IVec S_ 32) (k : Fin 32896) (hd : ∀ i, d i = 256#32)
    (hx : (x (ix1 k)).toNat < 65536) :
    select
      (andi
        (cmpi .ne
          (cmpi .slt (Host.remsi x (broadcastInDim S32896 ![] bcast_S_S32896 (select (cmpi .eq d (constantI S_ 32 0#32)) (constantI S_ 32 1#32) d)))
            (broadcastInDim S32896 ![] bcast_S_S32896 (constantI S_ 32 0#32)))
          (broadcastInDim S32896 ![] bcast_S_S32896
            (cmpi .slt (select (cmpi .eq d (constantI S_ 32 0#32)) (constantI S_ 32 1#32) d) (constantI S_ 32 0#32))))
        (cmpi .ne (Host.remsi x (broadcastInDim S32896 ![] bcast_S_S32896 (select (cmpi .eq d (constantI S_ 32 0#32)) (constantI S_ 32 1#32) d)))
          (broadcastInDim S32896 ![] bcast_S_S32896 (constantI S_ 32 0#32))))
      (addi (Host.remsi x (broadcastInDim S32896 ![] bcast_S_S32896 (select (cmpi .eq d (constantI S_ 32 0#32)) (constantI S_ 32 1#32) d)))
        (broadcastInDim S32896 ![] bcast_S_S32896 (select (cmpi .eq d (constantI S_ 32 0#32)) (constantI S_ 32 1#32) d)))
      (Host.remsi x (broadcastInDim S32896 ![] bcast_S_S32896 (select (cmpi .eq d (constantI S_ 32 0#32)) (constantI S_ 32 1#32) d)))
      (ix1 k)
    = BitVec.ofNat 32 ((x (ix1 k)).toNat % 256) := by
  rw [remainder_eq_word, hd, remW_nonneg _ _ (by omega) (by decide) (by decide)]
  rfl

end Stages

/-! ## Clamp-and-wrap stages are the identity on small non-negative words -/

section Norm
variable [Facts]
open Facts₀ Facts

/-- A rank-0 word broadcast over 65536 entries reads the word everywhere. -/
theorem bcast0_65536_apply {w : Nat} (d : IVec S_ w) (p : Fin 65536) :
    broadcastInDim S65536 ![] bcast_S_S65536 d (ix1 p) = d ix0 :=
  congrArg d (eq_ix0 _)

/-- The signed maximum of zero and a non-negative word is the word. -/
theorem maxsi_zero_nonneg (a : BitVec 32) (h : a.toNat < 2147483648) : IntOp.maxsi 0#32 a = a := by
  unfold IntOp.maxsi
  rw [slt_zero_false a h]; rfl

/-- "Raise a negative word by `m`" leaves a non-negative word alone. -/
theorem wrap_nonneg (a m : BitVec 32) (h : a.toNat < 2147483648) :
    Scalar.select (IntOp.cmpi .slt a 0#32) (IntOp.addi a m) a = a := by
  unfold IntOp.cmpi
  show Scalar.select (BitVec.ofBool (a.slt 0#32)) _ _ = _
  rw [slt_zero_false a h]
  exact select_zero _ _

/-- CLAMP BELOW AT ZERO, THEN RAISE A NEGATIVE ENTRY BY 32896: on an entry that is a word of at most 65536 (so
    non-negative) both steps change nothing. The clamp's bound is any rank-0 operand holding the word 0. -/
theorem norm65536_apply (c : IVec S65536 32) (z : IVec S_ 32) (p : Fin 65536) (hz : ∀ i, z i = 0#32)
    (hc : (c (ix1 p)).toNat ≤ 65536) :
    select
      (cmpi .slt (maxsi (broadcastInDim S65536 ![] bcast_S_S65536 z) c)
        (broadcastInDim S65536 ![] bcast_S_S65536 (constantI S_ 32 0#32)))
      (addi (maxsi (broadcastInDim S65536 ![] bcast_S_S65536 z) c)
        (broadcastInDim S65536 ![] bcast_S_S65536 (constantI S_ 32 32896#32)))
      (maxsi (broadcastInDim S65536 ![] bcast_S_S65536 z) c) (ix1 p)
    = c (ix1 p) := by
  show Scalar.select
      (IntOp.cmpi .slt (IntOp.maxsi (broadcastInDim S65536 ![] bcast_S_S65536 z (ix1 p)) (c (ix1 p))) 0#32)
      (IntOp.addi (IntOp.maxsi (broadcastInDim S65536 ![] bcast_S_S65536 z (ix1 p)) (c (ix1 p))) 32896#32)
      (IntOp.maxsi (broadcastInDim S65536 ![] bcast_S_S65536 z (ix1 p)) (c (ix1 p))) = _
  rw [bcast0_65536_apply, hz, maxsi_zero_nonneg _ (by omega), wrap_nonneg _ _ (by omega)]

/-- RAISE A NEGATIVE ENTRY BY 256: on an entry that is a word below 256 (so non-negative) nothing changes. -/
theorem normIdx_apply (x : IVec S32896 32) (k : Fin 32896) (hx : (x (ix1 k)).toNat < 256) :
    select (cmpi .slt x (broadcastInDim S32896 ![] bcast_S_S32896 (constantI S_ 32 0#32)))
      (addi x (broadcastInDim S32896 ![] bcast_S_S32896 (constantI S_ 32 256#32))) x (ix1 k)
    = x (ix1 k) := by
  show Scalar.select (IntOp.cmpi .slt (x (ix1 k)) 0#32) (IntOp.addi (x (ix1 k)) 256#32) (x (ix1 k)) = _
  exact wrap_nonneg _ _ (by omega)

end Norm

/-! ## The float tail, read at an index -/

section Tail
variable [Facts]
open Facts₀ Facts

/-- The identity matrix's entry as a float: the one-bit word "row = column", read unsigned, is 1 on the diagonal and 0
    off it (coordinates below 256 are their own 32-bit words, so the words agree exactly when the coordinates do). -/
theorem eye_word (i j : Fin 256) :
    (FloatOps.uitofp (F := Ideal) .f32 (IntOp.cmpi .eq (IntOp.addi (BitVec.ofNat 32 i.val) 0#32) (BitVec.ofNat 32 j.val)) : EReal)
      = if i = j then 1 else 0 := by
  show (((IntOp.cmpi .eq (IntOp.addi (BitVec.ofNat 32 i.val) 0#32) (BitVec.ofNat 32 j.val)).toNat : ℝ) : EReal) = _
  by_cases h : i = j
  · subst h; simp [IntOp.cmpi, IntOp.addi]
  · rw [if_neg h]
    have hne : ¬ (BitVec.ofNat 32 i.val = BitVec.ofNat 32 j.val) := by
      intro heq
      apply h
      apply Fin.ext
      have := congrArg BitVec.toNat heq
      simp at this
      have hi := i.isLt; have hj := j.isLt
      omega
    simp [IntOp.cmpi, IntOp.addi, hne]

/-- THE FLOAT TAIL AT `(b, i, j)`: the scattered array plus its transpose in the last two axes, times one minus one half
    of the identity matrix — `(S b i j + S b j i) · (1 − ½ · [i = j])`, the two constants the floats of their words. -/
theorem tail_apply (S : FVec Ideal S4096x256x256 .f32) (b : Fin 4096) (i j : Fin 256) :
    mulf (addf S (transpose S4096x256x256 [0, 2, 1] S transposes_S4096x256x256_S4096x256x256_0_2_1))
      (broadcastInDim S4096x256x256 ![0, 1, 2] bcast_S1x256x256_S4096x256x256_0_1_2
        (broadcastInDim S1x256x256 ![1, 2] bcast_S256x256_S1x256x256_1_2
          (subf (broadcastInDim S256x256 ![] bcast_S_S256x256 (constant (F := Ideal) S_ .f32 0x3F800000#32))
            (mulf (broadcastInDim S256x256 ![] bcast_S_S256x256 (constant (F := Ideal) S_ .f32 0x3F000000#32))
              (uitofp .f32
                (cmpi .eq (addi (iotaInDim S256x256 32 0) (broadcastInDim S256x256 ![] bcast_S_S256x256 (constantI S_ 32 0#32)))
                  (iotaInDim S256x256 32 1)))))))
      (ix3 b i j)
    = (S (ix3 b i j) + S (ix3 b j i))
        * (Ideal.ofBits .f32 0x3F800000#32 - Ideal.ofBits .f32 0x3F000000#32 * (if i = j then 1 else 0)) := by
  rw [mulf_apply, addf_apply]
  rw [transpose_apply [0, 2, 1] S transposes_S4096x256x256_S4096x256x256_0_2_1 (ix3 b i j) (ix3 b j i)
    (fun a => match a with | ⟨0, _⟩ => rfl | ⟨1, _⟩ => rfl | ⟨2, _⟩ => rfl)]
  rw [broadcastInDim_apply ![0, 1, 2] bcast_S1x256x256_S4096x256x256_0_1_2 _ (ix3 b i j) (ix3 (0 : Fin 1) i j)
    (fun a => match a with | ⟨0, _⟩ => rfl | ⟨1, _⟩ => rfl | ⟨2, _⟩ => rfl)]
  rw [broadcastInDim_apply ![1, 2] bcast_S256x256_S1x256x256_1_2 _ (ix3 (0 : Fin 1) i j) (ix2 i j)
    (fun a => match a with | ⟨0, _⟩ => rfl | ⟨1, _⟩ => rfl)]
  rw [subf_apply, mulf_apply]
  show _ * (Ideal.ofBits .f32 0x3F800000#32 - Ideal.ofBits .f32 0x3F000000#32 *
    (FloatOps.uitofp (F := Ideal) .f32 (IntOp.cmpi .eq (IntOp.addi (BitVec.ofNat 32 i.val) 0#32) (BitVec.ofNat 32 j.val)) : EReal)) = _
  rw [eye_word]

end Tail

/-! ## The same stages over the stage definitions -/

section OverStages
variable [Facts]
open Facts₀ Facts

/-- Floor division by the constant 256 of an entry below 65536 is the word of `⌊x k / 256⌋`. -/
theorem stage_floorDiv_256 (x : IVec S32896 32) (k : Fin 32896) (hx : (x (ix1 k)).toNat < 65536) :
    Stages.floorDiv x (constantI S_ 32 256#32) (ix1 k) = BitVec.ofNat 32 ((x (ix1 k)).toNat / 256) := by
  unfold Stages.floorDiv Stages.along Stages.fill32896
  exact floor_divide_256_apply x _ k (fun _ => rfl) hx

/-- Floor division by the constant 1 of an entry below 65536 is the entry. -/
theorem stage_floorDiv_1 (x : IVec S32896 32) (k : Fin 32896) (hx : (x (ix1 k)).toNat < 65536) :
    Stages.floorDiv x (constantI S_ 32 1#32) (ix1 k) = x (ix1 k) := by
  unfold Stages.floorDiv Stages.along Stages.fill32896
  exact floor_divide_1_apply x _ k (fun _ => rfl) hx

/-- The floor remainder by the constant 256 of an entry below 65536 is the word of `x k mod 256`. -/
theorem stage_rem_256 (x : IVec S32896 32) (k : Fin 32896) (hx : (x (ix1 k)).toNat < 65536) :
    Stages.rem x (constantI S_ 32 256#32) (ix1 k) = BitVec.ofNat 32 ((x (ix1 k)).toNat % 256) := by
  unfold Stages.rem Stages.safeDiv Stages.along Stages.fill32896
  exact remainder_256_apply x (id (constantI S_ 32 256#32)) k (fun _ => rfl) hx

/-- Clamping below at zero and raising a negative entry by 32896 leave an entry of at most 65536 alone. -/
theorem stage_norm65536 (c : IVec S65536 32) (p : Fin 65536) (hc : (c (ix1 p)).toNat ≤ 65536) :
    Stages.norm65536 c (ix1 p) = c (ix1 p) := by
  unfold Stages.norm65536 Stages.clip0 Stages.fill65536
  exact norm65536_apply c (id (constantI S_ 32 0#32)) p (fun _ => rfl) hc

/-- Raising a negative entry by 256 leaves an entry below 256 alone. -/
theorem stage_normIdx (x : IVec S32896 32) (k : Fin 32896) (hx : (x (ix1 k)).toNat < 256) :
    Stages.normIdx x (ix1 k) = x (ix1 k) := by
  unfold Stages.normIdx Stages.fill32896
  exact normIdx_apply x k hx

/-- The float tail at `(b, i, j)` is `(S b i j + S b j i) · (1 − ½ · [i = j])`. -/
theorem stage_tail (S : FVec Ideal S4096x256x256 .f32) (b : Fin 4096) (i j : Fin 256) :
    Stages.tail S (ix3 b i j)
    = (S (ix3 b i j) + S (ix3 b j i))
        * (Ideal.ofBits .f32 0x3F800000#32 - Ideal.ofBits .f32 0x3F000000#32 * (if i = j then 1 else 0)) := by
  unfold Stages.tail Stages.scale Stages.eye Stages.fill256
  exact tail_apply S b i j

end OverStages

end Cert.ReferenceIdeal.Pointwise

end
-- ==== Proof.TriDefs.lean ====
/-
  Positions of a 256 × 256 matrix in row-major order, and how many of them lie on or above the diagonal.
-/
import Mathlib.Data.Finset.Card
import Mathlib.Data.Nat.Basic
import Mathlib.Order.Interval.Finset.Nat

namespace Cert.Tri

/-- Position `p = 256·row + column` lies on or above the diagonal. -/
def up (p : ℕ) : Prop := p / 256 ≤ p % 256

instance : DecidablePred up := fun p => inferInstanceAs (Decidable (p / 256 ≤ p % 256))

/-- How many positions `≤ p` lie on or above the diagonal. -/
def cnt (p : ℕ) : ℕ := ((Finset.range (p + 1)).filter up).card

end Cert.Tri
-- ==== Proof.TriCount.lean ====
import Mathlib.Tactic
import Mathlib.Data.Nat.Find
import Mathlib.Data.Finset.Card
import Mathlib.Data.Fintype.Card
import proofs.«169714_j13546326851714_1_alg».proof.Proof.Spec
import proofs.«169714_j13546326851714_1_alg».proof.Proof.TriDefs

namespace Cert.Tri

/-! ## Where the rows of the packed triangle start -/

/-- Row 0 starts at packed position 0. -/
theorem off_zero : off 0 = 0 := by decide

/-- The packed triangle has 256 + 255 + … + 1 = 32896 entries: row 256 would start there. -/
theorem off_256 : off 256 = 32896 := by decide

/-- Row i of the triangle has 256 - i entries, so the next row starts that many positions later. With
    256 = i + d the products are (i + 1) (256 + d) = i (257 + d) + 2 d, so the halves differ by d exactly; the
    division by two loses nothing because an even number is added. -/
theorem off_succ (i : ℕ) (hi : i ≤ 256) : off (i + 1) = off i + (256 - i) := by
  obtain ⟨d, hd⟩ : ∃ d, 256 = i + d := ⟨256 - i, by omega⟩
  have h1 : 513 - (i + 1) = 256 + d := by omega
  have h2 : 513 - i = 257 + d := by omega
  have h3 : 256 - i = d := by omega
  unfold off
  rw [h1, h2, h3]
  have h4 : (i + 1) * (256 + d) = i * (257 + d) + 2 * d := by nlinarith
  rw [h4, Nat.add_mul_div_left _ _ (by norm_num : 0 < 2)]

/-- Row starts increase with the row, up to row 256: each step adds the length of a row. -/
theorem off_mono {i i' : ℕ} (h : i ≤ i') (h' : i' ≤ 256) : off i ≤ off i' := by
  induction i' with
  | zero =>
    obtain rfl : i = 0 := by omega
    exact le_rfl
  | succ m ih =>
    rcases Nat.lt_or_ge i (m + 1) with hlt | hge
    · have h1 := off_succ m (by omega)
      have h2 := ih (by omega) (by omega)
      omega
    · obtain rfl : i = m + 1 := by omega
      exact le_rfl

/-- A later row starts after the whole of an earlier row. -/
theorem off_add_len_le {i i' : ℕ} (h : i < i') (h' : i' ≤ 256) : off i + (256 - i) ≤ off i' := by
  rw [← off_succ i (by omega)]
  exact off_mono h h'

/-- Entry (i, j) of the triangle, i ≤ j < 256, has a packed position below 32896: it lies in row i, which ends where
    row i + 1 starts, at or before 32896. -/
theorem off_add_lt (i j : ℕ) (hij : i ≤ j) (hj : j < 256) : off i + (j - i) < 32896 := by
  have h1 := off_add_len_le (show i < 256 by omega) le_rfl
  rw [off_256] at h1
  omega

/-! ## Counting the positions on or above the diagonal -/

/-! Position p = 256 · row + column of a 256-wide row-major matrix lies on or above the diagonal when row ≤ column
    (the predicate up); cnt p is how many such positions are at most p. -/

/-- Position 0 is the diagonal entry (0, 0): one position counted. -/
theorem cnt_zero : cnt 0 = 1 := by decide

/-- One more position adds one to the count exactly when it is on or above the diagonal. -/
theorem cnt_succ (p : ℕ) : cnt (p + 1) = cnt p + if up (p + 1) then 1 else 0 := by
  unfold cnt
  rw [Finset.range_add_one (n := p + 1), Finset.filter_insert]
  split_ifs with h
  · rw [Finset.card_insert_of_notMem]
    simp
  · rfl

/-- Counting up to a later position counts at least as much. -/
theorem cnt_mono {p q : ℕ} (h : p ≤ q) : cnt p ≤ cnt q :=
  Finset.card_le_card (Finset.filter_subset_filter _ (Finset.range_mono (by omega)))

/-- A position on or above the diagonal is counted, so every earlier position has a smaller count. -/
theorem cnt_lt_of_lt_of_up {p P : ℕ} (h : p < P) (hup : up P) : cnt p < cnt P := by
  obtain ⟨P', rfl⟩ : ∃ P', P = P' + 1 := ⟨P - 1, by omega⟩
  have := cnt_mono (show p ≤ P' by omega)
  rw [cnt_succ, if_pos hup]
  omega

/-- The count in closed form. At position p in row r = p / 256 < 256 and column c = p % 256, the rows before r
    contribute their 256 - 0, …, 256 - (r - 1) positions, off r in all, and row r contributes its columns r, …, c:
    none when c < r, else c - r + 1. By induction on p: stepping within a row adds the new position when r ≤ c + 1,
    and stepping to the next row (from column 255 to column 0 of row r + 1 ≥ 1) adds nothing while
    off r + (256 - r) = off (r + 1). -/
theorem cnt_formula (p : ℕ) (hp : p / 256 < 256) :
    cnt p = off (p / 256) + if p % 256 < p / 256 then 0 else p % 256 - p / 256 + 1 := by
  induction p with
  | zero => simp [cnt_zero, off_zero]
  | succ p ih =>
    have ih := ih (by omega)
    rw [cnt_succ, ih]
    have hup : up (p + 1) ↔ (p + 1) / 256 ≤ (p + 1) % 256 := Iff.rfl
    simp only [hup]
    rcases Nat.lt_or_ge (p % 256 + 1) 256 with hc | hc
    · have hr : (p + 1) / 256 = p / 256 := by omega
      have hm : (p + 1) % 256 = p % 256 + 1 := by omega
      rw [hr, hm]
      split_ifs <;> omega
    · have hr : (p + 1) / 256 = p / 256 + 1 := by omega
      have hm : (p + 1) % 256 = 0 := by omega
      have hs := off_succ (p / 256) (by omega)
      rw [hr, hm, hs]
      split_ifs <;> omega

/-- Entry (i, j) with i ≤ j < 256 sits on or above the diagonal. -/
theorem up_row_col (i j : ℕ) (hij : i ≤ j) (hj : j < 256) : up (256 * i + j) := by
  unfold up
  omega

/-- Up to and including entry (i, j), i ≤ j < 256, the positions counted are the rows before i and columns
    i, …, j of row i: the packed position of (i, j), plus one. -/
theorem cnt_row_col (i j : ℕ) (hij : i ≤ j) (hj : j < 256) : cnt (256 * i + j) = off i + (j - i) + 1 := by
  have hr : (256 * i + j) / 256 = i := by omega
  have hm : (256 * i + j) % 256 = j := by omega
  rw [cnt_formula _ (by omega), hr, hm, if_neg (by omega)]
  omega

/-- The whole 256 × 256 matrix has 32896 positions on or above the diagonal. -/
theorem cnt_total : cnt 65535 = 32896 := by
  have h := cnt_row_col 255 255 le_rfl (by norm_num)
  have h255 : off 255 = 32895 := by decide
  rw [h255] at h
  exact h

/-- No count within the matrix passes 32896. -/
theorem cnt_le_total (p : ℕ) (hp : p < 65536) : cnt p ≤ 32896 := by
  rw [← cnt_total]
  exact cnt_mono (by omega)

/-! ## The key fact: how many positions have a count at most k -/

/-- Let k be the packed position of entry (i, j), i ≤ j < 256, and P = 256 i + j its row-major position. The count is
    monotone, it is k + 1 at P, and P itself is on or above the diagonal, so every position before P has a count at
    most k and every position from P on has a count above k: within the matrix the positions whose count is at most k
    are exactly the positions before P. -/
theorem filter_cnt_le_eq_range (i j : ℕ) (hij : i ≤ j) (hj : j < 256) :
    ((Finset.range 65536).filter fun p => cnt p ≤ off i + (j - i)) = Finset.range (256 * i + j) := by
  ext p
  simp only [Finset.mem_filter, Finset.mem_range]
  have hc := cnt_row_col i j hij hj
  constructor
  · rintro ⟨_, hle⟩
    by_contra hge
    have := cnt_mono (show 256 * i + j ≤ p by omega)
    omega
  · intro hlt
    have := cnt_lt_of_lt_of_up hlt (up_row_col i j hij hj)
    constructor <;> omega

/-- The number of positions of the matrix whose count is at most the packed position of (i, j) is the row-major
    position 256 i + j of (i, j). -/
theorem card_cnt_le (i j : ℕ) (hij : i ≤ j) (hj : j < 256) :
    ((Finset.range 65536).filter fun p => cnt p ≤ off i + (j - i)).card = 256 * i + j := by
  rw [filter_cnt_le_eq_range i j hij hj, Finset.card_range]

/-- Counting the numbers below n with a property, as numbers or as elements of Fin n, gives the same. -/
theorem card_filter_fin (n : ℕ) (Q : ℕ → Prop) [DecidablePred Q] :
    ((Finset.univ : Finset (Fin n)).filter fun p => Q p.val).card = ((Finset.range n).filter Q).card := by
  refine Finset.card_bij (fun p _ => p.val) ?_ ?_ ?_
  · intro p hp
    exact Finset.mem_filter.2 ⟨Finset.mem_range.2 p.isLt, (Finset.mem_filter.1 hp).2⟩
  · intro a _ b _ hab
    exact Fin.ext hab
  · intro b hb
    have hb' := Finset.mem_filter.1 hb
    exact ⟨⟨b, Finset.mem_range.1 hb'.1⟩, Finset.mem_filter.2 ⟨Finset.mem_univ _, hb'.2⟩, rfl⟩

/-- The key fact over Fin 65536. -/
theorem card_cnt_le_fin (i j : ℕ) (hij : i ≤ j) (hj : j < 256) :
    ((Finset.univ : Finset (Fin 65536)).filter fun p => cnt p.val ≤ off i + (j - i)).card = 256 * i + j := by
  rw [card_filter_fin 65536 (fun p => cnt p ≤ off i + (j - i))]
  exact card_cnt_le i j hij hj

/-! ## Every packed position is one entry of the triangle -/

/-- Two entries of the triangle with the same packed position are the same entry: an earlier row ends before a later
    row starts, so the rows agree, and within a row the position determines the column. -/
theorem off_add_inj {i j i' j' : ℕ} (hij : i ≤ j) (hj : j < 256) (hij' : i' ≤ j') (hj' : j' < 256)
    (h : off i + (j - i) = off i' + (j' - i')) : i = i' ∧ j = j' := by
  rcases Nat.lt_trichotomy i i' with hlt | heq | hgt
  · have := off_add_len_le hlt (by omega)
    omega
  · subst heq
    omega
  · have := off_add_len_le hgt (by omega)
    omega

/-- The row of packed position k: the last row that starts at or before k. -/
def rowOf (k : ℕ) : ℕ := Nat.findGreatest (fun i => off i ≤ k) 255

/-- The column of packed position k: as far right of the diagonal as k is past the start of its row. -/
def colOf (k : ℕ) : ℕ := rowOf k + (k - off (rowOf k))

/-- For k < 32896 the row of k is below 256, starts at or before k, and the next row starts after k. -/
theorem rowOf_spec (k : ℕ) (hk : k < 32896) : rowOf k ≤ 255 ∧ off (rowOf k) ≤ k ∧ k < off (rowOf k + 1) := by
  have hle : rowOf k ≤ 255 := Nat.findGreatest_le 255
  have hspec : off (rowOf k) ≤ k :=
    Nat.findGreatest_spec (P := fun i => off i ≤ k) (Nat.zero_le 255) (by rw [off_zero]; exact Nat.zero_le k)
  refine ⟨hle, hspec, ?_⟩
  rcases Nat.lt_or_ge (rowOf k) 255 with hlt | hge
  · have hn : ¬ off (rowOf k + 1) ≤ k :=
      Nat.findGreatest_is_greatest (P := fun i => off i ≤ k) (k := rowOf k + 1) (Nat.lt_succ_self _) (by omega)
    omega
  · have h255 : rowOf k = 255 := by omega
    rw [h255, off_256]
    exact hk

/-- Every k < 32896 is the packed position of the entry (rowOf k, colOf k) of the triangle. -/
theorem rowOf_colOf_spec (k : ℕ) (hk : k < 32896) :
    rowOf k ≤ colOf k ∧ colOf k < 256 ∧ k = off (rowOf k) + (colOf k - rowOf k) := by
  obtain ⟨h1, h2, h3⟩ := rowOf_spec k hk
  rw [off_succ _ (by omega)] at h3
  unfold colOf
  omega

/-- Every k < 32896 is the packed position of some entry (i, j), i ≤ j < 256. -/
theorem exists_row_col (k : ℕ) (hk : k < 32896) : ∃ i j, i ≤ j ∧ j < 256 ∧ k = off i + (j - i) :=
  ⟨rowOf k, colOf k, rowOf_colOf_spec k hk⟩

/-- Every k < 32896 is the packed position of exactly one entry of the triangle. -/
theorem existsUnique_row_col (k : ℕ) (hk : k < 32896) :
    ∃! ij : ℕ × ℕ, ij.1 ≤ ij.2 ∧ ij.2 < 256 ∧ k = off ij.1 + (ij.2 - ij.1) := by
  refine ⟨(rowOf k, colOf k), rowOf_colOf_spec k hk, ?_⟩
  rintro ⟨i, j⟩ ⟨hij, hj, hkij⟩
  obtain ⟨h1, h2, h3⟩ := rowOf_colOf_spec k hk
  obtain ⟨e1, e2⟩ := off_add_inj hij hj h1 h2 (hkij.symm.trans h3)
  exact Prod.ext e1 e2

/-- The row and column read back from the packed position of (i, j), i ≤ j < 256, are i and j. -/
theorem rowOf_colOf_off (i j : ℕ) (hij : i ≤ j) (hj : j < 256) :
    rowOf (off i + (j - i)) = i ∧ colOf (off i + (j - i)) = j := by
  obtain ⟨h1, h2, h3⟩ := rowOf_colOf_spec _ (off_add_lt i j hij hj)
  obtain ⟨e1, e2⟩ := off_add_inj hij hj h1 h2 h3
  exact ⟨e1.symm, e2.symm⟩

/-- The key fact in terms of the packed position alone: for k < 32896 the positions of the matrix with a count at
    most k number 256 · (row of k) + (column of k). -/
theorem card_cnt_le_of_lt (k : ℕ) (hk : k < 32896) :
    ((Finset.range 65536).filter fun p => cnt p ≤ k).card = 256 * rowOf k + colOf k := by
  obtain ⟨h1, h2, h3⟩ := rowOf_colOf_spec k hk
  have h := card_cnt_le (rowOf k) (colOf k) h1 h2
  rw [← h3] at h
  exact h

/-- The same over Fin 65536. -/
theorem card_cnt_le_fin_of_lt (k : ℕ) (hk : k < 32896) :
    ((Finset.univ : Finset (Fin 65536)).filter fun p => cnt p.val ≤ k).card = 256 * rowOf k + colOf k := by
  rw [card_filter_fin 65536 (fun p => cnt p ≤ k)]
  exact card_cnt_le_of_lt k hk

end Cert.Tri
-- ==== Proof.LibScatter.lean ====
/-
  General facts about the host scatter, read at one operand index.

  A scatter walks the update indices in row-major order; each update lands at one operand index (start index plus
  window coordinate) or is dropped when that index leaves the operand. Read at ONE operand index `i`, only the
  updates landing at `i` matter, in their row-major order:

  * `scatter_apply`      — the value at `i` is the left fold of the body over the updates that land at `i`, from the
                            operand's own element;
  * `scatter_of_none`    — when no update lands at `i` the value is the operand's element, whatever the body;
  * `scatter_set_of_unique` — for a body that returns the update (an assignment): when exactly one update lands at `i`
                            the value is that update;
  * `scatter_add_one_toNat` — for the integer sum of the constant one into zeros (a histogram): the value at `i` is the
                            number of updates landing at `i`, when that number fits the word.
-/
import Idealize.ShloMosaic.PureOps.ShapeOps
import Idealize.ShloMosaic.PureOps.Dims
import Mathlib.Data.List.Basic

namespace Cert.LibScatter

open Idealize.ShloMosaic

variable {s si u : Shape} {α : Type} {w : Nat}

/-- The scatter's step function: update number `n` (row-major) replaces the element at its landing index by the body
    of that element and the update, and changes nothing when it is dropped. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- One step read at `i`: the body is applied exactly when the update lands at `i`. -/
theorem step_apply (d : ScatterDims s si u) (f : α → α → α) (idx : IVec si w) (upd : u.Idx → α) (r : s.Idx → α)
    (n : Fin u.numel) (i : s.Idx) :
    step d f idx upd r n i
      = if d.resultIdx? (u.rowMajor.symm n) idx = some i then f (r i) (upd (u.rowMajor.symm n)) else r i := by
  unfold step
  cases h : d.resultIdx? (u.rowMajor.symm n) idx with
  | none => simp
  | some k =>
    by_cases hk : i = k
    · subst hk; simp
    · have : ¬ (some k = some i) := fun e => hk (Option.some.inj e).symm
      simp [hk, this]

/-- A fold of steps read at `i` is the fold of the body over the updates of the list that land at `i`. -/
theorem foldl_step_apply (d : ScatterDims s si u) (f : α → α → α) (idx : IVec si w) (upd : u.Idx → α)
    (L : List (Fin u.numel)) (r : s.Idx → α) (i : s.Idx) :
    L.foldl (step d f idx upd) r i
      = (L.filter fun n => decide (d.resultIdx? (u.rowMajor.symm n) idx = some i)).foldl
          (fun a n => f a (upd (u.rowMajor.symm n))) (r i) := by
  induction L generalizing r with
  | nil => rfl
  | cons n L ih =>
    rw [List.foldl_cons, ih, step_apply]
    by_cases h : d.resultIdx? (u.rowMajor.symm n) idx = some i
    · rw [List.filter_cons_of_pos (by simpa using h), List.foldl_cons, if_pos h]
    · rw [List.filter_cons_of_neg (by simpa using h), if_neg h]

/-- THE SCATTER AT AN INDEX: the left fold of the body, from the operand's element at `i`, over the updates that land at
    `i`, in row-major order. -/
theorem scatter_apply (d : ScatterDims s si u) (f : α → α → α) (x : s.Idx → α) (idx : IVec si w) (upd : u.Idx → α)
    (i : s.Idx) :
    Host.scatter d f x idx upd i
      = ((List.finRange u.numel).filter fun n => decide (d.resultIdx? (u.rowMajor.symm n) idx = some i)).foldl
          (fun a n => f a (upd (u.rowMajor.symm n))) (x i) := by
  rw [scatter_eq_foldl, foldl_step_apply]

/-- No update lands at `i`: the operand's element stays, whatever the body. -/
theorem scatter_of_none (d : ScatterDims s si u) (f : α → α → α) (x : s.Idx → α) (idx : IVec si w) (upd : u.Idx → α)
    (i : s.Idx) (h : ∀ j : u.Idx, d.resultIdx? j idx ≠ some i) :
    Host.scatter d f x idx upd i = x i := by
  rw [scatter_apply]
  have : ((List.finRange u.numel).filter fun n => decide (d.resultIdx? (u.rowMajor.symm n) idx = some i)) = [] := by
    rw [List.filter_eq_nil_iff]
    intro n _
    simpa using h (u.rowMajor.symm n)
  rw [this]; rfl

/-- The updates landing at `i`, when `j₀` is the only one: the one-element list of its row-major number. -/
theorem filter_of_unique (d : ScatterDims s si u) (idx : IVec si w) (i : s.Idx) (j₀ : u.Idx)
    (h₀ : d.resultIdx? j₀ idx = some i) (huniq : ∀ j : u.Idx, d.resultIdx? j idx = some i → j = j₀) :
    ((List.finRange u.numel).filter fun n => decide (d.resultIdx? (u.rowMajor.symm n) idx = some i))
      = [u.rowMajor j₀] := by
  have hp : ∀ n : Fin u.numel, decide (d.resultIdx? (u.rowMajor.symm n) idx = some i) = (n == u.rowMajor j₀) := by
    intro n
    by_cases hn : n = u.rowMajor j₀
    · subst hn; simp [h₀]
    · have : ¬ d.resultIdx? (u.rowMajor.symm n) idx = some i := fun e => hn (by
        have := huniq _ e; rw [← this]; simp)
      simp [hn, this]
  rw [List.filter_congr (fun n _ => hp n), List.filter_beq,
    List.count_eq_one_of_mem (List.nodup_finRange _) (List.mem_finRange _)]
  rfl

/-- An assignment (the body returns the update): when `j₀` is the one update landing at `i`, the value at `i` is that
    update. -/
theorem scatter_set_of_unique (d : ScatterDims s si u) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d (fun _ b => b) x idx upd i = upd j₀ := by
  rw [scatter_apply, filter_of_unique d idx i j₀ h₀ huniq]
  simp

/-- A left fold of word addition of the constant one over a list, from zero, counts the list (when the count fits). -/
theorem foldl_add_one_toNat {β : Type} (L : List β) (a : BitVec w) (hfit : a.toNat + L.length < 2 ^ w) :
    (L.foldl (fun (r : BitVec w) (_ : β) => IntOp.addi r (1 : BitVec w)) a).toNat = a.toNat + L.length := by
  induction L generalizing a with
  | nil => simp
  | cons b L ih =>
    rw [List.foldl_cons]
    have hfit' : a.toNat + (L.length + 1) < 2 ^ w := by rw [List.length_cons] at hfit; exact hfit
    have hpow : 1 < 2 ^ w := by
      rcases Nat.eq_zero_or_pos w with hw | hw
      · subst hw; omega
      · exact Nat.one_lt_two_pow (by omega)
    have hone : (1 : BitVec w).toNat = 1 := by
      show (BitVec.ofNat w 1).toNat = 1
      rw [BitVec.toNat_ofNat]; exact Nat.mod_eq_of_lt hpow
    have h1 : (IntOp.addi a (1 : BitVec w)).toNat = a.toNat + 1 := by
      unfold IntOp.addi
      rw [BitVec.toNat_add, hone]; exact Nat.mod_eq_of_lt (by omega)
    rw [ih _ (by rw [h1]; omega), h1, List.length_cons]; omega

/-- A histogram: the integer sum of the constant one scattered into zeros holds, at `i`, the number of updates that
    land at `i` (when that number fits the word). -/
theorem scatter_add_one_toNat (d : ScatterDims s si u) (x : s.Idx → BitVec w) (idx : IVec si w) (upd : u.Idx → BitVec w)
    (i : s.Idx) (hx : x i = 0) (hupd : ∀ j, upd j = 1)
    (hfit : ((List.finRange u.numel).filter fun n => decide (d.resultIdx? (u.rowMajor.symm n) idx = some i)).length < 2 ^ w) :
    (Host.scatter d IntOp.addi x idx upd i).toNat
      = ((List.finRange u.numel).filter fun n => decide (d.resultIdx? (u.rowMajor.symm n) idx = some i)).length := by
  rw [scatter_apply]
  have : (fun (a : BitVec w) (n : Fin u.numel) => IntOp.addi a (upd (u.rowMajor.symm n)))
      = fun (a : BitVec w) (_ : Fin u.numel) => IntOp.addi a (1 : BitVec w) := by
    funext a n; rw [hupd]
  rw [this, foldl_add_one_toNat _ _ (by rw [hx]; simpa using hfit), hx]
  simp

end Cert.LibScatter
-- ==== Proof.LibScatterShapes.lean ====
/-
  The landing index of an update for two scatter layouts, in closed form.

  * One scatter axis into a vector (`resultIdx?_vec`): the operand is a vector of length `N`, each of the `M` scalar
    updates carries one start index; update `j` lands at `i` exactly when its start index, read as a signed integer, is
    `i` — a start index outside `[0, N)` lands nowhere.
  * A pair of start indices selecting a (row, column) cell per batch row (`resultIdx?_cells`): the operand is
    `B × R × C`, the updates are `B × K`, and update `(b, k)` lands at `(b, r, c)` exactly when the `k`-th pair of start
    indices is `(r, c)`.
-/
import Idealize.ShloMosaic.PureOps.ShapeOps
import Idealize.ShloMosaic.PureOps.Dims
import Idealize.ShloMosaic.Lib.ValueIdx

namespace Cert.LibScatter

open Idealize.ShloMosaic Idealize.ShloMosaic.ValueIdx

variable {N M B R C K w : Nat}

section Vec

variable (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1)

include h1 h2 h3 h4 in
/-- The start of update `j` on the vector's one axis is its start index, read signed. -/
theorem start_vec (j : (⟨1, ![M]⟩ : Shape).Idx) (idx : IVec ⟨2, ![M, 1]⟩ w) :
    d.start j idx 0 = (idx (ix2 (j 0) 0)).toInt := by
  obtain ⟨uw, iw, sd, iv, wf⟩ := d
  subst h1 h2 h3 h4
  unfold ScatterDims.start
  simp only [List.mem_singleton, dite_true]
  congr 1
  congr 1
  funext b
  unfold ScatterDims.siIdx
  match b with
  | ⟨0, _⟩ => simp; rfl
  | ⟨1, _⟩ => simp; rfl

include h1 h2 h3 h4 in
/-- The vector's axis is an inserted one: the window coordinate is zero. -/
theorem window_vec (j : (⟨1, ![M]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- Update `j` lands at `i` exactly when its start index, read signed, is `i`. -/
theorem resultIdx?_vec (j : (⟨1, ![M]⟩ : Shape).Idx) (idx : IVec ⟨2, ![M, 1]⟩ w) (i : (⟨1, ![N]⟩ : Shape).Idx) :
    d.resultIdx? j idx = some i ↔ (idx (ix2 (j 0) 0)).toInt = ((i 0).val : Int) := by
  have hs := start_vec d h1 h2 h3 h4 j idx
  have hw := window_vec d h1 h2 h3 h4 j
  have hi : (i 0).val < N := (i 0).isLt
  unfold ScatterDims.resultIdx?
  constructor
  · intro h
    split at h
    · rename_i hin
      have := congrFun (Option.some.inj h) 0
      have hv := congrArg Fin.val this
      simp only [hs, hw] at hv
      have h0 := (hin 0).1
      rw [hs, hw] at h0
      omega
    · exact absurd h (by simp)
  · intro h
    have hin : ∀ a, 0 ≤ d.start j idx a + ↑(d.window j a) ∧ d.start j idx a + ↑(d.window j a) < (⟨1, ![N]⟩ : Shape).size a := by
      intro a
      have : a = 0 := Subsingleton.elim _ _
      subst this
      rw [hs, hw, h]
      constructor
      · omega
      · show ((i 0).val : Int) + ((0 : Nat) : Int) < ((N : Nat) : Int)
        omega
    rw [dif_pos hin]
    congr 1
    funext a
    have : a = 0 := Subsingleton.elim _ _
    subst this
    apply Fin.ext
    simp only [hs, hw, h]
    omega

end Vec

section Cells

variable (d : ScatterDims ⟨3, ![B, R, C]⟩ ⟨2, ![K, 2]⟩ ⟨2, ![B, K]⟩)
    (h1 : d.updateWindowDims = [0]) (h2 : d.insertedWindowDims = [1, 2]) (h3 : d.scatterDimsToOperandDims = [1, 2])
    (h4 : d.indexVectorDim = 1)

include h1 h2 h3 h4 in
/-- The batch axis has no start index: its start is zero. -/
theorem start_cells0 (j : (⟨2, ![B, K]⟩ : Shape).Idx) (idx : IVec ⟨2, ![K, 2]⟩ w) : d.start j idx 0 = 0 := by
  obtain ⟨uw, iw, sd, iv, wf⟩ := d
  subst h1 h2 h3 h4
  unfold ScatterDims.start
  rw [dif_neg]
  simp

include h1 h2 h3 h4 in
/-- The row's start is the first component of the update's pair of start indices, read signed. -/
theorem start_cells1 (j : (⟨2, ![B, K]⟩ : Shape).Idx) (idx : IVec ⟨2, ![K, 2]⟩ w) :
    d.start j idx 1 = (idx (ix2 (j 1) 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The column's start is the second component of the update's pair of start indices, read signed. -/
theorem start_cells2 (j : (⟨2, ![B, K]⟩ : Shape).Idx) (idx : IVec ⟨2, ![K, 2]⟩ w) :
    d.start j idx 2 = (idx (ix2 (j 1) 1)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl
  | ⟨1, _⟩ => simp; rfl

include h1 h2 h3 h4 in
/-- The batch axis is the window axis: the window coordinate is the update's batch coordinate. -/
theorem window_cells0 (j : (⟨2, ![B, K]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- Rows and columns are inserted axes: their window coordinate is zero. -/
theorem window_cells1 (j : (⟨2, ![B, K]⟩ : Shape).Idx) : d.window j 1 = 0 := by
  obtain ⟨uw, iw, sd, iv, wf⟩ := d
  subst h1 h2 h3 h4
  unfold ScatterDims.window
  rw [dif_neg]
  simp [ScatterDims.sKept, Shape.kept]

include h1 h2 h3 h4 in
theorem window_cells2 (j : (⟨2, ![B, K]⟩ : Shape).Idx) : d.window j 2 = 0 := by
  obtain ⟨uw, iw, sd, iv, wf⟩ := d
  subst h1 h2 h3 h4
  unfold ScatterDims.window
  rw [dif_neg]
  simp [ScatterDims.sKept, Shape.kept]

include h1 h2 h3 h4 in
/-- Update `(b, k)` lands at `(b', r, c)` exactly when `b' = b` and the `k`-th pair of start indices, read signed, is
    `(r, c)`. -/
theorem resultIdx?_cells (j : (⟨2, ![B, K]⟩ : Shape).Idx) (idx : IVec ⟨2, ![K, 2]⟩ w) (i : (⟨3, ![B, R, C]⟩ : Shape).Idx) :
    d.resultIdx? j idx = some i ↔
      (i 0).val = (j 0).val ∧ (idx (ix2 (j 1) 0)).toInt = ((i 1).val : Int) ∧ (idx (ix2 (j 1) 1)).toInt = ((i 2).val : Int) := by
  have hs0 := start_cells0 d h1 h2 h3 h4 j idx
  have hs1 := start_cells1 d h1 h2 h3 h4 j idx
  have hs2 := start_cells2 d h1 h2 h3 h4 j idx
  have hw0 := window_cells0 d h1 h2 h3 h4 j
  have hw1 := window_cells1 d h1 h2 h3 h4 j
  have hw2 := window_cells2 d h1 h2 h3 h4 j
  have hi0 : (i 0).val < B := (i 0).isLt
  have hi1 : (i 1).val < R := (i 1).isLt
  have hi2 : (i 2).val < C := (i 2).isLt
  have hj0 : (j 0).val < B := (j 0).isLt
  unfold ScatterDims.resultIdx?
  constructor
  · intro h
    split at h
    · rename_i hin
      have e := Option.some.inj h
      have e0 := congrArg Fin.val (congrFun e 0)
      have e1 := congrArg Fin.val (congrFun e 1)
      have e2 := congrArg Fin.val (congrFun e 2)
      simp only [hs0, hw0, hs1, hw1, hs2, hw2] at e0 e1 e2
      have g1 := (hin 1).1
      have g2 := (hin 2).1
      rw [hs1, hw1] at g1
      rw [hs2, hw2] at g2
      refine ⟨by omega, by omega, by omega⟩
    · exact absurd h (by simp)
  · rintro ⟨e0, e1, e2⟩
    have hin : ∀ a, 0 ≤ d.start j idx a + ↑(d.window j a) ∧ d.start j idx a + ↑(d.window j a) < (⟨3, ![B, R, C]⟩ : Shape).size a := by
      intro a
      match a with
      | ⟨0, _⟩ =>
        show 0 ≤ d.start j idx 0 + ↑(d.window j 0) ∧ d.start j idx 0 + ↑(d.window j 0) < ((B : Nat) : Int)
        rw [hs0, hw0]; omega
      | ⟨1, _⟩ =>
        show 0 ≤ d.start j idx 1 + ↑(d.window j 1) ∧ d.start j idx 1 + ↑(d.window j 1) < ((R : Nat) : Int)
        rw [hs1, hw1, e1]; omega
      | ⟨2, _⟩ =>
        show 0 ≤ d.start j idx 2 + ↑(d.window j 2) ∧ d.start j idx 2 + ↑(d.window j 2) < ((C : Nat) : Int)
        rw [hs2, hw2, e2]; omega
    rw [dif_pos hin]
    congr 1
    funext a
    apply Fin.ext
    match a with
    | ⟨0, _⟩ =>
      show (d.start j idx 0 + ↑(d.window j 0)).toNat = (i 0).val
      rw [hs0, hw0]; omega
    | ⟨1, _⟩ =>
      show (d.start j idx 1 + ↑(d.window j 1)).toNat = (i 1).val
      rw [hs1, hw1, e1]; omega
    | ⟨2, _⟩ =>
      show (d.start j idx 2 + ↑(d.window j 2)).toNat = (i 2).val
      rw [hs2, hw2, e2]; omega

end Cells

end Cert.LibScatter
-- ==== Proof.ScatterCells.lean ====
/-
  The packed entries scattered into the upper triangle, read at one cell.

  Update `(b, k)` carries the packed entry `x[b, k]` and lands at the cell `(b, r, c)` that the `k`-th pair of the index
  table names. When the table sends the packed position `off i + (j - i)` of every cell `(i, j)` on or above the diagonal
  to that cell, and every packed position is one of those, then each cell on or above the diagonal is met by exactly one
  update — its own packed entry — and no cell below the diagonal is met at all: the scattered array is the triangle.
-/
import proofs.«169714_j13546326851714_1_alg».proof.Proof.Spec
import proofs.«169714_j13546326851714_1_alg».proof.Proof.LibScatter
import proofs.«169714_j13546326851714_1_alg».proof.Proof.LibScatterShapes

noncomputable section

namespace Cert.Tri

open Idealize.ShloMosaic Idealize.ShloMosaic.ValueIdx Cert.LibScatter

variable (d : ScatterDims ⟨3, ![4096, 256, 256]⟩ ⟨2, ![32896, 2]⟩ ⟨2, ![4096, 32896]⟩)
    (h1 : d.updateWindowDims = [0]) (h2 : d.insertedWindowDims = [1, 2]) (h3 : d.scatterDimsToOperandDims = [1, 2])
    (h4 : d.indexVectorDim = 1)

include h1 h2 h3 h4 in
/-- The scatter of the packed array by a table that lists the triangle's cells in packed order is the triangle. -/
theorem scatter_cells (Z : SO.Idx → EReal) (hZ : ∀ i, Z i = 0) (tbl : IVec ⟨2, ![32896, 2]⟩ 32) (x : SX.Idx → EReal)
    (htbl : ∀ (k : Fin 32896) (i j : Fin 256), i.val ≤ j.val → k.val = off i.val + (j.val - i.val) →
      (tbl (ix2 k 0)).toInt = (i.val : Int) ∧ (tbl (ix2 k 1)).toInt = (j.val : Int))
    (hsurj : ∀ k : Fin 32896, ∃ i j : Fin 256, i.val ≤ j.val ∧ k.val = off i.val + (j.val - i.val))
    (b : Fin 4096) (i j : Fin 256) :
    Host.scatter d (fun _ u => u) Z tbl x (ix3 b i j) = upper x b i j := by
  -- what it means for update `(b', k')` to land at `(b, i, j)`
  have hland : ∀ (jj : (⟨2, ![4096, 32896]⟩ : Shape).Idx),
      d.resultIdx? jj tbl = some (ix3 b i j) ↔
        b.val = (jj 0).val ∧ (tbl (ix2 (jj 1) 0)).toInt = (i.val : Int) ∧ (tbl (ix2 (jj 1) 1)).toInt = (j.val : Int) :=
    fun jj => resultIdx?_cells d h1 h2 h3 h4 jj tbl (ix3 b i j)
  -- a landing update's table entry names a cell on or above the diagonal, at its own packed position
  have hcell : ∀ (jj : (⟨2, ![4096, 32896]⟩ : Shape).Idx), d.resultIdx? jj tbl = some (ix3 b i j) →
      i.val ≤ j.val ∧ (jj 1).val = off i.val + (j.val - i.val) ∧ (jj 0).val = b.val := by
    intro jj hj
    obtain ⟨hb, hr, hc⟩ := (hland jj).1 hj
    obtain ⟨i', j', hij', hk'⟩ := hsurj (jj 1)
    obtain ⟨hr', hc'⟩ := htbl (jj 1) i' j' hij' hk'
    have e1 : (i'.val : Int) = i.val := by rw [← hr', hr]
    have e2 : (j'.val : Int) = j.val := by rw [← hc', hc]
    have e1' : i'.val = i.val := by exact_mod_cast e1
    have e2' : j'.val = j.val := by exact_mod_cast e2
    refine ⟨by omega, ?_, hb.symm⟩
    rw [hk', e1', e2']
  unfold upper
  split
  · rename_i hij
    -- the one landing update is `(b, off i + (j - i))`
    have h₀ : d.resultIdx? (ix2 b (⟨off i.val + (j.val - i.val), hij.2⟩ : Fin 32896)) tbl = some (ix3 b i j) := by
      rw [hland]
      obtain ⟨hr, hc⟩ := htbl ⟨off i.val + (j.val - i.val), hij.2⟩ i j hij.1 rfl
      exact ⟨rfl, hr, hc⟩
    rw [scatter_set_of_unique d Z tbl x (ix3 b i j) (ix2 b ⟨off i.val + (j.val - i.val), hij.2⟩) h₀]
    intro jj hj
    obtain ⟨_, hk, hb⟩ := hcell jj hj
    rw [eq_ix2 jj]
    congr 1
    · exact Fin.ext hb
    · exact Fin.ext hk
  · rename_i hij
    rw [scatter_of_none d (fun _ u => u) Z tbl x (ix3 b i j), hZ]
    intro jj hj
    obtain ⟨hle, hk, _⟩ := hcell jj hj
    exact hij ⟨hle, by rw [← hk]; exact (jj 1).isLt⟩

end Cert.Tri

end
-- ==== Proof.LibCumsum.lean ====
import Idealize.ShloMosaic.PureOps.Contract
import Idealize.ShloMosaic.Lib.ValueIdx
import Mathlib.Data.BitVec
import Mathlib.Algebra.BigOperators.Fin
import Mathlib.Algebra.BigOperators.Intervals
import Mathlib.Tactic

open scoped BigOperators

namespace Cert.LibCumsum

open Idealize.ShloMosaic Idealize.ShloMosaic.ValueIdx

/-- A rank-one shape has as many elements as its one extent. -/
theorem numel_rank_one (n : Nat) : (⟨1, ![n]⟩ : Shape).numel = n := by
  simp [Shape.numel]

/-- In a rank-one shape the index at row-major position k has coordinate k. -/
theorem rowMajor_symm_rank_one {d : Fin 1 → Nat} (k : Fin (⟨1, d⟩ : Shape).numel) :
    (((⟨1, d⟩ : Shape).rowMajor.symm k) 0).val = k.val := by
  have h := Shape.rowMajor_val_one ((⟨1, d⟩ : Shape).rowMajor.symm k)
  rw [Equiv.apply_symm_apply] at h
  exact h.symm

/-- A left fold over all of Fin m may be taken over Fin n when m = n. -/
theorem foldl_finRange_cast {β : Type} {m n : Nat} (h : m = n) (F : β → Fin m → β) (v : β) :
    (List.finRange m).foldl F v = (List.finRange n).foldl (fun r k => F r (k.cast h.symm)) v := by
  subst h; rfl

/-- A left fold that adds one word per position, starting from zero, is the sum of the words. -/
theorem foldl_add_eq_sum {w n : Nat} (T : Fin n → BitVec w) :
    (List.finRange n).foldl (fun r k => r + T k) 0#w = ∑ k, T k := by
  rw [← List.sum_ofFn, List.ofFn_eq_map, List.sum_eq_foldl, List.foldl_map]
  rfl

/-- The value of a sum of words is the sum of their values, reduced modulo 2 ^ w. -/
theorem toNat_sum {w : Nat} {ι : Type} (s : Finset ι) (T : ι → BitVec w) :
    (∑ k ∈ s, T k).toNat = (∑ k ∈ s, (T k).toNat) % 2 ^ w := by
  classical
  induction s using Finset.induction_on with
  | empty => simp
  | insert a s ha ih =>
    rw [Finset.sum_insert ha, Finset.sum_insert ha, BitVec.toNat_add, ih, Nat.add_mod_mod]

/-- Two dependent conditionals with equivalent conditions, equal values where both hold and the same default agree. -/
theorem dite_congr_iff {α : Type} {P Q : Prop} [Decidable P] [Decidable Q] (hPQ : P ↔ Q) (a : P → α) (b : Q → α) (c : α)
    (hab : ∀ hp hq, a hp = b hq) : (if h : P then a h else c) = (if h : Q then b h else c) := by
  by_cases hp : P
  · rw [dif_pos hp, dif_pos (hPQ.1 hp)]; exact hab _ _
  · rw [dif_neg hp, dif_neg (fun hq => hp (hPQ.2 hq))]

/-- The window form of a cumulative sum, read at one position. The operation pads the array with lo copies of the
    initial value in front and slides a window of n positions along it with stride one; the result at position p folds the
    body (addition of words) from the initial value over the window's positions k = 0, …, n - 1 in order. Position k of the
    window at p is position p + k of the padded array: an element of the array, x at p + k - lo, when lo ≤ p + k and
    p + k - lo < n, and the initial value otherwise. In a rank-one shape the row-major decoding of a window position is the
    position itself, and with the initial value zero the fold from zero is the sum of the words met: so the result is the
    sum over k of that conditional, padding counting as zero. No relation between lo and n is needed for this form. -/
theorem reduceWindow_cumsum_eq_sum {n lo : Nat} (x : (⟨1, ![n]⟩ : Shape).Idx → BitVec 32)
    (init : (⟨0, ![]⟩ : Shape).Idx → BitVec 32)
    (h : (⟨1, ![n]⟩ : Shape).ReduceWindows (![n] : Fin 1 → Nat) ![1] ![lo] ![0] ⟨1, ![n]⟩)
    (hu : 0 < (⟨0, ![]⟩ : Shape).numel) (hinit : init ix0 = 0#32) (p : Fin n) :
    Host.reduceWindow IntOp.addi (![n] : Fin 1 → Nat) ![1] ![lo] ![0] x init h hu (ix1 p)
      = ∑ k : Fin n, if hk : lo ≤ p.val + k.val ∧ p.val + k.val - lo < n then x (ix1 ⟨p.val + k.val - lo, hk.2⟩) else 0#32 := by
  have hv : init (Shape.Idx.first hu) = 0#32 := by rw [eq_ix0 (Shape.Idx.first hu)]; exact hinit
  rw [← foldl_add_eq_sum]
  unfold Host.reduceWindow
  simp only []
  rw [hv, foldl_finRange_cast (numel_rank_one n)]
  have hP : ∀ (a : Fin 1) (k : Fin n), (ix1 p (Fin.cast h.1.symm a)).val * (![1] : Fin 1 → Nat) a
      + (((⟨1, ![n]⟩ : Shape).rowMajor.symm (Fin.cast (numel_rank_one n).symm k)) a).val = p.val + k.val := by
    intro a k
    obtain rfl : a = 0 := Subsingleton.elim _ _
    rw [rowMajor_symm_rank_one]
    show p.val * 1 + k.val = _
    omega
  simp only [hP]
  congr 1
  funext r k
  show r + _ = r + _
  congr 1
  refine dite_congr_iff ?_ _ _ _ ?_
  · rw [Fin.forall_fin_one]
    simp only [Matrix.cons_val_zero]
  · intro hp hq
    congr 1
    funext a
    obtain rfl : a = 0 := Subsingleton.elim _ _
    rfl

/-- A cumulative sum is the prefix sum, as words. With lo + 1 = n the window at p covers padded positions
    p, …, p + n - 1, that is array positions p - lo, …, p: the positions below zero are padding and contribute the initial
    value zero, and no position passes the end of the array, so exactly the elements q ≤ p are met, once each (window
    position k meets q = p + k - lo, and q ≤ p is met at k = q + lo - p). The result at p is therefore the sum, in 32-bit
    words (modulo 2 ^ 32), of x at the positions q ≤ p. -/
theorem reduceWindow_cumsum_eq_prefix {n lo : Nat} (hlo : lo + 1 = n) (x : (⟨1, ![n]⟩ : Shape).Idx → BitVec 32)
    (init : (⟨0, ![]⟩ : Shape).Idx → BitVec 32)
    (h : (⟨1, ![n]⟩ : Shape).ReduceWindows (![n] : Fin 1 → Nat) ![1] ![lo] ![0] ⟨1, ![n]⟩)
    (hu : 0 < (⟨0, ![]⟩ : Shape).numel) (hinit : init ix0 = 0#32) (p : Fin n) :
    Host.reduceWindow IntOp.addi (![n] : Fin 1 → Nat) ![1] ![lo] ![0] x init h hu (ix1 p)
      = ∑ q : Fin n with q.val ≤ p.val, x (ix1 q) := by
  rw [reduceWindow_cumsum_eq_sum x init h hu hinit p]
  rw [← Finset.sum_filter_of_ne (p := fun k : Fin n => lo ≤ p.val + k.val)]
  · refine Finset.sum_bij'
      (fun k _ => ⟨p.val + k.val - lo, by have := k.isLt; have := p.isLt; omega⟩)
      (fun q hq => ⟨q.val + lo - p.val, by have := (Finset.mem_filter.1 hq).2; have := p.isLt; omega⟩)
      ?_ ?_ ?_ ?_ ?_
    · intro k hk
      have hk' := (Finset.mem_filter.1 hk).2
      refine Finset.mem_filter.2 ⟨Finset.mem_univ _, ?_⟩
      have := k.isLt
      show p.val + k.val - lo ≤ p.val
      omega
    · intro q hq
      have hq' := (Finset.mem_filter.1 hq).2
      refine Finset.mem_filter.2 ⟨Finset.mem_univ _, ?_⟩
      show lo ≤ p.val + (q.val + lo - p.val)
      omega
    · intro k hk
      have hk' := (Finset.mem_filter.1 hk).2
      apply Fin.ext
      show p.val + k.val - lo + lo - p.val = k.val
      omega
    · intro q hq
      have hq' := (Finset.mem_filter.1 hq).2
      apply Fin.ext
      show p.val + (q.val + lo - p.val) - lo = q.val
      omega
    · intro k hk
      have hk' := (Finset.mem_filter.1 hk).2
      have := k.isLt
      have := p.isLt
      rw [dif_pos ⟨hk', by omega⟩]
  · intro k _ hne
    by_contra hc
    exact hne (dif_neg (fun hk => hc hk.1))

/-- A cumulative sum is the prefix sum, as natural numbers, when the whole array's sum fits in a word. Every prefix sum
    of values is at most the sum of all values, so below 2 ^ 32: no addition wraps, and the value of the result at p is the
    sum of the values of x at the positions q ≤ p. -/
theorem reduceWindow_cumsum_toNat {n lo : Nat} (hlo : lo + 1 = n) (x : (⟨1, ![n]⟩ : Shape).Idx → BitVec 32)
    (init : (⟨0, ![]⟩ : Shape).Idx → BitVec 32)
    (h : (⟨1, ![n]⟩ : Shape).ReduceWindows (![n] : Fin 1 → Nat) ![1] ![lo] ![0] ⟨1, ![n]⟩)
    (hu : 0 < (⟨0, ![]⟩ : Shape).numel) (hinit : init ix0 = 0#32)
    (hsum : (∑ q : Fin n, (x (ix1 q)).toNat) < 2 ^ 32) (p : Fin n) :
    (Host.reduceWindow IntOp.addi (![n] : Fin 1 → Nat) ![1] ![lo] ![0] x init h hu (ix1 p)).toNat
      = ∑ q : Fin n with q.val ≤ p.val, (x (ix1 q)).toNat := by
  rw [reduceWindow_cumsum_eq_prefix hlo x init h hu hinit p, toNat_sum]
  exact Nat.mod_eq_of_lt (lt_of_le_of_lt (Finset.sum_le_sum_of_subset (Finset.filter_subset _ _)) hsum)

/-- The prefix-sum reading at the literal extent 65536 with 65535 positions of padding in front (65535 + 1 = 65536):
    an instance of the general statement, nothing being evaluated over the array. -/
theorem reduceWindow_cumsum_toNat_65536 (x : (⟨1, ![65536]⟩ : Shape).Idx → BitVec 32)
    (init : (⟨0, ![]⟩ : Shape).Idx → BitVec 32)
    (h : (⟨1, ![65536]⟩ : Shape).ReduceWindows (![65536] : Fin 1 → Nat) ![1] ![65535] ![0] ⟨1, ![65536]⟩)
    (hu : 0 < (⟨0, ![]⟩ : Shape).numel) (hinit : init ix0 = 0#32)
    (hsum : (∑ q : Fin 65536, (x (ix1 q)).toNat) < 2 ^ 32) (p : Fin 65536) :
    (Host.reduceWindow IntOp.addi (![65536] : Fin 1 → Nat) ![1] ![65535] ![0] x init h hu (ix1 p)).toNat
      = ∑ q : Fin 65536 with q.val ≤ p.val, (x (ix1 q)).toNat :=
  reduceWindow_cumsum_toNat (n := 65536) (lo := 65535) rfl x init h hu hinit hsum p

/-- The prefix-sum reading at the literal extent 32896 with 32895 positions of padding in front (32895 + 1 = 32896):
    an instance of the general statement, nothing being evaluated over the array. -/
theorem reduceWindow_cumsum_toNat_32896 (x : (⟨1, ![32896]⟩ : Shape).Idx → BitVec 32)
    (init : (⟨0, ![]⟩ : Shape).Idx → BitVec 32)
    (h : (⟨1, ![32896]⟩ : Shape).ReduceWindows (![32896] : Fin 1 → Nat) ![1] ![32895] ![0] ⟨1, ![32896]⟩)
    (hu : 0 < (⟨0, ![]⟩ : Shape).numel) (hinit : init ix0 = 0#32)
    (hsum : (∑ q : Fin 32896, (x (ix1 q)).toNat) < 2 ^ 32) (p : Fin 32896) :
    (Host.reduceWindow IntOp.addi (![32896] : Fin 1 → Nat) ![1] ![32895] ![0] x init h hu (ix1 p)).toNat
      = ∑ q : Fin 32896 with q.val ≤ p.val, (x (ix1 q)).toNat :=
  reduceWindow_cumsum_toNat (n := 32896) (lo := 32895) rfl x init h hu hinit hsum p

end Cert.LibCumsum
-- ==== Proof.IndexTable.lean ====
/-
  The index table of the upper triangle, as counts.

  The positions p = 256·row + column of a 256 × 256 matrix that lie on or above the diagonal are found by a recipe of four
  integer steps on vectors: an indicator X (X p = 1 when p lies on or above the diagonal, else 0); its cumulative sum C
  (C p = the number of marked positions q ≤ p); the histogram H of C (H v = the number of positions p with C p = v, for
  v below 32896, the one larger value being dropped); and the cumulative sum of H, whose entry k is the number of positions
  p with C p ≤ k: the position of the (k+1)-th marked entry. Each step is read here as a count of a finite set, nothing
  being evaluated over the vectors.
-/
import proofs.«169714_j13546326851714_1_alg».proof.Proof.TriDefs
import proofs.«169714_j13546326851714_1_alg».proof.Proof.LibCumsum
import proofs.«169714_j13546326851714_1_alg».proof.Proof.LibScatter
import proofs.«169714_j13546326851714_1_alg».proof.Proof.LibScatterShapes
import Idealize.ShloMosaic.Lib.ValueIdx
import Mathlib.Tactic

open scoped BigOperators

namespace Cert.Tri.Table

open Idealize.ShloMosaic Idealize.ShloMosaic.ValueIdx

/-! ### Counting lemmas -/

/-- The number of marked positions up to p is at most the number of positions up to p. -/
theorem cnt_le (p : ℕ) : Cert.Tri.cnt p ≤ p + 1 := by
  unfold Cert.Tri.cnt
  exact (Finset.card_filter_le _ _).trans (by rw [Finset.card_range])

/-- A sum over the numbers v < N with v ≤ k, of a function of the number, is the sum over 0, …, k when k < N. -/
theorem sum_fin_le {N : ℕ} (k : Fin N) (g : ℕ → ℕ) :
    ∑ v : Fin N with v.val ≤ k.val, g v.val = ∑ b ∈ Finset.range (k.val + 1), g b := by
  rw [Finset.sum_filter, Fin.sum_univ_eq_sum_range (fun b => if b ≤ k.val then g b else 0) N, ← Finset.sum_filter]
  congr 1
  ext b
  have := k.isLt
  simp only [Finset.mem_filter, Finset.mem_range]
  omega

/-- The sizes of the fibres of f over the values 0, …, m - 1 add up to the number of elements whose value is below m:
    the fibres are disjoint and cover exactly those elements. -/
theorem sum_card_fiber_range {α : Type} [DecidableEq α] (s : Finset α) (f : α → ℕ) (m : ℕ) :
    ∑ b ∈ Finset.range m, (s.filter fun a => f a = b).card = (s.filter fun a => f a < m).card := by
  rw [Finset.card_eq_sum_card_fiberwise (f := f) (t := Finset.range m) (s := s.filter fun a => f a < m)]
  · refine Finset.sum_congr rfl fun b hb => ?_
    congr 1
    ext a
    simp only [Finset.mem_filter]
    constructor
    · rintro ⟨ha, rfl⟩
      exact ⟨⟨ha, Finset.mem_range.1 hb⟩, rfl⟩
    · rintro ⟨⟨ha, _⟩, h⟩
      exact ⟨ha, h⟩
  · intro x hx
    exact Finset.mem_range.2 (Finset.mem_filter.1 hx).2

/-- The length of the list of the numbers below n that satisfy P is the number of elements of Fin n that satisfy P. -/
theorem length_filter_finRange (n : ℕ) (P : Fin n → Prop) [DecidablePred P] :
    ((List.finRange n).filter fun k => decide (P k)).length = (Finset.univ.filter P).card := by
  rw [← List.toFinset_card_of_nodup ((List.nodup_finRange n).filter _), List.toFinset_filter, List.toFinset_finRange]
  congr 1
  ext k
  simp

/-! ### The first cumulative sum -/

/-- THE CUMULATIVE SUM OF THE INDICATOR COUNTS. When X p is 1 at the positions on or above the diagonal and 0 elsewhere,
    the cumulative sum of X at p is the number of positions q ≤ p on or above the diagonal: a sum of an indicator is the
    size of the set it marks, and at most 65536 ones are added, so no addition wraps. -/
theorem csum_toNat (X : (⟨1, ![65536]⟩ : Shape).Idx → BitVec 32)
    (hX : ∀ p : Fin 65536, (X (ix1 p)).toNat = if Cert.Tri.up p.val then 1 else 0)
    (init : (⟨0, ![]⟩ : Shape).Idx → BitVec 32) (hinit : init ix0 = 0#32)
    (h : (⟨1, ![65536]⟩ : Shape).ReduceWindows (![65536] : Fin 1 → Nat) ![1] ![65535] ![0] ⟨1, ![65536]⟩)
    (hu : 0 < (⟨0, ![]⟩ : Shape).numel) (p : Fin 65536) :
    (Host.reduceWindow IntOp.addi (![65536] : Fin 1 → Nat) ![1] ![65535] ![0] X init h hu (ix1 p)).toNat
      = Cert.Tri.cnt p.val := by
  have hsum : (∑ q : Fin 65536, (X (ix1 q)).toNat) < 2 ^ 32 := by
    have h1 : (∑ q : Fin 65536, (X (ix1 q)).toNat) ≤ ∑ _q : Fin 65536, 1 :=
      Finset.sum_le_sum fun q _ => by rw [hX]; split <;> omega
    rw [Finset.sum_const, Finset.card_univ, Fintype.card_fin, smul_eq_mul, mul_one] at h1
    exact lt_of_le_of_lt h1 (by norm_num)
  rw [Cert.LibCumsum.reduceWindow_cumsum_toNat_65536 X init h hu hinit hsum p]
  simp only [hX]
  rw [sum_fin_le p (fun b => if Cert.Tri.up b then 1 else 0), Finset.sum_boole]
  rfl

/-! ### The histogram -/

/-- The index operand of the histogram as it is built from the vector of counts: the vector with a trailing unit axis,
    read at (p, 0), is the vector at p. -/
theorem broadcast_col_apply (hb : (⟨1, ![65536]⟩ : Shape).BroadcastsInDim ⟨2, ![65536, 1]⟩ (![0] : Fin 1 → Fin 2))
    (C : (⟨1, ![65536]⟩ : Shape).Idx → BitVec 32) (p : Fin 65536) :
    broadcastInDim (⟨2, ![65536, 1]⟩ : Shape) (![0] : Fin 1 → Fin 2) hb C (ix2 p 0) = C (ix1 p) := by
  unfold broadcastInDim
  refine congrArg C (funext fun a => ?_)
  obtain rfl : a = 0 := Subsingleton.elim _ _
  rw [dif_neg (by decide)]
  rfl

/-- THE HISTOGRAM OF THE COUNTS. Adding the constant one into a zero vector of length 32896 at the start indices
    C p = (the number of marked positions q ≤ p) leaves at v the number of positions p whose count is v. Update p lands
    at v exactly when its start index, read signed, is v; the counts are at most 65536, so their signed and unsigned
    readings agree; and at most 65536 ones are added, so no addition wraps. The updates are numbered in row-major order of
    a vector, which is the order of their positions. Stated over any index operand idx that reads C p at (p, 0). -/
theorem hist_toNat_idx (C : (⟨1, ![65536]⟩ : Shape).Idx → BitVec 32)
    (hC : ∀ p : Fin 65536, (C (ix1 p)).toNat = Cert.Tri.cnt p.val)
    (Z : (⟨1, ![32896]⟩ : Shape).Idx → BitVec 32) (hZ : ∀ i, Z i = 0)
    (O : (⟨1, ![65536]⟩ : Shape).Idx → BitVec 32) (hO : ∀ j, O j = 1)
    (d : ScatterDims ⟨1, ![32896]⟩ ⟨2, ![65536, 1]⟩ ⟨1, ![65536]⟩)
    (h1 : d.updateWindowDims = []) (h2 : d.insertedWindowDims = [0]) (h3 : d.scatterDimsToOperandDims = [0])
    (h4 : d.indexVectorDim = 1)
    (idx : IVec ⟨2, ![65536, 1]⟩ 32) (hidx : ∀ p : Fin 65536, idx (ix2 p 0) = C (ix1 p)) (v : Fin 32896) :
    (Host.scatter d IntOp.addi Z idx O (ix1 v)).toNat
      = ((Finset.univ : Finset (Fin 65536)).filter fun p => Cert.Tri.cnt p.val = v.val).card := by
  -- update number n lands at v exactly when the count at its position is v
  have hland : ∀ n : Fin (⟨1, ![65536]⟩ : Shape).numel,
      d.resultIdx? ((⟨1, ![65536]⟩ : Shape).rowMajor.symm n) idx = some (ix1 v)
        ↔ Cert.Tri.cnt (((⟨1, ![65536]⟩ : Shape).rowMajor.symm n) 0).val = v.val := by
    intro n
    rw [Cert.LibScatter.resultIdx?_vec d h1 h2 h3 h4]
    have e := hidx (((⟨1, ![65536]⟩ : Shape).rowMajor.symm n) 0)
    have hc := hC (((⟨1, ![65536]⟩ : Shape).rowMajor.symm n) 0)
    have hle := cnt_le (((⟨1, ![65536]⟩ : Shape).rowMajor.symm n) 0).val
    have hlt : (((⟨1, ![65536]⟩ : Shape).rowMajor.symm n) 0).val < 65536 := (((⟨1, ![65536]⟩ : Shape).rowMajor.symm n) 0).isLt
    rw [e, BitVec.toInt_eq_toNat_cond, hc]
    have hv : (((ix1 v : (⟨1, ![32896]⟩ : Shape).Idx) 0).val : ℤ) = (v.val : ℤ) := rfl
    rw [hv]
    split <;> omega
  -- the updates landing at v, listed in row-major order, are as many as the positions whose count is v
  have hlist : ((List.finRange (⟨1, ![65536]⟩ : Shape).numel).filter fun n =>
      decide (d.resultIdx? ((⟨1, ![65536]⟩ : Shape).rowMajor.symm n) idx = some (ix1 v))).length
      = ((Finset.univ : Finset (Fin 65536)).filter fun p => Cert.Tri.cnt p.val = v.val).card := by
    rw [length_filter_finRange]
    refine Finset.card_bij' (fun n _ => (((⟨1, ![65536]⟩ : Shape).rowMajor.symm n) 0 : Fin 65536))
      (fun p _ => (⟨1, ![65536]⟩ : Shape).rowMajor (ix1 p)) ?_ ?_ ?_ ?_
    · intro n hn
      exact Finset.mem_filter.2 ⟨Finset.mem_univ _, (hland n).1 (Finset.mem_filter.1 hn).2⟩
    · intro p hp
      refine Finset.mem_filter.2 ⟨Finset.mem_univ _, (hland _).2 ?_⟩
      rw [Equiv.symm_apply_apply]
      exact (Finset.mem_filter.1 hp).2
    · intro n _
      exact (congrArg (⟨1, ![65536]⟩ : Shape).rowMajor (eq_ix1 ((⟨1, ![65536]⟩ : Shape).rowMajor.symm n)).symm).trans
        (Equiv.apply_symm_apply _ _)
    · intro p _
      show ((⟨1, ![65536]⟩ : Shape).rowMajor.symm ((⟨1, ![65536]⟩ : Shape).rowMajor (ix1 p))) 0 = p
      rw [Equiv.symm_apply_apply]
  have hfit : ((List.finRange (⟨1, ![65536]⟩ : Shape).numel).filter fun n =>
      decide (d.resultIdx? ((⟨1, ![65536]⟩ : Shape).rowMajor.symm n) idx = some (ix1 v))).length < 2 ^ 32 := by
    rw [hlist]
    refine lt_of_le_of_lt (Finset.card_filter_le _ _) ?_
    rw [Finset.card_univ, Fintype.card_fin]
    norm_num
  rw [Cert.LibScatter.scatter_add_one_toNat d Z idx O (ix1 v) (hZ _) hO hfit, hlist]

/-- The histogram of the counts, with the index operand written as the vector of counts given a trailing unit axis. -/
theorem hist_toNat (C : (⟨1, ![65536]⟩ : Shape).Idx → BitVec 32)
    (hC : ∀ p : Fin 65536, (C (ix1 p)).toNat = Cert.Tri.cnt p.val)
    (Z : (⟨1, ![32896]⟩ : Shape).Idx → BitVec 32) (hZ : ∀ i, Z i = 0)
    (O : (⟨1, ![65536]⟩ : Shape).Idx → BitVec 32) (hO : ∀ j, O j = 1)
    (d : ScatterDims ⟨1, ![32896]⟩ ⟨2, ![65536, 1]⟩ ⟨1, ![65536]⟩)
    (h1 : d.updateWindowDims = []) (h2 : d.insertedWindowDims = [0]) (h3 : d.scatterDimsToOperandDims = [0])
    (h4 : d.indexVectorDim = 1)
    (hb : (⟨1, ![65536]⟩ : Shape).BroadcastsInDim ⟨2, ![65536, 1]⟩ (![0] : Fin 1 → Fin 2)) (v : Fin 32896) :
    (Host.scatter d IntOp.addi Z (broadcastInDim (⟨2, ![65536, 1]⟩ : Shape) (![0] : Fin 1 → Fin 2) hb C) O (ix1 v)).toNat
      = ((Finset.univ : Finset (Fin 65536)).filter fun p => Cert.Tri.cnt p.val = v.val).card :=
  hist_toNat_idx C hC Z hZ O hO d h1 h2 h3 h4 _ (broadcast_col_apply hb C) v

/-! ### The second cumulative sum -/

/-- THE CUMULATIVE SUM OF THE HISTOGRAM. When H v is the number of positions whose count is v, the cumulative sum of H
    at k is the number of positions whose count is at most k: the fibres of the count over the values 0, …, k are
    disjoint and their union is the set of positions with count ≤ k. All fibres together hold at most 65536 positions, so
    no addition wraps. -/
theorem flat_toNat (H : (⟨1, ![32896]⟩ : Shape).Idx → BitVec 32)
    (hH : ∀ v : Fin 32896, (H (ix1 v)).toNat
      = ((Finset.univ : Finset (Fin 65536)).filter fun p => Cert.Tri.cnt p.val = v.val).card)
    (init : (⟨0, ![]⟩ : Shape).Idx → BitVec 32) (hinit : init ix0 = 0#32)
    (h : (⟨1, ![32896]⟩ : Shape).ReduceWindows (![32896] : Fin 1 → Nat) ![1] ![32895] ![0] ⟨1, ![32896]⟩)
    (hu : 0 < (⟨0, ![]⟩ : Shape).numel) (k : Fin 32896) :
    (Host.reduceWindow IntOp.addi (![32896] : Fin 1 → Nat) ![1] ![32895] ![0] H init h hu (ix1 k)).toNat
      = ((Finset.univ : Finset (Fin 65536)).filter fun p => Cert.Tri.cnt p.val ≤ k.val).card := by
  have hsum : (∑ v : Fin 32896, (H (ix1 v)).toNat) < 2 ^ 32 := by
    simp only [hH]
    rw [Fin.sum_univ_eq_sum_range
      (fun b => ((Finset.univ : Finset (Fin 65536)).filter fun p => Cert.Tri.cnt p.val = b).card) 32896,
      sum_card_fiber_range]
    refine lt_of_le_of_lt (Finset.card_filter_le _ _) ?_
    rw [Finset.card_univ, Fintype.card_fin]
    norm_num
  rw [Cert.LibCumsum.reduceWindow_cumsum_toNat_32896 H init h hu hinit hsum k]
  simp only [hH]
  rw [sum_fin_le k (fun b => ((Finset.univ : Finset (Fin 65536)).filter fun p => Cert.Tri.cnt p.val = b).card),
    sum_card_fiber_range]
  exact congrArg Finset.card (Finset.filter_congr fun p _ => Nat.lt_add_one_iff)

/-! ### The three steps together -/

/-- THE POSITION OF THE (k+1)-TH MARKED ENTRY. From an indicator X of the positions on or above the diagonal: the
    cumulative sum C of X, any vector N with the same values as C (a renormalisation of the start indices that changes
    nothing in range), the histogram of N into 32896 zeros, and the cumulative sum of the histogram, read at k, is the
    number of positions whose count of marked positions up to them is at most k. -/
theorem flat_of_indicator (X : (⟨1, ![65536]⟩ : Shape).Idx → BitVec 32)
    (hX : ∀ p : Fin 65536, (X (ix1 p)).toNat = if Cert.Tri.up p.val then 1 else 0)
    (init : (⟨0, ![]⟩ : Shape).Idx → BitVec 32) (hinit : init ix0 = 0#32)
    (hw : (⟨1, ![65536]⟩ : Shape).ReduceWindows (![65536] : Fin 1 → Nat) ![1] ![65535] ![0] ⟨1, ![65536]⟩)
    (hu : 0 < (⟨0, ![]⟩ : Shape).numel)
    (N : (⟨1, ![65536]⟩ : Shape).Idx → BitVec 32)
    (hN : ∀ p : Fin 65536, (N (ix1 p)).toNat
      = (Host.reduceWindow IntOp.addi (![65536] : Fin 1 → Nat) ![1] ![65535] ![0] X init hw hu (ix1 p)).toNat)
    (Z : (⟨1, ![32896]⟩ : Shape).Idx → BitVec 32) (hZ : ∀ i, Z i = 0)
    (O : (⟨1, ![65536]⟩ : Shape).Idx → BitVec 32) (hO : ∀ j, O j = 1)
    (d : ScatterDims ⟨1, ![32896]⟩ ⟨2, ![65536, 1]⟩ ⟨1, ![65536]⟩)
    (h1 : d.updateWindowDims = []) (h2 : d.insertedWindowDims = [0]) (h3 : d.scatterDimsToOperandDims = [0])
    (h4 : d.indexVectorDim = 1)
    (hb : (⟨1, ![65536]⟩ : Shape).BroadcastsInDim ⟨2, ![65536, 1]⟩ (![0] : Fin 1 → Fin 2))
    (init' : (⟨0, ![]⟩ : Shape).Idx → BitVec 32) (hinit' : init' ix0 = 0#32)
    (hw' : (⟨1, ![32896]⟩ : Shape).ReduceWindows (![32896] : Fin 1 → Nat) ![1] ![32895] ![0] ⟨1, ![32896]⟩)
    (hu' : 0 < (⟨0, ![]⟩ : Shape).numel) (k : Fin 32896) :
    (Host.reduceWindow IntOp.addi (![32896] : Fin 1 → Nat) ![1] ![32895] ![0]
        (Host.scatter d IntOp.addi Z (broadcastInDim (⟨2, ![65536, 1]⟩ : Shape) (![0] : Fin 1 → Fin 2) hb N) O)
        init' hw' hu' (ix1 k)).toNat
      = ((Finset.univ : Finset (Fin 65536)).filter fun p => Cert.Tri.cnt p.val ≤ k.val).card :=
  flat_toNat _
    (fun v => hist_toNat N (fun p => (hN p).trans (csum_toNat X hX init hinit hw hu p)) Z hZ O hO d h1 h2 h3 h4 hb v)
    init' hinit' hw' hu' k

/-! ### Signed readings -/

/-- A 32-bit word whose value is at most 65536 reads the same signed as unsigned. -/
theorem toInt_of_toNat_le {x : BitVec 32} {n : ℕ} (h : x.toNat = n) (hn : n ≤ 65536) : x.toInt = (n : ℤ) := by
  rw [BitVec.toInt_eq_toNat_cond, h]
  split <;> omega

/-- The count of marked positions up to a position of the 65536 is at most 65536. -/
theorem cnt_le_65536 (p : Fin 65536) : Cert.Tri.cnt p.val ≤ 65536 := by
  have := cnt_le p.val
  have := p.isLt
  omega

/-- The number of positions (of the 65536) with a given property is at most 65536. -/
theorem card_filter_le_65536 (P : Fin 65536 → Prop) [DecidablePred P] :
    ((Finset.univ : Finset (Fin 65536)).filter P).card ≤ 65536 := by
  refine (Finset.card_filter_le _ _).trans ?_
  rw [Finset.card_univ, Fintype.card_fin]

/-- The first cumulative sum read as a signed integer: the count, which is far below 2 ^ 31. -/
theorem csum_toInt (X : (⟨1, ![65536]⟩ : Shape).Idx → BitVec 32)
    (hX : ∀ p : Fin 65536, (X (ix1 p)).toNat = if Cert.Tri.up p.val then 1 else 0)
    (init : (⟨0, ![]⟩ : Shape).Idx → BitVec 32) (hinit : init ix0 = 0#32)
    (h : (⟨1, ![65536]⟩ : Shape).ReduceWindows (![65536] : Fin 1 → Nat) ![1] ![65535] ![0] ⟨1, ![65536]⟩)
    (hu : 0 < (⟨0, ![]⟩ : Shape).numel) (p : Fin 65536) :
    (Host.reduceWindow IntOp.addi (![65536] : Fin 1 → Nat) ![1] ![65535] ![0] X init h hu (ix1 p)).toInt
      = (Cert.Tri.cnt p.val : ℤ) :=
  toInt_of_toNat_le (csum_toNat X hX init hinit h hu p) (cnt_le_65536 p)

/-- The second cumulative sum read as a signed integer: a number of positions, at most 65536. -/
theorem flat_toInt (H : (⟨1, ![32896]⟩ : Shape).Idx → BitVec 32)
    (hH : ∀ v : Fin 32896, (H (ix1 v)).toNat
      = ((Finset.univ : Finset (Fin 65536)).filter fun p => Cert.Tri.cnt p.val = v.val).card)
    (init : (⟨0, ![]⟩ : Shape).Idx → BitVec 32) (hinit : init ix0 = 0#32)
    (h : (⟨1, ![32896]⟩ : Shape).ReduceWindows (![32896] : Fin 1 → Nat) ![1] ![32895] ![0] ⟨1, ![32896]⟩)
    (hu : 0 < (⟨0, ![]⟩ : Shape).numel) (k : Fin 32896) :
    (Host.reduceWindow IntOp.addi (![32896] : Fin 1 → Nat) ![1] ![32895] ![0] H init h hu (ix1 k)).toInt
      = (((Finset.univ : Finset (Fin 65536)).filter fun p => Cert.Tri.cnt p.val ≤ k.val).card : ℤ) :=
  toInt_of_toNat_le (flat_toNat H hH init hinit h hu k) (card_filter_le_65536 _)

end Cert.Tri.Table
-- ==== Proof.RefMask.lean ====
import proofs.«169714_j13546326851714_1_alg».proof.Proof.RefStages
import proofs.«169714_j13546326851714_1_alg».proof.Proof.TriDefs
import proofs.«169714_j13546326851714_1_alg».proof.Proof.Algebra
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws
import Mathlib.Tactic

noncomputable section

namespace Cert.ReferenceIdeal.MaskRead

open Idealize.ShloMosaic Idealize.ShloMosaic.ValueIdx Cert.ReferenceIdeal
open Cert.ReferenceIdeal.Facts₀ Cert.ReferenceIdeal.Facts

variable [Facts]

/-- The signed comparison behind the triangle. For a row r and a column c below 256, as 32-bit words: adding the word
    of all ones to r gives r - 1, which at r = 0 wraps to the word of all ones, the signed number -1; the column is a
    small non-negative number. So "r - 1 ≥ c, signed" holds exactly when c < r: it is the bit 1 strictly below the
    diagonal and the bit 0 on or above it. -/
theorem sge_pred (r c : ℕ) (hr : r < 256) (hc : c < 256) :
    IntOp.cmpi .sge (IntOp.addi (BitVec.ofNat 32 r) 4294967295#32) (BitVec.ofNat 32 c)
      = if r ≤ c then 0#1 else 1#1 := by
  have hy : (BitVec.ofNat 32 c).toInt = (c : ℤ) := by
    rw [BitVec.toInt_eq_toNat_cond, BitVec.toNat_ofNat]
    have h1 : c % 2 ^ 32 = c := Nat.mod_eq_of_lt (by omega)
    rw [h1, if_pos (by omega)]
  have hx : (BitVec.ofNat 32 r + 4294967295#32).toInt = (r : ℤ) - 1 := by
    rw [BitVec.toInt_eq_toNat_cond, BitVec.toNat_add, BitVec.toNat_ofNat]
    have h1 : r % 2 ^ 32 = r := Nat.mod_eq_of_lt (by omega)
    rw [h1]
    show (if 2 * ((r + 4294967295) % 2 ^ 32) < 2 ^ 32 then (((r + 4294967295) % 2 ^ 32 : ℕ) : ℤ)
      else (((r + 4294967295) % 2 ^ 32 : ℕ) : ℤ) - ((2 ^ 32 : ℕ) : ℤ)) = (r : ℤ) - 1
    split_ifs <;> omega
  show BitVec.ofBool ((BitVec.ofNat 32 c).sle (BitVec.ofNat 32 r + 4294967295#32)) = _
  rw [BitVec.sle_eq_decide, hy, hx]
  by_cases h : r ≤ c
  · rw [if_pos h, decide_eq_false (by omega)]; rfl
  · rw [if_neg h, decide_eq_true (by omega)]; rfl

/-- The matrix filled with the float of a word reads that float everywhere. -/
theorem fill256_apply (b : BitVec 32) (j : S256x256.Idx) : Stages.fill256 b j = Ideal.ofBits .f32 b := rfl

/-- The upper triangle of ones at (r, c): the float 1 on or above the diagonal, the float 0 strictly below it. The
    program selects the zero matrix where "r - 1 ≥ c, signed" holds, that is strictly below the diagonal, and the matrix
    of ones elsewhere. -/
theorem triuOnes_apply (r c : Fin 256) :
    Stages.triuOnes (ix2 r c) = if r.val ≤ c.val then ((1 : ℝ) : EReal) else 0 := by
  have e1 : Stages.triuOnes (ix2 r c) = Scalar.select
      (IntOp.cmpi .sge (IntOp.addi (iotaInDim S256x256 32 0 (ix2 r c)) 4294967295#32) (iotaInDim S256x256 32 1 (ix2 r c)))
      (Stages.fill256 0x00000000#32 (ix2 r c)) (Stages.fill256 0x3F800000#32 (ix2 r c)) := rfl
  have e2 : iotaInDim S256x256 32 0 (ix2 r c) = BitVec.ofNat 32 r.val := rfl
  have e3 : iotaInDim S256x256 32 1 (ix2 r c) = BitVec.ofNat 32 c.val := rfl
  rw [e1, e2, e3, fill256_apply, fill256_apply, sge_pred r.val c.val r.isLt c.isLt, Ideal.ofBits_zero_f32, Cert.Tri.ofBits_one]
  by_cases h : r.val ≤ c.val
  · rw [if_pos h, if_pos h]; rfl
  · rw [if_neg h, if_neg h]; rfl

/-- The triangle's mask at (r, c) is the bit "r ≤ c": the triangle of ones differs from zero exactly where it is one,
    the real numbers 1 and 0 being different. -/
theorem mask_apply (r c : Fin 256) : Stages.mask (ix2 r c) = if r.val ≤ c.val then 1#1 else 0#1 := by
  unfold Stages.mask
  rw [cmpf_apply, Ideal.cmpf_def, triuOnes_apply, fill256_apply, Ideal.ofBits_zero_f32]
  by_cases h : r.val ≤ c.val
  · rw [if_pos h, if_pos h]
    show BitVec.ofBool (decide (((1 : ℝ) : EReal) ≠ 0)) = 1#1
    rw [decide_eq_true (by norm_num)]; rfl
  · rw [if_neg h, if_neg h]
    show BitVec.ofBool (decide ((0 : EReal) ≠ 0)) = 0#1
    rw [decide_eq_false (by simp)]; rfl

/-- A 256 × 256 matrix of bits flattened row-major and widened to 32 bits, read at position p: the bit at entry
    (p / 256, p % 256), widened. Flattening keeps the row-major order, and 256 · (p / 256) + p % 256 = p. -/
theorem flatWords_apply (X : IVec S256x256 1) (p : Fin 65536) :
    (extui 32 (shapeCast S65536 X shapeCasts_S256x256_S65536) natLt_1_32) (ix1 p)
      = (X (ix2 (⟨p.val / 256, by have := p.isLt; omega⟩ : Fin 256) (⟨p.val % 256, by omega⟩ : Fin 256))).setWidth 32 := by
  show (shapeCast S65536 X shapeCasts_S256x256_S65536 (ix1 p)).setWidth 32 = _
  rw [shapeCast_apply X shapeCasts_S256x256_S65536 (ix1 p)
    (ix2 (⟨p.val / 256, by have := p.isLt; omega⟩ : Fin 256) (⟨p.val % 256, by omega⟩ : Fin 256))
    (by
      rw [Shape.rowMajor_val_two, Shape.rowMajor_val_one]
      show p.val / 256 * 256 + p.val % 256 = p.val
      omega)]

/-- The operand of the first cumulative sum, read at position p as a number: 1 when position p of the row-major
    256 × 256 matrix lies on or above the diagonal, else 0. -/
theorem maskWords_toNat (p : Fin 65536) :
    ((extui 32 (shapeCast S65536 Stages.mask shapeCasts_S256x256_S65536) natLt_1_32) (ix1 p)).toNat
      = if Cert.Tri.up p.val then 1 else 0 := by
  rw [flatWords_apply, mask_apply]
  by_cases h : Cert.Tri.up p.val
  · rw [if_pos h, if_pos (show p.val / 256 ≤ p.val % 256 from h)]; rfl
  · rw [if_neg h, if_neg (show ¬ p.val / 256 ≤ p.val % 256 from h)]; rfl

/-- The index table read at (k, 0) is the row vector's entry k. The table is the two vectors, each made a one-column
    matrix, set side by side along the second axis: column 0 falls in the first piece, and a one-column matrix made
    from a vector reads the vector at the row. -/
theorem table_apply_zero (r c : IVec S32896 32) (k : Fin 32896) : Stages.table r c (ix2 k (0 : Fin 2)) = r (ix1 k) := by
  unfold Stages.table
  rw [concatenate_pair_apply_left (1 : Fin S32896x2.rank) _ _ concatenates_S32896x1_S32896x1_S32896x2_d1
    (ix2 k (0 : Fin 2)) rfl (ix2 k (0 : Fin 1)) (fun b => match b with | ⟨0, _⟩ => rfl | ⟨1, _⟩ => rfl)]
  exact broadcastInDim_apply _ _ r _ (ix1 k) (fun a => match a with | ⟨0, _⟩ => rfl)

/-- The index table read at (k, 1) is the column vector's entry k: column 1 falls in the second piece, at that piece's
    column 1 - 1 = 0, and the one-column matrix made from the column vector reads the vector at row k. -/
theorem table_apply_one (r c : IVec S32896 32) (k : Fin 32896) : Stages.table r c (ix2 k (1 : Fin 2)) = c (ix1 k) := by
  unfold Stages.table
  rw [concatenate_pair_apply_right (1 : Fin S32896x2.rank) _ _ concatenates_S32896x1_S32896x1_S32896x2_d1
    (ix2 k (1 : Fin 2)) rfl rfl (ix2 k (0 : Fin 1))
    (fun b => match b with | ⟨0, _⟩ => fun _ => rfl | ⟨1, _⟩ => fun hb => absurd rfl hb) rfl]
  exact broadcastInDim_apply _ _ c _ (ix1 k) (fun a => match a with | ⟨0, _⟩ => rfl)

/-- The index table holds the row vector in its column 0 and the column vector in its column 1. -/
theorem table_apply (r c : IVec S32896 32) (k : Fin 32896) :
    Stages.table r c (ix2 k (0 : Fin 2)) = r (ix1 k) ∧ Stages.table r c (ix2 k (1 : Fin 2)) = c (ix1 k) :=
  ⟨table_apply_zero r c k, table_apply_one r c k⟩

end Cert.ReferenceIdeal.MaskRead

end
-- ==== Proof.RefBridge.lean ====
/-
  The reference's index table names the triangle's cells in packed order, so its result is the closed form.

  The flat position of packed entry `k = off i + (j - i)` is `256 i + j`; its floored quotient by 256, reduced modulo 256,
  is the row `i`, and its remainder modulo 256 is the column `j`. Every packed position is the position of exactly
  one cell on or above the diagonal, so the scatter through the table is the upper triangle, and the tail — add the
  transpose, scale by one minus half the identity — gives the closed form.
-/
import proofs.«169714_j13546326851714_1_alg».proof.Proof.RefStages
import proofs.«169714_j13546326851714_1_alg».proof.Proof.RefPointwise
import proofs.«169714_j13546326851714_1_alg».proof.Proof.Spec
import proofs.«169714_j13546326851714_1_alg».proof.Proof.TriCount
import proofs.«169714_j13546326851714_1_alg».proof.Proof.ScatterCells
import proofs.«169714_j13546326851714_1_alg».proof.Proof.IndexTable
import proofs.«169714_j13546326851714_1_alg».proof.Proof.RefMask

noncomputable section

namespace Cert.ReferenceIdeal.Bridge

open Idealize.ShloMosaic Idealize.ShloMosaic.ValueIdx Cert.ReferenceIdeal Cert.ReferenceIdeal.Pointwise Cert.Tri
open Cert.ReferenceIdeal.Facts₀ Cert.ReferenceIdeal.Facts

variable [Facts]

/-- A small word read as a signed integer is its value. -/
theorem toInt_ofNat_small (n : Nat) (h : n < 2 ^ 31) : (BitVec.ofNat 32 n).toInt = (n : Int) := by
  rw [BitVec.toInt_eq_toNat_of_lt (by rw [BitVec.toNat_ofNat]; have : n % 2 ^ 32 = n := Nat.mod_eq_of_lt (by omega); omega)]
  rw [BitVec.toNat_ofNat, Nat.mod_eq_of_lt (by omega)]

/-- Row and column of a packed entry from its flat position `256 i + j`. -/
theorem rows_cols_of_flat (k : Fin 32896) (i j : Fin 256)
    (hflat : (Stages.flat (ix1 k)).toNat = 256 * i.val + j.val) :
    (Stages.rows (ix1 k)).toInt = (i.val : Int) ∧ (Stages.cols (ix1 k)).toInt = (j.val : Int) := by
  have hi := i.isLt
  have hj := j.isLt
  have hF : (Stages.flat (ix1 k)).toNat < 65536 := by omega
  constructor
  · unfold Stages.rows
    have h1 := stage_floorDiv_256 Stages.flat k hF
    have h1n : (Stages.floorDiv Stages.flat (constantI S_ 32 256#32) (ix1 k)).toNat = i.val := by
      rw [h1, BitVec.toNat_ofNat, hflat, Nat.mod_eq_of_lt (by omega)]; omega
    have h2 := stage_rem_256 (Stages.floorDiv Stages.flat (constantI S_ 32 256#32)) k (by omega)
    have h2n : (Stages.rem (Stages.floorDiv Stages.flat (constantI S_ 32 256#32)) (constantI S_ 32 256#32) (ix1 k)).toNat = i.val := by
      rw [h2, BitVec.toNat_ofNat, h1n, Nat.mod_eq_of_lt (by omega)]; omega
    have h3 := stage_normIdx (Stages.rem (Stages.floorDiv Stages.flat (constantI S_ 32 256#32)) (constantI S_ 32 256#32)) k (by omega)
    rw [h3, BitVec.toInt_eq_toNat_of_lt (by omega), h2n]
  · unfold Stages.cols
    have h1 := stage_floorDiv_1 Stages.flat k hF
    have h2 := stage_rem_256 (Stages.floorDiv Stages.flat (constantI S_ 32 1#32)) k (by rw [h1]; exact hF)
    have h2n : (Stages.rem (Stages.floorDiv Stages.flat (constantI S_ 32 1#32)) (constantI S_ 32 256#32) (ix1 k)).toNat = j.val := by
      rw [h2, BitVec.toNat_ofNat, h1, hflat, Nat.mod_eq_of_lt (by omega)]; omega
    have h3 := stage_normIdx (Stages.rem (Stages.floorDiv Stages.flat (constantI S_ 32 1#32)) (constantI S_ 32 256#32)) k (by omega)
    rw [h3, BitVec.toInt_eq_toNat_of_lt (by omega), h2n]

/-- The cumulative sum of the flattened mask counts the positions on or above the diagonal. -/
theorem csum_mask_toNat (p : Fin 65536) : (Stages.csum Stages.mask (ix1 p)).toNat = cnt p.val := by
  unfold Stages.csum
  exact Cert.Tri.Table.csum_toNat _ Cert.ReferenceIdeal.MaskRead.maskWords_toNat _ rfl _ _ p

/-- Clamping and wrapping leave those counts alone: they are small and not negative. -/
theorem norm_csum_mask_toNat (p : Fin 65536) : (Stages.norm65536 (Stages.csum Stages.mask) (ix1 p)).toNat = cnt p.val := by
  rw [stage_norm65536 _ p (by rw [csum_mask_toNat]; exact Cert.Tri.Table.cnt_le_65536 p), csum_mask_toNat]

/-- The flat position of packed entry `k` is the number of positions whose count is at most `k`. -/
theorem flat_toNat_card (k : Fin 32896) :
    (Stages.flat (ix1 k)).toNat = ((Finset.univ : Finset (Fin 65536)).filter fun p => cnt p.val ≤ k.val).card := by
  unfold Stages.flat Stages.csum2
  refine Cert.Tri.Table.flat_toNat _ (fun v => ?_) _ rfl _ _ k
  unfold Stages.hist
  exact Cert.Tri.Table.hist_toNat _ norm_csum_mask_toNat _ (fun _ => rfl) _ (fun _ => rfl) _ rfl rfl rfl rfl _ v

/-- … which for `k = off i + (j - i)` is `256 i + j`. -/
theorem flat_toNat (k : Fin 32896) (i j : Fin 256) (hij : i.val ≤ j.val) (hk : k.val = off i.val + (j.val - i.val)) :
    (Stages.flat (ix1 k)).toNat = 256 * i.val + j.val := by
  rw [flat_toNat_card, hk]
  exact card_cnt_le_fin i.val j.val hij j.isLt

/-- THE REFERENCE'S RESULT IS THE CLOSED FORM: the scatter through the table is the upper triangle, and the tail adds the
    transpose and scales the diagonal. -/
theorem term_eq_refOut (x : FVec Ideal S4096x32896 .f32) : Stages.term x = refOut x := by
  have hscat : ∀ (b : Fin 4096) (i j : Fin 256), Stages.scat (Stages.table Stages.rows Stages.cols) x (ix3 b i j) = upper x b i j := by
    intro b i j
    unfold Stages.scat
    refine scatter_cells _ rfl rfl rfl rfl _ (fun _ => Ideal.ofBits_zero_f32) _ x ?_ ?_ b i j
    · intro k i' j' hij' hk
      obtain ⟨hr, hc⟩ := rows_cols_of_flat k i' j' (flat_toNat k i' j' hij' hk)
      obtain ⟨t0, t1⟩ := Cert.ReferenceIdeal.MaskRead.table_apply Stages.rows Stages.cols k
      rw [t0, t1]
      exact ⟨hr, hc⟩
    · intro k
      obtain ⟨i', j', hij', hj', hk⟩ := exists_row_col k.val k.isLt
      exact ⟨⟨i', by omega⟩, ⟨j', hj'⟩, hij', hk⟩
  funext idx
  obtain ⟨b, i, j, rfl⟩ : ∃ (b : Fin 4096) (i j : Fin 256), idx = ix3 b i j := ⟨idx 0, idx 1, idx 2, eq_ix3 idx⟩
  unfold Stages.term
  rw [stage_tail, hscat, hscat]
  rfl

end Cert.ReferenceIdeal.Bridge

end
-- ==== Proof.KernelScratch.lean ====
/-
  The kernel's scratch buffer after its stores, at any float type.

  The body fills a [16, 256, 256] scratch with zeros and then, for each row `i` of the triangle, copies the `256 - i` packed
  entries that start at `off i` into row `i`, columns `i … 255`, for every batch row of the block. The 257 stores are
  recorded last made first: the stores of rows `255, …, 0`, then the zero fill. Every row store holds entries of ONE function
  of the scratch index (`tri`: the packed entry on and above the diagonal, zero below it), and row `i`'s store writes exactly
  the indices `(b, i, j)` with `i ≤ j`. So an index on or above the diagonal reads `tri` from the row stores, whichever comes
  first in the list, and an index below the diagonal is written by no row store and reads the zero fill. The 256 row stores
  are one family indexed by the row; the recorded list is that family written out.
-/
import proofs.«169714_j13546326851714_1_alg».proof.Proof.Gen.KernelIdeal.Value
import proofs.«169714_j13546326851714_1_alg».proof.Proof.Spec
import Idealize.ShloMosaic.Lib.Pipeline.Value
import Idealize.ShloMosaic.Lib.Pipeline.CanonAppend
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.TriValue

open Cert.KernelIdeal Cert.KernelIdeal.Gen

variable {F : FTy → Type} [FloatOps F]

open Idealize.ShloMosaic.ValueIdx

theorem hz3 : (![0, 0, 0] : Fin 3 → Nat) = fun _ => 0 := funext fun a => by fin_cases a <;> rfl

/-- Row `i` of the triangle ends inside the packed vector. -/
theorem off_add_le : ∀ i : Fin 256, Cert.Tri.off i.val + (256 - i.val) ≤ 32896 := by decide

theorem inbS (i : Fin 256) : ∀ a, (![0, i.val, i.val] : Fin 3 → Nat) a + (![16, 1, 256 - i.val] : Fin 3 → Nat) a ≤ S16x256x256.size a := by
  intro a
  have := i.isLt
  match a with
  | ⟨0, _⟩ => show 0 + 16 ≤ 16; omega
  | ⟨1, _⟩ => show i.val + 1 ≤ 256; omega
  | ⟨2, _⟩ => show i.val + (256 - i.val) ≤ 256; omega

theorem inbX (i : Fin 256) : ∀ a, (![0, Cert.Tri.off i.val] : Fin 2 → Nat) a + (![16, 256 - i.val] : Fin 2 → Nat) a ≤ S16x32896.size a := by
  intro a
  match a with
  | ⟨0, _⟩ => show 0 + 16 ≤ 16; omega
  | ⟨1, _⟩ => exact off_add_le i

theorem hcast (n : ℕ) : (⟨2, ![16, n]⟩ : Shape).ShapeCasts ⟨3, ![16, 1, n]⟩ := by
  show (⟨3, ![16, 1, n]⟩ : Shape).numel = (⟨2, ![16, n]⟩ : Shape).numel
  simp [Shape.numel, Fin.prod_univ_succ]

variable (a1 : Memref sig .tc .vmem S16x32896 .f32) (h1 : a1.IsWhole) (x0 : Vec F S16x32896 .f32)

/-- Where row `i`'s store lands: row `i`, columns `i … 255`, every batch row of the block. -/
abbrev rowRect (i : Fin 256) : Rect S16x256x256 := Rect.unit (s := S16x256x256) ![0, i.val, i.val] ![16, 1, 256 - i.val] (inbS i)

/-- The store of row `i`: columns `i … 255` of row `i` of the scratch receive the `256 - i` packed entries from `off i` on. -/
def rowP (i : Fin 256) : View.Piece (Elt F) S16x256x256 .f32 :=
  ⟨rowRect i,
   shapeCast ⟨3, ![16, 1, 256 - i.val]⟩
     (View.readAt (Elt F) a1.view (Rect.unit (s := S16x32896) ![0, Cert.Tri.off i.val] ![16, 256 - i.val] (inbX i)).toLoadRect (h1.unread x0))
     (hcast (256 - i.val))⟩

/-- The row stores `n - 1, …, 0`, the last made first. -/
def rowsUpTo : (n : ℕ) → n ≤ 256 → List (View.Piece (Elt F) S16x256x256 .f32)
  | 0, _ => []
  | n + 1, h => rowP a1 h1 x0 ⟨n, h⟩ :: rowsUpTo n (Nat.le_of_succ_le h)

/-- The zero fill. -/
def zeroP : View.Piece (Elt F) S16x256x256 .f32 :=
  ⟨Rect.unit (s := S16x256x256) ![0, 0, 0] S16x256x256.size inb_S16x256x256_S16x256x256_0_0_0, k0_pay2 (F := F)⟩

/-- The row stores and the zero fill are the recorded stores of the scratch, in the recorded order. -/
theorem stores_eq (c : Dev nD) : kernelRun0_A.sl.HS0_257 c a1 h1 x0 = rowsUpTo a1 h1 x0 256 le_rfl ++ [zeroP] := rfl

/-- The scratch after the 257 stores, by coordinates: on and above the diagonal the packed entry, below it the zero fill. -/
def triAt (b : Fin 16) (i j : Fin 256) : F .f32 :=
  if h : i.val ≤ j.val ∧ Cert.Tri.off i.val + (j.val - i.val) < 32896 then x0 (ix2 b ⟨Cert.Tri.off i.val + (j.val - i.val), h.2⟩)
  else Scalar.ofBits .f32 0x00000000#32

/-- The scratch after the 257 stores. -/
def tri : Vec F S16x256x256 .f32 := fun y => triAt x0 (y 0) (y 1) (y 2)

/-- A `[a, n]` array cast to `[a, 1, n]` reads, at `(p, u, q)`, the operand at `(p, q)`. -/
theorem shapeCast_a1n_apply {α : Type} {a n : ℕ} (x : (⟨2, ![a, n]⟩ : Shape).Idx → α)
    (h : (⟨2, ![a, n]⟩ : Shape).ShapeCasts ⟨3, ![a, 1, n]⟩) (p : Fin a) (u : Fin 1) (q : Fin n) :
    shapeCast ⟨3, ![a, 1, n]⟩ x h (ix3 p u q) = x (ix2 p q) :=
  shapeCast_apply x h _ _ (by
    have hu : u.val = 0 := by omega
    rw [Shape.rowMajor_val_three, Shape.rowMajor_val_two]
    show p.val * n + q.val = (p.val * 1 + u.val) * n + q.val
    rw [hu, Nat.mul_one, Nat.add_zero])

/-- Row `i`'s store holds the triangle's entries at the places it writes. -/
theorem rowP_agrees (i : Fin 256) (x : (rowRect i).shape.Idx) :
    (rowP a1 h1 x0 i).2 x = tri x0 ((rowRect i).emb x) := by
  obtain ⟨p, u, q, rfl⟩ : ∃ (p : Fin 16) (u : Fin 1) (q : Fin (256 - i.val)), x = ix3 p u q := ⟨x 0, x 1, x 2, eq_ix3 x⟩
  have hu : u.val = 0 := by omega
  have hq := q.isLt
  have hi := i.isLt
  have hoff := off_add_le i
  dsimp only [rowP]
  rw [shapeCast_a1n_apply, View.readAt_eq_ld, h1.read_unread]
  unfold tri triAt
  have e1 : (((rowRect i).emb (ix3 p u q)) 1).val = i.val := by
    show i.val + 1 * u.val = i.val; omega
  have e2 : (((rowRect i).emb (ix3 p u q)) 2).val = i.val + q.val := by
    show i.val + 1 * q.val = i.val + q.val; omega
  rw [dif_pos (by rw [e1, e2]; constructor <;> omega)]
  refine congrArg x0 (funext fun a => Fin.ext ?_)
  match a with
  | ⟨0, _⟩ => rfl
  | ⟨1, _⟩ =>
    show Cert.Tri.off i.val + 1 * q.val = Cert.Tri.off (((rowRect i).emb (ix3 p u q)) 1).val + ((((rowRect i).emb (ix3 p u q)) 2).val - (((rowRect i).emb (ix3 p u q)) 1).val)
    rw [e1, e2]; omega

/-- Row `i`'s store writes row `i` from the diagonal on. -/
theorem mem_rowP (i : Fin 256) (y : S16x256x256.Idx) :
    y ∈ (rowP a1 h1 x0 i).1.set ↔ (y 1).val = i.val ∧ i.val ≤ (y 2).val := by
  show y ∈ (rowRect i).set ↔ _
  rw [Rect.mem_set_unit]
  have h0 : (y 0).val < 16 := (y 0).isLt
  have h2 : (y 2).val < 256 := (y 2).isLt
  constructor
  · intro h
    have a1 := h 1
    have a2 := h 2
    change i.val ≤ (y 1).val ∧ (y 1).val < i.val + 1 at a1
    change i.val ≤ (y 2).val ∧ (y 2).val < i.val + (256 - i.val) at a2
    omega
  · intro h a
    match a with
    | ⟨0, _⟩ => show 0 ≤ (y 0).val ∧ (y 0).val < 0 + 16; omega
    | ⟨1, _⟩ => show i.val ≤ (y 1).val ∧ (y 1).val < i.val + 1; omega
    | ⟨2, _⟩ => show i.val ≤ (y 2).val ∧ (y 2).val < i.val + (256 - i.val); omega

/-- Stores none of which writes an index leave there what the stores before them left. -/
theorem canon_append_of_not_mem {Val : EltTy → Type} {S : Shape} {e : EltTy} [∀ e, Nonempty (Val e)] (L' : List (View.Piece Val S e)) (y : S.Idx) :
    ∀ (L : List (View.Piece Val S e)) (_ : ∀ p ∈ L, y ∉ p.1.set), View.canon (L ++ L') y = View.canon L' y
  | [], _ => rfl
  | p :: L, h => by
    rw [List.cons_append, View.canon_cons_of_not_mem _ _ (h p (by simp))]
    exact canon_append_of_not_mem L' y L fun q hq => h q (by simp [hq])

/-- The row stores `n - 1, …, 0` are the stores of the rows below `n`. -/
theorem mem_rowsUpTo : ∀ (n : ℕ) (h : n ≤ 256) (p : View.Piece (Elt F) S16x256x256 .f32),
    p ∈ rowsUpTo a1 h1 x0 n h → ∃ i : Fin 256, p = rowP a1 h1 x0 i
  | 0, _, p, hp => by simp [rowsUpTo] at hp
  | n + 1, h, p, hp => by
    rcases List.mem_cons.mp hp with rfl | hp'
    · exact ⟨_, rfl⟩
    · exact mem_rowsUpTo n _ p hp'

theorem rowP_mem_rowsUpTo (i : Fin 256) : ∀ (n : ℕ) (h : n ≤ 256), i.val < n → rowP a1 h1 x0 i ∈ rowsUpTo a1 h1 x0 n h
  | 0, _, hi => absurd hi (Nat.not_lt_zero _)
  | n + 1, h, hi => by
    by_cases e : i.val = n
    · have : i = ⟨n, h⟩ := Fin.ext e
      subst this
      exact List.mem_cons_self
    · exact List.mem_cons_of_mem _ (rowP_mem_rowsUpTo i n _ (by omega))

/-- THE SCRATCH AFTER ITS 257 STORES reads, at every index, the triangle: an index on or above the diagonal is written by its
    row's store (and by the zero fill before it, which the row store overwrites); one below the diagonal by the zero fill alone. -/
theorem scratch_apply (c : Dev nD) (y : S16x256x256.Idx) :
    View.canon (kernelRun0_A.sl.HS0_257 c a1 h1 x0) y = tri x0 y := by
  rw [stores_eq]
  by_cases h : (y 1).val ≤ (y 2).val
  · refine View.canon_append_of_pieces (tri x0) [zeroP] _ (fun p hp => ?_) y
      ⟨rowP a1 h1 x0 (y 1), rowP_mem_rowsUpTo a1 h1 x0 (y 1) 256 le_rfl (y 1).isLt, (mem_rowP a1 h1 x0 (y 1) y).mpr ⟨rfl, h⟩⟩
    obtain ⟨i, rfl⟩ := mem_rowsUpTo a1 h1 x0 256 le_rfl p hp
    exact rowP_agrees a1 h1 x0 i
  · rw [canon_append_of_not_mem [zeroP] y _ (fun p hp hy => by
      obtain ⟨i, rfl⟩ := mem_rowsUpTo a1 h1 x0 256 le_rfl p hp
      have := (mem_rowP a1 h1 x0 i y).mp hy
      omega)]
    unfold zeroP
    rw [View.canon_unit_zero hz3]
    unfold k0_pay2 tri triAt
    rw [dif_neg (fun hh => h hh.1)]
    rfl

/-- So the whole-scratch load after the stores reads the triangle. -/
theorem scratch_load (c : Dev nD) (a3 : Memref sig .tc .vmem S16x256x256 .f32) :
    kernelRun0_A.sl.v1028 c a1 h1 a3 x0 = tri x0 := by
  unfold kernelRun0_A.sl.v1028
  rw [View.readCov_eq_canon']
  show View.ld (View.canon (kernelRun0_A.sl.HS0_257 c a1 h1 x0)) (Rect.unit ![0, 0, 0] S16x256x256.size inb_S16x256x256_S16x256x256_0_0_0) = _
  rw [View.ld_unit_zero hz3]
  exact funext (scratch_apply a1 h1 x0 c)

end Cert.KernelIdeal.TriValue

end
-- ==== Proof.KernelPayload.lean ====
/-
  The kernel body's arithmetic, read at one index.

  The body's last store writes `m + mᵀ − e · m`, where `m` is the scratch array holding the unpacked triangle, `mᵀ` its
  transpose in the last two axes, and `e` the identity matrix — the one-bit word "row = column" widened and converted
  to a float — viewed with a leading unit axis and repeated over the sixteen batch rows. At `(b, i, j)` this is
  `m b i j + m b j i − [i = j] · m b i j` in the extended reals.
-/
import proofs.«169714_j13546326851714_1_alg».proof.Proof.Gen.KernelIdeal.Skeleton
import proofs.«169714_j13546326851714_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- The identity matrix's entry as a float: the one-bit word "row = column", widened to 32 bits and read signed, is 1 on
    the diagonal and 0 off it (coordinates below 256 are their own 32-bit words, so the words agree exactly when the
    coordinates do). -/
theorem mask_word (i j : Fin 256) :
    (FloatOps.sitofp (F := Ideal) .f32 ((IntOp.cmpi .eq (BitVec.ofNat 32 i.val) (BitVec.ofNat 32 j.val)).setWidth 32) : EReal)
      = Cert.Tri.diag i j := by
  show ((((IntOp.cmpi .eq (BitVec.ofNat 32 i.val) (BitVec.ofNat 32 j.val)).setWidth 32).toInt : ℝ) : EReal) = _
  unfold Cert.Tri.diag
  by_cases h : i = j
  · subst h
    rw [if_pos rfl]
    have : ((IntOp.cmpi .eq (BitVec.ofNat 32 i.val) (BitVec.ofNat 32 i.val)).setWidth 32).toInt = 1 := by
      simp [IntOp.cmpi]
    rw [this]; norm_num
  · rw [if_neg h]
    have hne : ¬ (BitVec.ofNat 32 i.val = BitVec.ofNat 32 j.val) := by
      intro heq
      apply h
      apply Fin.ext
      have := congrArg BitVec.toNat heq
      simp at this
      have hi := i.isLt; have hj := j.isLt
      omega
    have : ((IntOp.cmpi .eq (BitVec.ofNat 32 i.val) (BitVec.ofNat 32 j.val)).setWidth 32).toInt = 0 := by
      simp [IntOp.cmpi, beq_eq_false_iff_ne.mpr hne]
    rw [this]; norm_num

/-- The identity-matrix payload at `(i, j)` is `[i = j]`: each one-axis index vector reads its coordinate. -/
theorem pay260_apply (i j : Fin 256) : k0_pay260 (F := Ideal) (ix2 i j) = Cert.Tri.diag i j := by
  show (FloatOps.sitofp (F := Ideal) .f32
    ((IntOp.cmpi .eq (iota .tc S256x256 32 [0] iota_S256x256_d0_w32 (ix2 i j))
      (iota .tc S256x256 32 [1] iota_S256x256_d1_w32 (ix2 i j))).setWidth 32) : EReal) = _
  rw [iota_single_apply, iota_single_apply]
  exact mask_word i j

/-- THE BODY'S STORED VALUE AT `(b, i, j)`: the scratch plus its transpose in the last two axes, minus the identity
    matrix's entry times the scratch — `m b i j + m b j i − [i = j] · m b i j`. -/
theorem payload_apply (M : Vec Ideal S16x256x256 .f32) (b : Fin 16) (i j : Fin 256) :
    k0_pay1 (F := Ideal) M (k0_pay259 M) k0_pay260 (ix3 b i j)
      = M (ix3 b i j) + M (ix3 b j i) - Cert.Tri.diag i j * M (ix3 b i j) := by
  show (M (ix3 b i j) + transpose S16x256x256 [0, 2, 1] M transposes_S16x256x256_p0_2_1_S16x256x256 (ix3 b i j))
      - broadcastTo S16x256x256 (shapeCast S1x256x256 (k0_pay260 (F := Ideal)) shapeCasts_S256x256_S1x256x256)
          broadcasts_S1x256x256_S16x256x256 (ix3 b i j) * M (ix3 b i j) = _
  rw [transpose_apply [0, 2, 1] M transposes_S16x256x256_p0_2_1_S16x256x256 (ix3 b i j) (ix3 b j i)
    (fun a => match a with | ⟨0, _⟩ => rfl | ⟨1, _⟩ => rfl | ⟨2, _⟩ => rfl)]
  rw [broadcastTo_apply _ broadcasts_S1x256x256_S16x256x256 (ix3 b i j) (ix3 (0 : Fin 1) i j)
    (fun a => match a with | ⟨0, _⟩ => rfl | ⟨1, _⟩ => rfl | ⟨2, _⟩ => rfl)]
  rw [shapeCast_ab_1ab_apply, pay260_apply]

end Cert.KernelIdeal.Payload

end
-- ==== Proof.KernelValue.lean ====
/-
  The kernel's value: after the run the output array is the symmetric matrix of the packed argument.

  At grid point `t` the body sees batch rows `16 t … 16 t + 15` of the packed array. Its scratch ends holding the
  unpacked upper triangle of those rows (zero below the diagonal), and its one store to the output block writes
  `triangle + triangleᵀ − identity · triangle`. Read index by index over the extended reals, that block is block `t` of
  the specification's symmetric matrix of the whole argument: the block's batch row `b` is the array's row `16 t + b`.
  The 256 blocks tile the output array (index `(β, i, j)` lies in block `β / 16`), so the array after the run is the
  specification's matrix everywhere.
-/
import proofs.«169714_j13546326851714_1_alg».proof.Proof.Gen.KernelIdeal.Value
import proofs.«169714_j13546326851714_1_alg».proof.Proof.Spec
import proofs.«169714_j13546326851714_1_alg».proof.Proof.KernelScratch
import proofs.«169714_j13546326851714_1_alg».proof.Proof.KernelPayload
import Idealize.ShloMosaic.PureOps.Ideal.Laws
import Idealize.ShloMosaic.Lib.Pipeline.Value
import Idealize.ShloMosaic.Lib.Pipeline.CanonAppend
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.TriValue

open Cert.KernelIdeal Cert.KernelIdeal.Gen

variable {F : FTy → Type} [FloatOps F]

open Idealize.ShloMosaic.ValueIdx

/-! ## What the body leaves in the output block -/

/-- The output block after the body: the one store's payload over the triangle the scratch holds. -/
theorem out_eq (c : Dev nD) (i : grid0.Coords) (a1 : Memref sig .tc .vmem S16x32896 .f32) (h1 : a1.IsWhole)
    (a2 : Memref sig .tc .vmem S16x256x256 .f32) (h2 : a2.IsWhole) (a3 : Memref sig .tc .vmem S16x256x256 .f32) (h3 : a3.IsWhole)
    (x0 : Vec F S16x32896 .f32) :
    out0_A_1 c i a1 h1 a2 h2 a3 h3 x0 = k0_pay1 (tri x0) (k0_pay259 (tri x0)) (k0_pay260 (F := F)) := by
  unfold out0_A_1
  rw [View.read_writes_eq_canon _ _ _ (cover0_A_1 c i a1 h1 a2 h2 a3 h3 x0)]
  unfold kernelRun0_A
  dsimp only
  rw [View.canon_unit_zero hz3]
  unfold kernelRun0_A.sl.r
  rw [scratch_load]

/-! ## From blocks to the array -/

variable (m : (ℓ : Loc nD τ sig) → Buf (Elt Ideal) ℓ) (ρ : Dev nD → PrngReg)

/-- The input's block at grid point `t` starts at batch row `16 t`, column 0; so does the output's, at row 0 and column 0 of each matrix. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem idx_out : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

theorem N_eq : cfg0.N = 256 := by decide +kernel

/-- The input window's block at point `t` is batch rows `16 t … 16 t + 15` of the argument. -/
theorem iblk_apply (c : Dev nD) (t : Fin cfg0.N) (x : S16x32896.Idx) (k : S4096x32896.Idx)
    (hk0 : (k 0).val = 16 * t.val + (x 0).val) (hk1 : (k 1).val = (x 1).val) :
    (iblk m c 0 t : Vec Ideal S16x32896 .f32) x = (m ((c : Thread nD τ).loc main_arg0) : S4096x32896.Idx → Elt Ideal .f32) k := by
  obtain ⟨e0, e1⟩ := idx_in t
  unfold iblk
  rw [View.read_apply]
  show V m c main_arg0 _ = m (c.tc.loc main_arg0) _
  unfold V
  congr 1
  funext a
  apply Fin.ext
  match a with
  | ⟨0, _⟩ => show win0_0.index t 0 * 16 + 1 * (x 0).val = (k 0).val; rw [e0, hk0]; omega
  | ⟨1, _⟩ => show win0_0.index t 1 * 32896 + 1 * (x 1).val = (k 1).val; rw [e1, hk1]; omega

/-- The triangle of the block at point `t`, at `(b, i, j)`, is the argument's triangle at batch row `16 t + b`. -/
theorem tri_iblk (c : Dev nD) (t : Fin cfg0.N) (b : Fin 16) (i j : Fin 256) (β : Fin 4096) (hβ : β.val = 16 * t.val + b.val) :
    tri (iblk m c 0 t) (ix3 b i j) = Cert.Tri.upper (m ((c : Thread nD τ).loc main_arg0)) β i j := by
  show triAt (iblk m c 0 t) b i j = _
  unfold triAt Cert.Tri.upper
  by_cases h : i.val ≤ j.val ∧ Cert.Tri.off i.val + (j.val - i.val) < 32896
  · rw [dif_pos h, dif_pos h]
    exact iblk_apply m c t _ _ hβ rfl
  · rw [dif_neg h, dif_neg h]
    exact Ideal.ofBits_zero_f32

/-- The output by coordinates. -/
theorem kernelOut_apply (x : Cert.Tri.SX.Idx → EReal) (y : Cert.Tri.SO.Idx) (β : Fin 4096) (i j : Fin 256)
    (h0 : y 0 = β) (h1 : y 1 = i) (h2 : y 2 = j) :
    Cert.Tri.kernelOut x y = Cert.Tri.upper x β i j + Cert.Tri.upper x β j i - Cert.Tri.diag i j * Cert.Tri.upper x β i j := by
  subst h0 h1 h2; rfl

/-- WHAT POINT `t` WRITES BACK is block `t` of the symmetric matrix of the argument. -/
theorem flushed_eq (c : Dev nD) (t : Fin cfg0.N) :
    (dats m 0 c).flushed 1 t = ((cfg0.win 1).blk t).view.read (Elt Ideal) (Cert.Tri.kernelOut (m ((c : Thread nD τ).loc main_arg0))) := by
  rw [Value.flushed1_A, out_eq (F := Ideal) c (grid0.coords t) (ms0_0 t) (hs0_0 t) (ms0_1 t) (hs0_1 t) scM0_0 (Memref.isWhole_whole _) (iblk m c 0 t)]
  obtain ⟨e0, e1, e2⟩ := idx_out t
  have hN := N_eq
  have ht := t.isLt
  funext y
  revert y
  show ∀ y : S16x256x256.Idx, _
  intro y
  obtain ⟨b, i, j, rfl⟩ : ∃ (b : Fin 16) (i j : Fin 256), y = ix3 b i j := ⟨y 0, y 1, y 2, eq_ix3 y⟩
  have hb := b.isLt
  show k0_pay1 (F := Ideal) (tri (iblk m c 0 t)) (k0_pay259 (tri (iblk m c 0 t))) k0_pay260 (ix3 b i j)
    = Cert.Tri.kernelOut (m ((c : Thread nD τ).loc main_arg0)) (((cfg0.win 1).blk t).view.emb (ix3 b i j))
  rw [Payload.payload_apply (tri (iblk m c 0 t)) b i j,
    kernelOut_apply _ (((cfg0.win 1).blk t).view.emb (ix3 b i j)) ⟨16 * t.val + b.val, by omega⟩ i j
      (Fin.ext (by show win0_1.index t 0 * 16 + 1 * b.val = 16 * t.val + b.val; rw [e0]; omega))
      (Fin.ext (by show win0_1.index t 1 * 256 + 1 * i.val = i.val; rw [e1]; omega))
      (Fin.ext (by show win0_1.index t 2 * 256 + 1 * j.val = j.val; rw [e2]; omega)),
    tri_iblk m c t b i j ⟨16 * t.val + b.val, by omega⟩ rfl, tri_iblk m c t b j i ⟨16 * t.val + b.val, by omega⟩ rfl]

/-- An index of the array is in point `t`'s block iff each coordinate is in the block's range on its axis. -/
theorem mem_blk (t : Fin cfg0.N) (y : S4096x256x256.Idx) :
    y ∈ ((cfg0.win 1).blk t).view.set ↔ ∀ a : Fin 3, win0_1.index t a * S16x256x256.size a ≤ (y a).val
      ∧ (y a).val < win0_1.index t a * S16x256x256.size a + S16x256x256.size a := by
  show y ∈ ((View.whole main_v0).slice (win0_1.rect t)).set ↔ _
  rw [View.set_slice_whole, Rect.mem_set_unit]
  exact Iff.rfl

/-- THE ARRAY after the run is the symmetric matrix of the argument: batch row `β` lies in the block of point `β / 16`. -/
theorem final (c : Dev nD) :
    (dats m 0 c).arrAt 1 cfg0.N = Cert.Tri.kernelOut (m ((c : Thread nD τ).loc main_arg0)) :=
  (dats m 0 c).arrAt_eq_of_cover 1 (Cert.Tri.kernelOut (m ((c : Thread nD τ).loc main_arg0))) (fun t _ => flushed_eq m c t) fun y => by
    have h0 : (y 0).val < 4096 := (y 0).isLt
    have h1 : (y 1).val < 256 := (y 1).isLt
    have h2 : (y 2).val < 256 := (y 2).isLt
    have hN := N_eq
    obtain ⟨t, ht⟩ : ∃ t : Fin cfg0.N, t.val = (y 0).val / 16 := ⟨⟨(y 0).val / 16, by omega⟩, rfl⟩
    obtain ⟨e0, e1, e2⟩ := idx_out t
    refine ⟨t, flush0_1 t, (mem_blk t y).mpr fun a => ?_⟩
    match a with
    | ⟨0, _⟩ => show win0_1.index t 0 * 16 ≤ (y 0).val ∧ (y 0).val < win0_1.index t 0 * 16 + 16; rw [e0, ht]; omega
    | ⟨1, _⟩ => show win0_1.index t 1 * 256 ≤ (y 1).val ∧ (y 1).val < win0_1.index t 1 * 256 + 256; rw [e1]; omega
    | ⟨2, _⟩ => show win0_1.index t 2 * 256 ≤ (y 2).val ∧ (y 2).val < win0_1.index t 2 * 256 + 256; rw [e2]; omega

/-! ## The run, read -/

/-- The kernel's run: the output array at the symmetric matrix of the argument, the argument unchanged. -/
theorem run : θ_run (defs (F := Ideal)) (onTc (τ := τ) (main (F := Ideal))) ⟨m, fun _ => 0, ρ⟩ fun r => ∀ c : Dev nD,
      r.2.mem ((c.tc : Thread nD τ).loc main_v0) = Cert.Tri.kernelOut (m ((c.tc : Thread nD τ).loc main_arg0))
      ∧ r.2.mem ((c.tc : Thread nD τ).loc main_arg0) = m ((c.tc : Thread nD τ).loc main_arg0) :=
  (θ_run defs _ _).mono (fun r h c => ⟨(h c).1.trans (final m c), (h c).2⟩) (Value.run_blocks m ρ)

end Cert.KernelIdeal.TriValue

end
-- ==== Proof.lean ====
/-
  A kernel and its reference unpack a packed upper triangle x : f32[4096, 32896] into the symmetric matrices
  f32[4096, 256, 256]: entry (i, j) and entry (j, i), i ≤ j, are packed entry off i + (j - i) of the batch row, where
  off i = i (513 - i) / 2 is where row i of the triangle starts.

  The kernel writes the triangle row by row into a zeroed scratch and stores triangle + transpose − identity ∘ triangle.
  The reference computes the list of the triangle's cells with integer operations — the mask of the cells on or above
  the diagonal, its cumulative sum, the histogram of that sum, and the cumulative sum of the histogram, which is the flat
  position of the k-th cell; quotient and remainder by 256 give its row and column —, scatters the packed entries at
  those cells, adds the transpose and multiplies by 1 − ½ identity.

  Both results are the same function of a FINITE packed array: off the diagonal each is the one packed entry; on the
  diagonal u + u − u = u = (u + u)·½ for a real u, which fails at an infinity — this is where the precondition enters.

  The three frames: the two kernels' are their generated frame theorems; the reference's is its run with the result
  dropped. There is no idealization step to justify (the programs differ in no rewritten operation).
-/
import proofs.«169714_j13546326851714_1_alg».proof.Defs
import proofs.«169714_j13546326851714_1_alg».proof.Proof.Gen.Kernel
import proofs.«169714_j13546326851714_1_alg».proof.Proof.Gen.Kernel.Skeleton
import proofs.«169714_j13546326851714_1_alg».proof.Proof.Gen.Kernel.Launch
import proofs.«169714_j13546326851714_1_alg».proof.Proof.Gen.Kernel.Points
import proofs.«169714_j13546326851714_1_alg».proof.Proof.Gen.Kernel.Frame
import proofs.«169714_j13546326851714_1_alg».proof.Proof.Gen.KernelIdeal
import proofs.«169714_j13546326851714_1_alg».proof.Proof.Gen.KernelIdeal.Skeleton
import proofs.«169714_j13546326851714_1_alg».proof.Proof.Gen.KernelIdeal.Launch
import proofs.«169714_j13546326851714_1_alg».proof.Proof.Gen.KernelIdeal.Points
import proofs.«169714_j13546326851714_1_alg».proof.Proof.Gen.KernelIdeal.Frame
import proofs.«169714_j13546326851714_1_alg».proof.Proof.Gen.KernelIdeal.Value
import proofs.«169714_j13546326851714_1_alg».proof.Proof.Gen.ReferenceIdeal
import proofs.«169714_j13546326851714_1_alg».proof.Proof.Gen.Pre_finite_inputs
import proofs.«169714_j13546326851714_1_alg».proof.Proof.Spec
import proofs.«169714_j13546326851714_1_alg».proof.Proof.Algebra
import proofs.«169714_j13546326851714_1_alg».proof.Proof.RefStages
import proofs.«169714_j13546326851714_1_alg».proof.Proof.RefRun
import proofs.«169714_j13546326851714_1_alg».proof.Proof.RefBridge
import proofs.«169714_j13546326851714_1_alg».proof.Proof.KernelValue
import Idealize.ShloMosaic.Adequacy
import Idealize.ShloMosaic.Init

noncomputable section

namespace Cert.Proof

open Idealize.ShloMosaic Idealize.SL.Sem

/-- The reference runs and leaves its argument alone: its run with the result dropped. -/
theorem frame_ri : Cert.frame_ReferenceIdeal := fun m ρ _ =>
  (θ_run Cert.ReferenceIdeal.defs _ _).mono (fun _ h c => (h c).2) (Cert.ReferenceIdeal.RefValue.run m ρ)

/-- Both idealized programs end with the symmetric unpacking of the packed array: the kernel with the triangle plus its
    transpose less the diagonal once, the reference with the sum times 1 − ½ identity — one function of a finite array. -/
theorem algebraic : Cert.algebraic_KernelIdeal_ReferenceIdeal := by
  intro m ρ m' ρ' hpre hagree
  refine ⟨fun c => Cert.Tri.kernelOut (m ((c.tc : Thread Cert.KernelIdeal.nD Cert.KernelIdeal.τ).loc Cert.KernelIdeal.main_arg0)),
    Cert.KernelIdeal.TriValue.run m ρ, ?_⟩
  refine (θ_run Cert.ReferenceIdeal.defs _ _).mono (fun _ h c => ⟨?_, (h c).2⟩) (Cert.ReferenceIdeal.RefValue.run m' ρ')
  rw [(h c).1, Cert.ReferenceIdeal.Bridge.term_eq_refOut, hagree c]
  exact (Cert.Tri.kernelOut_eq_refOut _ (Cert.Tri.finite_of_pre _ (hpre c))).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
